-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S1x64 : Shape := ⟨2, ![1, 64]⟩
abbrev S320x128 : Shape := ⟨2, ![320, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1280 : Shape := ⟨1, ![1280]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S1x64 : S_.BroadcastsInDim S1x64 (![] : Fin 0 → Fin S1x64.rank)
  reducesTo_S1x64_S_d0_1 : S1x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S1280 : S_.BroadcastsInDim S1280 (![] : Fin 0 → Fin S1280.rank)
  reducesTo_S1280_S_d0 : S1280.ReducesTo [0] S_

variable [Facts]

def fn_part6 {F : FTy → Type} [FloatOps F] (main_v98 : IVec S_ 1) (main_v101 : IVec S1280 1) (main_c_39 : IVec S_ 1) : IVec S_ 1 :=
  let main_v102 : IVec S_ 1 := (fun x v => Host.reduce IntOp.andi x v reducesTo_S1280_S_d0 h_S_) main_v101 main_c_39
  let main_v103 : IVec S_ 1 := andi main_v98 main_v102
  main_v103

def fn_part5 {F : FTy → Type} [FloatOps F] (main_arg19 : FVec F S10 .f32) (main_arg20 : FVec F S1280 .f32) (main_arg21 : FVec F S1280 .f32) (main_v83 : IVec S_ 1) (main_v84 : FVec F S128x10 .f32) (main_cst_32 : FVec F S_ .f32) : IVec S_ 1 :=
  let main_v85 : FVec F S128x10 .f32 := broadcastInDim S128x10 ![] bcast_S_S128x10 main_cst_32
  let main_v86 : IVec S128x10 1 := cmpf .olt main_v84 main_v85
  let main_c_33 : IVec S_ 1 := constantI S_ 1 1#1
  let main_v87 : IVec S_ 1 := (fun x v => Host.reduce IntOp.andi x v reducesTo_S128x10_S_d0_1 h_S_) main_v86 main_c_33
  let main_v88 : IVec S_ 1 := andi main_v83 main_v87
  let main_v89 : FVec F S10 .f32 := Host.absf main_arg19
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_v94 : FVec F S1280 .f32 := Host.absf main_arg20
  let main_cst_36 : FVec F S_ .f32 := constant S_ .f32 0x7F800000#32
  let main_v95 : FVec F S1280 .f32 := broadcastInDim S1280 ![] bcast_S_S1280 main_cst_36
  let main_v96 : IVec S1280 1 := cmpf .olt main_v94 main_v95
  let main_c_37 : IVec S_ 1 := constantI S_ 1 1#1
  let main_v97 : IVec S_ 1 := (fun x v => Host.reduce IntOp.andi x v reducesTo_S1280_S_d0 h_S_) main_v96 main_c_37
  let main_v98 : IVec S_ 1 := andi main_v93 main_v97
  let main_v99 : FVec F S1280 .f32 := Host.absf main_arg21
  let main_cst_38 : FVec F S_ .f32 := constant S_ .f32 0x7F800000#32
  let main_v100 : FVec F S1280 .f32 := broadcastInDim S1280 ![] bcast_S_S1280 main_cst_38
  let main_v101 : IVec S1280 1 := cmpf .olt main_v99 main_v100
  let main_c_39 : IVec S_ 1 := constantI S_ 1 1#1
  fn_part6 (F := F) main_v98 main_v101 main_c_39

def fn_part4 {F : FTy → Type} [FloatOps F] (main_arg15 : FVec F S128 .f32) (main_arg16 : FVec F S128x128 .f32) (main_arg17 : FVec F S128 .f32) (main_arg18 : FVec F S128x10 .f32) (main_arg19 : FVec F S10 .f32) (main_arg20 : FVec F S1280 .f32) (main_arg21 : FVec F S1280 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x10 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S1280 .f32) (main_arg13 : FVec F S1280 .f32) (main_arg14 : FVec F S128x128 .f32) (main_arg15 : FVec F S128 .f32) (main_arg16 : FVec F S128x128 .f32) (main_arg17 : FVec F S128 .f32) (main_arg18 : FVec F S128x10 .f32) (main_arg19 : FVec F S10 .f32) (main_arg20 : FVec F S1280 .f32) (main_arg21 : FVec F S1280 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S1280 .f32 := Host.absf main_arg12
  let main_cst_20 : FVec F S_ .f32 := constant S_ .f32 0x7F800000#32
  let main_v55 : FVec F S1280 .f32 := broadcastInDim S1280 ![] bcast_S_S1280 main_cst_20
  let main_v56 : IVec S1280 1 := cmpf .olt main_v54 main_v55
  let main_c_21 : IVec S_ 1 := constantI S_ 1 1#1
  let main_v57 : IVec S_ 1 := (fun x v => Host.reduce IntOp.andi x v reducesTo_S1280_S_d0 h_S_) main_v56 main_c_21
  let main_v58 : IVec S_ 1 := andi main_v53 main_v57
  let main_v59 : FVec F S1280 .f32 := Host.absf main_arg13
  let main_cst_22 : FVec F S_ .f32 := constant S_ .f32 0x7F800000#32
  let main_v60 : FVec F S1280 .f32 := broadcastInDim S1280 ![] bcast_S_S1280 main_cst_22
  let main_v61 : IVec S1280 1 := cmpf .olt main_v59 main_v60
  let main_c_23 : IVec S_ 1 := constantI S_ 1 1#1
  let main_v62 : IVec S_ 1 := (fun x v => Host.reduce IntOp.andi x v reducesTo_S1280_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S128x128 .f32) (main_arg9 : FVec F S128 .f32) (main_arg10 : FVec F S128x10 .f32) (main_arg11 : FVec F S10 .f32) (main_arg12 : FVec F S1280 .f32) (main_arg13 : FVec F S1280 .f32) (main_arg14 : FVec F S128x128 .f32) (main_arg15 : FVec F S128 .f32) (main_arg16 : FVec F S128x128 .f32) (main_arg17 : FVec F S128 .f32) (main_arg18 : FVec F S128x10 .f32) (main_arg19 : FVec F S10 .f32) (main_arg20 : FVec F S1280 .f32) (main_arg21 : FVec F S1280 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg10
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x10 .f32) (main_arg11 : FVec F S10 .f32) (main_arg12 : FVec F S1280 .f32) (main_arg13 : FVec F S1280 .f32) (main_arg14 : FVec F S128x128 .f32) (main_arg15 : FVec F S128 .f32) (main_arg16 : FVec F S128x128 .f32) (main_arg17 : FVec F S128 .f32) (main_arg18 : FVec F S128x10 .f32) (main_arg19 : FVec F S10 .f32) (main_arg20 : FVec F S1280 .f32) (main_arg21 : FVec F S1280 .f32) (main_v13 : IVec S_ 1) (main_v16 : IVec S320x128 1) : IVec S_ 1 :=
  let main_c_5 : IVec S_ 1 := constantI S_ 1 1#1
  let main_v17 : IVec S_ 1 := (fun x v => Host.reduce IntOp.andi x v reducesTo_S320x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S2x800000 32) (main_arg2 : FVec F S800000x128 .f32) (main_arg3 : FVec F S1x64 .f32) (main_arg4 : FVec F S320x128 .f32) (main_arg5 : FVec F S128 .f32) (main_arg6 : FVec F S128x128 .f32) (main_arg7 : FVec F S128 .f32) (main_arg8 : FVec F S128x128 .f32) (main_arg9 : FVec F S128 .f32) (main_arg10 : FVec F S128x10 .f32) (main_arg11 : FVec F S10 .f32) (main_arg12 : FVec F S1280 .f32) (main_arg13 : FVec F S1280 .f32) (main_arg14 : FVec F S128x128 .f32) (main_arg15 : FVec F S128 .f32) (main_arg16 : FVec F S128x128 .f32) (main_arg17 : FVec F S128 .f32) (main_arg18 : FVec F S128x10 .f32) (main_arg19 : FVec F S10 .f32) (main_arg20 : FVec F S1280 .f32) (main_arg21 : FVec F S1280 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S320x128 .f32 := Host.absf main_arg4
  let main_cst_4 : FVec F S_ .f32 := constant S_ .f32 0x7F800000#32
  let main_v15 : FVec F S320x128 .f32 := broadcastInDim S320x128 ![] bcast_S_S320x128 main_cst_4
  let main_v16 : IVec S320x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S1x64 : Shape := ⟨2, ![1, 64]⟩
abbrev S320x128 : Shape := ⟨2, ![320, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1280 : Shape := ⟨1, ![1280]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S64x128 : Shape := ⟨2, ![64, 128]⟩
abbrev S1x128 : Shape := ⟨2, ![1, 128]⟩
abbrev S2000x128 : Shape := ⟨2, ![2000, 128]⟩
abbrev S1x10 : Shape := ⟨2, ![1, 10]⟩
abbrev S10x128 : Shape := ⟨2, ![10, 128]⟩
abbrev S2x10x128 : Shape := ⟨3, ![2, 10, 128]⟩
abbrev S1000x128 : Shape := ⟨2, ![1000, 128]⟩
abbrev S1x10x128 : Shape := ⟨3, ![1, 10, 128]⟩
abbrev S1000x10 : Shape := ⟨2, ![1000, 10]⟩
abbrev S1000 : Shape := ⟨1, ![1000]⟩
abbrev S1000x1 : Shape := ⟨2, ![1000, 1]⟩
abbrev S2000x10 : Shape := ⟨2, ![2000, 10]⟩
abbrev S2000 : Shape := ⟨1, ![2000]⟩
abbrev S2000x1 : Shape := ⟨2, ![2000, 1]⟩

abbrev nBuf : Space → Nat
  | .hbm => 121
  | .vmem => 59
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S1x64, .f32⟩
  | .hbm, ⟨4, _⟩ => ⟨S320x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S1280, .f32⟩
  | .hbm, ⟨13, _⟩ => ⟨S1280, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x10, .f32⟩
  | .hbm, ⟨19, _⟩ => ⟨S10, .f32⟩
  | .hbm, ⟨20, _⟩ => ⟨S1280, .f32⟩
  | .hbm, ⟨21, _⟩ => ⟨S1280, .f32⟩
  | .hbm, ⟨22, _⟩ => ⟨S1x800000, .i32⟩
  | .hbm, ⟨23, _⟩ => ⟨S800000, .i32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S128x128, .f32⟩
  | .hbm, ⟨29, _⟩ => ⟨S128x128, .f32⟩
  | .hbm, ⟨30, _⟩ => ⟨S64x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S50000x128, .f32⟩
  | .hbm, ⟨35, _⟩ => ⟨S1x128, .f32⟩
  | .hbm, ⟨36, _⟩ => ⟨S1x128, .f32⟩
  | .hbm, ⟨37, _⟩ => ⟨S1x10, .f32⟩
  | .hbm, ⟨38, _⟩ => ⟨S10x128, .f32⟩
  | .hbm, ⟨39, _⟩ => ⟨S10x128, .f32⟩
  | .hbm, ⟨40, _⟩ => ⟨S50000x128, .f32⟩
  | .hbm, ⟨41, _⟩ => ⟨S2x10x128, .f32⟩
  | .hbm, ⟨42, _⟩ => ⟨S2x10x128, .f32⟩
  | .hbm, ⟨43, _⟩ => ⟨S1x10x128, .f32⟩
  | .hbm, ⟨44, _⟩ => ⟨S10x128, .f32⟩
  | .hbm, ⟨45, _⟩ => ⟨S1x10x128, .f32⟩
  | .hbm, ⟨46, _⟩ => ⟨S10x128, .f32⟩
  | .hbm, ⟨47, _⟩ => ⟨S10x128, .f32⟩
  | .hbm, ⟨48, _⟩ => ⟨S1x10x128, .f32⟩
  | .hbm, ⟨49, _⟩ => ⟨S10x128, .f32⟩
  | .hbm, ⟨50, _⟩ => ⟨S1x10x128, .f32⟩
  | .hbm, ⟨51, _⟩ => ⟨S10x128, .f32⟩
  | .hbm, ⟨52, _⟩ => ⟨S10x128, .f32⟩
  | .hbm, ⟨53, _⟩ => ⟨S_, .f32⟩
  | .hbm, ⟨54, _⟩ => ⟨S10x128, .f32⟩
  | .hbm, ⟨55, _⟩ => ⟨S10x128, .f32⟩
  | .hbm, ⟨56, _⟩ => ⟨S_, .f32⟩
  | .hbm, ⟨57, _⟩ => ⟨S10x128, .f32⟩
  | .hbm, ⟨58, _⟩ => ⟨S10x128, .f32⟩
  | .hbm, ⟨59, _⟩ => ⟨S10x128, .f32⟩
  | .hbm, ⟨60, _⟩ => ⟨S10x128, .f32⟩
  | .hbm, ⟨61, _⟩ => ⟨S_, .f32⟩
  | .hbm, ⟨62, _⟩ => ⟨S10x128, .f32⟩
  | .hbm, ⟨63, _⟩ => ⟨S10x128, .f32⟩
  | .hbm, ⟨64, _⟩ => ⟨S_, .f32⟩
  | .hbm, ⟨65, _⟩ => ⟨S10x128, .f32⟩
  | .hbm, ⟨66, _⟩ => ⟨S10x128, .f32⟩
  | .hbm, ⟨67, _⟩ => ⟨S10x128, .f32⟩
  | .hbm, ⟨68, _⟩ => ⟨S10x128, .f32⟩
  | .hbm, ⟨69, _⟩ => ⟨S10x128, .f32⟩
  | .hbm, ⟨70, _⟩ => ⟨S10x128, .f32⟩
  | .hbm, ⟨71, _⟩ => ⟨S_, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S1x128, .f32⟩
  | .hbm, ⟨79, _⟩ => ⟨S1x128, .f32⟩
  | .hbm, ⟨80, _⟩ => ⟨S1x10, .f32⟩
  | .hbm, ⟨81, _⟩ => ⟨S10x128, .f32⟩
  | .hbm, ⟨82, _⟩ => ⟨S10x128, .f32⟩
  | .hbm, ⟨83, _⟩ => ⟨S50000x128, .f32⟩
  | .hbm, ⟨84, _⟩ => ⟨S2x10x128, .f32⟩
  | .hbm, ⟨85, _⟩ => ⟨S2x10x128, .f32⟩
  | .hbm, ⟨86, _⟩ => ⟨S1x10x128, .f32⟩
  | .hbm, ⟨87, _⟩ => ⟨S10x128, .f32⟩
  | .hbm, ⟨88, _⟩ => ⟨S1x10x128, .f32⟩
  | .hbm, ⟨89, _⟩ => ⟨S10x128, .f32⟩
  | .hbm, ⟨90, _⟩ => ⟨S10x128, .f32⟩
  | .hbm, ⟨91, _⟩ => ⟨S1x10x128, .f32⟩
  | .hbm, ⟨92, _⟩ => ⟨S10x128, .f32⟩
  | .hbm, ⟨93, _⟩ => ⟨S1x10x128, .f32⟩
  | .hbm, ⟨94, _⟩ => ⟨S10x128, .f32⟩
  | .hbm, ⟨95, _⟩ => ⟨S10x128, .f32⟩
  | .hbm, ⟨96, _⟩ => ⟨S_, .f32⟩
  | .hbm, ⟨97, _⟩ => ⟨S10x128, .f32⟩
  | .hbm, ⟨98, _⟩ => ⟨S10x128, .f32⟩
  | .hbm, ⟨99, _⟩ => ⟨S_, .f32⟩
  | .hbm, ⟨100, _⟩ => ⟨S10x128, .f32⟩
  | .hbm, ⟨101, _⟩ => ⟨S10x128, .f32⟩
  | .hbm, ⟨102, _⟩ => ⟨S10x128, .f32⟩
  | .hbm, ⟨103, _⟩ => ⟨S10x128, .f32⟩
  | .hbm, ⟨104, _⟩ => ⟨S_, .f32⟩
  | .hbm, ⟨105, _⟩ => ⟨S10x128, .f32⟩
  | .hbm, ⟨106, _⟩ => ⟨S10x128, .f32⟩
  | .hbm, ⟨107, _⟩ => ⟨S_, .f32⟩
  | .hbm, ⟨108, _⟩ => ⟨S10x128, .f32⟩
  | .hbm, ⟨109, _⟩ => ⟨S10x128, .f32⟩
  | .hbm, ⟨110, _⟩ => ⟨S10x128, .f32⟩
  | .hbm, ⟨111, _⟩ => ⟨S10x128, .f32⟩
  | .hbm, ⟨112, _⟩ => ⟨S10x128, .f32⟩
  | .hbm, ⟨113, _⟩ => ⟨S10x128, .f32⟩
  | .hbm, ⟨114, _⟩ => ⟨S_, .f32⟩
  | .hbm, ⟨115, _⟩ => ⟨S128, .f32⟩
  | .hbm, ⟨116, _⟩ => ⟨S_, .f32⟩
  | .hbm, ⟨117, _⟩ => ⟨S128, .f32⟩
  | .hbm, ⟨118, _⟩ => ⟨S128, .f32⟩
  | .hbm, ⟨119, _⟩ => ⟨S1x128, .f32⟩
  | .hbm, ⟨120, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S1000x128, .f32⟩
  | .local _ .vmem, ⟨10, _⟩ => ⟨S1000x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S128x10, .f32⟩
  | .local _ .vmem, ⟨16, _⟩ => ⟨S1x10, .f32⟩
  | .local _ .vmem, ⟨17, _⟩ => ⟨S1000x128, .f32⟩
  | .local _ .vmem, ⟨18, _⟩ => ⟨S1000x128, .f32⟩
  | .local _ .vmem, ⟨19, _⟩ => ⟨S1x10x128, .f32⟩
  | .local _ .vmem, ⟨20, _⟩ => ⟨S1x10x128, .f32⟩
  | .local _ .vmem, ⟨21, _⟩ => ⟨S1x10x128, .f32⟩
  | .local _ .vmem, ⟨22, _⟩ => ⟨S1x10x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S128x10, .f32⟩
  | .local _ .vmem, ⟨28, _⟩ => ⟨S1x10, .f32⟩
  | .local _ .vmem, ⟨29, _⟩ => ⟨S10x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S1000x128, .f32⟩
  | .local _ .vmem, ⟨34, _⟩ => ⟨S1000x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S128x10, .f32⟩
  | .local _ .vmem, ⟨40, _⟩ => ⟨S1x10, .f32⟩
  | .local _ .vmem, ⟨41, _⟩ => ⟨S1000x128, .f32⟩
  | .local _ .vmem, ⟨42, _⟩ => ⟨S1000x128, .f32⟩
  | .local _ .vmem, ⟨43, _⟩ => ⟨S1x10x128, .f32⟩
  | .local _ .vmem, ⟨44, _⟩ => ⟨S1x10x128, .f32⟩
  | .local _ .vmem, ⟨45, _⟩ => ⟨S1x10x128, .f32⟩
  | .local _ .vmem, ⟨46, _⟩ => ⟨S1x10x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S128x10, .f32⟩
  | .local _ .vmem, ⟨54, _⟩ => ⟨S1x10, .f32⟩
  | .local _ .vmem, ⟨55, _⟩ => ⟨S10x128, .f32⟩
  | .local _ .vmem, ⟨56, _⟩ => ⟨S1x128, .f32⟩
  | .local _ .vmem, ⟨57, _⟩ => ⟨S2000x128, .f32⟩
  | .local _ .vmem, ⟨58, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17_0 : Ref sig .tc := ⟨.hbm, 40, rfl⟩
abbrev main_v17_1 : Ref sig .tc := ⟨.hbm, 41, rfl⟩
abbrev main_v17_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_0 : Ref sig .tc := ⟨.hbm, 53, rfl⟩
abbrev main_v28 : Ref sig .tc := ⟨.hbm, 54, rfl⟩
abbrev main_v29 : Ref sig .tc := ⟨.hbm, 55, rfl⟩
abbrev main_cst_1 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_cst_3 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_cst_5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52_0 : Ref sig .tc := ⟨.hbm, 83, rfl⟩
abbrev main_v52_1 : Ref sig .tc := ⟨.hbm, 84, rfl⟩
abbrev main_v52_2 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_6 : Ref sig .tc := ⟨.hbm, 96, rfl⟩
abbrev main_v63 : Ref sig .tc := ⟨.hbm, 97, rfl⟩
abbrev main_v64 : Ref sig .tc := ⟨.hbm, 98, rfl⟩
abbrev main_cst_7 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_8 : Ref sig .tc := ⟨.hbm, 104, rfl⟩
abbrev main_v69 : Ref sig .tc := ⟨.hbm, 105, rfl⟩
abbrev main_v70 : Ref sig .tc := ⟨.hbm, 106, rfl⟩
abbrev main_cst_9 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_10 : Ref sig .tc := ⟨.hbm, 114, rfl⟩
abbrev main_v77 : Ref sig .tc := ⟨.hbm, 115, rfl⟩
abbrev main_cst_11 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg7_1 : Ref sig .tc := ⟨.vmem, 42, rfl⟩
abbrev cc3_stg8_0 : Ref sig .tc := ⟨.vmem, 43, rfl⟩
abbrev cc3_stg8_1 : Ref sig .tc := ⟨.vmem, 44, rfl⟩
abbrev cc3_stg9_0 : Ref sig .tc := ⟨.vmem, 45, rfl⟩
abbrev cc3_stg9_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_stg7_0 : Ref sig .tc := ⟨.vmem, 57, rfl⟩
abbrev cc4_stg7_1 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem7_1 : DmaSem sig := 42
abbrev cc3_sem8_0 : DmaSem sig := 43
abbrev cc3_sem8_1 : DmaSem sig := 44
abbrev cc3_sem9_0 : DmaSem sig := 45
abbrev cc3_sem9_1 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem2_1 : DmaSem sig := 52
abbrev cc4_sem3_0 : DmaSem sig := 53
abbrev cc4_sem4_0 : DmaSem sig := 54
abbrev cc4_sem5_0 : DmaSem sig := 55
abbrev cc4_sem6_0 : DmaSem sig := 56
abbrev cc4_sem7_0 : DmaSem sig := 57
abbrev cc4_sem7_1 : DmaSem sig := 58

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x10x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x10x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![2, 25], ![false, false]⟩

def cc3_transform_0 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S128x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x10x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 2 → Memref sig .tc .vmem S1x10x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S10x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x800000_S1x800000_0_0 : S2x800000.Slices ![0, 0] S1x800000
  shapeCasts_S1x800000_S800000 : S1x800000.ShapeCasts S800000
  bcast_S_S50000x128 : S_.BroadcastsInDim S50000x128 (![] : Fin 0 → Fin S50000x128.rank)
  bcast_S800000_S800000x1_0 : S800000.BroadcastsInDim S800000x1 (![0] : Fin 1 → Fin S800000x1.rank)
  slices_S320x128_S128x128_0_0 : S320x128.Slices ![0, 0] S128x128
  slices_S320x128_S128x128_128_0 : S320x128.Slices ![128, 0] S128x128
  slices_S320x128_S64x128_256_0 : S320x128.Slices ![256, 0] S64x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S10_S1x10 : S10.ShapeCasts S1x10
  shapeCasts_S1280_S10x128 : S1280.ShapeCasts S10x128
  inb_S1x10x128_S1x10x128_0_0_0 : ∀ a, (![0, 0, 0] : Fin 3 → Nat) a + S1x10x128.size a ≤ S1x10x128.size a
  h_S1x10x128 : 0 < S1x10x128.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  reduces_S1000x10_S1000 : S1000x10.Reduces [1] S1000
  shapeCasts_S1000_S1000x1 : S1000.ShapeCasts S1000x1
  broadcasts_S1000x1_S1000x10 : S1000x1.Broadcasts S1000x10
  shapeCasts_S1x10x128_S1x10x128 : S1x10x128.ShapeCasts S1x10x128
  shapeCasts_S10x128_S1x10x128 : S10x128.ShapeCasts S1x10x128
  slices_S2x10x128_S1x10x128_0_0_0 : S2x10x128.Slices ![0, 0, 0] S1x10x128
  shapeCasts_S1x10x128_S10x128 : S1x10x128.ShapeCasts S10x128
  slices_S2x10x128_S1x10x128_1_0_0 : S2x10x128.Slices ![1, 0, 0] S1x10x128
  bcast_S_S10x128 : S_.BroadcastsInDim S10x128 (![] : Fin 0 → Fin S10x128.rank)
  reducesTo_S10x128_S128_d0 : S10x128.ReducesTo [0] S128
  h_S_ : 0 < S_.numel
  broadcasts_S1x10_S2000x10 : S1x10.Broadcasts S2000x10
  reduces_S2000x10_S2000 : S2000x10.Reduces [1] S2000
  shapeCasts_S2000_S2000x1 : S2000.ShapeCasts S2000x1
  broadcasts_S2000x1_S2000x10 : S2000x1.Broadcasts S2000x10
  inb_S10x128_S10x128_0_0 : ∀ a, (![0, 0] : Fin 2 → Nat) a + S10x128.size a ≤ S10x128.size a
  h_S10x128 : 0 < S10x128.numel
  shapeCasts_S10x128_S10x128 : S10x128.ShapeCasts S10x128
  scatter_S50000x128_S800000x1_S800000x128_1_0_0_1_wf : ScatterDims.WF S50000x128 S800000x1 S800000x128 [1] [0] [0] 1
  dot_S1x64_S64x128_S1x128_1_0_0_1_n_n_wf : DotDims.WF S1x64 S64x128 S1x128 [1] [0] [0] [1] [] []
  dot_S2000x128_S128x128_S2000x128_1_0_0_1_n_n_wf : DotDims.WF S2000x128 S128x128 S2000x128 [1] [0] [0] [1] [] []
  dot_S1000x128_S128x128_S1000x128_1_0_0_1_n_n_wf : DotDims.WF S1000x128 S128x128 S1000x128 [1] [0] [0] [1] [] []
  dot_S1000x128_S128x10_S1000x10_1_0_0_1_n_n_wf : DotDims.WF S1000x128 S128x10 S1000x10 [1] [0] [0] [1] [] []
  dot_S1000x10_S1000x128_S10x128_0_0_1_1_n_n_wf : DotDims.WF S1000x10 S1000x128 S10x128 [0] [0] [1] [1] [] []
  dot_S2000x128_S128x10_S2000x10_1_0_0_1_n_n_wf : DotDims.WF S2000x128 S128x10 S2000x10 [1] [0] [0] [1] [] []
  dot_S2000x10_S10x128_S2000x128_1_0_0_1_n_n_wf : DotDims.WF S2000x10 S10x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x10.size a ≤ S128x10.size a
  hwx1_5 : ∀ i : grid1.Coords, EltTy.bits .f32 = 32 ∨ (Rect.block (s := S128x10) S128x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10.size a ≤ S1x10.size a
  hwx1_6 : ∀ i : grid1.Coords, EltTy.bits .f32 = 32 ∨ (Rect.block (s := S1x10) S1x10.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x128.size a ≤ S50000x128.size a
  hwx1_7 : ∀ i : grid1.Coords, EltTy.bits .f32 = 32 ∨ (Rect.block (s := S50000x128) S1000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x10x128.size a ≤ S2x10x128.size a
  hwx1_8 : ∀ i : grid1.Coords, EltTy.bits .f32 = 32 ∨ (Rect.block (s := S2x10x128) S1x10x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x10x128.size a ≤ S2x10x128.size a
  hwx1_9 : ∀ i : grid1.Coords, EltTy.bits .f32 = 32 ∨ (Rect.block (s := S2x10x128) S1x10x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x10.size a ≤ S128x10.size a
  hwx2_2 : ∀ i : grid2.Coords, EltTy.bits .f32 = 32 ∨ (Rect.block (s := S128x10) S128x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S10x128.size a ≤ S10x128.size a
  hwx2_4 : ∀ i : grid2.Coords, EltTy.bits .f32 = 32 ∨ (Rect.block (s := S10x128) S10x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x10.size a ≤ S128x10.size a
  hwx3_5 : ∀ i : grid3.Coords, EltTy.bits .f32 = 32 ∨ (Rect.block (s := S128x10) S128x10.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x10.size a ≤ S1x10.size a
  hwx3_6 : ∀ i : grid3.Coords, EltTy.bits .f32 = 32 ∨ (Rect.block (s := S1x10) S1x10.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x128.size a ≤ S50000x128.size a
  hwx3_7 : ∀ i : grid3.Coords, EltTy.bits .f32 = 32 ∨ (Rect.block (s := S50000x128) S1000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x10x128.size a ≤ S2x10x128.size a
  hwx3_8 : ∀ i : grid3.Coords, EltTy.bits .f32 = 32 ∨ (Rect.block (s := S2x10x128) S1x10x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x10x128.size a ≤ S2x10x128.size a
  hwx3_9 : ∀ i : grid3.Coords, EltTy.bits .f32 = 32 ∨ (Rect.block (s := S2x10x128) S1x10x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x10.size a ≤ S128x10.size a
  hwx4_3 : ∀ i : grid4.Coords, EltTy.bits .f32 = 32 ∨ (Rect.block (s := S128x10) S128x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S10x128.size a ≤ S10x128.size a
  hwx4_5 : ∀ i : grid4.Coords, EltTy.bits .f32 = 32 ∨ (Rect.block (s := S10x128) S10x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf
def dot_S1000x10_S1000x128_S10x128_0_0_1_1_n_n : DotDims S1000x10 S1000x128 S10x128 where
  lhsContracting := [0]
  rhsContracting := [0]
  lhsNonContracting := [1]
  rhsNonContracting := [1]
  lhsBatch := []
  rhsBatch := []
  wf := dot_S1000x10_S1000x128_S10x128_0_0_1_1_n_n_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf
def dot_S2000x10_S10x128_S2000x128_1_0_0_1_n_n : DotDims S2000x10 S10x128 S2000x128 where
  lhsContracting := [1]
  rhsContracting := [0]
  lhsNonContracting := [0]
  rhsNonContracting := [1]
  lhsBatch := []
  rhsBatch := []
  wf := dot_S2000x10_S10x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17_0) S1000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v17_1) S1x10x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v17_2) S1x10x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v17_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S10x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v46) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S128x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v49) S1x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v52_0) S1000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v52_1) S1x10x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v52_2) S1x10x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v52_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S128x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74) S10x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v80) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v81) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S1x64 : Shape := ⟨2, ![1, 64]⟩
abbrev S320x128 : Shape := ⟨2, ![320, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1280 : Shape := ⟨1, ![1280]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x50000x64 : Shape := ⟨3, ![1, 50000, 64]⟩
abbrev S50000x64 : Shape := ⟨2, ![50000, 64]⟩
abbrev S50000x320 : Shape := ⟨2, ![50000, 320]⟩
abbrev S1x128 : Shape := ⟨2, ![1, 128]⟩
abbrev S50000x10 : Shape := ⟨2, ![50000, 10]⟩
abbrev S1x10 : Shape := ⟨2, ![1, 10]⟩
abbrev S50000 : Shape := ⟨1, ![50000]⟩
abbrev S50000x1 : Shape := ⟨2, ![50000, 1]⟩
abbrev S50000x10x1 : Shape := ⟨3, ![50000, 10, 1]⟩
abbrev S50000x1x128 : Shape := ⟨3, ![50000, 1, 128]⟩
abbrev S50000x10x128 : Shape := ⟨3, ![50000, 10, 128]⟩
abbrev S50000x1280 : Shape := ⟨2, ![50000, 1280]⟩
abbrev S1x1280 : Shape := ⟨2, ![1, 1280]⟩

abbrev nBuf : Space → Nat
  | .hbm => 246
  | .vmem => 0
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S1x64, .f32⟩
  | 4 => ⟨S320x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x10, .f32⟩
  | 11 => ⟨S10, .f32⟩
  | 12 => ⟨S1280, .f32⟩
  | 13 => ⟨S1280, .f32⟩
  | 14 => ⟨S128x128, .f32⟩
  | 15 => ⟨S128, .f32⟩
  | 16 => ⟨S128x128, .f32⟩
  | 17 => ⟨S128, .f32⟩
  | 18 => ⟨S128x10, .f32⟩
  | 19 => ⟨S10, .f32⟩
  | 20 => ⟨S1280, .f32⟩
  | 21 => ⟨S1280, .f32⟩
  | 22 => ⟨S1x800000, .i32⟩
  | 23 => ⟨S800000, .i32⟩
  | 24 => ⟨S_, .f32⟩
  | 25 => ⟨S50000x128, .f32⟩
  | 26 => ⟨S800000x1, .i32⟩
  | 27 => ⟨S50000x128, .f32⟩
  | 28 => ⟨S1x50000x64, .f32⟩
  | 29 => ⟨S50000x64, .f32⟩
  | 30 => ⟨S50000x320, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S50000x128, .f32⟩
  | 40 => ⟨S50000x128, .i1⟩
  | 41 => ⟨S50000x128, .f32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | 57 => ⟨S50000x128, .f32⟩
  | 58 => ⟨S50000x128, .i1⟩
  | 59 => ⟨S50000x128, .f32⟩
  | 60 => ⟨S50000x128, .f32⟩
  | 61 => ⟨S50000x128, .f32⟩
  | 62 => ⟨S50000x128, .f32⟩
  | 63 => ⟨S50000x128, .f32⟩
  | 64 => ⟨S50000x128, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S50000x10, .f32⟩
  | 72 => ⟨S1x10, .f32⟩
  | 73 => ⟨S50000x10, .f32⟩
  | 74 => ⟨S50000x10, .f32⟩
  | 75 => ⟨S_, .f32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x10, .f32⟩
  | 82 => ⟨S50000x10, .f32⟩
  | 83 => ⟨S50000x10, .f32⟩
  | 84 => ⟨S_, .f32⟩
  | 85 => ⟨S50000, .f32⟩
  | 86 => ⟨S50000x1, .f32⟩
  | 87 => ⟨S50000x10, .f32⟩
  | 88 => ⟨S50000x10, .f32⟩
  | 89 => ⟨S50000x10x1, .f32⟩
  | 90 => ⟨S50000x1x128, .f32⟩
  | 91 => ⟨S50000x10x128, .f32⟩
  | 92 => ⟨S50000x10x128, .f32⟩
  | 93 => ⟨S50000x10x128, .f32⟩
  | 94 => ⟨S50000x1280, .f32⟩
  | 95 => ⟨S_, .f32⟩
  | 96 => ⟨S1280, .f32⟩
  | 97 => ⟨S_, .f32⟩
  | 98 => ⟨S1280, .f32⟩
  | 99 => ⟨S1280, .f32⟩
  | 100 => ⟨S_, .i32⟩
  | 101 => ⟨S_, .f32⟩
  | 102 => ⟨S1280, .f32⟩
  | 103 => ⟨S1x1280, .f32⟩
  | 104 => ⟨S_, .f32⟩
  | 105 => ⟨S1x1280, .f32⟩
  | 106 => ⟨S1x1280, .f32⟩
  | 107 => ⟨S50000x1280, .f32⟩
  | 108 => ⟨S50000x1280, .f32⟩
  | 109 => ⟨S50000x1280, .f32⟩
  | 110 => ⟨S_, .f32⟩
  | 111 => ⟨S_, .f32⟩
  | 112 => ⟨S_, .f32⟩
  | 113 => ⟨S_, .f32⟩
  | 114 => ⟨S1280, .f32⟩
  | 115 => ⟨S1280, .f32⟩
  | 116 => ⟨S1280, .f32⟩
  | 117 => ⟨S_, .f32⟩
  | 118 => ⟨S_, .i1⟩
  | 119 => ⟨S_, .f32⟩
  | 120 => ⟨S_, .f32⟩
  | 121 => ⟨S1280, .f32⟩
  | 122 => ⟨S1280, .f32⟩
  | 123 => ⟨S1x1280, .f32⟩
  | 124 => ⟨S50000x1280, .f32⟩
  | 125 => ⟨S50000x1280, .f32⟩
  | 126 => ⟨S_, .f32⟩
  | 127 => ⟨S1280, .f32⟩
  | _ => ⟨S50000x128, .f32⟩

abbrev hbmTy0_1 (i : Nat) : BufTy := match i % 128 with
  | 0 => ⟨S1280, .f32⟩
  | 1 => ⟨S1280, .f32⟩
  | 2 => ⟨S1x1280, .f32⟩
  | 3 => ⟨S50000x1280, .f32⟩
  | 4 => ⟨S50000x1280, .f32⟩
  | 5 => ⟨S1x1280, .f32⟩
  | 6 => ⟨S50000x1280, .f32⟩
  | 7 => ⟨S50000x1280, .f32⟩
  | 8 => ⟨S1x1280, .f32⟩
  | 9 => ⟨S50000x1280, .f32⟩
  | 10 => ⟨S50000x1280, .f32⟩
  | 11 => ⟨S50000x10x128, .f32⟩
  | 12 => ⟨S_, .f32⟩
  | 13 => ⟨S50000x128, .f32⟩
  | 14 => ⟨S_, .f32⟩
  | 15 => ⟨S50000x128, .f32⟩
  | 16 => ⟨S50000x128, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S50000x128, .f32⟩
  | 28 => ⟨S50000x128, .i1⟩
  | 29 => ⟨S50000x128, .f32⟩
  | 30 => ⟨S50000x128, .f32⟩
  | 31 => ⟨S50000x128, .f32⟩
  | 32 => ⟨S50000x128, .f32⟩
  | 33 => ⟨S50000x128, .f32⟩
  | 34 => ⟨S50000x128, .f32⟩
  | 35 => ⟨S50000x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S50000x10, .f32⟩
  | 42 => ⟨S1x10, .f32⟩
  | 43 => ⟨S50000x10, .f32⟩
  | 44 => ⟨S50000x10, .f32⟩
  | 45 => ⟨S_, .f32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x10, .f32⟩
  | 52 => ⟨S50000x10, .f32⟩
  | 53 => ⟨S50000x10, .f32⟩
  | 54 => ⟨S_, .f32⟩
  | 55 => ⟨S50000, .f32⟩
  | 56 => ⟨S50000x1, .f32⟩
  | 57 => ⟨S50000x10, .f32⟩
  | 58 => ⟨S50000x10, .f32⟩
  | 59 => ⟨S50000x10x1, .f32⟩
  | 60 => ⟨S50000x1x128, .f32⟩
  | 61 => ⟨S50000x10x128, .f32⟩
  | 62 => ⟨S50000x10x128, .f32⟩
  | 63 => ⟨S50000x10x128, .f32⟩
  | 64 => ⟨S50000x1280, .f32⟩
  | 65 => ⟨S_, .f32⟩
  | 66 => ⟨S1280, .f32⟩
  | 67 => ⟨S_, .f32⟩
  | 68 => ⟨S1280, .f32⟩
  | 69 => ⟨S1280, .f32⟩
  | 70 => ⟨S_, .i32⟩
  | 71 => ⟨S_, .f32⟩
  | 72 => ⟨S1280, .f32⟩
  | 73 => ⟨S1x1280, .f32⟩
  | 74 => ⟨S_, .f32⟩
  | 75 => ⟨S1x1280, .f32⟩
  | 76 => ⟨S1x1280, .f32⟩
  | 77 => ⟨S50000x1280, .f32⟩
  | 78 => ⟨S50000x1280, .f32⟩
  | 79 => ⟨S50000x1280, .f32⟩
  | 80 => ⟨S_, .f32⟩
  | 81 => ⟨S_, .f32⟩
  | 82 => ⟨S_, .f32⟩
  | 83 => ⟨S_, .f32⟩
  | 84 => ⟨S1280, .f32⟩
  | 85 => ⟨S1280, .f32⟩
  | 86 => ⟨S1280, .f32⟩
  | 87 => ⟨S_, .f32⟩
  | 88 => ⟨S_, .i1⟩
  | 89 => ⟨S_, .f32⟩
  | 90 => ⟨S_, .f32⟩
  | 91 => ⟨S1280, .f32⟩
  | 92 => ⟨S1280, .f32⟩
  | 93 => ⟨S1x1280, .f32⟩
  | 94 => ⟨S50000x1280, .f32⟩
  | 95 => ⟨S50000x1280, .f32⟩
  | 96 => ⟨S_, .f32⟩
  | 97 => ⟨S1280, .f32⟩
  | 98 => ⟨S1280, .f32⟩
  | 99 => ⟨S1280, .f32⟩
  | 100 => ⟨S1x1280, .f32⟩
  | 101 => ⟨S50000x1280, .f32⟩
  | 102 => ⟨S50000x1280, .f32⟩
  | 103 => ⟨S1x1280, .f32⟩
  | 104 => ⟨S50000x1280, .f32⟩
  | 105 => ⟨S50000x1280, .f32⟩
  | 106 => ⟨S1x1280, .f32⟩
  | 107 => ⟨S50000x1280, .f32⟩
  | 108 => ⟨S50000x1280, .f32⟩
  | 109 => ⟨S50000x10x128, .f32⟩
  | 110 => ⟨S_, .f32⟩
  | 111 => ⟨S50000x128, .f32⟩
  | 112 => ⟨S_, .f32⟩
  | 113 => ⟨S50000x128, .f32⟩
  | 114 => ⟨S50000x128, .f32⟩
  | 115 => ⟨S50000x128, .f32⟩
  | 116 => ⟨S50000x128, .f32⟩
  | 117 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_cst_0 : Ref sig .tc := ⟨.hbm, 75, rfl⟩
abbrev main_v26 : Ref sig .tc := ⟨.hbm, 76, rfl⟩
abbrev main_cst_1 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_2 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_3 : Ref sig .tc := ⟨.hbm, 95, rfl⟩
abbrev main_v43 : Ref sig .tc := ⟨.hbm, 96, rfl⟩
abbrev main_cst_4 : Ref sig .tc := ⟨.hbm, 97, rfl⟩
abbrev main_v44 : Ref sig .tc := ⟨.hbm, 98, rfl⟩
abbrev main_v45 : Ref sig .tc := ⟨.hbm, 99, rfl⟩
abbrev main_c : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_cst_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_cst_1 : Ref sig .tc := ⟨.hbm, 111, rfl⟩
abbrev main_call2_v8 : Ref sig .tc := ⟨.hbm, 112, rfl⟩
abbrev main_call2_cst_2 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_cst_3 : Ref sig .tc := ⟨.hbm, 117, rfl⟩
abbrev main_call2_v12 : Ref sig .tc := ⟨.hbm, 118, rfl⟩
abbrev main_call2_cst_4 : Ref sig .tc := ⟨.hbm, 119, rfl⟩
abbrev main_call2_call0_v0 : Ref sig .tc := ⟨.hbm, 120, rfl⟩
abbrev main_call2_call0_v1 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_cst_5 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_cst_6 : Ref sig .tc := ⟨.hbm, 140, rfl⟩
abbrev main_v63 : Ref sig .tc := ⟨.hbm, 141, rfl⟩
abbrev main_cst_7 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_call3_cst : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_v6 : Ref sig .tc := ⟨.hbm, 158, rfl⟩
abbrev main_call3_v7 : Ref sig .tc := ⟨.hbm, 159, rfl⟩
abbrev main_call3_v8 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_cst_8 : Ref sig .tc := ⟨.hbm, 173, rfl⟩
abbrev main_v81 : Ref sig .tc := ⟨.hbm, 174, rfl⟩
abbrev main_cst_9 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_cst_10 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_cst_11 : Ref sig .tc := ⟨.hbm, 193, rfl⟩
abbrev main_v98 : Ref sig .tc := ⟨.hbm, 194, rfl⟩
abbrev main_cst_12 : Ref sig .tc := ⟨.hbm, 195, rfl⟩
abbrev main_v99 : Ref sig .tc := ⟨.hbm, 196, rfl⟩
abbrev main_v100 : Ref sig .tc := ⟨.hbm, 197, rfl⟩
abbrev main_c_13 : Ref sig .tc := ⟨.hbm, 198, rfl⟩
abbrev main_call4_cst : Ref sig .tc := ⟨.hbm, 199, rfl⟩
abbrev main_call4_v0 : Ref sig .tc := ⟨.hbm, 200, rfl⟩
abbrev main_call4_v1 : Ref sig .tc := ⟨.hbm, 201, rfl⟩
abbrev main_call4_cst_0 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_call4_v5 : Ref sig .tc := ⟨.hbm, 206, rfl⟩
abbrev main_call4_v6 : Ref sig .tc := ⟨.hbm, 207, rfl⟩
abbrev main_call4_v7 : Ref sig .tc := ⟨.hbm, 208, rfl⟩
abbrev main_call4_cst_1 : Ref sig .tc := ⟨.hbm, 209, rfl⟩
abbrev main_call4_v8 : Ref sig .tc := ⟨.hbm, 210, rfl⟩
abbrev main_call4_cst_2 : Ref sig .tc := ⟨.hbm, 211, rfl⟩
abbrev main_call4_v9 : Ref sig .tc := ⟨.hbm, 212, rfl⟩
abbrev main_call4_v10 : Ref sig .tc := ⟨.hbm, 213, rfl⟩
abbrev main_call4_v11 : Ref sig .tc := ⟨.hbm, 214, rfl⟩
abbrev main_call4_cst_3 : Ref sig .tc := ⟨.hbm, 215, rfl⟩
abbrev main_call4_v12 : Ref sig .tc := ⟨.hbm, 216, rfl⟩
abbrev main_call4_cst_4 : Ref sig .tc := ⟨.hbm, 217, rfl⟩
abbrev main_call4_call0_v0 : Ref sig .tc := ⟨.hbm, 218, rfl⟩
abbrev main_call4_call0_v1 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_cst_14 : Ref sig .tc := ⟨.hbm, 224, rfl⟩
abbrev main_v105 : Ref sig .tc := ⟨.hbm, 225, rfl⟩
abbrev main_v106 : Ref sig .tc := ⟨.hbm, 226, rfl⟩
abbrev main_v107 : Ref sig .tc := ⟨.hbm, 227, rfl⟩
abbrev main_v108 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_cst_15 : Ref sig .tc := ⟨.hbm, 238, rfl⟩
abbrev main_v118 : Ref sig .tc := ⟨.hbm, 239, rfl⟩
abbrev main_cst_16 : Ref sig .tc := ⟨.hbm, 240, rfl⟩
abbrev main_v119 : Ref sig .tc := ⟨.hbm, 241, rfl⟩
abbrev main_v120 : Ref sig .tc := ⟨.hbm, 242, rfl⟩
abbrev main_v121 : Ref sig .tc := ⟨.hbm, 243, rfl⟩
abbrev main_v122 : Ref sig .tc := ⟨.hbm, 244, rfl⟩
abbrev main_v123 : Ref sig .tc := ⟨.hbm, 245, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S1x64_S1x50000x64_0_2 : S1x64.BroadcastsInDim S1x50000x64 (![0, 2] : Fin 2 → Fin S1x50000x64.rank)
  shapeCasts_S1x50000x64_S50000x64 : S1x50000x64.ShapeCasts S50000x64
  concatenates_S50000x128_S50000x128_S50000x64_S50000x320_d1 : Shape.Concatenates [S50000x128, S50000x128, S50000x64] S50000x320 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  bcast_S50000x10_S50000x10x1_0_1 : S50000x10.BroadcastsInDim S50000x10x1 (![0, 1] : Fin 2 → Fin S50000x10x1.rank)
  bcast_S50000x128_S50000x1x128_0_2 : S50000x128.BroadcastsInDim S50000x1x128 (![0, 2] : Fin 2 → Fin S50000x1x128.rank)
  bcast_S50000x10x1_S50000x10x128_0_1_2 : S50000x10x1.BroadcastsInDim S50000x10x128 (![0, 1, 2] : Fin 3 → Fin S50000x10x128.rank)
  bcast_S50000x1x128_S50000x10x128_0_1_2 : S50000x1x128.BroadcastsInDim S50000x10x128 (![0, 1, 2] : Fin 3 → Fin S50000x10x128.rank)
  shapeCasts_S50000x10x128_S50000x1280 : S50000x10x128.ShapeCasts S50000x1280
  reducesTo_S50000x1280_S1280_d0 : S50000x1280.ReducesTo [0] S1280
  bcast_S_S1280 : S_.BroadcastsInDim S1280 (![] : Fin 0 → Fin S1280.rank)
  bcast_S1280_S1x1280_1 : S1280.BroadcastsInDim S1x1280 (![1] : Fin 1 → Fin S1x1280.rank)
  bcast_S_S1x1280 : S_.BroadcastsInDim S1x1280 (![] : Fin 0 → Fin S1x1280.rank)
  bcast_S1x1280_S50000x1280_0_1 : S1x1280.BroadcastsInDim S50000x1280 (![0, 1] : Fin 2 → Fin S50000x1280.rank)
  shapeCasts_S50000x1280_S50000x10x128 : S50000x1280.ShapeCasts S50000x10x128
  reducesTo_S50000x10x128_S50000x128_d1 : S50000x10x128.ReducesTo [1] S50000x128
  scatter_S50000x128_S800000x1_S800000x128_1_0_0_1_wf : ScatterDims.WF S50000x128 S800000x1 S800000x128 [1] [0] [0] 1
  dot_S50000x320_S320x128_S50000x128_1_0_0_1_n_n_wf : DotDims.WF S50000x320 S320x128 S50000x128 [1] [0] [0] [1] [] []
  dot_S50000x128_S128x128_S50000x128_1_0_0_1_n_n_wf : DotDims.WF S50000x128 S128x128 S50000x128 [1] [0] [0] [1] [] []
  dot_S50000x128_S128x10_S50000x10_1_0_0_1_n_n_wf : DotDims.WF S50000x128 S128x10 S50000x10 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x320_S320x128_S50000x128_1_0_0_1_n_n : DotDims S50000x320 S320x128 S50000x128 where
  lhsContracting := [1]
  rhsContracting := [0]
  lhsNonContracting := [0]
  rhsNonContracting := [1]
  lhsBatch := []
  rhsBatch := []
  wf := dot_S50000x320_S320x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.KRun.lean ====
/-
  The idealized kernel's run, with its result named.

  @main is ten segments: five stretches of host operations alternating with five kernel launches.  The contents of the
  TensorCore's buffers at each boundary are a fold from the launch memory (a stretch applies its operations; a launch
  replaces its output arrays by what its write-backs leave).  Every weakly fair execution terminates, without a fault,
  in a state whose result buffer holds that fold's last value at the result's reference, and whose argument buffers
  hold what they held at launch.
-/
import proofs.«100017_j47974784696399_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents and the
    arguments as launched. -/
theorem run : θ_run defs (onTc (τ := τ) (main (F := F))) ⟨m, fun _ => 0, ρ⟩ (fun r => ∀ c : Dev nD,
      r.2.mem ((c.tc : Thread nD τ).loc main_v81) = W10 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v81 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c)⟩)

end Cert.KernelIdeal.KRun

end
-- ==== Proof.KChainBase.lean ====
/-
  Which buffer holds what, at each boundary between the host stretches and the kernel launches.

  The contents at the boundaries are a fold from the launch memory: a host stretch changes only the buffers its
  operations write, and a launch changes only its output arrays.  So a buffer that nothing writes between two
  boundaries holds the same contents at both.  This module states that once per stretch and per launch, and then
  reads, for every buffer a later stage consumes, what it holds when it is consumed: an argument as launched, an
  earlier launch's output array, or an earlier stretch's value.
-/
import proofs.«100017_j47974784696399_2_alg».proof.Proof.Gen.KernelIdeal.Frame
import Idealize.ShloMosaic.Lib.StableHlo.Run
import Idealize.ShloMosaic.Lib.ValueIdx

set_option maxRecDepth 16384
set_option maxHeartbeats 1000000

noncomputable section

namespace Cert.KernelIdeal.KChain

open Idealize.ShloMosaic Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-- No operation of the named stretch writes the buffer: the references' inequalities, decided one by one. -/
macro "hk" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## A stretch keeps what it does not write -/

theorem keepH0 (b : Ref sig .tc) (h : ∀ op ∈ (hostOps0 : List (HloOp τ sig (Elt Ideal))), Proc.devRef .tc b ∉ op.writes) :
    W1 m ρ c (Proc.devRef .tc b) = W0 m ρ c (Proc.devRef .tc b) := StableHlo.after_of_forall_not_mem _ _ h
theorem keepH1 (b : Ref sig .tc) (h : ∀ op ∈ (hostOps1 : List (HloOp τ sig (Elt Ideal))), Proc.devRef .tc b ∉ op.writes) :
    W3 m ρ c (Proc.devRef .tc b) = W2 m ρ c (Proc.devRef .tc b) := StableHlo.after_of_forall_not_mem _ _ h
theorem keepH2 (b : Ref sig .tc) (h : ∀ op ∈ (hostOps2 : List (HloOp τ sig (Elt Ideal))), Proc.devRef .tc b ∉ op.writes) :
    W5 m ρ c (Proc.devRef .tc b) = W4 m ρ c (Proc.devRef .tc b) := StableHlo.after_of_forall_not_mem _ _ h
theorem keepH3 (b : Ref sig .tc) (h : ∀ op ∈ (hostOps3 : List (HloOp τ sig (Elt Ideal))), Proc.devRef .tc b ∉ op.writes) :
    W7 m ρ c (Proc.devRef .tc b) = W6 m ρ c (Proc.devRef .tc b) := StableHlo.after_of_forall_not_mem _ _ h
theorem keepH4 (b : Ref sig .tc) (h : ∀ op ∈ (hostOps4 : List (HloOp τ sig (Elt Ideal))), Proc.devRef .tc b ∉ op.writes) :
    W9 m ρ c (Proc.devRef .tc b) = W8 m ρ c (Proc.devRef .tc b) := StableHlo.after_of_forall_not_mem _ _ h

/-! ## A launch keeps every buffer that is not one of its output arrays -/

theorem keepR0 (b : Ref sig .tc) (h : ∀ w, (cfg0.win w).isOut = true → Pipeline.arrRef spec0 w ≠ b) :
    W2 m ρ c (Proc.devRef .tc b) = W1 m ρ c (Proc.devRef .tc b) := by
  by_cases hb : ∃ w, Pipeline.arrRef spec0 w = b
  · obtain ⟨w, rfl⟩ := hb
    have hw : (cfg0.win w).isOut = false := by
      cases e : (cfg0.win w).isOut
      · rfl
      · exact absurd rfl (h w e)
    exact (W2_arr m ρ c w).trans (((dat0 (V1 m ρ) c).arrAt_in w hw _).trans (A_eq0 (V1 m ρ) c w))
  · exact W2_of_ne m ρ c b fun w e => hb ⟨w, e⟩
theorem keepR1 (b : Ref sig .tc) (h : ∀ w, (cfg1.win w).isOut = true → Pipeline.arrRef spec1 w ≠ b) :
    W4 m ρ c (Proc.devRef .tc b) = W3 m ρ c (Proc.devRef .tc b) := by
  by_cases hb : ∃ w, Pipeline.arrRef spec1 w = b
  · obtain ⟨w, rfl⟩ := hb
    have hw : (cfg1.win w).isOut = false := by
      cases e : (cfg1.win w).isOut
      · rfl
      · exact absurd rfl (h w e)
    exact (W4_arr m ρ c w).trans (((dat1 (V3 m ρ) c).arrAt_in w hw _).trans (A_eq1 (V3 m ρ) c w))
  · exact W4_of_ne m ρ c b fun w e => hb ⟨w, e⟩
theorem keepR2 (b : Ref sig .tc) (h : ∀ w, (cfg2.win w).isOut = true → Pipeline.arrRef spec2 w ≠ b) :
    W6 m ρ c (Proc.devRef .tc b) = W5 m ρ c (Proc.devRef .tc b) := by
  by_cases hb : ∃ w, Pipeline.arrRef spec2 w = b
  · obtain ⟨w, rfl⟩ := hb
    have hw : (cfg2.win w).isOut = false := by
      cases e : (cfg2.win w).isOut
      · rfl
      · exact absurd rfl (h w e)
    exact (W6_arr m ρ c w).trans (((dat2 (V5 m ρ) c).arrAt_in w hw _).trans (A_eq2 (V5 m ρ) c w))
  · exact W6_of_ne m ρ c b fun w e => hb ⟨w, e⟩
theorem keepR3 (b : Ref sig .tc) (h : ∀ w, (cfg3.win w).isOut = true → Pipeline.arrRef spec3 w ≠ b) :
    W8 m ρ c (Proc.devRef .tc b) = W7 m ρ c (Proc.devRef .tc b) := by
  by_cases hb : ∃ w, Pipeline.arrRef spec3 w = b
  · obtain ⟨w, rfl⟩ := hb
    have hw : (cfg3.win w).isOut = false := by
      cases e : (cfg3.win w).isOut
      · rfl
      · exact absurd rfl (h w e)
    exact (W8_arr m ρ c w).trans (((dat3 (V7 m ρ) c).arrAt_in w hw _).trans (A_eq3 (V7 m ρ) c w))
  · exact W8_of_ne m ρ c b fun w e => hb ⟨w, e⟩

/-! ## A buffer nothing writes -/

/-- The buffer holds its launch contents at every boundary up to the last stretch. -/
structure Kept (b : Ref sig .tc) : Prop where
  w1 : W1 m ρ c (Proc.devRef .tc b) = m ((c.tc : Thread nD τ).loc b)
  w2 : W2 m ρ c (Proc.devRef .tc b) = m ((c.tc : Thread nD τ).loc b)
  w3 : W3 m ρ c (Proc.devRef .tc b) = m ((c.tc : Thread nD τ).loc b)
  w4 : W4 m ρ c (Proc.devRef .tc b) = m ((c.tc : Thread nD τ).loc b)
  w5 : W5 m ρ c (Proc.devRef .tc b) = m ((c.tc : Thread nD τ).loc b)
  w6 : W6 m ρ c (Proc.devRef .tc b) = m ((c.tc : Thread nD τ).loc b)
  w7 : W7 m ρ c (Proc.devRef .tc b) = m ((c.tc : Thread nD τ).loc b)
  w8 : W8 m ρ c (Proc.devRef .tc b) = m ((c.tc : Thread nD τ).loc b)
  w9 : W9 m ρ c (Proc.devRef .tc b) = m ((c.tc : Thread nD τ).loc b)

/-- An argument that no stretch writes and that is no launch's output array is kept. -/
theorem arg_kept (b : Ref sig .tc)
    (h0 : ∀ op ∈ (hostOps0 : List (HloOp τ sig (Elt Ideal))), Proc.devRef .tc b ∉ op.writes)
    (r0 : ∀ w, (cfg0.win w).isOut = true → Pipeline.arrRef spec0 w ≠ b)
    (h1 : ∀ op ∈ (hostOps1 : List (HloOp τ sig (Elt Ideal))), Proc.devRef .tc b ∉ op.writes)
    (r1 : ∀ w, (cfg1.win w).isOut = true → Pipeline.arrRef spec1 w ≠ b)
    (h2 : ∀ op ∈ (hostOps2 : List (HloOp τ sig (Elt Ideal))), Proc.devRef .tc b ∉ op.writes)
    (r2 : ∀ w, (cfg2.win w).isOut = true → Pipeline.arrRef spec2 w ≠ b)
    (h3 : ∀ op ∈ (hostOps3 : List (HloOp τ sig (Elt Ideal))), Proc.devRef .tc b ∉ op.writes)
    (r3 : ∀ w, (cfg3.win w).isOut = true → Pipeline.arrRef spec3 w ≠ b)
    (h4 : ∀ op ∈ (hostOps4 : List (HloOp τ sig (Elt Ideal))), Proc.devRef .tc b ∉ op.writes) :
    Kept m ρ c b := by
  have e1 : W1 m ρ c (Proc.devRef .tc b) = m ((c.tc : Thread nD τ).loc b) := (keepH0 m ρ c b h0).trans rfl
  have e2 := (keepR0 m ρ c b r0).trans e1
  have e3 := (keepH1 m ρ c b h1).trans e2
  have e4 := (keepR1 m ρ c b r1).trans e3
  have e5 := (keepH2 m ρ c b h2).trans e4
  have e6 := (keepR2 m ρ c b r2).trans e5
  have e7 := (keepH3 m ρ c b h3).trans e6
  have e8 := (keepR3 m ρ c b r3).trans e7
  have e9 := (keepH4 m ρ c b h4).trans e8
  exact ⟨e1, e2, e3, e4, e5, e6, e7, e8, e9⟩

end Cert.KernelIdeal.KChain

end
-- ==== Proof.KChainArgsA.lean ====
/-
  The argument buffers are written by no stretch and are no launch's output array, so each holds its launch contents
  at every boundary.  One statement per argument; the side conditions are the references' inequalities.
-/
import proofs.«100017_j47974784696399_2_alg».proof.Proof.KChainBase

set_option maxRecDepth 16384
set_option maxHeartbeats 1000000

noncomputable section

namespace Cert.KernelIdeal.KChain

open Idealize.ShloMosaic Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg) (c : Dev nD)

theorem arg0_kept : Kept m ρ c main_arg0 :=
  arg_kept m ρ c main_arg0 (by hk hostOps0) (by decide) (by hk hostOps1) (by decide) (by hk hostOps2) (by decide)
    (by hk hostOps3) (by decide) (by hk hostOps4)
theorem arg6_kept : Kept m ρ c main_arg6 :=
  arg_kept m ρ c main_arg6 (by hk hostOps0) (by decide) (by hk hostOps1) (by decide) (by hk hostOps2) (by decide)
    (by hk hostOps3) (by decide) (by hk hostOps4)
theorem arg7_kept : Kept m ρ c main_arg7 :=
  arg_kept m ρ c main_arg7 (by hk hostOps0) (by decide) (by hk hostOps1) (by decide) (by hk hostOps2) (by decide)
    (by hk hostOps3) (by decide) (by hk hostOps4)
theorem arg8_kept : Kept m ρ c main_arg8 :=
  arg_kept m ρ c main_arg8 (by hk hostOps0) (by decide) (by hk hostOps1) (by decide) (by hk hostOps2) (by decide)
    (by hk hostOps3) (by decide) (by hk hostOps4)
theorem arg9_kept : Kept m ρ c main_arg9 :=
  arg_kept m ρ c main_arg9 (by hk hostOps0) (by decide) (by hk hostOps1) (by decide) (by hk hostOps2) (by decide)
    (by hk hostOps3) (by decide) (by hk hostOps4)
theorem arg10_kept : Kept m ρ c main_arg10 :=
  arg_kept m ρ c main_arg10 (by hk hostOps0) (by decide) (by hk hostOps1) (by decide) (by hk hostOps2) (by decide)
    (by hk hostOps3) (by decide) (by hk hostOps4)
theorem arg11_kept : Kept m ρ c main_arg11 :=
  arg_kept m ρ c main_arg11 (by hk hostOps0) (by decide) (by hk hostOps1) (by decide) (by hk hostOps2) (by decide)
    (by hk hostOps3) (by decide) (by hk hostOps4)
theorem arg12_kept : Kept m ρ c main_arg12 :=
  arg_kept m ρ c main_arg12 (by hk hostOps0) (by decide) (by hk hostOps1) (by decide) (by hk hostOps2) (by decide)
    (by hk hostOps3) (by decide) (by hk hostOps4)
theorem arg13_kept : Kept m ρ c main_arg13 :=
  arg_kept m ρ c main_arg13 (by hk hostOps0) (by decide) (by hk hostOps1) (by decide) (by hk hostOps2) (by decide)
    (by hk hostOps3) (by decide) (by hk hostOps4)

end Cert.KernelIdeal.KChain

end
-- ==== Proof.Spec.lean ====
/-
  The mathematics both programs compute, over the extended reals, entry by entry.

  One graph layer  out0 = softplus ([x | msg | g] · Wc + bc)  (msg the per-node sum of edge features, g one global
  row repeated), then two residual blocks  o ↦ o + DGN (softplus (o·W1 + b1)·W2 + b2),  and the result plus out0.
  DGN h: a row softmax s of h·linW + linb gates G copies of every row, O n g c = s n g · h n c; each column (g, c)
  is normalized over the N rows by its mean and (biased) variance, scaled by gamma and shifted by beta, and the G
  copies are summed:  h n c + λ · Σ g, ((O n g c − μ g c) · rsqrt (var g c + ε) · γ g c + β g c).

  Two arrangements are stated.  The direct one (mean, then centred squares) and the collapsed one: with
  S g c = Σ n, s n g · h n c and Q g c = Σ n, s n g² · h n c², the mean is S/N, the variance max (Q/N − μ², 0), and
  Σ g of the normalized copies is  h n c · Σ g, s n g · A g c  −  (Σ g, μ g c · inv g c · γ g c − Σ g, β g c)  with
  A = inv · γ.  They agree on real (finite) data: Σ (O − μ)² / N = Q/N − μ², which is ≥ 0, and the rest is
  distributivity.
-/
import Idealize.ShloMosaic.PureOps.Ideal

noncomputable section

namespace Cert.Spec

open Idealize.ShloMosaic
open scoped BigOperators

/-- 50000, the row count, as the float both programs divide by. -/
def cN : EReal := Ideal.ofBits .f32 0x47435000#32
/-- the variance offset ε (the float nearest 1e-5). -/
def cEps : EReal := Ideal.ofBits .f32 0x3727C5AC#32
/-- the residual weight λ (the float nearest 0.01). -/
def cLam : EReal := Ideal.ofBits .f32 0x3C23D70A#32

/-- softplus in the stable form  max x 0 + log (1 + exp (−|x|)). -/
def softplus (x : EReal) : EReal := max x 0 + Ideal.log1p (Ideal.exp (-(max x (-x))))

/-- a·w + b at row i, column j. -/
def dense {n K M : ℕ} (a : Fin n → Fin K → EReal) (w : Fin K → Fin M → EReal) (b : Fin M → EReal)
    (i : Fin n) (j : Fin M) : EReal := (∑ k, a i k * w k j) + b j

/-- the largest entry of row i (−∞ for an empty row). -/
def rowMax {n M : ℕ} (z : Fin n → Fin M → EReal) (i : Fin n) : EReal := Finset.univ.sup (z i)

/-- the row softmax  exp (z − max z) / Σ exp (z − max z). -/
def softmax {n M : ℕ} (z : Fin n → Fin M → EReal) (i : Fin n) (g : Fin M) : EReal :=
  Ideal.div (Ideal.exp (z i g - rowMax z i)) (∑ g', Ideal.exp (z i g' - rowMax z i))

/-! ## The first layer -/

/-- row i of [x | msg | g]: 128 + 128 + 64 columns. -/
def comb (x msg : Fin 50000 → Fin 128 → EReal) (gf : Fin 64 → EReal) (i : Fin 50000) (k : Fin 320) : EReal :=
  if h : k.val < 128 then x i ⟨k.val, h⟩
  else if h' : k.val < 256 then msg i ⟨k.val - 128, by omega⟩
  else gf ⟨k.val - 256, by omega⟩

/-- the first layer, one product over the 320 joined columns. -/
def out0 (x msg : Fin 50000 → Fin 128 → EReal) (gf : Fin 64 → EReal) (Wc : Fin 320 → Fin 128 → EReal) (bc : Fin 128 → EReal)
    (i : Fin 50000) (j : Fin 128) : EReal := softplus (dense (comb x msg gf) Wc bc i j)

/-- the first layer, three products over the three column groups, the global one folded into the bias. -/
def out0K (x msg : Fin 50000 → Fin 128 → EReal) (gf : Fin 64 → EReal) (Wc : Fin 320 → Fin 128 → EReal) (bc : Fin 128 → EReal)
    (i : Fin 50000) (j : Fin 128) : EReal :=
  softplus (((∑ k : Fin 128, x i k * Wc ⟨k.val, by omega⟩ j) + (∑ k : Fin 128, msg i k * Wc ⟨128 + k.val, by omega⟩ j))
    + (bc j + ∑ k : Fin 64, gf k * Wc ⟨256 + k.val, by omega⟩ j))

/-! ## One residual block -/

/-- the block's inner features  softplus (o·W1 + b1)·W2 + b2. -/
def hid (o : Fin 50000 → Fin 128 → EReal) (W1 : Fin 128 → Fin 128 → EReal) (b1 : Fin 128 → EReal) (W2 : Fin 128 → Fin 128 → EReal)
    (b2 : Fin 128 → EReal) : Fin 50000 → Fin 128 → EReal := dense (fun i j => softplus (dense o W1 b1 i j)) W2 b2

/-- the gate: row softmax of h·linW + linb. -/
def gate (h : Fin 50000 → Fin 128 → EReal) (linW : Fin 128 → Fin 10 → EReal) (linb : Fin 10 → EReal) : Fin 50000 → Fin 10 → EReal :=
  softmax (dense h linW linb)

section Dgn
variable (h : Fin 50000 → Fin 128 → EReal) (s : Fin 50000 → Fin 10 → EReal) (gamma beta : Fin 10 → Fin 128 → EReal)

/-- the gated copies. -/
def O (n : Fin 50000) (g : Fin 10) (c : Fin 128) : EReal := s n g * h n c
/-- column means. -/
def mu (g : Fin 10) (c : Fin 128) : EReal := Ideal.div (∑ n, O h s n g c) cN
/-- column variances, centred squares. -/
def var (g : Fin 10) (c : Fin 128) : EReal := Ideal.div (∑ n, (O h s n g c - mu h s g c) * (O h s n g c - mu h s g c)) cN
/-- a normalized, scaled, shifted copy. -/
def normed (n : Fin 50000) (g : Fin 10) (c : Fin 128) : EReal :=
  (O h s n g c - mu h s g c) * Ideal.rsqrt (var h s g c + cEps) * gamma g c + beta g c
/-- DGN, direct arrangement. -/
def dgn (n : Fin 50000) (c : Fin 128) : EReal := h n c + cLam * ∑ g, normed h s gamma beta n g c

/-- Σ over rows of the gated copies, and of their squares in the factored form. -/
def Ssum (g : Fin 10) (c : Fin 128) : EReal := ∑ n, s n g * h n c
def Qsum (g : Fin 10) (c : Fin 128) : EReal := ∑ n, (s n g * s n g) * (h n c * h n c)
def muK (g : Fin 10) (c : Fin 128) : EReal := Ideal.div (Ssum h s g c) cN
def varK (g : Fin 10) (c : Fin 128) : EReal := max (Ideal.div (Qsum h s g c) cN - muK h s g c * muK h s g c) 0
def inv (g : Fin 10) (c : Fin 128) : EReal := Ideal.rsqrt (varK h s g c + cEps)
def A (g : Fin 10) (c : Fin 128) : EReal := inv h s g c * gamma g c
def cc (c : Fin 128) : EReal := (∑ g, muK h s g c * inv h s g c * gamma g c) - ∑ g, beta g c
/-- DGN, collapsed arrangement. -/
def dgnK (n : Fin 50000) (c : Fin 128) : EReal := h n c + cLam * (h n c * (∑ g, s n g * A h s gamma g c) - cc h s gamma beta c)
end Dgn

/-- one residual block, direct and collapsed. -/
def block (o : Fin 50000 → Fin 128 → EReal) (W1 : Fin 128 → Fin 128 → EReal) (b1 : Fin 128 → EReal) (W2 : Fin 128 → Fin 128 → EReal)
    (b2 : Fin 128 → EReal) (linW : Fin 128 → Fin 10 → EReal) (linb : Fin 10 → EReal) (gamma beta : Fin 10 → Fin 128 → EReal)
    (n : Fin 50000) (c : Fin 128) : EReal :=
  o n c + dgn (hid o W1 b1 W2 b2) (gate (hid o W1 b1 W2 b2) linW linb) gamma beta n c
def blockK (o : Fin 50000 → Fin 128 → EReal) (W1 : Fin 128 → Fin 128 → EReal) (b1 : Fin 128 → EReal) (W2 : Fin 128 → Fin 128 → EReal)
    (b2 : Fin 128 → EReal) (linW : Fin 128 → Fin 10 → EReal) (linb : Fin 10 → EReal) (gamma beta : Fin 10 → Fin 128 → EReal)
    (n : Fin 50000) (c : Fin 128) : EReal :=
  o n c + dgnK (hid o W1 b1 W2 b2) (gate (hid o W1 b1 W2 b2) linW linb) gamma beta n c

end Cert.Spec

end
-- ==== Proof.KHost.lean ====
/-
  The host operations between the kernel launches, as functions of the buffers they read.

  Before the first launch: the aggregated messages (a scatter-add of the edge features into a zero array along the
  destination row of the edge list), the three row blocks of the combine weights, and the one-row bias
  bc + global · Wc[256:].  Before each reduction launch: five reshapes of the block's vectors.  Before each gate-apply
  launch: from the two per-core partial sums S₀ + S₁ and Q₀ + Q₁ of the reduction launch, the mean S/N, the clamped
  variance max (Q/N − μ², 0), its inverse root inv = rsqrt (var + ε), the scale A = inv · γ and the row
  cc = Σ g, μ·inv·γ − Σ g, β.
-/
import proofs.«100017_j47974784696399_2_alg».proof.Proof.Gen.KernelIdeal.Launch
import proofs.«100017_j47974784696399_2_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxHeartbeats 1000000

noncomputable section

namespace Cert.KernelIdeal.KHost

open Idealize.ShloMosaic Idealize.ShloMosaic.ValueIdx Idealize.ShloMosaic.StableHlo Cert.KernelIdeal Cert.KernelIdeal.Gen

variable (W : Valuation τ sig (Elt Ideal))

/-! ## Before the first launch -/

/-- the aggregated messages. -/
def msgK (a1 : IVec S2x800000 32) (a2 : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast S800000 (extractStridedSlice S1x800000 ![0, 0] a1 slices_S2x800000_S1x800000_0_0) shapeCasts_S1x800000_S800000))
    a2

/-- the one-row bias the first launch adds: bc + global · Wc[256:]. -/
def biasK (a3 : FVec Ideal S1x64 .f32) (a4 : FVec Ideal S320x128 .f32) (a5 : FVec Ideal S128 .f32) : FVec Ideal S1x128 .f32 :=
  addf (shapeCast S1x128 a5 shapeCasts_S128_S1x128)
    (Host.dotGeneral dot_S1x64_S64x128_S1x128_1_0_0_1_n_n (some .fp32) a3
      (extractStridedSlice S64x128 ![256, 0] a4 slices_S320x128_S64x128_256_0))

theorem h0_v4 : StableHlo.after (hostOps0 (F := Ideal)) W (Proc.devRef .tc main_v4)
    = msgK (W (Proc.devRef .tc main_arg1)) (W (Proc.devRef .tc main_arg2)) := by
  after_results; rfl
theorem h0_v5 : StableHlo.after (hostOps0 (F := Ideal)) W (Proc.devRef .tc main_v5)
    = extractStridedSlice S128x128 ![0, 0] (W (Proc.devRef .tc main_arg4)) slices_S320x128_S128x128_0_0 := by
  after_results
theorem h0_v6 : StableHlo.after (hostOps0 (F := Ideal)) W (Proc.devRef .tc main_v6)
    = extractStridedSlice S128x128 ![128, 0] (W (Proc.devRef .tc main_arg4)) slices_S320x128_S128x128_128_0 := by
  after_results
theorem h0_v10 : StableHlo.after (hostOps0 (F := Ideal)) W (Proc.devRef .tc main_v10)
    = biasK (W (Proc.devRef .tc main_arg3)) (W (Proc.devRef .tc main_arg4)) (W (Proc.devRef .tc main_arg5)) := by
  after_results; rfl

theorem h0_arg0 : StableHlo.after (hostOps0 (F := Ideal)) W (Proc.devRef .tc main_arg0) = W (Proc.devRef .tc main_arg0) := by
  after_results

/-- the weight blocks are row ranges of the combine weights. -/
theorem wx_apply (a4 : FVec Ideal S320x128 .f32) (k j : Fin 128) :
    extractStridedSlice S128x128 ![0, 0] a4 slices_S320x128_S128x128_0_0 (ix2 k j) = a4 (ix2 (⟨k.val, by omega⟩ : Fin 320) j) :=
  extractStridedSlice_apply _ a4 _ _ _ fun a => by
    match a with
    | ⟨0, _⟩ => show k.val = 0 + k.val; omega
    | ⟨1, _⟩ => show j.val = 0 + j.val; omega
theorem wm_apply (a4 : FVec Ideal S320x128 .f32) (k j : Fin 128) :
    extractStridedSlice S128x128 ![128, 0] a4 slices_S320x128_S128x128_128_0 (ix2 k j) = a4 (ix2 (⟨128 + k.val, by omega⟩ : Fin 320) j) :=
  extractStridedSlice_apply _ a4 _ _ _ fun a => by
    match a with
    | ⟨0, _⟩ => show 128 + k.val = 128 + k.val; rfl
    | ⟨1, _⟩ => show j.val = 0 + j.val; omega

/-- a vector laid out as one row. -/
theorem row128_apply (a : FVec Ideal S128 .f32) (j : Fin 128) :
    shapeCast S1x128 a shapeCasts_S128_S1x128 (ix2 (0 : Fin 1) j) = a (ix1 j) :=
  shapeCast_apply a _ _ _ (by rw [Shape.rowMajor_val_one, Shape.rowMajor_val_two]; show j.val = 0 * 128 + j.val; omega)
theorem row10_apply (a : FVec Ideal S10 .f32) (g : Fin 10) :
    shapeCast S1x10 a shapeCasts_S10_S1x10 (ix2 (0 : Fin 1) g) = a (ix1 g) :=
  shapeCast_apply a _ _ _ (by rw [Shape.rowMajor_val_one, Shape.rowMajor_val_two]; show g.val = 0 * 10 + g.val; omega)
/-- a vector of 1280 laid out as ten rows of 128. -/
theorem rows10x128_apply (a : FVec Ideal S1280 .f32) (g : Fin 10) (j : Fin 128) :
    shapeCast S10x128 a shapeCasts_S1280_S10x128 (ix2 g j) = a (ix1 (⟨g.val * 128 + j.val, by omega⟩ : Fin 1280)) :=
  shapeCast_apply a _ _ _ (by rw [Shape.rowMajor_val_one, Shape.rowMajor_val_two]; rfl)

/-! ## Before the reduction launches: reshapes of the block's vectors -/

theorem h1_v12 : StableHlo.after (hostOps1 (F := Ideal)) W (Proc.devRef .tc main_v12)
    = shapeCast S1x128 (W (Proc.devRef .tc main_arg7)) shapeCasts_S128_S1x128 := by after_results; rfl
theorem h1_v13 : StableHlo.after (hostOps1 (F := Ideal)) W (Proc.devRef .tc main_v13)
    = shapeCast S1x128 (W (Proc.devRef .tc main_arg9)) shapeCasts_S128_S1x128 := by after_results; rfl
theorem h1_v14 : StableHlo.after (hostOps1 (F := Ideal)) W (Proc.devRef .tc main_v14)
    = shapeCast S1x10 (W (Proc.devRef .tc main_arg11)) shapeCasts_S10_S1x10 := by after_results; rfl
theorem h1_v15 : StableHlo.after (hostOps1 (F := Ideal)) W (Proc.devRef .tc main_v15)
    = shapeCast S10x128 (W (Proc.devRef .tc main_arg12)) shapeCasts_S1280_S10x128 := by after_results; rfl
theorem h1_v16 : StableHlo.after (hostOps1 (F := Ideal)) W (Proc.devRef .tc main_v16)
    = shapeCast S10x128 (W (Proc.devRef .tc main_arg13)) shapeCasts_S1280_S10x128 := by after_results; rfl
theorem h3_v47 : StableHlo.after (hostOps3 (F := Ideal)) W (Proc.devRef .tc main_v47)
    = shapeCast S1x128 (W (Proc.devRef .tc main_arg15)) shapeCasts_S128_S1x128 := by after_results; rfl
theorem h3_v48 : StableHlo.after (hostOps3 (F := Ideal)) W (Proc.devRef .tc main_v48)
    = shapeCast S1x128 (W (Proc.devRef .tc main_arg17)) shapeCasts_S128_S1x128 := by after_results; rfl
theorem h3_v49 : StableHlo.after (hostOps3 (F := Ideal)) W (Proc.devRef .tc main_v49)
    = shapeCast S1x10 (W (Proc.devRef .tc main_arg19)) shapeCasts_S10_S1x10 := by after_results; rfl
theorem h3_v50 : StableHlo.after (hostOps3 (F := Ideal)) W (Proc.devRef .tc main_v50)
    = shapeCast S10x128 (W (Proc.devRef .tc main_arg20)) shapeCasts_S1280_S10x128 := by after_results; rfl
theorem h3_v51 : StableHlo.after (hostOps3 (F := Ideal)) W (Proc.devRef .tc main_v51)
    = shapeCast S10x128 (W (Proc.devRef .tc main_arg21)) shapeCasts_S1280_S10x128 := by after_results; rfl

end Cert.KernelIdeal.KHost

end
-- ==== Proof.KChainVals1.lean ====
/-
  What the launches' input buffers hold when each launch starts, as far as the first three launches: the first
  launch reads the node features, the aggregated messages, two row blocks of the combine weights and the bias row;
  the first reduction launch reads the first launch's output and the first block's parameters; the stretch after it
  reads the two accumulator arrays and the reshaped scale and shift.
-/
import proofs.«100017_j47974784696399_2_alg».proof.Proof.KChainArgsA
import proofs.«100017_j47974784696399_2_alg».proof.Proof.KHost

set_option maxRecDepth 16384
set_option maxHeartbeats 1000000

noncomputable section

namespace Cert.KernelIdeal.KChain

open Idealize.ShloMosaic Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-! ## The first launch's inputs (after the first stretch) -/

theorem rd1_arg0 : W1 m ρ c (Proc.devRef .tc main_arg0) = m ((c.tc : Thread nD τ).loc main_arg0) := (arg0_kept m ρ c).w1
theorem rd1_v4 : W1 m ρ c (Proc.devRef .tc main_v4)
    = KHost.msgK (m ((c.tc : Thread nD τ).loc main_arg1)) (m ((c.tc : Thread nD τ).loc main_arg2)) := KHost.h0_v4 (W0 m ρ c)
theorem rd1_v5 : W1 m ρ c (Proc.devRef .tc main_v5)
    = extractStridedSlice S128x128 ![0, 0] (m ((c.tc : Thread nD τ).loc main_arg4)) slices_S320x128_S128x128_0_0 := KHost.h0_v5 (W0 m ρ c)
theorem rd1_v6 : W1 m ρ c (Proc.devRef .tc main_v6)
    = extractStridedSlice S128x128 ![128, 0] (m ((c.tc : Thread nD τ).loc main_arg4)) slices_S320x128_S128x128_128_0 := KHost.h0_v6 (W0 m ρ c)
theorem rd1_v10 : W1 m ρ c (Proc.devRef .tc main_v10)
    = KHost.biasK (m ((c.tc : Thread nD τ).loc main_arg3)) (m ((c.tc : Thread nD τ).loc main_arg4)) (m ((c.tc : Thread nD τ).loc main_arg5)) := KHost.h0_v10 (W0 m ρ c)

/-! ## The first launch's output, where later stages read it -/

/-- the first launch's output array. -/
abbrev o0arr := (dat0 (V1 m ρ) c).arrAt 5 cfg0.N

theorem rd3_v11 : W3 m ρ c (Proc.devRef .tc main_v11) = o0arr m ρ c :=
  (keepH1 m ρ c main_v11 (by hk hostOps1)).trans (W2_arr m ρ c 5)
theorem rd5_v11 : W5 m ρ c (Proc.devRef .tc main_v11) = o0arr m ρ c :=
  (keepH2 m ρ c main_v11 (by hk hostOps2)).trans ((keepR1 m ρ c main_v11 (by decide)).trans (rd3_v11 m ρ c))
theorem rd9_v11 : W9 m ρ c (Proc.devRef .tc main_v11) = o0arr m ρ c :=
  (keepH4 m ρ c main_v11 (by hk hostOps4)).trans ((keepR3 m ρ c main_v11 (by decide)).trans
    ((keepH3 m ρ c main_v11 (by hk hostOps3)).trans ((keepR2 m ρ c main_v11 (by decide)).trans (rd5_v11 m ρ c))))

/-! ## The first block's reshaped vectors -/

theorem rd3_v12 : W3 m ρ c (Proc.devRef .tc main_v12) = shapeCast S1x128 (m ((c.tc : Thread nD τ).loc main_arg7)) shapeCasts_S128_S1x128 :=
  (KHost.h1_v12 (W2 m ρ c)).trans (congrArg (fun a => shapeCast S1x128 a shapeCasts_S128_S1x128) (arg7_kept m ρ c).w2)
theorem rd3_v13 : W3 m ρ c (Proc.devRef .tc main_v13) = shapeCast S1x128 (m ((c.tc : Thread nD τ).loc main_arg9)) shapeCasts_S128_S1x128 :=
  (KHost.h1_v13 (W2 m ρ c)).trans (congrArg (fun a => shapeCast S1x128 a shapeCasts_S128_S1x128) (arg9_kept m ρ c).w2)
theorem rd3_v14 : W3 m ρ c (Proc.devRef .tc main_v14) = shapeCast S1x10 (m ((c.tc : Thread nD τ).loc main_arg11)) shapeCasts_S10_S1x10 :=
  (KHost.h1_v14 (W2 m ρ c)).trans (congrArg (fun a => shapeCast S1x10 a shapeCasts_S10_S1x10) (arg11_kept m ρ c).w2)
theorem rd3_v15 : W3 m ρ c (Proc.devRef .tc main_v15) = shapeCast S10x128 (m ((c.tc : Thread nD τ).loc main_arg12)) shapeCasts_S1280_S10x128 :=
  (KHost.h1_v15 (W2 m ρ c)).trans (congrArg (fun a => shapeCast S10x128 a shapeCasts_S1280_S10x128) (arg12_kept m ρ c).w2)
theorem rd3_v16 : W3 m ρ c (Proc.devRef .tc main_v16) = shapeCast S10x128 (m ((c.tc : Thread nD τ).loc main_arg13)) shapeCasts_S1280_S10x128 :=
  (KHost.h1_v16 (W2 m ρ c)).trans (congrArg (fun a => shapeCast S10x128 a shapeCasts_S1280_S10x128) (arg13_kept m ρ c).w2)
theorem rd4_v15 : W4 m ρ c (Proc.devRef .tc main_v15) = shapeCast S10x128 (m ((c.tc : Thread nD τ).loc main_arg12)) shapeCasts_S1280_S10x128 :=
  (keepR1 m ρ c main_v15 (by decide)).trans (rd3_v15 m ρ c)
theorem rd4_v16 : W4 m ρ c (Proc.devRef .tc main_v16) = shapeCast S10x128 (m ((c.tc : Thread nD τ).loc main_arg13)) shapeCasts_S1280_S10x128 :=
  (keepR1 m ρ c main_v16 (by decide)).trans (rd3_v16 m ρ c)
theorem rd5_v14 : W5 m ρ c (Proc.devRef .tc main_v14) = shapeCast S1x10 (m ((c.tc : Thread nD τ).loc main_arg11)) shapeCasts_S10_S1x10 :=
  (keepH2 m ρ c main_v14 (by hk hostOps2)).trans ((keepR1 m ρ c main_v14 (by decide)).trans (rd3_v14 m ρ c))

/-! ## The first reduction launch's outputs -/

abbrev h1arr := (dat1 (V3 m ρ) c).arrAt 7 cfg1.N
abbrev s1arr := (dat1 (V3 m ρ) c).arrAt 8 cfg1.N
abbrev q1arr := (dat1 (V3 m ρ) c).arrAt 9 cfg1.N

theorem rd4_v17_1 : W4 m ρ c (Proc.devRef .tc main_v17_1) = s1arr m ρ c := W4_arr m ρ c 8
theorem rd4_v17_2 : W4 m ρ c (Proc.devRef .tc main_v17_2) = q1arr m ρ c := W4_arr m ρ c 9
theorem rd5_v17_0 : W5 m ρ c (Proc.devRef .tc main_v17_0) = h1arr m ρ c :=
  (keepH2 m ρ c main_v17_0 (by hk hostOps2)).trans (W4_arr m ρ c 7)

end Cert.KernelIdeal.KChain

end
-- ==== Proof.KChainArgsB.lean ====
/-
  The argument buffers are written by no stretch and are no launch's output array, so each holds its launch contents
  at every boundary.  One statement per argument; the side conditions are the references' inequalities.
-/
import proofs.«100017_j47974784696399_2_alg».proof.Proof.KChainBase

set_option maxRecDepth 16384
set_option maxHeartbeats 1000000

noncomputable section

namespace Cert.KernelIdeal.KChain

open Idealize.ShloMosaic Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg) (c : Dev nD)

theorem arg14_kept : Kept m ρ c main_arg14 :=
  arg_kept m ρ c main_arg14 (by hk hostOps0) (by decide) (by hk hostOps1) (by decide) (by hk hostOps2) (by decide)
    (by hk hostOps3) (by decide) (by hk hostOps4)
theorem arg15_kept : Kept m ρ c main_arg15 :=
  arg_kept m ρ c main_arg15 (by hk hostOps0) (by decide) (by hk hostOps1) (by decide) (by hk hostOps2) (by decide)
    (by hk hostOps3) (by decide) (by hk hostOps4)
theorem arg16_kept : Kept m ρ c main_arg16 :=
  arg_kept m ρ c main_arg16 (by hk hostOps0) (by decide) (by hk hostOps1) (by decide) (by hk hostOps2) (by decide)
    (by hk hostOps3) (by decide) (by hk hostOps4)
theorem arg17_kept : Kept m ρ c main_arg17 :=
  arg_kept m ρ c main_arg17 (by hk hostOps0) (by decide) (by hk hostOps1) (by decide) (by hk hostOps2) (by decide)
    (by hk hostOps3) (by decide) (by hk hostOps4)
theorem arg18_kept : Kept m ρ c main_arg18 :=
  arg_kept m ρ c main_arg18 (by hk hostOps0) (by decide) (by hk hostOps1) (by decide) (by hk hostOps2) (by decide)
    (by hk hostOps3) (by decide) (by hk hostOps4)
theorem arg19_kept : Kept m ρ c main_arg19 :=
  arg_kept m ρ c main_arg19 (by hk hostOps0) (by decide) (by hk hostOps1) (by decide) (by hk hostOps2) (by decide)
    (by hk hostOps3) (by decide) (by hk hostOps4)
theorem arg20_kept : Kept m ρ c main_arg20 :=
  arg_kept m ρ c main_arg20 (by hk hostOps0) (by decide) (by hk hostOps1) (by decide) (by hk hostOps2) (by decide)
    (by hk hostOps3) (by decide) (by hk hostOps4)
theorem arg21_kept : Kept m ρ c main_arg21 :=
  arg_kept m ρ c main_arg21 (by hk hostOps0) (by decide) (by hk hostOps1) (by decide) (by hk hostOps2) (by decide)
    (by hk hostOps3) (by decide) (by hk hostOps4)

end Cert.KernelIdeal.KChain

end
-- ==== Proof.KChainVals2.lean ====
/-
  What the later launches' input buffers hold: the second block's reshaped vectors, the first gate-apply launch's
  output, and the second reduction launch's outputs.
-/
import proofs.«100017_j47974784696399_2_alg».proof.Proof.KChainArgsB
import proofs.«100017_j47974784696399_2_alg».proof.Proof.KHost

set_option maxRecDepth 16384
set_option maxHeartbeats 1000000

noncomputable section

namespace Cert.KernelIdeal.KChain

open Idealize.ShloMosaic Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-! ## The first gate-apply launch's output -/

abbrev oaarr := (dat2 (V5 m ρ) c).arrAt 6 cfg2.N

theorem rd7_v46 : W7 m ρ c (Proc.devRef .tc main_v46) = oaarr m ρ c :=
  (keepH3 m ρ c main_v46 (by hk hostOps3)).trans (W6_arr m ρ c 6)
theorem rd9_v46 : W9 m ρ c (Proc.devRef .tc main_v46) = oaarr m ρ c :=
  (keepH4 m ρ c main_v46 (by hk hostOps4)).trans ((keepR3 m ρ c main_v46 (by decide)).trans (rd7_v46 m ρ c))

/-! ## The second block's reshaped vectors -/

theorem rd7_v47 : W7 m ρ c (Proc.devRef .tc main_v47) = shapeCast S1x128 (m ((c.tc : Thread nD τ).loc main_arg15)) shapeCasts_S128_S1x128 :=
  (KHost.h3_v47 (W6 m ρ c)).trans (congrArg (fun a => shapeCast S1x128 a shapeCasts_S128_S1x128) (arg15_kept m ρ c).w6)
theorem rd7_v48 : W7 m ρ c (Proc.devRef .tc main_v48) = shapeCast S1x128 (m ((c.tc : Thread nD τ).loc main_arg17)) shapeCasts_S128_S1x128 :=
  (KHost.h3_v48 (W6 m ρ c)).trans (congrArg (fun a => shapeCast S1x128 a shapeCasts_S128_S1x128) (arg17_kept m ρ c).w6)
theorem rd7_v49 : W7 m ρ c (Proc.devRef .tc main_v49) = shapeCast S1x10 (m ((c.tc : Thread nD τ).loc main_arg19)) shapeCasts_S10_S1x10 :=
  (KHost.h3_v49 (W6 m ρ c)).trans (congrArg (fun a => shapeCast S1x10 a shapeCasts_S10_S1x10) (arg19_kept m ρ c).w6)
theorem rd7_v50 : W7 m ρ c (Proc.devRef .tc main_v50) = shapeCast S10x128 (m ((c.tc : Thread nD τ).loc main_arg20)) shapeCasts_S1280_S10x128 :=
  (KHost.h3_v50 (W6 m ρ c)).trans (congrArg (fun a => shapeCast S10x128 a shapeCasts_S1280_S10x128) (arg20_kept m ρ c).w6)
theorem rd7_v51 : W7 m ρ c (Proc.devRef .tc main_v51) = shapeCast S10x128 (m ((c.tc : Thread nD τ).loc main_arg21)) shapeCasts_S1280_S10x128 :=
  (KHost.h3_v51 (W6 m ρ c)).trans (congrArg (fun a => shapeCast S10x128 a shapeCasts_S1280_S10x128) (arg21_kept m ρ c).w6)
theorem rd8_v50 : W8 m ρ c (Proc.devRef .tc main_v50) = shapeCast S10x128 (m ((c.tc : Thread nD τ).loc main_arg20)) shapeCasts_S1280_S10x128 :=
  (keepR3 m ρ c main_v50 (by decide)).trans (rd7_v50 m ρ c)
theorem rd8_v51 : W8 m ρ c (Proc.devRef .tc main_v51) = shapeCast S10x128 (m ((c.tc : Thread nD τ).loc main_arg21)) shapeCasts_S1280_S10x128 :=
  (keepR3 m ρ c main_v51 (by decide)).trans (rd7_v51 m ρ c)
theorem rd9_v49 : W9 m ρ c (Proc.devRef .tc main_v49) = shapeCast S1x10 (m ((c.tc : Thread nD τ).loc main_arg19)) shapeCasts_S10_S1x10 :=
  (keepH4 m ρ c main_v49 (by hk hostOps4)).trans ((keepR3 m ρ c main_v49 (by decide)).trans (rd7_v49 m ρ c))

/-! ## The second reduction launch's outputs -/

abbrev h3arr := (dat3 (V7 m ρ) c).arrAt 7 cfg3.N
abbrev s3arr := (dat3 (V7 m ρ) c).arrAt 8 cfg3.N
abbrev q3arr := (dat3 (V7 m ρ) c).arrAt 9 cfg3.N

theorem rd8_v52_1 : W8 m ρ c (Proc.devRef .tc main_v52_1) = s3arr m ρ c := W8_arr m ρ c 8
theorem rd8_v52_2 : W8 m ρ c (Proc.devRef .tc main_v52_2) = q3arr m ρ c := W8_arr m ρ c 9
theorem rd9_v52_0 : W9 m ρ c (Proc.devRef .tc main_v52_0) = h3arr m ρ c :=
  (keepH4 m ρ c main_v52_0 (by hk hostOps4)).trans (W8_arr m ρ c 7)

end Cert.KernelIdeal.KChain

end
-- ==== Proof.LibPlainDot.lean ====
/-
  A matrix product read entry by entry.

  For a contraction of the second axis of an [M, K] matrix with the first axis of a [K, N] matrix — whatever record of
  dimension numbers spells it, as long as its operand indices at an output entry (r, c) and a contraction coordinate k
  are (r, k) and (k, c) — the sum over the record's contraction index type is the ordinary sum over `k : Fin K` of
  `x (r, k) * w (k, c)`. On the extended reals this is what both a block product on the matrix unit (into a zero
  accumulator) and a host `dot_general` denote, so the two meet in this one form.
-/
import Idealize.ShloMosaic.PureOps.Ideal.Laws
import Idealize.ShloMosaic.Lib.ValueIdx

namespace Idealize.ShloMosaic.PlainDot

open Idealize.ShloMosaic Idealize.ShloMosaic.ValueIdx

/-- The contraction sum of a plain two-dimensional product, re-indexed by the contracted coordinate. The four
    hypotheses say where the record reads its operands: the left one at (row of the entry, k), the right one at
    (k, column of the entry). -/
theorem sum_contr {M K N : Nat} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal)
    (i : (⟨2, ![M, N]⟩ : Shape).Idx) :
    ∑ q : D.contr.Idx, x (D.lhsIdx i q) * w (D.rhsIdx i q) = ∑ k : Fin K, x (ix2 (i 0) k) * w (ix2 k (i 1)) := by
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact l0 _ _
    | ⟨1, _⟩ => exact (l1 _ _).trans hk)
  have er : D.rhsIdx i ((contrEquiv1 D K hr hs).symm k) = ix2 k (i 1) := funext fun a => Fin.ext (by
    match a with
    | ⟨0, _⟩ => exact (r0 _ _).trans hk
    | ⟨1, _⟩ => exact r1 _ _)
  rw [el, er]
  rfl

/-- A product on the matrix unit into a zero accumulator, at an entry: the sum over the contracted coordinate. -/
theorem matmul_zero_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (x : FVec Ideal ⟨2, ![M, K]⟩ φ₁) (w : FVec Ideal ⟨2, ![K, N]⟩ φ₂)
    (i : (⟨2, ![M, N]⟩ : Shape).Idx) :
    FloatOps.matmul D prec x w (constant ⟨2, ![M, N]⟩ .f32 0x00000000#32) i
      = ∑ k : Fin K, x (ix2 (i 0) k) * w (ix2 k (i 1)) :=
  (Ideal.matmul_constant_zero_apply D prec x w i).trans (sum_contr D hr hs l0 l1 r0 r1 x w i)

/-- A host `dot_general` at an entry: the same sum. -/
theorem dotGeneral_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (sched : HostSchedule) (x : FVec Ideal ⟨2, ![M, K]⟩ φ₁) (w : FVec Ideal ⟨2, ![K, N]⟩ φ₂)
    (i : (⟨2, ![M, N]⟩ : Shape).Idx) :
    FloatOps.dotGeneral D prec sched x w i = ∑ k : Fin K, x (ix2 (i 0) k) * w (ix2 k (i 1)) :=
  (Ideal.dotGeneral_apply D prec sched x w i).trans (sum_contr D hr hs l0 l1 r0 r1 x w i)

end Idealize.ShloMosaic.PlainDot
-- ==== Proof.LibDenseLayer.lean ====
/-
  One dense layer at the exact (extended-real) values, read entry by entry.

  `matmul_rows_zero_apply`: the matrix unit's product of an [m, k] matrix with an [n, k] matrix, contracting the SECOND
  axis of both (so the right operand is used row by row: a product with its transpose), accumulated into the zero
  matrix, has at entry (a, b) the value  ∑ c, A (a, c) · B (b, c).  Only `0 + x = x` is used of the arithmetic, so the
  statement holds at the infinities as well.

  `rowBias_apply`: a one-row matrix [1, n] broadcast down m rows has at entry (a, j) the row's entry (0, j).
-/
import Idealize.ShloMosaic.Lib.ValueIdx
import Idealize.ShloMosaic.Lib.Pipeline.Value
import Idealize.ShloMosaic.PureOps.Ideal.Laws

noncomputable section

namespace Cert.Lib.Dense

open Idealize.ShloMosaic Idealize.ShloMosaic.ValueIdx

/-- The product of an [m, k] matrix with the transpose of an [n, k] matrix, accumulated into zero, at entry (a, b):
    the sum over the contracted coordinate `c` of `A (a, c) * B (b, c)`. At the ideal values. `w` is the record's
    well-formedness, which a program states. -/
theorem matmul_rows_zero_apply {m n k : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A one-row matrix broadcast down `m` rows, read at (a, j), is the row at (0, j). -/
theorem rowBias_apply {α : Type} {m n : Nat} (x : (⟨2, ![1, n]⟩ : Shape).Idx → α)
    (h : (⟨2, ![1, n]⟩ : Shape).Broadcasts ⟨2, ![m, n]⟩) (a : Fin m) (j : Fin n) :
    broadcastTo ⟨2, ![m, n]⟩ x h (ix2 a j) = x (ix2 (0 : Fin 1) j) := by
  refine broadcastTo_apply x h (ix2 a j) (ix2 (0 : Fin 1) j) fun ax => ?_
  match ax with
  | ⟨0, _⟩ => simp
  | ⟨1, _⟩ =>
    by_cases h1 : n = 1
    · subst h1; simp
    · simp [h1]

end Cert.Lib.Dense

end
-- ==== Proof.KPay0.lean ====
/-
  The first launch's body at an entry.

  One tile holds 2000 rows.  The body multiplies the tile of node features by the first 128 rows of the weights, the
  tile of aggregated messages by the next 128 rows, adds the two products and a one-row bias (which already holds the
  bias plus the global row's product), and applies softplus in the stable form max z 0 + log (1 + exp (0 − |z − 0|)),
  guarded by a comparison z − 0 ≠ z − 0 that never holds on the extended reals.  So entry (p, q) of what the body
  stores is softplus of  Σ k, x p k · wx k q + Σ k, msg p k · wm k q + bias q.
-/
import proofs.«100017_j47974784696399_2_alg».proof.Proof.Gen.KernelIdeal.Skeleton
import proofs.«100017_j47974784696399_2_alg».proof.Proof.Spec
import proofs.«100017_j47974784696399_2_alg».proof.Proof.LibPlainDot
import proofs.«100017_j47974784696399_2_alg».proof.Proof.LibDenseLayer
import Idealize.ShloMosaic.Lib.ValueIdx
import Idealize.ShloMosaic.Lib.Pipeline.Value
import Idealize.ShloMosaic.PureOps.Ideal.Laws

noncomputable section

namespace Cert.KernelIdeal.KPay

open Idealize.ShloMosaic Idealize.ShloMosaic.ValueIdx Cert.KernelIdeal Cert.KernelIdeal.Gen

/-- The guarded stable softplus as the kernel bodies spell it, with the zero word left as a word. -/
def spelled (z : EReal) : EReal :=
  Scalar.select (Ideal.cmp .one (z - Ideal.ofBits .f32 0x00000000#32) (z - Ideal.ofBits .f32 0x00000000#32))
    (z + Ideal.ofBits .f32 0x00000000#32)
    (max z (Ideal.ofBits .f32 0x00000000#32) + Ideal.log1p (Ideal.exp (Ideal.ofBits .f32 0x00000000#32
      - max (z - Ideal.ofBits .f32 0x00000000#32) (-(z - Ideal.ofBits .f32 0x00000000#32)))))

/-- It is softplus: the guard compares a value with itself, which never differs; z − 0 = z and 0 − y = −y. -/
theorem spelled_eq (z : EReal) : spelled z = Cert.Spec.softplus z := by
  unfold spelled
  rw [Ideal.ofBits_zero_f32]
  have hc : Ideal.cmp .one (z - 0) (z - 0) = 0#1 := by simp [Ideal.cmp]
  rw [hc, select_zero, sub_zero, zero_sub]
  rfl

/-- Entry (p, q) of the first launch's stored tile. -/
theorem pay0_apply (x : Vec Ideal S2000x128 .f32) (wx : Vec Ideal S128x128 .f32) (ms : Vec Ideal S2000x128 .f32)
    (wm : Vec Ideal S128x128 .f32) (b : Vec Ideal S1x128 .f32) (p : Fin 2000) (q : Fin 128) :
    k0_pay1 (F := Ideal) x wx ms wm b (ix2 p q)
      = Cert.Spec.softplus (((∑ k : Fin 128, x (ix2 p k) * wx (ix2 k q)) + (∑ k : Fin 128, ms (ix2 p k) * wm (ix2 k q)))
          + b (ix2 (0 : Fin 1) q)) := by
  have h1 : matmul (F := Ideal) (φ₁ := .bf16) (φ₂ := .bf16) dot_S2000x128_S128x128_S2000x128_1_0_0_1_n_n none x wx
      (constant (F := Ideal) S2000x128 .f32 0x00000000#32) (ix2 p q) = ∑ k : Fin 128, x (ix2 p k) * wx (ix2 k q) :=
    PlainDot.matmul_zero_apply (φ₁ := .bf16) (φ₂ := .bf16) dot_S2000x128_S128x128_S2000x128_1_0_0_1_n_n rfl rfl
      (fun _ _ => rfl) (fun _ _ => rfl) (fun _ _ => rfl) (fun _ _ => rfl) none x wx (ix2 p q)
  have h2 : matmul (F := Ideal) (φ₁ := .bf16) (φ₂ := .bf16) dot_S2000x128_S128x128_S2000x128_1_0_0_1_n_n none ms wm
      (constant (F := Ideal) S2000x128 .f32 0x00000000#32) (ix2 p q) = ∑ k : Fin 128, ms (ix2 p k) * wm (ix2 k q) :=
    PlainDot.matmul_zero_apply (φ₁ := .bf16) (φ₂ := .bf16) dot_S2000x128_S128x128_S2000x128_1_0_0_1_n_n rfl rfl
      (fun _ _ => rfl) (fun _ _ => rfl) (fun _ _ => rfl) (fun _ _ => rfl) none ms wm (ix2 p q)
  have h3 : broadcastTo S2000x128 b broadcasts_S1x128_S2000x128 (ix2 p q) = b (ix2 (0 : Fin 1) q) :=
    Cert.Lib.Dense.rowBias_apply b broadcasts_S1x128_S2000x128 p q
  have hZ : (addf (addf (matmul (F := Ideal) (φ₁ := .bf16) (φ₂ := .bf16) dot_S2000x128_S128x128_S2000x128_1_0_0_1_n_n none x wx
        (constant (F := Ideal) S2000x128 .f32 0x00000000#32))
      (matmul (F := Ideal) (φ₁ := .bf16) (φ₂ := .bf16) dot_S2000x128_S128x128_S2000x128_1_0_0_1_n_n none ms wm
        (constant (F := Ideal) S2000x128 .f32 0x00000000#32)))
      (broadcastTo S2000x128 b broadcasts_S1x128_S2000x128)) (ix2 p q)
      = ((∑ k : Fin 128, x (ix2 p k) * wx (ix2 k q)) + (∑ k : Fin 128, ms (ix2 p k) * wm (ix2 k q))) + b (ix2 (0 : Fin 1) q) := by
    show _ + _ + _ = _
    rw [h1, h2, h3]
  unfold k0_pay1
  simp only [shapeCast_self]
  exact ((rfl : _ = spelled _).trans (congrArg spelled hZ)).trans (spelled_eq _)

end Cert.KernelIdeal.KPay

end
-- ==== Proof.KReg0.lean ====
/-
  What the first launch leaves in its output array.

  The grid has 25 points; point t works on rows 2000·t … 2000·t + 1999 of the node features and of the aggregated
  messages, on the whole of the two weight blocks and of the one-row bias, and writes rows 2000·t … of the output.
  The blocks tile the 50000 rows, so the output array ends holding, at (n, j),
  softplus (Σ k, x n k · wx k j + Σ k, msg n k · wm k j + bias j)  of the arrays the launch found.
-/
import proofs.«100017_j47974784696399_2_alg».proof.Proof.Gen.KernelIdeal.Frame
import proofs.«100017_j47974784696399_2_alg».proof.Proof.KPay0
import Idealize.ShloMosaic.Lib.Pipeline.Value
import Idealize.ShloMosaic.Lib.ValueIdx

set_option maxHeartbeats 400000
set_option maxRecDepth 16384

noncomputable section

namespace Cert.KernelIdeal.KReg0

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer's value at an index of the output array, from the five arrays the launch reads. -/
def G (x ms : S50000x128.Idx → EReal) (wx wm : S128x128.Idx → EReal) (b : S1x128.Idx → EReal) : S50000x128.Idx → EReal :=
  fun i => Cert.Spec.softplus (((∑ k : Fin 128, x (ix2 (⟨(i 0).val, idx2_lt0 i⟩ : Fin 50000) k) * wx (ix2 k (⟨(i 1).val, idx2_lt1 i⟩ : Fin 128)))
    + (∑ k : Fin 128, ms (ix2 (⟨(i 0).val, idx2_lt0 i⟩ : Fin 50000) k) * wm (ix2 k (⟨(i 1).val, idx2_lt1 i⟩ : Fin 128))))
    + b (ix2 (0 : Fin 1) (⟨(i 1).val, idx2_lt1 i⟩ : Fin 128)))

/-- The printed index maps over the grid: the row-block windows move with the point, the others stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer's value. -/
theorem flushed_eq (c : Dev nD) (t : Fin cfg0.N) :
    (dat0 V c).flushed 5 t = ((cfg0.win 5).blk t).view.read (Elt Ideal)
      (G (V c main_arg0) (V c main_v4) (V c main_v5)
        (V c main_v6) (V c main_v10)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (KPay.pay0_apply _ _ _ _ _ p q).trans ?_
  obtain ⟨e00, e01, e10, e11, e20, e21, e30, e31, e40, e41, e50, e51⟩ := idx_facts t
  have ht : t.val < 25 := t.isLt
  have hp : p.val < 2000 := p.isLt
  have hn : t.val * 2000 + p.val < 50000 := by omega
  -- the blocks of the two row windows are rows 2000·t + p of their arrays; the other three windows are whole arrays
  have hx : ∀ k : Fin 128, (iblk0 V c 0 t (ix2 p k) : EReal)
      = V c main_arg0 (ix2 (⟨t.val * 2000 + p.val, hn⟩ : Fin 50000) k) := fun k => by
    show V c main_arg0 (((cfg0.win 0).blk t).view.emb (ix2 p k)) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have hm : ∀ k : Fin 128, (iblk0 V c 1 t (ix2 p k) : EReal)
      = V c main_v4 (ix2 (⟨t.val * 2000 + p.val, hn⟩ : Fin 50000) k) := fun k => by
    show V c main_v4 (((cfg0.win 1).blk t).view.emb (ix2 p k)) = _
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  have hwx : ∀ k : Fin 128, (iblk0 V c 2 t (ix2 k q) : EReal) = V c main_v5 (ix2 k q) := fun k => by
    show V c main_v5 (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  have hwm : ∀ k : Fin 128, (iblk0 V c 3 t (ix2 k q) : EReal) = V c main_v6 (ix2 k q) := fun k => by
    show V c main_v6 (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  have hb : (iblk0 V c 4 t (ix2 (0 : Fin 1) q) : EReal) = V c main_v10 (ix2 (0 : Fin 1) q) := by
    show V c main_v10 (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  simp only [hx, hwx, hm, hwm, hb]
  -- the output's block puts (p, q) at row 2000·t + p, column q
  show _ = G _ _ _ _ _ (((cfg0.win 5).blk t).view.emb (ix2 p q))
  have i0 : (⟨((((cfg0.win 5).blk t).view.emb (ix2 p q)) 0).val, idx2_lt0 _⟩ : Fin 50000) = ⟨t.val * 2000 + p.val, hn⟩ :=
    Fin.ext (by show win0_5.index t (0 : Fin 2) * 2000 + 1 * p.val = t.val * 2000 + p.val; omega)
  have i1 : (⟨((((cfg0.win 5).blk t).view.emb (ix2 p q)) 1).val, idx2_lt1 _⟩ : Fin 128) = q :=
    Fin.ext (by show win0_5.index t (1 : Fin 2) * 128 + 1 * q.val = q.val; omega)
  unfold G
  rw [i0, i1]

/-- An index of the output array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v11).slice (win0_5.rect t)).set ↔ _
  rw [View.set_slice_whole, Rect.mem_set_unit]
  exact Iff.rfl

/-- Every row of the output is in some point's block: row r in point r / 2000's. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  refine ⟨⟨(i 0).val / 2000, by show (i 0).val / 2000 < 25; omega⟩, flush0_5 _, ?_⟩
  rw [mem_blk]
  obtain ⟨-, -, -, -, -, -, -, -, -, -, e50, e51⟩ := idx_facts ⟨(i 0).val / 2000, by show (i 0).val / 2000 < 25; omega⟩
  intro a
  match a with
  | ⟨0, _⟩ => show win0_5.index _ (0 : Fin 2) * 2000 ≤ (i 0).val ∧ (i 0).val < win0_5.index _ (0 : Fin 2) * 2000 + 2000; rw [e50]; show (i 0).val / 2000 * 2000 ≤ _ ∧ _ < (i 0).val / 2000 * 2000 + 2000; omega
  | ⟨1, _⟩ => show win0_5.index _ (1 : Fin 2) * 128 ≤ (i 1).val ∧ (i 1).val < win0_5.index _ (1 : Fin 2) * 128 + 128; omega

/-- The output array after the launch. -/
theorem arr (c : Dev nD) : (dat0 V c).arrAt 5 cfg0.N
    = G (V c main_arg0) (V c main_v4) (V c main_v5)
        (V c main_v6) (V c main_v10) :=
  (dat0 V c).arrAt_eq_of_cover 5 _ (fun t _ => flushed_eq V c t) cover

end Cert.KernelIdeal.KReg0

end
-- ==== Proof.LibStepA.lean ====
/-
  General facts for a tiled reduction on the matrix unit, read at the exact (extended-real) values.

  * A product that contracts the FIRST axis of both operands, a [K, M] matrix with a [K, N] matrix into [M, N]
    (the left operand used transposed), into a zero accumulator: entry (a, b) is  ∑ k, A (k, a) · B (k, b).
  * The keep-dimension column forms: a vector [a] cast to a column [a, 1], and a column [a, 1] broadcast along
    rows to [a, b].
  * A row maximum taken as a fold of max from −∞ is the supremum of the row.
  * A sum over consecutive naturals, block by block: ∑ over 25 blocks of the sums inside each block of 1000.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibStepA

open Idealize.ShloMosaic Idealize.ShloMosaic.ValueIdx
open scoped BigOperators

/-- The contraction sum of a product over the first axis of both operands, re-indexed by the contracted coordinate.
    The four hypotheses say where the record reads its operands at an output entry (a, b) and contraction
    coordinate k: the left one at (k, a), the right one at (k, b). -/
theorem sum_contr_T {K M N : Nat} (D : DotDims ⟨2, ![K, M]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (q ⟨0, by omega⟩).val)
    (l1 : ∀ (i : (⟨2, ![M, N]⟩ : Shape).Idx) (q : D.contr.Idx), (D.lhsIdx i q 1).val = (i 0).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (x : (⟨2, ![K, M]⟩ : Shape).Idx → EReal) (w : (⟨2, ![K, N]⟩ : Shape).Idx → EReal)
    (i : (⟨2, ![M, N]⟩ : Shape).Idx) :
    ∑ q : D.contr.Idx, x (D.lhsIdx i q) * w (D.rhsIdx i q) = ∑ k : Fin K, x (ix2 k (i 0)) * w (ix2 k (i 1)) := by
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 k (i 0) := funext fun a => Fin.ext (by
    match a with
    | ⟨0, _⟩ => exact (l0 _ _).trans hk
    | ⟨1, _⟩ => exact l1 _ _)
  have er : D.rhsIdx i ((contrEquiv1 D K hr hs).symm k) = ix2 k (i 1) := funext fun a => Fin.ext (by
    match a with
    | ⟨0, _⟩ => exact (r0 _ _).trans hk
    | ⟨1, _⟩ => exact r1 _ _)
  rw [el, er]
  rfl

/-- A product on the matrix unit contracting the first axis of both operands, into a zero accumulator, at an entry. -/
theorem matmulT_zero_apply {K M N : Nat} {φ₁ φ₂ : FTy} (D : DotDims ⟨2, ![K, M]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (q ⟨0, by omega⟩).val)
    (l1 : ∀ (i : (⟨2, ![M, N]⟩ : Shape).Idx) (q : D.contr.Idx), (D.lhsIdx i q 1).val = (i 0).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (x : FVec Ideal ⟨2, ![K, M]⟩ φ₁) (w : FVec Ideal ⟨2, ![K, N]⟩ φ₂)
    (a : Fin M) (b : Fin N) :
    FloatOps.matmul D prec x w (constant ⟨2, ![M, N]⟩ .f32 0x00000000#32) (ix2 a b)
      = ∑ k : Fin K, x (ix2 k a) * w (ix2 k b) :=
  (Ideal.matmul_constant_zero_apply D prec x w (ix2 a b)).trans (sum_contr_T D hr hs l0 l1 r0 r1 x w (ix2 a b))

/-! ## Columns -/

variable {α : Type}

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Row reductions -/

/-- The fold of max from the bottom element over all of a finite type is the supremum. -/
theorem fold_max_bot_eq_sup {ι : Type*} [Fintype ι] (f : ι → EReal) :
    (Finset.univ : Finset ι).fold max (⊥ : EReal) f = Finset.univ.sup f := rfl

/-- The pattern of −∞ denotes the bottom element. -/
theorem ofBits_neg_inf_f32 : Ideal.ofBits .f32 0xFF800000#32 = (⊥ : EReal) := by simp [Ideal.ofBits, Ideal.ieee]

/-! ## Sums over tiles -/

/-- Twenty-five consecutive tile sums starting at tile 25·k are the sum over the 25000 consecutive rows they hold:
    for any function of the row number. -/
theorem sum_tiles {M : Type*} [AddCommMonoid M] (f : ℕ → M) (k : ℕ) :
    ∑ s ∈ Finset.range 25, ∑ r : Fin 1000, f ((25 * k + s) * 1000 + r.val) = ∑ q : Fin 25000, f (k * 25000 + q.val) := by
  rw [Finset.sum_range (fun s => ∑ r : Fin 1000, f ((25 * k + s) * 1000 + r.val))]
  rw [← Equiv.sum_comp (finProdFinEquiv (m := 25) (n := 1000)) (fun q : Fin 25000 => f (k * 25000 + q.val)),
    Fintype.sum_prod_type]
  refine Finset.sum_congr rfl fun p _ => Finset.sum_congr rfl fun r _ => congrArg f ?_
  show (25 * k + p.val) * 1000 + r.val = k * 25000 + (r.val + 1000 * p.val)
  ring

end Cert.LibStepA

end
-- ==== Proof.KGate.lean ====
import Idealize.ShloMosaic.PureOps.Ideal.Laws
import Idealize.ShloMosaic.Lib.ValueIdx
import Idealize.ShloMosaic.Lib.ValueLayout
import Idealize.ShloMosaic.Lib.Pipeline.Value
import proofs.«100017_j47974784696399_2_alg».proof.Proof.LibStepA
import proofs.«100017_j47974784696399_2_alg».proof.Proof.Spec

/-!
  The row softmax, as the kernel bodies spell it on a tile of R rows and ten gates, at an entry.

  A tile's logits z (R × 10) are reduced along the gates by max from −∞, the result is joined with −∞ once more,
  laid out as a column and spread back over the ten gates; z minus that, exponentiated, is divided by its own row sums
  laid out the same way.  Entry (p, g) is exp (z p g − max_g' z p g') / Σ g', exp (z p g' − max z p), the row softmax
  of the specification.  Also: the bodies' guarded spelling of softplus is the specification's.
-/

noncomputable section

namespace Cert.KGate

open Idealize.ShloMosaic Idealize.ShloMosaic.ValueIdx
open Cert.LibStepA
open scoped BigOperators

variable {R : ℕ}

/-- inserting the gate coordinate into a row index. -/
theorem lift_row (hr : Shape.Reduces ⟨2, ![R, 10]⟩ [1] ⟨1, ![R]⟩) (p : Fin R) (g : Fin 10) :
    hr.lift (ix1 p) g = ix2 p g := by
  funext a
  apply Fin.ext
  match a with
  | ⟨0, _⟩ => rfl
  | ⟨1, _⟩ => rfl

/-- the tile's row maxima, spread back over the gates. -/
def mxB (z : FVec Ideal ⟨2, ![R, 10]⟩ .f32) (hr : Shape.Reduces ⟨2, ![R, 10]⟩ [1] ⟨1, ![R]⟩)
    (hc : (⟨1, ![R]⟩ : Shape).ShapeCasts ⟨2, ![R, 1]⟩) (hb : (⟨2, ![R, 1]⟩ : Shape).Broadcasts ⟨2, ![R, 10]⟩) :
    FVec Ideal ⟨2, ![R, 10]⟩ .f32 :=
  broadcastTo ⟨2, ![R, 10]⟩ (shapeCast ⟨2, ![R, 1]⟩ (maximumf (broadcast ⟨1, ![R]⟩ (Scalar.ofBits .f32 0xFF800000#32))
    (multiReduction .maximumf [1] ⟨1, ![R]⟩ z 0xFF800000#32 hr (.inl rfl) rfl)) hc) hb

/-- the exponentials of the logits minus their row maximum. -/
def expB (z : FVec Ideal ⟨2, ![R, 10]⟩ .f32) (hr : Shape.Reduces ⟨2, ![R, 10]⟩ [1] ⟨1, ![R]⟩)
    (hc : (⟨1, ![R]⟩ : Shape).ShapeCasts ⟨2, ![R, 1]⟩) (hb : (⟨2, ![R, 1]⟩ : Shape).Broadcasts ⟨2, ![R, 10]⟩) :
    FVec Ideal ⟨2, ![R, 10]⟩ .f32 :=
  exp (subf z (mxB z hr hc hb))

/-- the tile's gate, as the bodies compute it. -/
def gateB (z : FVec Ideal ⟨2, ![R, 10]⟩ .f32) (hr : Shape.Reduces ⟨2, ![R, 10]⟩ [1] ⟨1, ![R]⟩)
    (hc : (⟨1, ![R]⟩ : Shape).ShapeCasts ⟨2, ![R, 1]⟩) (hb : (⟨2, ![R, 1]⟩ : Shape).Broadcasts ⟨2, ![R, 10]⟩) :
    FVec Ideal ⟨2, ![R, 10]⟩ .f32 :=
  divf (expB z hr hc hb) (broadcastTo ⟨2, ![R, 10]⟩ (shapeCast ⟨2, ![R, 1]⟩
    (multiReduction .add [1] ⟨1, ![R]⟩ (expB z hr hc hb) 0x00000000#32 hr (.inl rfl) rfl) hc) hb)

theorem mxB_apply (z : FVec Ideal ⟨2, ![R, 10]⟩ .f32) (hr : Shape.Reduces ⟨2, ![R, 10]⟩ [1] ⟨1, ![R]⟩)
    (hc : (⟨1, ![R]⟩ : Shape).ShapeCasts ⟨2, ![R, 1]⟩) (hb : (⟨2, ![R, 1]⟩ : Shape).Broadcasts ⟨2, ![R, 10]⟩)
    (p : Fin R) (g : Fin 10) :
    mxB z hr hc hb (ix2 p g) = Cert.Spec.rowMax (fun i g' => z (ix2 i g')) p := by
  unfold mxB
  have hz : (z ∘ hr.lift (ix1 p)) = fun g' : Fin 10 => z (ix2 p g') :=
    funext fun g' => congrArg z (lift_row hr p g')
  have hred := Ideal.multiReduction_maximumf_single z 0xFF800000#32 hr (.inl rfl) rfl (ix1 p)
  rw [hz] at hred
  rw [broadcastTo_a1_ab_apply, shapeCast_a_a1_apply, maximumf_apply, broadcast_apply]
  refine (congrArg (max _) hred).trans ?_
  show max (Ideal.ofBits .f32 0xFF800000#32) (Finset.univ.fold max (Ideal.ofBits .f32 0xFF800000#32) _) = _
  rw [ofBits_neg_inf_f32]
  exact (max_eq_right bot_le).trans rfl

theorem expB_apply (z : FVec Ideal ⟨2, ![R, 10]⟩ .f32) (hr : Shape.Reduces ⟨2, ![R, 10]⟩ [1] ⟨1, ![R]⟩)
    (hc : (⟨1, ![R]⟩ : Shape).ShapeCasts ⟨2, ![R, 1]⟩) (hb : (⟨2, ![R, 1]⟩ : Shape).Broadcasts ⟨2, ![R, 10]⟩)
    (p : Fin R) (g : Fin 10) :
    expB z hr hc hb (ix2 p g)
      = Ideal.exp (z (ix2 p g) - Cert.Spec.rowMax (fun i g' => z (ix2 i g')) p) := by
  rw [← mxB_apply z hr hc hb p g]
  rfl

/-- the bodies' gate at an entry is the specification's row softmax of the tile's logits. -/
theorem gate_apply (z : FVec Ideal ⟨2, ![R, 10]⟩ .f32) (hr : Shape.Reduces ⟨2, ![R, 10]⟩ [1] ⟨1, ![R]⟩)
    (hc : (⟨1, ![R]⟩ : Shape).ShapeCasts ⟨2, ![R, 1]⟩) (hb : (⟨2, ![R, 1]⟩ : Shape).Broadcasts ⟨2, ![R, 10]⟩)
    (p : Fin R) (g : Fin 10) :
    gateB z hr hc hb (ix2 p g) = Cert.Spec.softmax (fun i g' => z (ix2 i g')) p g := by
  have hsum : (∑ k : Fin 10, expB z hr hc hb (hr.lift (ix1 p) k))
      = ∑ g' : Fin 10, Ideal.exp (z (ix2 p g') - Cert.Spec.rowMax (fun i g' => z (ix2 i g')) p) :=
    Finset.sum_congr rfl fun g' _ => by rw [lift_row hr p g', expB_apply]
  have hred := Ideal.multiReduction_add_single (expB z hr hc hb) 0x00000000#32 hr (.inl rfl) rfl (ix1 p)
  unfold gateB
  rw [divf_apply, broadcastTo_a1_ab_apply, shapeCast_a_a1_apply, expB_apply]
  exact congrArg (Ideal.div _) (hred.trans hsum)

/-! ## Rows of a tile against rows of the whole array -/

/-- the row softmax depends on its row only. -/
theorem softmax_congr {n n' M : ℕ} (z : Fin n → Fin M → EReal) (z' : Fin n' → Fin M → EReal) (i : Fin n) (i' : Fin n')
    (h : ∀ g, z i g = z' i' g) (g : Fin M) : Cert.Spec.softmax z i g = Cert.Spec.softmax z' i' g := by
  have hrow : z i = z' i' := funext h
  unfold Cert.Spec.softmax Cert.Spec.rowMax
  rw [hrow]

/-- a row of a product plus bias depends on that row of the left factor only. -/
theorem dense_congr_row {n n' K M : ℕ} (a : Fin n → Fin K → EReal) (a' : Fin n' → Fin K → EReal)
    (w : Fin K → Fin M → EReal) (b : Fin M → EReal) (i : Fin n) (i' : Fin n') (h : ∀ k, a i k = a' i' k) (j : Fin M) :
    Cert.Spec.dense a w b i j = Cert.Spec.dense a' w b i' j := by
  unfold Cert.Spec.dense
  simp only [h]

/-! ## Softplus with its guard -/

/-- the bodies guard softplus by a comparison of the argument with itself, which never holds on the extended reals;
    the other branch is the specification's softplus, with `z − 0` for `z` and `0 − t` for `−t`. -/
theorem softplus_guarded (z : EReal) :
    Scalar.select (Ideal.cmp .one (z - 0) (z - 0)) (z + 0)
      (max z 0 + Ideal.log1p (Ideal.exp (0 - max (z - 0) (-(z - 0))))) = Cert.Spec.softplus z := by
  have hc : Ideal.cmp .one (z - 0) (z - 0) = 0#1 := by simp [Ideal.cmp]
  rw [hc, select_zero, sub_zero, zero_sub]
  rfl

end Cert.KGate

end
-- ==== Proof.KPay2.lean ====
/-
  The gate-apply launches' body at an entry.

  One tile holds 2000 rows of the block's inner features h and of the block's input o.  The body recomputes the row
  softmax s of h·linW + linb, multiplies it by the ten rows of A, and stores  o + (h + λ·(h · (s·A) − cc)).
-/
import proofs.«100017_j47974784696399_2_alg».proof.Proof.Gen.KernelIdeal.Skeleton
import proofs.«100017_j47974784696399_2_alg».proof.Proof.Spec
import proofs.«100017_j47974784696399_2_alg».proof.Proof.LibPlainDot
import proofs.«100017_j47974784696399_2_alg».proof.Proof.LibDenseLayer
import proofs.«100017_j47974784696399_2_alg».proof.Proof.KGate
import Idealize.ShloMosaic.Lib.ValueIdx
import Idealize.ShloMosaic.Lib.Pipeline.Value
import Idealize.ShloMosaic.PureOps.Ideal.Laws

noncomputable section

namespace Cert.KernelIdeal.KPay

open Idealize.ShloMosaic Idealize.ShloMosaic.ValueIdx Cert.KernelIdeal Cert.KernelIdeal.Gen

/-- The tile's logits h·linW + linb, as the body computes them. -/
def logitsT (h : Vec Ideal S2000x128 .f32) (linW : Vec Ideal S128x10 .f32) (linb : Vec Ideal S1x10 .f32) : FVec Ideal S2000x10 .f32 :=
  addf (matmul (F := Ideal) (φ₁ := .bf16) (φ₂ := .bf16) dot_S2000x128_S128x10_S2000x10_1_0_0_1_n_n none h linW
      (constant (F := Ideal) S2000x10 .f32 0x00000000#32))
    (broadcastTo S2000x10 linb broadcasts_S1x10_S2000x10)

theorem logitsT_apply (h : Vec Ideal S2000x128 .f32) (linW : Vec Ideal S128x10 .f32) (linb : Vec Ideal S1x10 .f32)
    (p : Fin 2000) (g : Fin 10) :
    logitsT h linW linb (ix2 p g)
      = Cert.Spec.dense (fun i k => h (ix2 i k)) (fun k g => linW (ix2 k g)) (fun g => linb (ix2 (0 : Fin 1) g)) p g := by
  have h1 : matmul (F := Ideal) (φ₁ := .bf16) (φ₂ := .bf16) dot_S2000x128_S128x10_S2000x10_1_0_0_1_n_n none h linW
      (constant (F := Ideal) S2000x10 .f32 0x00000000#32) (ix2 p g) = ∑ k : Fin 128, h (ix2 p k) * linW (ix2 k g) :=
    PlainDot.matmul_zero_apply (φ₁ := .bf16) (φ₂ := .bf16) dot_S2000x128_S128x10_S2000x10_1_0_0_1_n_n rfl rfl
      (fun _ _ => rfl) (fun _ _ => rfl) (fun _ _ => rfl) (fun _ _ => rfl) none h linW (ix2 p g)
  have h3 : broadcastTo S2000x10 linb broadcasts_S1x10_S2000x10 (ix2 p g) = linb (ix2 (0 : Fin 1) g) :=
    Cert.Lib.Dense.rowBias_apply linb broadcasts_S1x10_S2000x10 p g
  show _ + _ = _
  rw [h1, h3]
  rfl

/-- Entry (p, q) of the tile a gate-apply launch stores (without the last launch's extra summand). -/
theorem pay2_apply (h : Vec Ideal S2000x128 .f32) (linW : Vec Ideal S128x10 .f32) (linb : Vec Ideal S1x10 .f32)
    (A : Vec Ideal S10x128 .f32) (cc : Vec Ideal S1x128 .f32) (o : Vec Ideal S2000x128 .f32) (p : Fin 2000) (q : Fin 128) :
    k2_pay1 (F := Ideal) h linW linb A cc o (ix2 p q)
      = o (ix2 p q) + (h (ix2 p q) + Cert.Spec.cLam * (h (ix2 p q)
          * (∑ g : Fin 10, Cert.Spec.softmax (Cert.Spec.dense (fun i k => h (ix2 i k)) (fun k g => linW (ix2 k g))
              (fun g => linb (ix2 (0 : Fin 1) g))) p g * A (ix2 g q)) - cc (ix2 (0 : Fin 1) q))) := by
  have hl : (fun i g' => logitsT h linW linb (ix2 i g'))
      = Cert.Spec.dense (fun i k => h (ix2 i k)) (fun k g => linW (ix2 k g)) (fun g => linb (ix2 (0 : Fin 1) g)) :=
    funext fun i => funext fun g' => logitsT_apply h linW linb i g'
  have hG : ∀ g : Fin 10, Cert.KGate.gateB (logitsT h linW linb) reduces_S2000x10_S2000 shapeCasts_S2000_S2000x1
        broadcasts_S2000x1_S2000x10 (ix2 p g)
      = Cert.Spec.softmax (Cert.Spec.dense (fun i k => h (ix2 i k)) (fun k g => linW (ix2 k g))
          (fun g => linb (ix2 (0 : Fin 1) g))) p g := fun g => by
    rw [← hl]
    exact Cert.KGate.gate_apply _ _ _ _ p g
  have hM : matmul (F := Ideal) (φ₁ := .bf16) (φ₂ := .bf16) dot_S2000x10_S10x128_S2000x128_1_0_0_1_n_n none
        (Cert.KGate.gateB (logitsT h linW linb) reduces_S2000x10_S2000 shapeCasts_S2000_S2000x1
          broadcasts_S2000x1_S2000x10) A
        (constant (F := Ideal) S2000x128 .f32 0x00000000#32) (ix2 p q)
      = ∑ g : Fin 10, Cert.Spec.softmax (Cert.Spec.dense (fun i k => h (ix2 i k)) (fun k g => linW (ix2 k g))
          (fun g => linb (ix2 (0 : Fin 1) g))) p g * A (ix2 g q) :=
    (PlainDot.matmul_zero_apply (φ₁ := .bf16) (φ₂ := .bf16) dot_S2000x10_S10x128_S2000x128_1_0_0_1_n_n rfl rfl
      (fun _ _ => rfl) (fun _ _ => rfl) (fun _ _ => rfl) (fun _ _ => rfl) none _ A (ix2 p q)).trans
      (Finset.sum_congr rfl fun g _ => congrArg (· * A (ix2 g q)) (hG g))
  have h3 : broadcastTo S2000x128 cc broadcasts_S1x128_S2000x128 (ix2 p q) = cc (ix2 (0 : Fin 1) q) :=
    Cert.Lib.Dense.rowBias_apply cc broadcasts_S1x128_S2000x128 p q
  unfold k2_pay1
  simp only [shapeCast_self]
  show o (ix2 p q) + (h (ix2 p q) + Cert.Spec.cLam * (h (ix2 p q)
      * (matmul (F := Ideal) (φ₁ := .bf16) (φ₂ := .bf16) dot_S2000x10_S10x128_S2000x128_1_0_0_1_n_n none
          (Cert.KGate.gateB (logitsT h linW linb) reduces_S2000x10_S2000 shapeCasts_S2000_S2000x1
            broadcasts_S2000x1_S2000x10) A
          (constant (F := Ideal) S2000x128 .f32 0x00000000#32) (ix2 p q))
      - broadcastTo S2000x128 cc broadcasts_S1x128_S2000x128 (ix2 p q))) = _
  rw [hM, h3]

/-- The last launch's body is the same text, then adds one more tile (the first layer's output) last. -/
theorem pay4_apply (h : Vec Ideal S2000x128 .f32) (linW : Vec Ideal S128x10 .f32) (linb : Vec Ideal S1x10 .f32)
    (A : Vec Ideal S10x128 .f32) (cc : Vec Ideal S1x128 .f32) (o : Vec Ideal S2000x128 .f32)
    (ex : Vec Ideal S2000x128 .f32) (p : Fin 2000) (q : Fin 128) :
    k4_pay1 (F := Ideal) (k4_pay2 (F := Ideal) h linW linb A cc o) (k4_pay3 (F := Ideal) ex) (ix2 p q)
      = (o (ix2 p q) + (h (ix2 p q) + Cert.Spec.cLam * (h (ix2 p q)
          * (∑ g : Fin 10, Cert.Spec.softmax (Cert.Spec.dense (fun i k => h (ix2 i k)) (fun k g => linW (ix2 k g))
              (fun g => linb (ix2 (0 : Fin 1) g))) p g * A (ix2 g q)) - cc (ix2 (0 : Fin 1) q))))
        + ex (ix2 p q) := by
  have e : k4_pay2 (F := Ideal) h linW linb A cc o = k2_pay1 (F := Ideal) h linW linb A cc o := rfl
  have e3 : k4_pay3 (F := Ideal) ex = ex := by
    unfold k4_pay3
    simp only [shapeCast_self]
  show k4_pay2 (F := Ideal) h linW linb A cc o (ix2 p q) + k4_pay3 (F := Ideal) ex (ix2 p q) = _
  rw [e, pay2_apply, e3]

end Cert.KernelIdeal.KPay

end
-- ==== Proof.KReg2.lean ====
/-
  What a gate-apply launch leaves in its output array.

  The grid has 25 points; point t works on rows 2000·t … 2000·t + 1999 of the block's inner features h and of the
  block's input o, on the whole of the gate's weights and bias, of the ten rows A and of the one row cc, and
  writes rows 2000·t … of the output.  The blocks tile the 50000 rows, so the output array ends holding, at (n, j),
  o n j + (h n j + λ·(h n j · Σ g, s n g · A g j − cc j))  with s the row softmax of h·linW + linb of the WHOLE array h:
  the gate of a row depends on that row only.
-/
import proofs.«100017_j47974784696399_2_alg».proof.Proof.Gen.KernelIdeal.Frame
import proofs.«100017_j47974784696399_2_alg».proof.Proof.KPay2
import Idealize.ShloMosaic.Lib.Pipeline.Value
import Idealize.ShloMosaic.Lib.ValueIdx

set_option maxHeartbeats 400000
set_option maxRecDepth 16384

noncomputable section

namespace Cert.KernelIdeal.KReg2

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The launch's value at an index of the output array, from the arrays it reads. -/
def G (h o : S50000x128.Idx → EReal) (linW : S128x10.Idx → EReal) (linb : S1x10.Idx → EReal) (A : S10x128.Idx → EReal)
    (cc : S1x128.Idx → EReal) : S50000x128.Idx → EReal :=
  fun i => o (ix2 (⟨(i 0).val, idx2_lt0 i⟩ : Fin 50000) (⟨(i 1).val, idx2_lt1 i⟩ : Fin 128)) + (h (ix2 (⟨(i 0).val, idx2_lt0 i⟩ : Fin 50000) (⟨(i 1).val, idx2_lt1 i⟩ : Fin 128)) + Cert.Spec.cLam * (h (ix2 (⟨(i 0).val, idx2_lt0 i⟩ : Fin 50000) (⟨(i 1).val, idx2_lt1 i⟩ : Fin 128))
      * (∑ g : Fin 10, Cert.Spec.softmax (Cert.Spec.dense (fun i k => h (ix2 i k)) (fun k g => linW (ix2 k g))
          (fun g => linb (ix2 (0 : Fin 1) g))) (⟨(i 0).val, idx2_lt0 i⟩ : Fin 50000) g * A (ix2 g (⟨(i 1).val, idx2_lt1 i⟩ : Fin 128))) - cc (ix2 (0 : Fin 1) (⟨(i 1).val, idx2_lt1 i⟩ : Fin 128))))

/-- A tile's row against the array's row: the body's value at (p, q) of a tile whose row p is the array's row n, with
    the four small operands read whole, is the value at (n, q) stated with the whole arrays; the gate of a row depends
    on that row only. -/
theorem tile_to_array (hT oT : S2000x128.Idx → EReal) (lWT : S128x10.Idx → EReal) (lbT : S1x10.Idx → EReal)
    (AT : S10x128.Idx → EReal) (ccT : S1x128.Idx → EReal) (H O : S50000x128.Idx → EReal) (LW : S128x10.Idx → EReal)
    (LB : S1x10.Idx → EReal) (AA : S10x128.Idx → EReal) (CC : S1x128.Idx → EReal) (p : Fin 2000) (q : Fin 128)
    (n : Fin 50000) (hh : ∀ k : Fin 128, hT (ix2 p k) = H (ix2 n k)) (ho : oT (ix2 p q) = O (ix2 n q))
    (hW : ∀ (k : Fin 128) (g : Fin 10), lWT (ix2 k g) = LW (ix2 k g))
    (hb : ∀ g : Fin 10, lbT (ix2 (0 : Fin 1) g) = LB (ix2 (0 : Fin 1) g))
    (hA : ∀ g : Fin 10, AT (ix2 g q) = AA (ix2 g q)) (hc : ccT (ix2 (0 : Fin 1) q) = CC (ix2 (0 : Fin 1) q)) :
    oT (ix2 p q) + (hT (ix2 p q) + Cert.Spec.cLam * (hT (ix2 p q)
      * (∑ g : Fin 10, Cert.Spec.softmax (Cert.Spec.dense (fun i k => hT (ix2 i k)) (fun k g => lWT (ix2 k g))
          (fun g => lbT (ix2 (0 : Fin 1) g))) p g * AT (ix2 g q)) - ccT (ix2 (0 : Fin 1) q)))
      = O (ix2 n q) + (H (ix2 n q) + Cert.Spec.cLam * (H (ix2 n q)
      * (∑ g : Fin 10, Cert.Spec.softmax (Cert.Spec.dense (fun i k => H (ix2 i k)) (fun k g => LW (ix2 k g))
          (fun g => LB (ix2 (0 : Fin 1) g))) n g * AA (ix2 g q)) - CC (ix2 (0 : Fin 1) q))) := by
  have e1 : (fun (k : Fin 128) (g : Fin 10) => lWT (ix2 k g)) = fun k g => LW (ix2 k g) :=
    funext fun k => funext fun g => hW k g
  have e2 : (fun g : Fin 10 => lbT (ix2 (0 : Fin 1) g)) = fun g => LB (ix2 (0 : Fin 1) g) := funext hb
  have hsm : ∀ g : Fin 10, Cert.Spec.softmax (Cert.Spec.dense (fun i k => hT (ix2 i k)) (fun k g => lWT (ix2 k g))
        (fun g => lbT (ix2 (0 : Fin 1) g))) p g
      = Cert.Spec.softmax (Cert.Spec.dense (fun i k => H (ix2 i k)) (fun k g => LW (ix2 k g))
        (fun g => LB (ix2 (0 : Fin 1) g))) n g := fun g => by
    rw [e1, e2]
    exact Cert.KGate.softmax_congr _ _ p n (fun g' => Cert.KGate.dense_congr_row _ _ _ _ p n hh g') g
  have hsum : (∑ g : Fin 10, Cert.Spec.softmax (Cert.Spec.dense (fun i k => hT (ix2 i k)) (fun k g => lWT (ix2 k g))
        (fun g => lbT (ix2 (0 : Fin 1) g))) p g * AT (ix2 g q))
      = ∑ g : Fin 10, Cert.Spec.softmax (Cert.Spec.dense (fun i k => H (ix2 i k)) (fun k g => LW (ix2 k g))
        (fun g => LB (ix2 (0 : Fin 1) g))) n g * AA (ix2 g q) :=
    Finset.sum_congr rfl fun g _ => by rw [hsm g, hA g]
  rw [hsum, hh q, ho, hc]

/-- The printed index maps over the grid: the row-block windows move with the point, the others stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of the launch's value. -/
theorem flushed_eq (c : Dev nD) (t : Fin cfg2.N) :
    (dat2 V c).flushed 6 t = ((cfg2.win 6).blk t).view.read (Elt Ideal)
      (G (V c main_v17_0) (V c main_v11) (V c main_arg10) (V c main_v14) (V c main_v39) (V c main_v45)) := by
  show (cfg2.win 6).cut (grid2.coords t) ((dat2 V c).after 6 t) = _
  rw [after2_6]
  unfold out2_6
  rw [View.canon_unit_zero hz]
  simp only [View.ld_unit_zero (S := S2000x128) hz, View.ld_unit_zero (S := S128x10) hz, View.ld_unit_zero (S := S1x10) hz, View.ld_unit_zero (S := S10x128) hz, View.ld_unit_zero (S := S1x128) hz]
  funext j
  obtain ⟨p, q, rfl⟩ : ∃ (p : Fin 2000) (q : Fin 128), j = ix2 p q := ⟨j 0, j 1, eq_ix2 j⟩
  refine (KPay.pay2_apply _ _ _ _ _ _ p q).trans ?_
  obtain ⟨e00, e01, e10, e11, e20, e21, e30, e31, e40, e41, e50, e51, e60, e61⟩ := idx_facts t
  have ht : t.val < 25 := t.isLt
  have hp : p.val < 2000 := p.isLt
  have hn : t.val * 2000 + p.val < 50000 := by omega
  -- the blocks of the row windows are rows 2000·t + p of their arrays; the other windows are whole arrays
  have hh : ∀ k : Fin 128, (iblk2 V c 0 t (ix2 p k) : EReal) = V c main_v17_0 (ix2 (⟨t.val * 2000 + p.val, hn⟩ : Fin 50000) k) := fun k => by
    show V c main_v17_0 (((cfg2.win 0).blk t).view.emb (ix2 p k)) = _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  have ho : (iblk2 V c 1 t (ix2 p q) : EReal) = V c main_v11 (ix2 (⟨t.val * 2000 + p.val, hn⟩ : Fin 50000) q) := by
    show V c main_v11 (((cfg2.win 1).blk t).view.emb (ix2 p q)) = _
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * q.val = q.val; omega
  have hW : ∀ (k : Fin 128) (g : Fin 10), (iblk2 V c 2 t (ix2 k g) : EReal) = V c main_arg10 (ix2 k g) := fun k g => by
    show V c main_arg10 (((cfg2.win 2).blk t).view.emb (ix2 k g)) = _
    refine congrArg _ (funext fun a => Fin.ext ?_)
    match a with
    | ⟨0, _⟩ => show win2_2.index t (0 : Fin 2) * 128 + 1 * k.val = k.val; omega
    | ⟨1, _⟩ => show win2_2.index t (1 : Fin 2) * 10 + 1 * g.val = g.val; omega
  have hb : ∀ g : Fin 10, (iblk2 V c 3 t (ix2 (0 : Fin 1) g) : EReal) = V c main_v14 (ix2 (0 : Fin 1) g) := fun g => by
    show V c main_v14 (((cfg2.win 3).blk t).view.emb (ix2 (0 : Fin 1) g)) = _
    refine congrArg _ (funext fun a => Fin.ext ?_)
    match a with
    | ⟨0, _⟩ => show win2_3.index t (0 : Fin 2) * 1 + 1 * 0 = 0; omega
    | ⟨1, _⟩ => show win2_3.index t (1 : Fin 2) * 10 + 1 * g.val = g.val; omega
  have hA : ∀ g : Fin 10, (iblk2 V c 4 t (ix2 g q) : EReal) = V c main_v39 (ix2 g q) := fun g => by
    show V c main_v39 (((cfg2.win 4).blk t).view.emb (ix2 g q)) = _
    refine congrArg _ (funext fun a => Fin.ext ?_)
    match a with
    | ⟨0, _⟩ => show win2_4.index t (0 : Fin 2) * 10 + 1 * g.val = g.val; omega
    | ⟨1, _⟩ => show win2_4.index t (1 : Fin 2) * 128 + 1 * q.val = q.val; omega
  have hc : (iblk2 V c 5 t (ix2 (0 : Fin 1) q) : EReal) = V c main_v45 (ix2 (0 : Fin 1) q) := by
    show V c main_v45 (((cfg2.win 5).blk t).view.emb (ix2 (0 : Fin 1) q)) = _
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * q.val = q.val; omega
  refine (tile_to_array (iblk2 V c 0 t) (iblk2 V c 1 t) (iblk2 V c 2 t) (iblk2 V c 3 t)
    (iblk2 V c 4 t) (iblk2 V c 5 t) (V c main_v17_0) (V c main_v11) (V c main_arg10) (V c main_v14) (V c main_v39)
    (V c main_v45) p q (⟨t.val * 2000 + p.val, hn⟩ : Fin 50000) hh ho hW hb hA hc).trans ?_
  -- the output's block puts (p, q) at row 2000·t + p, column q
  show _ = G _ _ _ _ _ _ (((cfg2.win 6).blk t).view.emb (ix2 p q))
  have i0 : (⟨((((cfg2.win 6).blk t).view.emb (ix2 p q)) 0).val, idx2_lt0 _⟩ : Fin 50000) = ⟨t.val * 2000 + p.val, hn⟩ :=
    Fin.ext (by show win2_6.index t (0 : Fin 2) * 2000 + 1 * p.val = t.val * 2000 + p.val; omega)
  have i1 : (⟨((((cfg2.win 6).blk t).view.emb (ix2 p q)) 1).val, idx2_lt1 _⟩ : Fin 128) = q :=
    Fin.ext (by show win2_6.index t (1 : Fin 2) * 128 + 1 * q.val = q.val; omega)
  unfold G
  rw [i0, i1]

/-- An index of the output array is in point t's block iff each coordinate is in the block's range on its axis. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v46).slice (win2_6.rect t)).set ↔ _
  rw [View.set_slice_whole, Rect.mem_set_unit]
  exact Iff.rfl

/-- Every row of the output is in some point's block: row r in point r / 2000's. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  refine ⟨⟨(i 0).val / 2000, by show (i 0).val / 2000 < 25; omega⟩, flush2_6 _, ?_⟩
  rw [mem_blk]
  obtain ⟨-, -, -, -, -, -, -, -, -, -, -, -, e60, e61⟩ := idx_facts ⟨(i 0).val / 2000, by show (i 0).val / 2000 < 25; omega⟩
  intro a
  match a with
  | ⟨0, _⟩ => show win2_6.index _ (0 : Fin 2) * 2000 ≤ (i 0).val ∧ (i 0).val < win2_6.index _ (0 : Fin 2) * 2000 + 2000; rw [e60]; show (i 0).val / 2000 * 2000 ≤ _ ∧ _ < (i 0).val / 2000 * 2000 + 2000; omega
  | ⟨1, _⟩ => show win2_6.index _ (1 : Fin 2) * 128 ≤ (i 1).val ∧ (i 1).val < win2_6.index _ (1 : Fin 2) * 128 + 128; omega

/-- The output array after the launch. -/
theorem arr (c : Dev nD) : (dat2 V c).arrAt 6 cfg2.N
    = G (V c main_v17_0) (V c main_v11) (V c main_arg10) (V c main_v14) (V c main_v39) (V c main_v45) :=
  (dat2 V c).arrAt_eq_of_cover 6 _ (fun t _ => flushed_eq V c t) cover

/-- the launch's value at an entry. -/
theorem G_apply (h o : S50000x128.Idx → EReal) (linW : S128x10.Idx → EReal) (linb : S1x10.Idx → EReal)
    (A : S10x128.Idx → EReal) (cc : S1x128.Idx → EReal) (n : Fin 50000) (j : Fin 128) :
    G h o linW linb A cc (ix2 n j)
      = o (ix2 n j) + (h (ix2 n j) + Cert.Spec.cLam * (h (ix2 n j)
      * (∑ g : Fin 10, Cert.Spec.softmax (Cert.Spec.dense (fun i k => h (ix2 i k)) (fun k g => linW (ix2 k g))
          (fun g => linb (ix2 (0 : Fin 1) g))) n g * A (ix2 g j)) - cc (ix2 (0 : Fin 1) j))) := rfl

/-- … and the output array at an entry. -/
theorem arr_apply (c : Dev nD) (n : Fin 50000) (j : Fin 128) : (dat2 V c).arrAt 6 cfg2.N (ix2 n j)
    = G (V c main_v17_0) (V c main_v11) (V c main_arg10) (V c main_v14) (V c main_v39) (V c main_v45) (ix2 n j) :=
  congrFun (arr V c) (ix2 n j)

end Cert.KernelIdeal.KReg2

end
-- ==== Proof.KHostB.lean ====
/-
  Between the reduction launch and the gate-apply launch: the statistics on the host.

  The reduction launch leaves, per core, partial sums over its half of the rows: acc[0] and acc[1], for the gated
  features (S) and for their squares (Q).  The host adds the halves, divides by the row count 50000, forms the clamped
  variance max (Q/N − μ·μ, 0), its inverse root inv = rsqrt (var + ε), the scale A = inv · γ, and the row
  cc = Σ_g μ·inv·γ − Σ_g β.  Below: these as functions of the arrays, the two host stretches evaluated to them, and
  their entries — which are the collapsed arrangement's `A` and `cc` once the added halves are the full sums.
-/
import proofs.«100017_j47974784696399_2_alg».proof.Proof.KHost
import proofs.«100017_j47974784696399_2_alg».proof.Proof.LibPlainDot
import Idealize.ShloMosaic.Lib.IdealHost

set_option maxHeartbeats 1000000

noncomputable section

namespace Cert.KernelIdeal.KHostB

open Idealize.ShloMosaic Idealize.ShloMosaic.ValueIdx Idealize.ShloMosaic.StableHlo Cert.KernelIdeal Cert.KernelIdeal.Gen
open scoped BigOperators

variable (W : Valuation τ sig (Elt Ideal))

/-! ## The stages as functions of the arrays -/

/-- the two per-core partial sums added: acc[0] + acc[1]. -/
def halfSum (acc : FVec Ideal S2x10x128 .f32) : FVec Ideal S10x128 .f32 :=
  addf (shapeCast S10x128 (extractStridedSlice S1x10x128 ![0, 0, 0] acc slices_S2x10x128_S1x10x128_0_0_0) shapeCasts_S1x10x128_S10x128)
    (shapeCast S10x128 (extractStridedSlice S1x10x128 ![1, 0, 0] acc slices_S2x10x128_S1x10x128_1_0_0) shapeCasts_S1x10x128_S10x128)

/-- the column means S / 50000. -/
def meanH (acc1 : FVec Ideal S2x10x128 .f32) : FVec Ideal S10x128 .f32 :=
  Host.divf (halfSum acc1) (broadcastInDim S10x128 ![] bcast_S_S10x128 (constant (F := Ideal) S_ .f32 0x47435000#32))

/-- the clamped variances max (Q / 50000 − μ·μ, 0). -/
def varH (acc1 acc2 : FVec Ideal S2x10x128 .f32) : FVec Ideal S10x128 .f32 :=
  maximumf
    (subf (Host.divf (halfSum acc2) (broadcastInDim S10x128 ![] bcast_S_S10x128 (constant (F := Ideal) S_ .f32 0x47435000#32)))
      (mulf (meanH acc1) (meanH acc1)))
    (broadcastInDim S10x128 ![] bcast_S_S10x128 (constant (F := Ideal) S_ .f32 0x00000000#32))

/-- the inverse roots rsqrt (var + ε). -/
def invH (acc1 acc2 : FVec Ideal S2x10x128 .f32) : FVec Ideal S10x128 .f32 :=
  Host.rsqrt (addf (varH acc1 acc2) (broadcastInDim S10x128 ![] bcast_S_S10x128 (constant (F := Ideal) S_ .f32 0x3727C5AC#32)))

/-- the scale A = inv · γ. -/
def AH (acc1 acc2 : FVec Ideal S2x10x128 .f32) (gamma : FVec Ideal S10x128 .f32) : FVec Ideal S10x128 .f32 :=
  mulf (invH acc1 acc2) gamma

/-- the row cc = Σ_g μ·inv·γ − Σ_g β, as [1, 128]. -/
def ccH (acc1 acc2 : FVec Ideal S2x10x128 .f32) (gamma beta : FVec Ideal S10x128 .f32) : FVec Ideal S1x128 .f32 :=
  shapeCast S1x128
    (subf
      (Host.reduceAdd (mulf (mulf (meanH acc1) (invH acc1 acc2)) gamma) (constant (F := Ideal) S_ .f32 0x00000000#32)
        reducesTo_S10x128_S128_d0 h_S_)
      (Host.reduceAdd beta (constant (F := Ideal) S_ .f32 0x00000000#32) reducesTo_S10x128_S128_d0 h_S_))
    shapeCasts_S128_S1x128

/-! ## The two host stretches evaluated -/

theorem h2_v39 : StableHlo.after (hostOps2 (F := Ideal)) W (Proc.devRef .tc main_v39)
    = AH (W (Proc.devRef .tc main_v17_1)) (W (Proc.devRef .tc main_v17_2)) (W (Proc.devRef .tc main_v15)) := by
  after_results_simp
  rfl

theorem h2_v45 : StableHlo.after (hostOps2 (F := Ideal)) W (Proc.devRef .tc main_v45)
    = ccH (W (Proc.devRef .tc main_v17_1)) (W (Proc.devRef .tc main_v17_2)) (W (Proc.devRef .tc main_v15))
        (W (Proc.devRef .tc main_v16)) := by
  after_results_simp
  rfl

theorem h4_v74 : StableHlo.after (hostOps4 (F := Ideal)) W (Proc.devRef .tc main_v74)
    = AH (W (Proc.devRef .tc main_v52_1)) (W (Proc.devRef .tc main_v52_2)) (W (Proc.devRef .tc main_v50)) := by
  after_results_simp
  rfl

theorem h4_v80 : StableHlo.after (hostOps4 (F := Ideal)) W (Proc.devRef .tc main_v80)
    = ccH (W (Proc.devRef .tc main_v52_1)) (W (Proc.devRef .tc main_v52_2)) (W (Proc.devRef .tc main_v50))
        (W (Proc.devRef .tc main_v51)) := by
  after_results_simp
  rfl

/-! ## Their entries -/

/-- the two halves of an accumulator added, at (g, j). -/
abbrev pairSum (acc : FVec Ideal S2x10x128 .f32) (g : Fin 10) (j : Fin 128) : EReal :=
  acc (ix3 (0 : Fin 2) g j) + acc (ix3 (1 : Fin 2) g j)

theorem halfSum_apply (acc : FVec Ideal S2x10x128 .f32) (g : Fin 10) (j : Fin 128) :
    halfSum acc (ix2 g j) = pairSum acc g j := by
  unfold halfSum
  rw [addf_apply,
    shapeCast_apply _ _ (ix2 g j) (ix3 (0 : Fin 1) g j) (by
      rw [Shape.rowMajor_val_three, Shape.rowMajor_val_two]
      show (0 * 10 + g.val) * 128 + j.val = g.val * 128 + j.val
      omega),
    extractStridedSlice_apply _ _ _ (ix3 (0 : Fin 1) g j) (ix3 (0 : Fin 2) g j)
      (fun a => by match a with | ⟨0, _⟩ => rfl | ⟨1, _⟩ => exact (Nat.zero_add _).symm | ⟨2, _⟩ => exact (Nat.zero_add _).symm),
    shapeCast_apply _ _ (ix2 g j) (ix3 (0 : Fin 1) g j) (by
      rw [Shape.rowMajor_val_three, Shape.rowMajor_val_two]
      show (0 * 10 + g.val) * 128 + j.val = g.val * 128 + j.val
      omega),
    extractStridedSlice_apply _ _ _ (ix3 (0 : Fin 1) g j) (ix3 (1 : Fin 2) g j)
      (fun a => by match a with | ⟨0, _⟩ => rfl | ⟨1, _⟩ => exact (Nat.zero_add _).symm | ⟨2, _⟩ => exact (Nat.zero_add _).symm)]

theorem meanH_apply (acc1 : FVec Ideal S2x10x128 .f32) (g : Fin 10) (j : Fin 128) :
    meanH acc1 (ix2 g j) = Ideal.div (pairSum acc1 g j) Cert.Spec.cN := by
  unfold meanH
  rw [hostDivf_apply, halfSum_apply, broadcastInDim_scalar_apply, constant_apply]
  rfl

theorem varH_apply (acc1 acc2 : FVec Ideal S2x10x128 .f32) (g : Fin 10) (j : Fin 128) :
    varH acc1 acc2 (ix2 g j)
      = max (Ideal.div (pairSum acc2 g j) Cert.Spec.cN
          - Ideal.div (pairSum acc1 g j) Cert.Spec.cN * Ideal.div (pairSum acc1 g j) Cert.Spec.cN) 0 := by
  unfold varH
  rw [maximumf_apply, subf_apply, mulf_apply, meanH_apply, hostDivf_apply, halfSum_apply, broadcastInDim_scalar_apply,
    broadcastInDim_scalar_apply, constant_apply, constant_apply, Ideal.ofBits_zero_f32]
  rfl

theorem invH_apply (acc1 acc2 : FVec Ideal S2x10x128 .f32) (g : Fin 10) (j : Fin 128) :
    invH acc1 acc2 (ix2 g j)
      = Ideal.rsqrt (max (Ideal.div (pairSum acc2 g j) Cert.Spec.cN
          - Ideal.div (pairSum acc1 g j) Cert.Spec.cN * Ideal.div (pairSum acc1 g j) Cert.Spec.cN) 0 + Cert.Spec.cEps) := by
  unfold invH
  show Ideal.rsqrt (addf (varH acc1 acc2) _ (ix2 g j)) = _
  rw [addf_apply, varH_apply, broadcastInDim_scalar_apply, constant_apply]
  rfl

/-- the scale at (g, j). -/
theorem AH_apply (acc1 acc2 : FVec Ideal S2x10x128 .f32) (gamma : FVec Ideal S10x128 .f32) (g : Fin 10) (j : Fin 128) :
    AH acc1 acc2 gamma (ix2 g j)
      = Ideal.rsqrt (max (Ideal.div (pairSum acc2 g j) Cert.Spec.cN
          - Ideal.div (pairSum acc1 g j) Cert.Spec.cN * Ideal.div (pairSum acc1 g j) Cert.Spec.cN) 0 + Cert.Spec.cEps)
        * gamma (ix2 g j) := by
  unfold AH
  rw [mulf_apply, invH_apply]

/-- a column sum of a [10, 128] array, from 0. -/
theorem colSum10_apply (x : FVec Ideal S10x128 .f32) (j : Fin 128) :
    Host.reduceAdd x (constant (F := Ideal) S_ .f32 0x00000000#32) reducesTo_S10x128_S128_d0 h_S_ (ix1 j)
      = ∑ g : Fin 10, x (ix2 g j) := by
  have hR : S10x128.Reduces [0] S128 := by decide
  rw [hostReduceAdd_apply, Ideal.hostReduceAdd_single _ hR, constant_apply, Ideal.ofBits_zero_f32, zero_add]
  refine Finset.sum_congr rfl fun g _ => congrArg x ?_
  funext c; apply Fin.ext; fin_cases c <;> rfl

/-- the row cc at column j. -/
theorem ccH_apply (acc1 acc2 : FVec Ideal S2x10x128 .f32) (gamma beta : FVec Ideal S10x128 .f32) (j : Fin 128) :
    ccH acc1 acc2 gamma beta (ix2 (0 : Fin 1) j)
      = (∑ g : Fin 10, Ideal.div (pairSum acc1 g j) Cert.Spec.cN
            * Ideal.rsqrt (max (Ideal.div (pairSum acc2 g j) Cert.Spec.cN
                - Ideal.div (pairSum acc1 g j) Cert.Spec.cN * Ideal.div (pairSum acc1 g j) Cert.Spec.cN) 0 + Cert.Spec.cEps)
            * gamma (ix2 g j))
        - ∑ g : Fin 10, beta (ix2 g j) := by
  unfold ccH
  rw [shapeCast_apply _ _ (ix2 (0 : Fin 1) j) (ix1 j) (by
      rw [Shape.rowMajor_val_one, Shape.rowMajor_val_two]
      show j.val = 0 * 128 + j.val
      omega),
    subf_apply, colSum10_apply, colSum10_apply]
  simp only [mulf_apply, meanH_apply, invH_apply]

/-! ## Against the collapsed arrangement -/

section Spec
variable (h : Fin 50000 → Fin 128 → EReal) (s : Fin 50000 → Fin 10 → EReal) (gammaF betaF : Fin 10 → Fin 128 → EReal)
variable (acc1 acc2 : FVec Ideal S2x10x128 .f32) (gamma beta : FVec Ideal S10x128 .f32)

/-- once the added halves are the full sums, the scale is the collapsed arrangement's A. -/
theorem AH_eq_spec (hS : ∀ g j, pairSum acc1 g j = Cert.Spec.Ssum h s g j) (hQ : ∀ g j, pairSum acc2 g j = Cert.Spec.Qsum h s g j)
    (hγ : ∀ g j, gamma (ix2 g j) = gammaF g j) (g : Fin 10) (j : Fin 128) :
    AH acc1 acc2 gamma (ix2 g j) = Cert.Spec.A h s gammaF g j := by
  rw [AH_apply, hS, hQ, hγ]
  rfl

/-- and the row is the collapsed arrangement's cc. -/
theorem ccH_eq_spec (hS : ∀ g j, pairSum acc1 g j = Cert.Spec.Ssum h s g j) (hQ : ∀ g j, pairSum acc2 g j = Cert.Spec.Qsum h s g j)
    (hγ : ∀ g j, gamma (ix2 g j) = gammaF g j) (hβ : ∀ g j, beta (ix2 g j) = betaF g j) (j : Fin 128) :
    ccH acc1 acc2 gamma beta (ix2 (0 : Fin 1) j) = Cert.Spec.cc h s gammaF betaF j := by
  rw [ccH_apply]
  simp only [hS, hQ, hγ, hβ]
  rfl

end Spec

/-! ## The first launch's bias row -/

theorem biasK_apply (a3 : FVec Ideal S1x64 .f32) (a4 : FVec Ideal S320x128 .f32) (a5 : FVec Ideal S128 .f32) (j : Fin 128) :
    Cert.KernelIdeal.KHost.biasK a3 a4 a5 (ix2 (0 : Fin 1) j)
      = a5 (ix1 j) + ∑ k : Fin 64, a3 (ix2 (0 : Fin 1) k) * a4 (ix2 (⟨256 + k.val, by have := k.isLt; omega⟩ : Fin 320) j) := by
  unfold Cert.KernelIdeal.KHost.biasK
  rw [addf_apply, shapeCast_apply _ _ (ix2 (0 : Fin 1) j) (ix1 j) (by
      rw [Shape.rowMajor_val_one, Shape.rowMajor_val_two]
      show j.val = 0 * 128 + j.val
      omega)]
  refine congrArg (a5 (ix1 j) + ·) ?_
  simp only [Host.dotGeneral]
  refine (PlainDot.dotGeneral_apply _ rfl rfl (fun _ _ => rfl) (fun _ _ => rfl) (fun _ _ => rfl) (fun _ _ => rfl) _ _ a3 _
    (ix2 (0 : Fin 1) j)).trans (Finset.sum_congr rfl fun k _ => ?_)
  refine congrArg (a3 (ix2 (0 : Fin 1) k) * ·) ?_
  exact extractStridedSlice_apply _ _ _ (ix2 k j) (ix2 (⟨256 + k.val, by have := k.isLt; omega⟩ : Fin 320) j)
    (fun a => by match a with | ⟨0, _⟩ => rfl | ⟨1, _⟩ => exact (Nat.zero_add _).symm)

end Cert.KernelIdeal.KHostB

end
-- ==== Proof.LibExtRealLayer.lean ====
import Idealize.ShloMosaic.PureOps.Ideal

/-!
  Real-valued entries of a graph-convolution row on the extended reals.

  On `EReal` multiplication does not distribute over addition at the infinities, so two
  arrangements of the same row, `d · (Σ g + g₀)` with `g = h · d`, and
  `Σ h · (dγ · dδ) + h₀ · d²` with `dδ = d` on every summand, are compared only after every
  entry has been shown to be (the coercion of) a real number; the identity is then an identity
  of real numbers.
-/

noncomputable section

namespace Cert.ExtRealLayer

open scoped BigOperators
open Idealize.ShloMosaic

/-- An extended real that is the coercion of a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {υ : Type} (A : Finset υ) (f : υ → ℝ) :
    ((∑ j ∈ A, f j : ℝ) : EReal) = ∑ j ∈ A, (f j : EReal) := by
  classical
  refine Finset.induction_on A ?_ ?_
  · simp
  · intro a s ha ih
    rw [Finset.sum_insert ha, Finset.sum_insert ha, EReal.coe_add, ih]

/-- A finite sum of reals is real. -/
theorem IsReal.sum {υ : Type} (A : Finset υ) (f : υ → EReal) (h : ∀ j ∈ A, IsReal (f j)) :
    IsReal (∑ j ∈ A, f j) := by
  classical
  revert h
  refine Finset.induction_on A ?_ ?_
  · intro _
    rw [Finset.sum_empty]; exact isReal_zero
  · intro a s ha ih h
    rw [Finset.sum_insert ha]
    exact (h a (Finset.mem_insert_self a s)).add
      (ih fun j hj => h j (Finset.mem_insert_of_mem hj))

theorem IsReal.fsum {κ : Type} [Fintype κ] (f : κ → EReal) (h : ∀ k, IsReal (f k)) :
    IsReal (∑ k, f k) :=
  IsReal.sum Finset.univ f fun k _ => h k

/-- The all-zero single-precision pattern denotes `0`. -/
theorem ofBits_zero : Ideal.ofBits .f32 0x00000000#32 = 0 := by
  simp [Ideal.ofBits, Ideal.ieee]

/-- The single-precision pattern of `1.0` (exponent field 127, zero fraction) denotes `1`. -/
theorem ofBits_one : Ideal.ofBits .f32 0x3F800000#32 = 1 := by
  simp [Ideal.ofBits, Ideal.ieee, -EReal.coe_mul]; norm_num

/-- `1 + |A|`, written as `0 + Σ_{j ∈ A} 1 + 1`, is a real number `≥ 1`, so its reciprocal
    square root is the real `(√(1 + |A|))⁻¹`. -/
theorem isReal_rsqrt_count {υ : Type} (A : Finset υ) :
    IsReal (Ideal.rsqrt (((0 : EReal) + ∑ _j ∈ A, (1 : EReal)) + 1)) := by
  have hsum : (∑ _j ∈ A, (1 : EReal)) = (((A.card : ℝ)) : EReal) := by
    have h1 : (∑ _j ∈ A, (1 : EReal)) = ∑ _j ∈ A, (((1 : ℝ)) : EReal) := by
      simp only [EReal.coe_one]
    rw [h1, ← coe_sum]
    simp
  have harg : (((0 : EReal) + ∑ _j ∈ A, (1 : EReal)) + 1) = (((A.card : ℝ) + 1 : ℝ) : EReal) := by
    rw [hsum, zero_add, EReal.coe_add, EReal.coe_one]
  have hpos : (0 : ℝ) < (A.card : ℝ) + 1 := by positivity
  rw [harg, Ideal.rsqrt_coe, if_neg (not_lt.mpr hpos.le), if_neg hpos.ne']
  exact isReal_coe _

/-- The two arrangements of the row agree when every entry is real. The last summand `b` is
    added on both sides and may be any extended real. -/
theorem layer_eq {υ : Type} (A : Finset υ) (hγ dγ dδ : υ → EReal) (h d b : EReal)
    (Hh : ∀ j ∈ A, IsReal (hγ j)) (Hd : ∀ j ∈ A, IsReal (dγ j)) (Hh0 : IsReal h) (Hd0 : IsReal d)
    (hδ : ∀ j ∈ A, dδ j = d) :
    (((0 : EReal) + ∑ j ∈ A, hγ j * dγ j) + h * d) * d + b
      = (((0 : EReal) + ∑ j ∈ A, hγ j * (dγ j * dδ j)) + h * (d * d)) + b := by
  classical
  obtain ⟨h', rfl⟩ := Hh0
  obtain ⟨d', rfl⟩ := Hd0
  -- real-valued representatives of the two families (arbitrary off `A`)
  let hr : υ → ℝ := fun j => if hj : j ∈ A then Classical.choose (Hh j hj) else 0
  let dr : υ → ℝ := fun j => if hj : j ∈ A then Classical.choose (Hd j hj) else 0
  have hhr : ∀ j ∈ A, hγ j = (hr j : EReal) := by
    intro j hj
    simp only [hr, dif_pos hj]
    exact Classical.choose_spec (Hh j hj)
  have hdr : ∀ j ∈ A, dγ j = (dr j : EReal) := by
    intro j hj
    simp only [dr, dif_pos hj]
    exact Classical.choose_spec (Hd j hj)
  have hL : (∑ j ∈ A, hγ j * dγ j) = ((∑ j ∈ A, hr j * dr j : ℝ) : EReal) := by
    rw [coe_sum]
    refine Finset.sum_congr rfl fun j hj => ?_
    rw [hhr j hj, hdr j hj, EReal.coe_mul]
  have hR : (∑ j ∈ A, hγ j * (dγ j * dδ j)) = ((∑ j ∈ A, hr j * (dr j * d') : ℝ) : EReal) := by
    rw [coe_sum]
    refine Finset.sum_congr rfl fun j hj => ?_
    rw [hhr j hj, hdr j hj, hδ j hj, EReal.coe_mul, EReal.coe_mul]
  congr 1
  rw [hL, hR, zero_add, zero_add, ← EReal.coe_mul, ← EReal.coe_mul, ← EReal.coe_mul,
    ← EReal.coe_add, ← EReal.coe_add, ← EReal.coe_mul]
  congr 1
  rw [add_mul, Finset.sum_mul]
  congr 1
  · refine Finset.sum_congr rfl fun j _ => ?_
    ring
  · ring

/-- The row in its second arrangement is real when every entry, and the last summand, is. -/
theorem layer_isReal {υ : Type} (A : Finset υ) (hγ dγ dδ : υ → EReal) (h d b : EReal)
    (Hh : ∀ j ∈ A, IsReal (hγ j)) (Hd : ∀ j ∈ A, IsReal (dγ j)) (Hh0 : IsReal h) (Hd0 : IsReal d)
    (hδ : ∀ j ∈ A, dδ j = d) (Hb : IsReal b) :
    IsReal ((((0 : EReal) + ∑ j ∈ A, hγ j * (dγ j * dδ j)) + h * (d * d)) + b) := by
  refine ((isReal_zero.add (IsReal.sum A _ fun j hj => ?_)).add (Hh0.mul (Hd0.mul Hd0))).add Hb
  rw [hδ j hj]
  exact (Hh j hj).mul ((Hd j hj).mul Hd0)

end Cert.ExtRealLayer
-- ==== Proof.SpecReal.lean ====
import Idealize.ShloMosaic.PureOps.Ideal
import proofs.«100017_j47974784696399_2_alg».proof.Proof.LibExtRealLayer
import proofs.«100017_j47974784696399_2_alg».proof.Proof.Spec

/-!
  Entries that are real numbers.

  Every operation of the specification sends real numbers to real numbers: sums, products, differences, the
  exponential, `log (1 + e^t)` (its argument is positive), the quotient by the row count `50000`, and the
  reciprocal square root of a positive real.  The three float literals are real numbers: the row count is
  `50000`, the variance offset is positive.
-/

noncomputable section

namespace Cert.Spec

open Idealize.ShloMosaic
open Cert.ExtRealLayer
open scoped BigOperators

/-! ## The three literals -/

/-- the row-count literal denotes the real `50000`. -/
theorem cN_eq : cN = ((50000 : ℝ) : EReal) := by
  simp [cN, Ideal.ofBits, Ideal.ieee, -EReal.coe_mul]; norm_num

/-- the variance offset denotes a positive real. -/
theorem cEps_pos : ∃ e : ℝ, 0 < e ∧ cEps = (e : EReal) := by
  simp [cEps, Ideal.ofBits, Ideal.ieee, -EReal.coe_mul]

/-- the residual weight denotes a real. -/
theorem cLam_real : ∃ l : ℝ, cLam = (l : EReal) := by
  simp [cLam, Ideal.ofBits, Ideal.ieee, -EReal.coe_mul]

theorem isReal_cN : IsReal cN := ⟨50000, cN_eq⟩
theorem isReal_cEps : IsReal cEps := let ⟨e, _, h⟩ := cEps_pos; ⟨e, h⟩
theorem isReal_cLam : IsReal cLam := cLam_real

/-! ## Closure of the real entries under the scalar operations -/

/-- an extended real that is neither infinity is a real number. -/
theorem isReal_of_ne_top_ne_bot {x : EReal} (h1 : x ≠ ⊤) (h2 : x ≠ ⊥) : IsReal x :=
  ⟨x.toReal, (EReal.coe_toReal h1 h2).symm⟩

theorem isReal_iff {x : EReal} : IsReal x ↔ x ≠ ⊤ ∧ x ≠ ⊥ := by
  constructor
  · rintro ⟨a, rfl⟩
    exact ⟨EReal.coe_ne_top a, EReal.coe_ne_bot a⟩
  · rintro ⟨h1, h2⟩
    exact isReal_of_ne_top_ne_bot h1 h2

theorem isReal_neg {x : EReal} (hx : IsReal x) : IsReal (-x) := by
  obtain ⟨a, rfl⟩ := hx
  exact ⟨-a, (EReal.coe_neg a).symm⟩

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem coe_max (a b : ℝ) : ((max a b : ℝ) : EReal) = max (a : EReal) (b : EReal) :=
  (EReal.coe_strictMono.monotone.map_max (a := a) (b := b))

theorem isReal_exp {x : EReal} (hx : IsReal x) : IsReal (Ideal.exp x) := by
  obtain ⟨a, rfl⟩ := hx
  exact ⟨Real.exp a, rfl⟩

/-- `log (1 + e^a)` for a real `a`: the argument is a positive real. -/
theorem log1p_exp_coe (a : ℝ) :
    Ideal.log1p (Ideal.exp (a : EReal)) = ((Real.log (1 + Real.exp a) : ℝ) : EReal) := by
  have hpos : ¬ (1 + Real.exp a ≤ 0) := not_le.mpr (by positivity)
  rw [Ideal.log1p, Ideal.exp_coe, ← EReal.coe_one, ← EReal.coe_add, Ideal.log_coe, if_neg hpos]

/-- softplus of a real is the real `max a 0 + log (1 + e^(−|a|))`. -/
theorem softplus_coe (a : ℝ) :
    softplus (a : EReal) = ((max a 0 + Real.log (1 + Real.exp (-(max a (-a)))) : ℝ) : EReal) := by
  rw [softplus, ← EReal.coe_neg a, ← coe_max a (-a), ← EReal.coe_neg, log1p_exp_coe, ← EReal.coe_zero,
    ← coe_max a 0, ← EReal.coe_add]

theorem isReal_softplus {x : EReal} (hx : IsReal x) : IsReal (softplus x) := by
  obtain ⟨a, rfl⟩ := hx
  exact ⟨_, softplus_coe a⟩

/-- the quotient of a real by the row count. -/
theorem div_cN_coe (a : ℝ) : Ideal.div (a : EReal) cN = ((a / 50000 : ℝ) : EReal) := by
  rw [cN_eq, Ideal.div_coe (by norm_num : (50000 : ℝ) ≠ 0), ← EReal.coe_mul, mul_one_div]

theorem isReal_div_cN {x : EReal} (hx : IsReal x) : IsReal (Ideal.div x cN) := by
  obtain ⟨a, rfl⟩ := hx
  exact ⟨_, div_cN_coe a⟩

/-- the reciprocal square root of a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-- a matrix product plus bias of real entries. -/
theorem isReal_dense {n K M : ℕ} (a : Fin n → Fin K → EReal) (w : Fin K → Fin M → EReal) (b : Fin M → EReal)
    (ha : ∀ i k, IsReal (a i k)) (hw : ∀ k j, IsReal (w k j)) (hb : ∀ j, IsReal (b j)) (i : Fin n) (j : Fin M) :
    IsReal (dense a w b i j) :=
  (IsReal.fsum _ fun k => (ha i k).mul (hw k j)).add (hb j)

end Cert.Spec

end
-- ==== Proof.SpecLayer0.lean ====
import Idealize.ShloMosaic.PureOps.Ideal
import proofs.«100017_j47974784696399_2_alg».proof.Proof.LibExtRealLayer
import proofs.«100017_j47974784696399_2_alg».proof.Proof.Spec
import proofs.«100017_j47974784696399_2_alg».proof.Proof.SpecReal

/-!
  The first layer: one product over the 320 joined columns equals three products over the column groups.

  A sum over `Fin 320` is the sum over its first 128, next 128 and last 64 indices; on each group the joined row
  is one of its three parts.  Addition of extended reals is commutative and associative, so no finiteness is needed.
-/

noncomputable section

namespace Cert.Spec

open Idealize.ShloMosaic
open Cert.ExtRealLayer
open scoped BigOperators

/-- a sum over 320 indices split as 128 + 128 + 64. -/
theorem sum_fin320 (f : Fin 320 → EReal) :
    (∑ k, f k) = ((∑ k : Fin 128, f ⟨k.val, by omega⟩) + (∑ k : Fin 128, f ⟨128 + k.val, by omega⟩))
      + ∑ k : Fin 64, f ⟨256 + k.val, by omega⟩ := by
  have h1 := Fin.sum_univ_add (M := EReal) (a := 256) (b := 64) f
  have h2 := Fin.sum_univ_add (M := EReal) (a := 128) (b := 128) (fun k => f (Fin.castAdd 64 k))
  rw [h1, h2]
  rfl

theorem comb_lo (x msg : Fin 50000 → Fin 128 → EReal) (gf : Fin 64 → EReal) (i : Fin 50000) (k : Fin 128) :
    comb x msg gf i ⟨k.val, by omega⟩ = x i k := by
  simp only [comb, dif_pos k.isLt]

theorem comb_mid (x msg : Fin 50000 → Fin 128 → EReal) (gf : Fin 64 → EReal) (i : Fin 50000) (k : Fin 128) :
    comb x msg gf i ⟨128 + k.val, by omega⟩ = msg i k := by
  have h1 : ¬ (128 + k.val < 128) := by omega
  have h2 : 128 + k.val < 256 := by omega
  simp only [comb, dif_neg h1, dif_pos h2]
  congr 1
  exact Fin.ext (by simp)

theorem comb_hi (x msg : Fin 50000 → Fin 128 → EReal) (gf : Fin 64 → EReal) (i : Fin 50000) (k : Fin 64) :
    comb x msg gf i ⟨256 + k.val, by omega⟩ = gf k := by
  have h1 : ¬ (256 + k.val < 128) := by omega
  have h2 : ¬ (256 + k.val < 256) := by omega
  simp only [comb, dif_neg h1, dif_neg h2]
  congr 1
  exact Fin.ext (by simp)

/-- the two arrangements of the first layer agree, on all extended reals. -/
theorem out0K_eq (x msg : Fin 50000 → Fin 128 → EReal) (gf : Fin 64 → EReal) (Wc : Fin 320 → Fin 128 → EReal)
    (bc : Fin 128 → EReal) : out0K x msg gf Wc bc = out0 x msg gf Wc bc := by
  funext i j
  unfold out0K out0 dense
  rw [sum_fin320]
  simp only [comb_lo, comb_mid, comb_hi]
  rw [add_assoc _ _ (bc j), add_comm _ (bc j)]

/-- the joined row of real parts is real. -/
theorem isReal_comb (x msg : Fin 50000 → Fin 128 → EReal) (gf : Fin 64 → EReal)
    (hx : ∀ n c, IsReal (x n c)) (hmsg : ∀ n c, IsReal (msg n c)) (hgf : ∀ k, IsReal (gf k))
    (i : Fin 50000) (k : Fin 320) : IsReal (comb x msg gf i k) := by
  unfold comb
  split_ifs
  · exact hx _ _
  · exact hmsg _ _
  · exact hgf _

/-- the first layer of real data is real. -/
theorem isReal_out0 (x msg : Fin 50000 → Fin 128 → EReal) (gf : Fin 64 → EReal) (Wc : Fin 320 → Fin 128 → EReal)
    (bc : Fin 128 → EReal)
    (hx : ∀ n c, IsReal (x n c)) (hmsg : ∀ n c, IsReal (msg n c)) (hgf : ∀ k, IsReal (gf k))
    (hWc : ∀ k j, IsReal (Wc k j)) (hbc : ∀ j, IsReal (bc j)) (i : Fin 50000) (j : Fin 128) :
    IsReal (out0 x msg gf Wc bc i j) :=
  isReal_softplus (isReal_dense _ Wc bc (isReal_comb x msg gf hx hmsg hgf) hWc hbc i j)

end Cert.Spec

end
-- ==== Proof.RefRunDefs.lean ====
/-
  The reference's stages as functions of arrays.

  The reference is one graph layer followed by two residual blocks.  Each stage below is the composition of the
  host operations the program runs for it, as a function of the arrays the stage reads: the per-node sum of edge
  features (a scatter-add into zeros), the first layer softplus ([x | msg | g] · Wc + bc), a block's inner features
  softplus (o · W1 + b1) · W2 + b2, the row softmax gate, the gated copies s ⊗ h laid out as [N, G·H], their column
  means and (biased) variances, the normalized, scaled and shifted copies summed over the groups, and the residual
  sums.  The result of the program is `out`: block b applied to block a applied to the first layer, plus the first
  layer.
-/
import proofs.«100017_j47974784696399_2_alg».proof.Proof.Gen.ReferenceIdeal

noncomputable section

namespace Cert.ReferenceIdeal.RefRun

open Cert.ReferenceIdeal Cert.ReferenceIdeal.Gen Idealize.ShloMosaic

variable {F : FTy → Type} [FloatOps F]

/-! ## Small pieces -/

/-- the constant 0 over [N, H]. -/
def zerosNH : FVec F S50000x128 .f32 :=
  broadcastInDim S50000x128 ![] bcast_S_S50000x128 (constant S_ .f32 0x00000000#32)

/-- a bias row [H] repeated over the N rows. -/
def rowsH (b : FVec F S128 .f32) : FVec F S50000x128 .f32 :=
  broadcastInDim S50000x128 ![0, 1] bcast_S1x128_S50000x128_0_1 (broadcastInDim S1x128 ![1] bcast_S128_S1x128_1 b)

/-- a bias row [G] repeated over the N rows. -/
def rowsG (b : FVec F S10 .f32) : FVec F S50000x10 .f32 :=
  broadcastInDim S50000x10 ![0, 1] bcast_S1x10_S50000x10_0_1 (broadcastInDim S1x10 ![1] bcast_S10_S1x10_1 b)

/-- a row [G·H] repeated over the N rows. -/
def rowsGH (v : FVec F S1280 .f32) : FVec F S50000x1280 .f32 :=
  broadcastInDim S50000x1280 ![0, 1] bcast_S1x1280_S50000x1280_0_1 (broadcastInDim S1x1280 ![1] bcast_S1280_S1x1280_1 v)

/-- a column [N] repeated over the G gate columns. -/
def colsG (v : FVec F S50000 .f32) : FVec F S50000x10 .f32 :=
  broadcastInDim S50000x10 ![0, 1] bcast_S50000x1_S50000x10_0_1 (broadcastInDim S50000x1 ![0] bcast_S50000_S50000x1_0 v)

/-- softplus as the program computes it: where x − 0 is unordered with itself x + 0, else
    max x 0 + log1p (exp (−|x − 0|)). -/
def softplusV (x : FVec F S50000x128 .f32) : FVec F S50000x128 .f32 :=
  select (cmpf .une (subf x zerosNH) (subf x zerosNH)) (addf x zerosNH)
    (addf (maximumf x zerosNH) (Host.log1p (Host.exp (Host.negf (Host.absf (subf x zerosNH))))))

/-! ## The first layer -/

/-- the destination-node column of the edge index, as the scatter's index array [E, 1]. -/
def rowIdx (a1 : IVec S2x800000 32) : IVec S800000x1 32 :=
  broadcastInDim S800000x1 ![0] bcast_S800000_S800000x1_0
    (shapeCast S800000 (extractStridedSlice S1x800000 ![0, 0] a1 slices_S2x800000_S1x800000_0_0) shapeCasts_S1x800000_S800000)

/-- the per-node sum of edge features: the scatter-add of the edge features into zeros at the destination nodes. -/
def msg (a1 : IVec S2x800000 32) (a2 : FVec F S800000x128 .f32) : FVec F S50000x128 .f32 :=
  Host.scatterAdd scatter_S50000x128_S800000x1_S800000x128_1_0_0_1 zerosNH (rowIdx a1) a2

/-- the global row repeated over the N rows. -/
def globRows (a3 : FVec F S1x64 .f32) : FVec F S50000x64 .f32 :=
  shapeCast S50000x64 (broadcastInDim S1x50000x64 ![0, 2] bcast_S1x64_S1x50000x64_0_2 a3) shapeCasts_S1x50000x64_S50000x64

/-- [x | msg | g], 320 columns. -/
def combV (a0 : FVec F S50000x128 .f32) (m : FVec F S50000x128 .f32) (g : FVec F S50000x64 .f32) : FVec F S50000x320 .f32 :=
  concatenate S50000x320 1 [⟨S50000x128, a0⟩, ⟨S50000x128, m⟩, ⟨S50000x64, g⟩]
    concatenates_S50000x128_S50000x128_S50000x64_S50000x320_d1

/-- the first layer: softplus ([x | msg | g] · Wc + bc). -/
def layer0 (a0 : FVec F S50000x128 .f32) (a1 : IVec S2x800000 32) (a2 : FVec F S800000x128 .f32) (a3 : FVec F S1x64 .f32)
    (a4 : FVec F S320x128 .f32) (a5 : FVec F S128 .f32) : FVec F S50000x128 .f32 :=
  softplusV (addf (Host.dotGeneral dot_S50000x320_S320x128_S50000x128_1_0_0_1_n_n none (combV a0 (msg a1 a2) (globRows a3)) a4)
    (rowsH a5))

/-! ## One residual block -/

/-- o · W + b over [N, H]. -/
def denseV (o : FVec F S50000x128 .f32) (W : FVec F S128x128 .f32) (b : FVec F S128 .f32) : FVec F S50000x128 .f32 :=
  addf (Host.dotGeneral dot_S50000x128_S128x128_S50000x128_1_0_0_1_n_n none o W) (rowsH b)

/-- the inner features softplus (o · W1 + b1) · W2 + b2. -/
def hidV (o : FVec F S50000x128 .f32) (W1 : FVec F S128x128 .f32) (b1 : FVec F S128 .f32) (W2 : FVec F S128x128 .f32)
    (b2 : FVec F S128 .f32) : FVec F S50000x128 .f32 :=
  denseV (softplusV (denseV o W1 b1)) W2 b2

/-- the gate's logits h · linW + linb over [N, G]. -/
def logitsV (h : FVec F S50000x128 .f32) (linW : FVec F S128x10 .f32) (linb : FVec F S10 .f32) : FVec F S50000x10 .f32 :=
  addf (Host.dotGeneral dot_S50000x128_S128x10_S50000x10_1_0_0_1_n_n none h linW) (rowsG linb)

/-- the row maximum, from −∞ (and once more against −∞). -/
def rowMaxV (z : FVec F S50000x10 .f32) : FVec F S50000 .f32 :=
  maximumf (broadcastInDim S50000 ![] bcast_S_S50000 (constant S_ .f32 0xFF800000#32))
    (Host.reduce FloatOps.maximumf z (constant S_ .f32 0xFF800000#32) reducesTo_S50000x10_S50000_d1 h_S_)

/-- exp (z − row maximum). -/
def expsV (z : FVec F S50000x10 .f32) : FVec F S50000x10 .f32 :=
  Host.exp (subf z (colsG (rowMaxV z)))

/-- the row softmax. -/
def softmaxV (z : FVec F S50000x10 .f32) : FVec F S50000x10 .f32 :=
  Host.divf (expsV z) (colsG (Host.reduceAdd (expsV z) (constant S_ .f32 0x00000000#32) reducesTo_S50000x10_S50000_d1 h_S_))

/-- the gated copies s n g · h n c, laid out as [N, G·H]. -/
def gatedV (s : FVec F S50000x10 .f32) (h : FVec F S50000x128 .f32) : FVec F S50000x1280 .f32 :=
  shapeCast S50000x1280
    (mulf (broadcastInDim S50000x10x128 ![0, 1, 2] bcast_S50000x10x1_S50000x10x128_0_1_2
            (broadcastInDim S50000x10x1 ![0, 1] bcast_S50000x10_S50000x10x1_0_1 s))
          (broadcastInDim S50000x10x128 ![0, 1, 2] bcast_S50000x1x128_S50000x10x128_0_1_2
            (broadcastInDim S50000x1x128 ![0, 2] bcast_S50000x128_S50000x1x128_0_2 h)))
    shapeCasts_S50000x10x128_S50000x1280

/-- column sums over the N rows, from 0. -/
def colSumV (O : FVec F S50000x1280 .f32) : FVec F S1280 .f32 :=
  Host.reduceAdd O (constant S_ .f32 0x00000000#32) reducesTo_S50000x1280_S1280_d0 h_S_

/-- column means: the sums over 50000. -/
def meanV (O : FVec F S50000x1280 .f32) : FVec F S1280 .f32 :=
  Host.divf (colSumV O) (broadcastInDim S1280 ![] bcast_S_S1280 (constant S_ .f32 0x47435000#32))

/-- the variance routine's own column means, as a row [1, G·H]. -/
def varMeanV (O : FVec F S50000x1280 .f32) : FVec F S1x1280 .f32 :=
  Host.divf (broadcastInDim S1x1280 ![1] bcast_S1280_S1x1280_1 (colSumV O))
    (broadcastInDim S1x1280 ![] bcast_S_S1x1280 (constant S_ .f32 0x47435000#32))

/-- the variance routine's centred entries. -/
def varDevV (O : FVec F S50000x1280 .f32) : FVec F S50000x1280 .f32 :=
  subf O (broadcastInDim S50000x1280 ![0, 1] bcast_S1x1280_S50000x1280_0_1 (varMeanV O))

/-- the variance routine's divisor: 50000 minus the correction 0 (an integer, converted). -/
def varCntV : FVec F S_ .f32 :=
  subf (constant S_ .f32 0x47435000#32) (sitofp .f32 (constantI S_ 32 0#32))

/-- the column variances as the routine computes them: the sum of centred squares over the divisor where the divisor
    is positive, else the routine's stand-in constant. -/
def varV (O : FVec F S50000x1280 .f32) : FVec F S1280 .f32 :=
  select (broadcastInDim S1280 ![] bcast_S_S1280 (cmpf .ogt (varCntV (F := F)) (constant S_ .f32 0x00000000#32)))
    (Host.divf (colSumV (mulf (varDevV O) (varDevV O))) (broadcastInDim S1280 ![] bcast_S_S1280 varCntV))
    (broadcastInDim S1280 ![] bcast_S_S1280 (id (constant S_ .f32 0x7FC00000#32) : FVec F S_ .f32))

/-- the copies minus their column means. -/
def cenV (O : FVec F S50000x1280 .f32) (mu : FVec F S1280 .f32) : FVec F S50000x1280 .f32 :=
  subf O (rowsGH mu)

/-- variance plus ε. -/
def vepsV (v : FVec F S1280 .f32) : FVec F S1280 .f32 :=
  addf v (broadcastInDim S1280 ![] bcast_S_S1280 (constant S_ .f32 0x3727C5AC#32))

/-- centred · rsqrt (variance + ε) · γ + β over [N, G·H]. -/
def normV (cen : FVec F S50000x1280 .f32) (veps gamma beta : FVec F S1280 .f32) : FVec F S50000x1280 .f32 :=
  addf (mulf (mulf cen (rowsGH (Host.rsqrt veps))) (rowsGH gamma)) (rowsGH beta)

/-- the sum over the G groups of an [N, G·H] array read as [N, G, H], from 0. -/
def groupSumV (n : FVec F S50000x1280 .f32) : FVec F S50000x128 .f32 :=
  Host.reduceAdd (shapeCast S50000x10x128 n shapeCasts_S50000x1280_S50000x10x128) (constant S_ .f32 0x00000000#32)
    reducesTo_S50000x10x128_S50000x128_d1 h_S_

/-- a block's last steps: o + (h + λ · Σ_g normalized copies). -/
def blkTailV (o h : FVec F S50000x128 .f32) (cen : FVec F S50000x1280 .f32) (veps gamma beta : FVec F S1280 .f32) :
    FVec F S50000x128 .f32 :=
  addf o (addf h (mulf (broadcastInDim S50000x128 ![] bcast_S_S50000x128 (constant S_ .f32 0x3C23D70A#32))
    (groupSumV (normV cen veps gamma beta))))

/-- a block's gated copies, from its input. -/
def blkGatedV (o : FVec F S50000x128 .f32) (W1 : FVec F S128x128 .f32) (b1 : FVec F S128 .f32) (W2 : FVec F S128x128 .f32)
    (b2 : FVec F S128 .f32) (linW : FVec F S128x10 .f32) (linb : FVec F S10 .f32) : FVec F S50000x1280 .f32 :=
  gatedV (softmaxV (logitsV (hidV o W1 b1 W2 b2) linW linb)) (hidV o W1 b1 W2 b2)

/-- one residual block. -/
def blk (o : FVec F S50000x128 .f32) (W1 : FVec F S128x128 .f32) (b1 : FVec F S128 .f32) (W2 : FVec F S128x128 .f32)
    (b2 : FVec F S128 .f32) (linW : FVec F S128x10 .f32) (linb : FVec F S10 .f32) (gamma beta : FVec F S1280 .f32) :
    FVec F S50000x128 .f32 :=
  blkTailV o (hidV o W1 b1 W2 b2)
    (cenV (blkGatedV o W1 b1 W2 b2 linW linb) (meanV (blkGatedV o W1 b1 W2 b2 linW linb)))
    (vepsV (varV (blkGatedV o W1 b1 W2 b2 linW linb))) gamma beta

/-- the program's result as a function of its 22 argument arrays. -/
def out (a0 : FVec F S50000x128 .f32) (a1 : IVec S2x800000 32) (a2 : FVec F S800000x128 .f32) (a3 : FVec F S1x64 .f32)
    (a4 : FVec F S320x128 .f32) (a5 : FVec F S128 .f32)
    (a6 : FVec F S128x128 .f32) (a7 : FVec F S128 .f32) (a8 : FVec F S128x128 .f32) (a9 : FVec F S128 .f32)
    (a10 : FVec F S128x10 .f32) (a11 : FVec F S10 .f32) (a12 a13 : FVec F S1280 .f32)
    (a14 : FVec F S128x128 .f32) (a15 : FVec F S128 .f32) (a16 : FVec F S128x128 .f32) (a17 : FVec F S128 .f32)
    (a18 : FVec F S128x10 .f32) (a19 : FVec F S10 .f32) (a20 a21 : FVec F S1280 .f32) : FVec F S50000x128 .f32 :=
  addf (blk (blk (layer0 a0 a1 a2 a3 a4 a5) a6 a7 a8 a9 a10 a11 a12 a13) a14 a15 a16 a17 a18 a19 a20 a21)
    (layer0 a0 a1 a2 a3 a4 a5)

end Cert.ReferenceIdeal.RefRun

end
-- ==== Proof.KVal0.lean ====
/-
  The first launch's value is the first layer of the collapsed arrangement.

  The launch multiplies the node features by the first 128 rows of the combine weights and the aggregated messages by
  the next 128, and adds the one-row bias bc + global · (the last 64 rows): the three column groups of
  [x | msg | g] · Wc + bc.  The aggregated messages themselves are the same scatter-add in both programs.
-/
import proofs.«100017_j47974784696399_2_alg».proof.Proof.KReg0
import proofs.«100017_j47974784696399_2_alg».proof.Proof.KHost
import proofs.«100017_j47974784696399_2_alg».proof.Proof.KHostB
import proofs.«100017_j47974784696399_2_alg».proof.Proof.SpecLayer0
import proofs.«100017_j47974784696399_2_alg».proof.Proof.RefRunDefs

noncomputable section

namespace Cert.KernelIdeal.KVal0

open Idealize.ShloMosaic Idealize.ShloMosaic.ValueIdx Cert.KernelIdeal Cert.KernelIdeal.Gen
open scoped BigOperators

/-- the first launch's output at (n, j), from the program's arguments. -/
theorem layer0_glue (a0 : FVec Ideal S50000x128 .f32) (a1 : IVec S2x800000 32) (a2 : FVec Ideal S800000x128 .f32)
    (a3 : FVec Ideal S1x64 .f32) (a4 : FVec Ideal S320x128 .f32) (a5 : FVec Ideal S128 .f32) (n : Fin 50000) (j : Fin 128) :
    Cert.KernelIdeal.KReg0.G a0 (KHost.msgK a1 a2) (extractStridedSlice S128x128 ![0, 0] a4 slices_S320x128_S128x128_0_0)
        (extractStridedSlice S128x128 ![128, 0] a4 slices_S320x128_S128x128_128_0) (KHost.biasK a3 a4 a5) (ix2 n j)
      = Cert.Spec.out0K (fun i k => a0 (ix2 i k)) (fun i k => KHost.msgK a1 a2 (ix2 i k)) (fun k => a3 (ix2 (0 : Fin 1) k))
          (fun k j => a4 (ix2 k j)) (fun j => a5 (ix1 j)) n j := by
  unfold Cert.KernelIdeal.KReg0.G Cert.Spec.out0K
  refine congrArg Cert.Spec.softplus (congrArg₂ (· + ·) (congrArg₂ (· + ·)
    (Finset.sum_congr rfl fun k _ => ?_) (Finset.sum_congr rfl fun k _ => ?_)) ?_)
  · show a0 (ix2 n k) * extractStridedSlice S128x128 ![0, 0] a4 slices_S320x128_S128x128_0_0 (ix2 k j) = _
    rw [KHost.wx_apply]
  · show KHost.msgK a1 a2 (ix2 n k) * extractStridedSlice S128x128 ![128, 0] a4 slices_S320x128_S128x128_128_0 (ix2 k j) = _
    rw [KHost.wm_apply]
  · exact KHostB.biasK_apply a3 a4 a5 j

/-- the aggregated messages are the reference's: the same six operations. -/
theorem msgK_eq_ref (a1 : IVec S2x800000 32) (a2 : FVec Ideal S800000x128 .f32) :
    KHost.msgK a1 a2 = Cert.ReferenceIdeal.RefRun.msg (F := Ideal) a1 a2 := rfl

end Cert.KernelIdeal.KVal0

end
-- ==== Proof.KReg4.lean ====
/-
  What the last gate-apply launch leaves in its output array.

  The grid has 25 points; point t works on rows 2000·t … 2000·t + 1999 of the block's inner features h and of the
  block's input o and of the first layer's output, on the whole of the gate's weights and bias, of the ten rows A and of the one row cc, and
  writes rows 2000·t … of the output.  The blocks tile the 50000 rows, so the output array ends holding, at (n, j),
  o n j + (h n j + λ·(h n j · Σ g, s n g · A g j − cc j)) + first n j  with s the row softmax of h·linW + linb of the WHOLE array h:
  the gate of a row depends on that row only.
-/
import proofs.«100017_j47974784696399_2_alg».proof.Proof.Gen.KernelIdeal.Frame
import proofs.«100017_j47974784696399_2_alg».proof.Proof.KPay2
import proofs.«100017_j47974784696399_2_alg».proof.Proof.KReg2
import Idealize.ShloMosaic.Lib.Pipeline.Value
import Idealize.ShloMosaic.Lib.ValueIdx

set_option maxHeartbeats 400000
set_option maxRecDepth 16384

noncomputable section

namespace Cert.KernelIdeal.KReg4

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The launch's value at an index of the output array, from the arrays it reads. -/
def G (h o : S50000x128.Idx → EReal) (linW : S128x10.Idx → EReal) (linb : S1x10.Idx → EReal) (A : S10x128.Idx → EReal)
    (cc : S1x128.Idx → EReal) (ex : S50000x128.Idx → EReal) : S50000x128.Idx → EReal :=
  fun i => Cert.KernelIdeal.KReg2.G h o linW linb A cc i + ex i

/-- The printed index maps over the grid: the row-block windows move with the point, the others stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- What point t writes back is block t of the launch's value. -/
theorem flushed_eq (c : Dev nD) (t : Fin cfg4.N) :
    (dat4 V c).flushed 7 t = ((cfg4.win 7).blk t).view.read (Elt Ideal)
      (G (V c main_v52_0) (V c main_v46) (V c main_arg18) (V c main_v49) (V c main_v74) (V c main_v80) (V c main_v11)) := by
  show (cfg4.win 7).cut (grid4.coords t) ((dat4 V c).after 7 t) = _
  rw [after4_7]
  unfold out4_7
  rw [View.canon_unit_zero hz]
  simp only [View.ld_unit_zero (S := S2000x128) hz, View.ld_unit_zero (S := S128x10) hz, View.ld_unit_zero (S := S1x10) hz, View.ld_unit_zero (S := S10x128) hz, View.ld_unit_zero (S := S1x128) hz]
  funext j
  obtain ⟨p, q, rfl⟩ : ∃ (p : Fin 2000) (q : Fin 128), j = ix2 p q := ⟨j 0, j 1, eq_ix2 j⟩
  refine (KPay.pay4_apply _ _ _ _ _ _ _ p q).trans ?_
  obtain ⟨e00, e01, e10, e11, e20, e21, e30, e31, e40, e41, e50, e51, e60, e61, e70, e71⟩ := idx_facts t
  have ht : t.val < 25 := t.isLt
  have hp : p.val < 2000 := p.isLt
  have hn : t.val * 2000 + p.val < 50000 := by omega
  -- the blocks of the row windows are rows 2000·t + p of their arrays; the other windows are whole arrays
  have hh : ∀ k : Fin 128, (iblk4 V c 0 t (ix2 p k) : EReal) = V c main_v52_0 (ix2 (⟨t.val * 2000 + p.val, hn⟩ : Fin 50000) k) := fun k => by
    show V c main_v52_0 (((cfg4.win 0).blk t).view.emb (ix2 p k)) = _
    refine congrArg _ (funext fun a => Fin.ext ?_)
    match a with
    | ⟨0, _⟩ => show win4_0.index t (0 : Fin 2) * 2000 + 1 * p.val = t.val * 2000 + p.val; omega
    | ⟨1, _⟩ => show win4_0.index t (1 : Fin 2) * 128 + 1 * k.val = k.val; omega
  have ho : (iblk4 V c 1 t (ix2 p q) : EReal) = V c main_v46 (ix2 (⟨t.val * 2000 + p.val, hn⟩ : Fin 50000) q) := by
    show V c main_v46 (((cfg4.win 1).blk t).view.emb (ix2 p q)) = _
    refine congrArg _ (funext fun a => Fin.ext ?_)
    match a with
    | ⟨0, _⟩ => show win4_1.index t (0 : Fin 2) * 2000 + 1 * p.val = t.val * 2000 + p.val; omega
    | ⟨1, _⟩ => show win4_1.index t (1 : Fin 2) * 128 + 1 * q.val = q.val; omega
  have hex : (iblk4 V c 2 t (ix2 p q) : EReal) = V c main_v11 (ix2 (⟨t.val * 2000 + p.val, hn⟩ : Fin 50000) q) := by
    show V c main_v11 (((cfg4.win 2).blk t).view.emb (ix2 p q)) = _
    refine congrArg _ (funext fun a => Fin.ext ?_)
    match a with
    | ⟨0, _⟩ => show win4_2.index t (0 : Fin 2) * 2000 + 1 * p.val = t.val * 2000 + p.val; omega
    | ⟨1, _⟩ => show win4_2.index t (1 : Fin 2) * 128 + 1 * q.val = q.val; omega
  have hW : ∀ (k : Fin 128) (g : Fin 10), (iblk4 V c 3 t (ix2 k g) : EReal) = V c main_arg18 (ix2 k g) := fun k g => by
    show V c main_arg18 (((cfg4.win 3).blk t).view.emb (ix2 k g)) = _
    refine congrArg _ (funext fun a => Fin.ext ?_)
    match a with
    | ⟨0, _⟩ => show win4_3.index t (0 : Fin 2) * 128 + 1 * k.val = k.val; omega
    | ⟨1, _⟩ => show win4_3.index t (1 : Fin 2) * 10 + 1 * g.val = g.val; omega
  have hb : ∀ g : Fin 10, (iblk4 V c 4 t (ix2 (0 : Fin 1) g) : EReal) = V c main_v49 (ix2 (0 : Fin 1) g) := fun g => by
    show V c main_v49 (((cfg4.win 4).blk t).view.emb (ix2 (0 : Fin 1) g)) = _
    refine congrArg _ (funext fun a => Fin.ext ?_)
    match a with
    | ⟨0, _⟩ => show win4_4.index t (0 : Fin 2) * 1 + 1 * 0 = 0; omega
    | ⟨1, _⟩ => show win4_4.index t (1 : Fin 2) * 10 + 1 * g.val = g.val; omega
  have hA : ∀ g : Fin 10, (iblk4 V c 5 t (ix2 g q) : EReal) = V c main_v74 (ix2 g q) := fun g => by
    show V c main_v74 (((cfg4.win 5).blk t).view.emb (ix2 g q)) = _
    refine congrArg _ (funext fun a => Fin.ext ?_)
    match a with
    | ⟨0, _⟩ => show win4_5.index t (0 : Fin 2) * 10 + 1 * g.val = g.val; omega
    | ⟨1, _⟩ => show win4_5.index t (1 : Fin 2) * 128 + 1 * q.val = q.val; omega
  have hc : (iblk4 V c 6 t (ix2 (0 : Fin 1) q) : EReal) = V c main_v80 (ix2 (0 : Fin 1) q) := by
    show V c main_v80 (((cfg4.win 6).blk t).view.emb (ix2 (0 : Fin 1) q)) = _
    refine congrArg _ (funext fun a => Fin.ext ?_)
    match a with
    | ⟨0, _⟩ => show win4_6.index t (0 : Fin 2) * 1 + 1 * 0 = 0; omega
    | ⟨1, _⟩ => show win4_6.index t (1 : Fin 2) * 128 + 1 * q.val = q.val; omega
  refine (congrArg₂ (· + ·) (Cert.KernelIdeal.KReg2.tile_to_array (iblk4 V c 0 t) (iblk4 V c 1 t) (iblk4 V c 3 t) (iblk4 V c 4 t)
    (iblk4 V c 5 t) (iblk4 V c 6 t) (V c main_v52_0) (V c main_v46) (V c main_arg18) (V c main_v49) (V c main_v74)
    (V c main_v80) p q (⟨t.val * 2000 + p.val, hn⟩ : Fin 50000) hh ho hW hb hA hc) hex).trans ?_
  -- the output's block puts (p, q) at row 2000·t + p, column q
  show _ = G _ _ _ _ _ _ _ (((cfg4.win 7).blk t).view.emb (ix2 p q))
  have i0 : (⟨((((cfg4.win 7).blk t).view.emb (ix2 p q)) 0).val, idx2_lt0 _⟩ : Fin 50000) = ⟨t.val * 2000 + p.val, hn⟩ :=
    Fin.ext (by show win4_7.index t (0 : Fin 2) * 2000 + 1 * p.val = t.val * 2000 + p.val; omega)
  have i1 : (⟨((((cfg4.win 7).blk t).view.emb (ix2 p q)) 1).val, idx2_lt1 _⟩ : Fin 128) = q :=
    Fin.ext (by show win4_7.index t (1 : Fin 2) * 128 + 1 * q.val = q.val; omega)
  have i2 : ((cfg4.win 7).blk t).view.emb (ix2 p q) = ix2 (⟨t.val * 2000 + p.val, hn⟩ : Fin 50000) q :=
    funext fun a => Fin.ext (by
      match a with
      | ⟨0, _⟩ => show win4_7.index t (0 : Fin 2) * 2000 + 1 * p.val = t.val * 2000 + p.val; omega
      | ⟨1, _⟩ => show win4_7.index t (1 : Fin 2) * 128 + 1 * q.val = q.val; omega)
  unfold G Cert.KernelIdeal.KReg2.G
  rw [i0, i1, i2]

/-- An index of the output array is in point t's block iff each coordinate is in the block's range on its axis. -/
theorem mem_blk (t : Fin cfg4.N) (i : S50000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_v81).slice (win4_7.rect t)).set ↔ _
  rw [View.set_slice_whole, Rect.mem_set_unit]
  exact Iff.rfl

/-- Every row of the output is in some point's block: row r in point r / 2000's. -/
theorem cover (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  refine ⟨⟨(i 0).val / 2000, by show (i 0).val / 2000 < 25; omega⟩, flush4_7 _, ?_⟩
  rw [mem_blk]
  obtain ⟨-, -, -, -, -, -, -, -, -, -, -, -, -, -, e70, e71⟩ := idx_facts ⟨(i 0).val / 2000, by show (i 0).val / 2000 < 25; omega⟩
  intro a
  match a with
  | ⟨0, _⟩ => show win4_7.index _ (0 : Fin 2) * 2000 ≤ (i 0).val ∧ (i 0).val < win4_7.index _ (0 : Fin 2) * 2000 + 2000; rw [e70]; show (i 0).val / 2000 * 2000 ≤ _ ∧ _ < (i 0).val / 2000 * 2000 + 2000; omega
  | ⟨1, _⟩ => show win4_7.index _ (1 : Fin 2) * 128 ≤ (i 1).val ∧ (i 1).val < win4_7.index _ (1 : Fin 2) * 128 + 128; omega

/-- The output array after the launch. -/
theorem arr (c : Dev nD) : (dat4 V c).arrAt 7 cfg4.N
    = G (V c main_v52_0) (V c main_v46) (V c main_arg18) (V c main_v49) (V c main_v74) (V c main_v80) (V c main_v11) :=
  (dat4 V c).arrAt_eq_of_cover 7 _ (fun t _ => flushed_eq V c t) cover

/-- the launch's value at an entry. -/
theorem G_apply (h o : S50000x128.Idx → EReal) (linW : S128x10.Idx → EReal) (linb : S1x10.Idx → EReal)
    (A : S10x128.Idx → EReal) (cc : S1x128.Idx → EReal) (ex : S50000x128.Idx → EReal) (n : Fin 50000) (j : Fin 128) :
    G h o linW linb A cc ex (ix2 n j)
      = (o (ix2 n j) + (h (ix2 n j) + Cert.Spec.cLam * (h (ix2 n j)
      * (∑ g : Fin 10, Cert.Spec.softmax (Cert.Spec.dense (fun i k => h (ix2 i k)) (fun k g => linW (ix2 k g))
          (fun g => linb (ix2 (0 : Fin 1) g))) n g * A (ix2 g j)) - cc (ix2 (0 : Fin 1) j)))) + ex (ix2 n j) := rfl

/-- … and the output array at an entry. -/
theorem arr_apply (c : Dev nD) (n : Fin 50000) (j : Fin 128) : (dat4 V c).arrAt 7 cfg4.N (ix2 n j)
    = G (V c main_v52_0) (V c main_v46) (V c main_arg18) (V c main_v49) (V c main_v74) (V c main_v80) (V c main_v11) (ix2 n j) :=
  congrFun (arr V c) (ix2 n j)

end Cert.KernelIdeal.KReg4

end
-- ==== Proof.SpecHalves.lean ====
import Idealize.ShloMosaic.PureOps.Ideal

/-!
  A sum over the 50000 rows is the sum over the first 25000 plus the sum over the last 25000.
-/

noncomputable section

namespace Cert.Spec

open scoped BigOperators

/-- a sum over 50000 indices split into its two halves. -/
theorem sum_halves (f : Fin 50000 → EReal) :
    (∑ n, f n) = (∑ q : Fin 25000, f ⟨q.val, by omega⟩) + ∑ q : Fin 25000, f ⟨25000 + q.val, by omega⟩ := by
  have h := Fin.sum_univ_add (M := EReal) (a := 25000) (b := 25000) f
  rw [h]
  rfl

end Cert.Spec

end
-- ==== Proof.KGlue.lean ====
/-
  A residual block, launch by launch, against the collapsed arrangement.

  The gate-apply launch leaves  o + (h + λ·(h · Σ g, s · A − cc))  with s the row softmax of h·linW + linb.  When
  h is the block's inner features of o, when the two accumulator arrays hold, per half of the rows, the sums of
  s·h and of s²·h², and when A and cc are what the host makes of those accumulators, this is the collapsed
  arrangement of the block: the two halves add up to the sums over all 50000 rows.
-/
import proofs.«100017_j47974784696399_2_alg».proof.Proof.KReg2
import proofs.«100017_j47974784696399_2_alg».proof.Proof.KReg4
import proofs.«100017_j47974784696399_2_alg».proof.Proof.KHostB
import proofs.«100017_j47974784696399_2_alg».proof.Proof.SpecHalves

noncomputable section

namespace Cert.KernelIdeal.KGlue

open Idealize.ShloMosaic Idealize.ShloMosaic.ValueIdx Cert.KernelIdeal Cert.KernelIdeal.Gen
open scoped BigOperators

/-- a two-axis array as a function of its two coordinates. -/
abbrev f2 {a b : ℕ} (X : (⟨2, ![a, b]⟩ : Shape).Idx → EReal) : Fin a → Fin b → EReal := fun i j => X (ix2 i j)
/-- a one-row array as a function of its column. -/
abbrev r1 {b : ℕ} (X : (⟨2, ![1, b]⟩ : Shape).Idx → EReal) : Fin b → EReal := fun j => X (ix2 (0 : Fin 1) j)

/-- row q of half k. -/
theorem row_lt (k : Fin 2) (q : Fin 25000) : k.val * 25000 + q.val < 50000 := by
  have := k.isLt
  have := q.isLt
  omega

/-- the two halves of an accumulator add up to the sum over all rows. -/
theorem pair_eq_sum (F : Fin 50000 → EReal) (x : S2x10x128.Idx → EReal) (g : Fin 10) (j : Fin 128)
    (hx : ∀ k : Fin 2, x (ix3 k g j) = ∑ q : Fin 25000, F ⟨k.val * 25000 + q.val, row_lt k q⟩) :
    KHostB.pairSum x g j = ∑ n, F n := by
  rw [Cert.Spec.sum_halves F]
  show x (ix3 (0 : Fin 2) g j) + x (ix3 (1 : Fin 2) g j) = _
  rw [hx 0, hx 1]
  refine congrArg₂ (· + ·) (Finset.sum_congr rfl fun q _ => congrArg F (Fin.ext ?_))
    (Finset.sum_congr rfl fun q _ => congrArg F (Fin.ext ?_))
  · show 0 * 25000 + q.val = q.val
    omega
  · show 1 * 25000 + q.val = 25000 + q.val
    omega

section
variable (oarr harr : S50000x128.Idx → EReal) (sarr qarr : S2x10x128.Idx → EReal) (W1 W2 : S128x128.Idx → EReal)
  (b1r b2r : S1x128.Idx → EReal) (linW : S128x10.Idx → EReal) (linbr : S1x10.Idx → EReal)
  (gammaR betaR : S10x128.Idx → EReal)

/-- the block's inner features of the array o. -/
abbrev HH : Fin 50000 → Fin 128 → EReal := Cert.Spec.hid (f2 oarr) (f2 W1) (r1 b1r) (f2 W2) (r1 b2r)
/-- their gate. -/
abbrev SS : Fin 50000 → Fin 10 → EReal := Cert.Spec.gate (HH oarr W1 W2 b1r b2r) (f2 linW) (r1 linbr)

/-- a gate-apply launch's value, given what its operands hold, is the collapsed arrangement of the block. -/
theorem blockK_glue
    (hh : ∀ n j, harr (ix2 n j) = HH oarr W1 W2 b1r b2r n j)
    (hs : ∀ (k : Fin 2) (g : Fin 10) (j : Fin 128), sarr (ix3 k g j)
      = ∑ q : Fin 25000, SS oarr W1 W2 b1r b2r linW linbr ⟨k.val * 25000 + q.val, row_lt k q⟩ g
          * HH oarr W1 W2 b1r b2r ⟨k.val * 25000 + q.val, row_lt k q⟩ j)
    (hq : ∀ (k : Fin 2) (g : Fin 10) (j : Fin 128), qarr (ix3 k g j)
      = ∑ q : Fin 25000, (SS oarr W1 W2 b1r b2r linW linbr ⟨k.val * 25000 + q.val, row_lt k q⟩ g
            * SS oarr W1 W2 b1r b2r linW linbr ⟨k.val * 25000 + q.val, row_lt k q⟩ g)
          * (HH oarr W1 W2 b1r b2r ⟨k.val * 25000 + q.val, row_lt k q⟩ j
            * HH oarr W1 W2 b1r b2r ⟨k.val * 25000 + q.val, row_lt k q⟩ j))
    (n : Fin 50000) (j : Fin 128) :
    Cert.KernelIdeal.KReg2.G harr oarr linW linbr (KHostB.AH sarr qarr gammaR) (KHostB.ccH sarr qarr gammaR betaR) (ix2 n j)
      = Cert.Spec.blockK (f2 oarr) (f2 W1) (r1 b1r) (f2 W2) (r1 b2r) (f2 linW) (r1 linbr) (f2 gammaR) (f2 betaR) n j := by
  have hH : (fun i k => harr (ix2 i k)) = HH oarr W1 W2 b1r b2r := funext fun i => funext fun k => hh i k
  have hS : ∀ g j, KHostB.pairSum sarr g j
      = Cert.Spec.Ssum (HH oarr W1 W2 b1r b2r) (SS oarr W1 W2 b1r b2r linW linbr) g j := fun g j =>
    pair_eq_sum (fun n => SS oarr W1 W2 b1r b2r linW linbr n g * HH oarr W1 W2 b1r b2r n j) sarr g j
      (fun k => hs k g j)
  have hQ : ∀ g j, KHostB.pairSum qarr g j
      = Cert.Spec.Qsum (HH oarr W1 W2 b1r b2r) (SS oarr W1 W2 b1r b2r linW linbr) g j := fun g j =>
    pair_eq_sum (fun n => (SS oarr W1 W2 b1r b2r linW linbr n g * SS oarr W1 W2 b1r b2r linW linbr n g)
        * (HH oarr W1 W2 b1r b2r n j * HH oarr W1 W2 b1r b2r n j)) qarr g j (fun k => hq k g j)
  have hA : ∀ g, KHostB.AH sarr qarr gammaR (ix2 g j)
      = Cert.Spec.A (HH oarr W1 W2 b1r b2r) (SS oarr W1 W2 b1r b2r linW linbr) (f2 gammaR) g j := fun g =>
    KHostB.AH_eq_spec _ _ (f2 gammaR) sarr qarr gammaR hS hQ (fun _ _ => rfl) g j
  have hc : KHostB.ccH sarr qarr gammaR betaR (ix2 (0 : Fin 1) j)
      = Cert.Spec.cc (HH oarr W1 W2 b1r b2r) (SS oarr W1 W2 b1r b2r linW linbr) (f2 gammaR) (f2 betaR) j :=
    KHostB.ccH_eq_spec _ _ (f2 gammaR) (f2 betaR) sarr qarr gammaR betaR hS hQ (fun _ _ => rfl) (fun _ _ => rfl) j
  rw [Cert.KernelIdeal.KReg2.G_apply, hH, hh n j, hc]
  simp only [hA]
  rfl

/-- the last launch adds the first layer's output last. -/
theorem blockK_glue4 (ex : S50000x128.Idx → EReal)
    (hh : ∀ n j, harr (ix2 n j) = HH oarr W1 W2 b1r b2r n j)
    (hs : ∀ (k : Fin 2) (g : Fin 10) (j : Fin 128), sarr (ix3 k g j)
      = ∑ q : Fin 25000, SS oarr W1 W2 b1r b2r linW linbr ⟨k.val * 25000 + q.val, row_lt k q⟩ g
          * HH oarr W1 W2 b1r b2r ⟨k.val * 25000 + q.val, row_lt k q⟩ j)
    (hq : ∀ (k : Fin 2) (g : Fin 10) (j : Fin 128), qarr (ix3 k g j)
      = ∑ q : Fin 25000, (SS oarr W1 W2 b1r b2r linW linbr ⟨k.val * 25000 + q.val, row_lt k q⟩ g
            * SS oarr W1 W2 b1r b2r linW linbr ⟨k.val * 25000 + q.val, row_lt k q⟩ g)
          * (HH oarr W1 W2 b1r b2r ⟨k.val * 25000 + q.val, row_lt k q⟩ j
            * HH oarr W1 W2 b1r b2r ⟨k.val * 25000 + q.val, row_lt k q⟩ j))
    (n : Fin 50000) (j : Fin 128) :
    Cert.KernelIdeal.KReg4.G harr oarr linW linbr (KHostB.AH sarr qarr gammaR) (KHostB.ccH sarr qarr gammaR betaR) ex
        (ix2 n j)
      = Cert.Spec.blockK (f2 oarr) (f2 W1) (r1 b1r) (f2 W2) (r1 b2r) (f2 linW) (r1 linbr) (f2 gammaR) (f2 betaR) n j
        + ex (ix2 n j) := by
  show Cert.KernelIdeal.KReg2.G harr oarr linW linbr (KHostB.AH sarr qarr gammaR) (KHostB.ccH sarr qarr gammaR betaR)
      (ix2 n j) + ex (ix2 n j) = _
  rw [blockK_glue oarr harr sarr qarr W1 W2 b1r b2r linW linbr gammaR betaR hh hs hq n j]

end

end Cert.KernelIdeal.KGlue

end
-- ==== Proof.KStepA1Piece.lean ====
/-
  What one grid point of the reduction kernel leaves in its three output buffers, as values of its loaded blocks.

  The body stores the inner features h of its 1000-row tile (one store over the whole buffer), and adds the tile's
  partial sums into the two [1, 10, 128] accumulators (one store over the whole buffer each, of the buffer's contents
  plus the tile's product). At the first tile of a core the accumulators are first stored with zeros, and the
  contents the additions read are those zeros; elsewhere they are what the buffer held on entry. The statements
  hold for any float values.
-/
import proofs.«100017_j47974784696399_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.StepA1

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Not the first tile of a core: the feature buffer is left holding the tile's inner features. -/
theorem out_B_7 (c : Dev nD) (i : grid1.Coords) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S1000x128 .f32) (harg9 : arg9.IsWhole) (arg10 : Memref sig .tc .vmem S1x10x128 .f32) (harg10 : arg10.IsWhole) (arg11 : Memref sig .tc .vmem S1x10x128 .f32) (harg11 : arg11.IsWhole) (hc0 : ¬cond1_0 i)
    (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32) (xo8 xo9 : Vec F S1x10x128 .f32) :
    out1_B_7 c i arg2 harg2 arg3 harg3 arg4 harg4 arg5 harg5 arg6 harg6 arg7 harg7 arg8 harg8 arg9 harg9 arg10 harg10 arg11 harg11 hc0 x0 x1 x2 x3 x4 x5 x6 xo8 xo9 = k1_pay6 x0 x1 x2 x3 x4 := by
  unfold out1_B_7
  rw [View.read_writes_eq_canon _ _ _ (cover1_B_7 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun1_B
  dsimp only
  rw [View.canon_unit_zero hz2]
  simp only [View.readAt_eq_ld, harg2.read_unread, harg3.read_unread, harg4.read_unread, harg5.read_unread, harg6.read_unread, harg7.read_unread, harg8.read_unread, harg10.read_unread, harg11.read_unread,
    View.ld_unit_zero (S := S1000x128) hz2, View.ld_unit_zero (S := S128x128) hz2, View.ld_unit_zero (S := S1x128) hz2, View.ld_unit_zero (S := S128x10) hz2, View.ld_unit_zero (S := S1x10) hz2, View.ld_unit_zero (S := S1x10x128) hz3]

/-- Not the first tile: the first accumulator is left holding what it held plus the tile's gate-weighted sums. -/
theorem out_B_8 (c : Dev nD) (i : grid1.Coords) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S1000x128 .f32) (harg9 : arg9.IsWhole) (arg10 : Memref sig .tc .vmem S1x10x128 .f32) (harg10 : arg10.IsWhole) (arg11 : Memref sig .tc .vmem S1x10x128 .f32) (harg11 : arg11.IsWhole) (hc0 : ¬cond1_0 i)
    (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32) (xo8 xo9 : Vec F S1x10x128 .f32) :
    out1_B_8 c i arg2 harg2 arg3 harg3 arg4 harg4 arg5 harg5 arg6 harg6 arg7 harg7 arg8 harg8 arg9 harg9 arg10 harg10 arg11 harg11 hc0 x0 x1 x2 x3 x4 x5 x6 xo8 xo9 = k1_pay2 (k1_pay7 x0 x1 x2 x3 x4) x5 x6 xo8 := by
  unfold out1_B_8
  rw [View.read_writes_eq_canon _ _ _ (cover1_B_8 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg10.read_unread, harg11.read_unread,
    View.ld_unit_zero (S := S1000x128) hz2, View.ld_unit_zero (S := S128x128) hz2, View.ld_unit_zero (S := S1x128) hz2, View.ld_unit_zero (S := S128x10) hz2, View.ld_unit_zero (S := S1x10) hz2, View.ld_unit_zero (S := S1x10x128) hz3]

/-- Not the first tile: the second accumulator likewise, with the squares. -/
theorem out_B_9 (c : Dev nD) (i : grid1.Coords) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S1000x128 .f32) (harg9 : arg9.IsWhole) (arg10 : Memref sig .tc .vmem S1x10x128 .f32) (harg10 : arg10.IsWhole) (arg11 : Memref sig .tc .vmem S1x10x128 .f32) (harg11 : arg11.IsWhole) (hc0 : ¬cond1_0 i)
    (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32) (xo8 xo9 : Vec F S1x10x128 .f32) :
    out1_B_9 c i arg2 harg2 arg3 harg3 arg4 harg4 arg5 harg5 arg6 harg6 arg7 harg7 arg8 harg8 arg9 harg9 arg10 harg10 arg11 harg11 hc0 x0 x1 x2 x3 x4 x5 x6 xo8 xo9 = k1_pay3 (k1_pay6 x0 x1 x2 x3 x4) (k1_pay7 x0 x1 x2 x3 x4) x5 x6 xo9 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg10.read_unread, harg11.read_unread,
    View.ld_unit_zero (S := S1000x128) hz2, View.ld_unit_zero (S := S128x128) hz2, View.ld_unit_zero (S := S1x128) hz2, View.ld_unit_zero (S := S128x10) hz2, View.ld_unit_zero (S := S1x10) hz2, View.ld_unit_zero (S := S1x10x128) hz3]

/-- The first tile of a core: the feature buffer is left holding the tile's inner features. -/
theorem out_A_7 (c : Dev nD) (i : grid1.Coords) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S1000x128 .f32) (harg9 : arg9.IsWhole) (arg10 : Memref sig .tc .vmem S1x10x128 .f32) (harg10 : arg10.IsWhole) (arg11 : Memref sig .tc .vmem S1x10x128 .f32) (harg11 : arg11.IsWhole) (hc0 : cond1_0 i)
    (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32) :
    out1_A_7 c i arg2 harg2 arg3 harg3 arg4 harg4 arg5 harg5 arg6 harg6 arg7 harg7 arg8 harg8 arg9 harg9 arg10 harg10 arg11 harg11 hc0 x0 x1 x2 x3 x4 x5 x6 = k1_pay6 x0 x1 x2 x3 x4 := by
  unfold out1_A_7
  rw [View.read_writes_eq_canon _ _ _ (cover1_A_7 c i arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  rw [View.canon_unit_zero hz2]
  simp only [View.readAt_eq_ld, harg2.read_unread, harg3.read_unread, harg4.read_unread, harg5.read_unread, harg6.read_unread, harg7.read_unread, harg8.read_unread, harg10.read_unread, harg11.read_unread,
    View.ld_unit_zero (S := S1000x128) hz2, View.ld_unit_zero (S := S128x128) hz2, View.ld_unit_zero (S := S1x128) hz2, View.ld_unit_zero (S := S128x10) hz2, View.ld_unit_zero (S := S1x10) hz2, View.ld_unit_zero (S := S1x10x128) hz3]

/-- The first tile: the first accumulator is stored with zeros, read back, and left holding zero plus the tile's sums. -/
theorem out_A_8 (c : Dev nD) (i : grid1.Coords) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S1000x128 .f32) (harg9 : arg9.IsWhole) (arg10 : Memref sig .tc .vmem S1x10x128 .f32) (harg10 : arg10.IsWhole) (arg11 : Memref sig .tc .vmem S1x10x128 .f32) (harg11 : arg11.IsWhole) (hc0 : cond1_0 i)
    (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32) :
    out1_A_8 c i arg2 harg2 arg3 harg3 arg4 harg4 arg5 harg5 arg6 harg6 arg7 harg7 arg8 harg8 arg9 harg9 arg10 harg10 arg11 harg11 hc0 x0 x1 x2 x3 x4 x5 x6 = k1_pay2 (k1_pay7 x0 x1 x2 x3 x4) x5 x6 (k1_pay4 (F := F)) := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  rw [View.canon_cons_unit_zero (S := S1x10x128) hz3, View.readCov_unit_zero (S := S1x10x128) _ hz3]
  simp only [View.readAt_eq_ld, harg2.read_unread, harg3.read_unread, harg4.read_unread, harg5.read_unread, harg6.read_unread, harg7.read_unread, harg8.read_unread, harg10.read_unread, harg11.read_unread,
    View.ld_unit_zero (S := S1000x128) hz2, View.ld_unit_zero (S := S128x128) hz2, View.ld_unit_zero (S := S1x128) hz2, View.ld_unit_zero (S := S128x10) hz2, View.ld_unit_zero (S := S1x10) hz2, View.ld_unit_zero (S := S1x10x128) hz3]

/-- The first tile: the second accumulator likewise. -/
theorem out_A_9 (c : Dev nD) (i : grid1.Coords) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S1000x128 .f32) (harg9 : arg9.IsWhole) (arg10 : Memref sig .tc .vmem S1x10x128 .f32) (harg10 : arg10.IsWhole) (arg11 : Memref sig .tc .vmem S1x10x128 .f32) (harg11 : arg11.IsWhole) (hc0 : cond1_0 i)
    (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32) :
    out1_A_9 c i arg2 harg2 arg3 harg3 arg4 harg4 arg5 harg5 arg6 harg6 arg7 harg7 arg8 harg8 arg9 harg9 arg10 harg10 arg11 harg11 hc0 x0 x1 x2 x3 x4 x5 x6 = k1_pay3 (k1_pay6 x0 x1 x2 x3 x4) (k1_pay7 x0 x1 x2 x3 x4) x5 x6 (k1_pay5 (F := F)) := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  rw [View.canon_cons_unit_zero (S := S1x10x128) hz3, View.readCov_unit_zero (S := S1x10x128) _ hz3]
  simp only [View.readAt_eq_ld, harg2.read_unread, harg3.read_unread, harg4.read_unread, harg5.read_unread, harg6.read_unread, harg7.read_unread, harg8.read_unread, harg10.read_unread, harg11.read_unread,
    View.ld_unit_zero (S := S1000x128) hz2, View.ld_unit_zero (S := S128x128) hz2, View.ld_unit_zero (S := S1x128) hz2, View.ld_unit_zero (S := S128x10) hz2, View.ld_unit_zero (S := S1x10) hz2, View.ld_unit_zero (S := S1x10x128) hz3]

end Cert.KernelIdeal.StepA1

end
-- ==== Proof.KStepA1Pay.lean ====
/-
  The reduction kernel's accumulator updates, read entry by entry at the exact (extended-real) values.

  With s the tile's gate ([1000, 10]) and hb the tile's inner features ([1000, 128]), the first update adds to the
  accumulator's entry (g, j) the product of the gate's column g with the features' column j,  ∑ r, s (r, g) · hb (r, j);
  the second adds  ∑ r, (s (r, g) · s (r, g)) · (h (r, j) · h (r, j)).  A change of number format is the identity
  here, and the matrix unit's product into a zero accumulator is the plain sum. The zero blocks read 0.
-/
import proofs.«100017_j47974784696399_2_alg».proof.Proof.Gen.KernelIdeal.Skeleton
import proofs.«100017_j47974784696399_2_alg».proof.Proof.LibStepA
import Idealize.ShloMosaic.Lib.ValueLayout

noncomputable section

open Idealize.ShloMosaic Idealize.ShloMosaic.ValueIdx
open scoped BigOperators

namespace Cert.KernelIdeal.StepA1

open Cert.KernelIdeal Cert.KernelIdeal.Gen Cert.LibStepA

/-- The tile product's record contracts the row axis of both operands: at entry (g, j) and row r it reads the left
    operand at (r, g) and the right one at (r, j). -/
theorem dotT_apply {φ₁ φ₂ : FTy} (x : FVec Ideal S1000x10 φ₁) (w : FVec Ideal S1000x128 φ₂) (g : Fin 10) (j : Fin 128) :
    matmul dot_S1000x10_S1000x128_S10x128_0_0_1_1_n_n none x w (constant S10x128 .f32 0x00000000#32) (ix2 g j)
      = ∑ r : Fin 1000, x (ix2 r g) * w (ix2 r j) :=
  matmulT_zero_apply dot_S1000x10_S1000x128_S10x128_0_0_1_1_n_n rfl rfl
    (fun i q => dot_S1000x10_S1000x128_S10x128_0_0_1_1_n_n.lhsIdx_val_of_single rfl i q) (fun _ _ => rfl)
    (fun i q => dot_S1000x10_S1000x128_S10x128_0_0_1_1_n_n.rhsIdx_val_of_single rfl i q) (fun _ _ => rfl) none x w g j

/-- The first accumulator's update at an entry. -/
theorem pay2_apply (v36 : FVec Ideal S1000x128 .bf16) (v37 : Vec Ideal S128x10 .f32) (v40 : Vec Ideal S1x10 .f32)
    (v62 : Vec Ideal S1x10x128 .f32) (u : Fin 1) (g : Fin 10) (j : Fin 128) :
    k1_pay2 v36 v37 v40 v62 (ix3 u g j)
      = v62 (ix3 u g j) + ∑ r : Fin 1000, k1_pay1 v36 v37 v40 (ix2 r g) * v36 (ix2 r j) := by
  unfold k1_pay2
  generalize k1_pay1 v36 v37 v40 = s
  refine (addf_apply _ _ _).trans ?_
  refine congr (congrArg HAdd.hAdd ?_) ?_
  · exact congrFun (shapeCast_self v62 _) _
  · refine (shapeCast_ab_1ab_apply _ _ u g j).trans ?_
    exact dotT_apply (truncf .bf16 s bitsLt_bf16_f32) v36 g j

/-- The second accumulator's update at an entry. -/
theorem pay3_apply (v34 : FVec Ideal S1000x128 .f32) (v36 : FVec Ideal S1000x128 .bf16) (v37 : Vec Ideal S128x10 .f32)
    (v40 : Vec Ideal S1x10 .f32) (v67 : Vec Ideal S1x10x128 .f32) (u : Fin 1) (g : Fin 10) (j : Fin 128) :
    k1_pay3 v34 v36 v37 v40 v67 (ix3 u g j)
      = v67 (ix3 u g j) + ∑ r : Fin 1000, (k1_pay1 v36 v37 v40 (ix2 r g) * k1_pay1 v36 v37 v40 (ix2 r g))
          * (v34 (ix2 r j) * v34 (ix2 r j)) := by
  unfold k1_pay3
  generalize k1_pay1 v36 v37 v40 = s
  refine (addf_apply _ _ _).trans ?_
  refine congr (congrArg HAdd.hAdd ?_) ?_
  · exact congrFun (shapeCast_self v67 _) _
  · refine (shapeCast_ab_1ab_apply _ _ u g j).trans ?_
    exact dotT_apply (truncf .bf16 (mulf s s) bitsLt_bf16_f32) (truncf .bf16 (mulf v34 v34) bitsLt_bf16_f32) g j

/-- The zero blocks stored at a core's first tile read 0. -/
theorem pay4_apply (i : S1x10x128.Idx) : k1_pay4 (F := Ideal) i = 0 := Ideal.ofBits_zero_f32
theorem pay5_apply (i : S1x10x128.Idx) : k1_pay5 (F := Ideal) i = 0 := Ideal.ofBits_zero_f32

/-- The narrowed copy of the tile's inner features has the same entries. -/
theorem pay7_apply (x0 : Vec Ideal S1000x128 .f32) (x1 : Vec Ideal S128x128 .f32) (x2 : Vec Ideal S1x128 .f32)
    (x3 : Vec Ideal S128x128 .f32) (x4 : Vec Ideal S1x128 .f32) (i : S1000x128.Idx) :
    k1_pay7 x0 x1 x2 x3 x4 i = k1_pay6 x0 x1 x2 x3 x4 i := rfl

end Cert.KernelIdeal.StepA1

end
-- ==== Proof.KStepA1Acc.lean ====
/-
  The reduction kernel's outputs after each grid point.

  After point t the feature buffer holds the inner features of tile t. The two accumulators hold, after point t, the
  sum of the addends of the points of t's core from its first tile up to t: the core's first tile stores zeros and
  adds its addend, every later tile adds its addend to what the tile before left. Addition on the extended reals is a
  commutative monoid, so the running sum is a finite sum over the tiles so far.
-/
import proofs.«100017_j47974784696399_2_alg».proof.Proof.KStepA1Piece
import proofs.«100017_j47974784696399_2_alg».proof.Proof.KStepA1Pay

noncomputable section

open Idealize.ShloMosaic Idealize.ShloMosaic.TcCoe Idealize.SL.Sem Idealize.ShloMosaic.ValueIdx
open scoped BigOperators

namespace Cert.KernelIdeal.StepA1

open Cert.KernelIdeal Cert.KernelIdeal.Gen

section AnyF
variable {F : FTy → Type} [FloatOps F]
variable (V : (c : Dev nD) → (b : Ref sig .tc) → Buf (Elt F) ((c : Thread nD τ).loc b)) (c : Dev nD)

/-- The inner features of the tile at point t. -/
def hT (t : Fin cfg1.N) : FVec F S1000x128 .f32 :=
  k1_pay6 (iblk1 V c 0 t) (iblk1 V c 1 t) (iblk1 V c 2 t) (iblk1 V c 3 t) (iblk1 V c 4 t)
/-- Their narrowed copy, which the gate and the accumulations read. -/
def hbT (t : Fin cfg1.N) : FVec F S1000x128 .bf16 :=
  k1_pay7 (iblk1 V c 0 t) (iblk1 V c 1 t) (iblk1 V c 2 t) (iblk1 V c 3 t) (iblk1 V c 4 t)
/-- The gate of the tile at point t. -/
def sT (t : Fin cfg1.N) : FVec F S1000x10 .f32 := k1_pay1 (hbT V c t) (iblk1 V c 5 t) (iblk1 V c 6 t)

/-- After point t the feature buffer holds tile t's inner features, at the first tile of a core or not. -/
theorem outs_7 (t : Fin cfg1.N) : (outsAt1 V c t.val t.isLt).1 = hT V c t := by
  by_cases h0 : t.val % 25 = 0
  · rw [outsAt1_A V c t h0]; dsimp only
    exact out_A_7 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)
  · rw [outsAt1_B V c t h0]; dsimp only
    exact out_B_7 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2

/-- The first accumulator after the first tile of a core: zero plus the tile's addend. -/
theorem outs_8_A (t : Fin cfg1.N) (h0 : t.val % 25 = 0) :
    (outsAt1 V c t.val t.isLt).2.1 = k1_pay2 (hbT V c t) (iblk1 V c 5 t) (iblk1 V c 6 t) (k1_pay4 (F := F)) := by
  rw [outsAt1_A V c t h0]; dsimp only
  exact out_A_8 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)

/-- The first accumulator after a later tile: what the tile before left plus the tile's addend. -/
theorem outs_8_B (t : Fin cfg1.N) (h0 : ¬t.val % 25 = 0) :
    (outsAt1 V c t.val t.isLt).2.1
      = k1_pay2 (hbT V c t) (iblk1 V c 5 t) (iblk1 V c 6 t) (outsAt1 V c (t.val - 1) (Nat.lt_of_le_of_lt (Nat.sub_le _ _) t.isLt)).2.1 := by
  rw [outsAt1_B V c t h0]; dsimp only
  exact out_B_8 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2

/-- The second accumulator after the first tile of a core. -/
theorem outs_9_A (t : Fin cfg1.N) (h0 : t.val % 25 = 0) :
    (outsAt1 V c t.val t.isLt).2.2
      = k1_pay3 (hT V c t) (hbT V c t) (iblk1 V c 5 t) (iblk1 V c 6 t) (k1_pay5 (F := F)) := by
  rw [outsAt1_A V c t h0]; dsimp only
  exact out_A_9 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)

/-- The second accumulator after a later tile. -/
theorem outs_9_B (t : Fin cfg1.N) (h0 : ¬t.val % 25 = 0) :
    (outsAt1 V c t.val t.isLt).2.2
      = k1_pay3 (hT V c t) (hbT V c t) (iblk1 V c 5 t) (iblk1 V c 6 t) (outsAt1 V c (t.val - 1) (Nat.lt_of_le_of_lt (Nat.sub_le _ _) t.isLt)).2.2 := by
  rw [outsAt1_B V c t h0]; dsimp only
  exact out_B_9 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2

end AnyF

section AtIdeal
variable (V : (c : Dev nD) → (b : Ref sig .tc) → Buf (Elt Ideal) ((c : Thread nD τ).loc b)) (c : Dev nD)

/-- The addend of point n to entry (g, j) of the first accumulator: the gate's column g times the features' column j
    over the tile's rows (0 past the grid: never used). -/
def add8 (n : ℕ) (g : Fin 10) (j : Fin 128) : EReal :=
  if h : n < cfg1.N then ∑ r : Fin 1000, sT V c ⟨n, h⟩ (ix2 r g) * hbT V c ⟨n, h⟩ (ix2 r j) else 0

/-- The addend of point n to entry (g, j) of the second accumulator. -/
def add9 (n : ℕ) (g : Fin 10) (j : Fin 128) : EReal :=
  if h : n < cfg1.N then ∑ r : Fin 1000, (sT V c ⟨n, h⟩ (ix2 r g) * sT V c ⟨n, h⟩ (ix2 r g))
    * (hT V c ⟨n, h⟩ (ix2 r j) * hT V c ⟨n, h⟩ (ix2 r j)) else 0

/-- The first accumulator after point n: the addends of the points of n's core so far. -/
theorem acc8 : ∀ (n : ℕ) (hn : n < cfg1.N) (u : Fin 1) (g : Fin 10) (j : Fin 128),
    ((outsAt1 V c n hn).2.1 : Vec Ideal S1x10x128 .f32) (ix3 u g j)
      = ∑ s ∈ Finset.range (n % 25 + 1), add8 V c (n - n % 25 + s) g j
  | 0, hn, u, g, j => by
    have e : (outsAt1 V c 0 hn).2.1 = _ := outs_8_A V c ⟨0, hn⟩ (Nat.zero_mod _)
    rw [e]
    refine (pay2_apply (hbT V c ⟨0, hn⟩) (iblk1 V c 5 ⟨0, hn⟩) (iblk1 V c 6 ⟨0, hn⟩) _ u g j).trans ?_
    have hs : ∑ s ∈ Finset.range (0 % 25 + 1), add8 V c (0 - 0 % 25 + s) g j = add8 V c 0 g j := by
      simp only [Nat.zero_mod, Nat.zero_add, Finset.sum_range_one, Nat.sub_zero, Nat.add_zero]
    rw [pay4_apply, zero_add, hs, add8, dif_pos hn]
    rfl
  | n + 1, hn, u, g, j => by
    by_cases h0 : (n + 1) % 25 = 0
    · have e : (outsAt1 V c (n + 1) hn).2.1 = _ := outs_8_A V c ⟨n + 1, hn⟩ h0
      rw [e]
      refine (pay2_apply (hbT V c ⟨n + 1, hn⟩) (iblk1 V c 5 ⟨n + 1, hn⟩) (iblk1 V c 6 ⟨n + 1, hn⟩) _ u g j).trans ?_
      have hs : ∑ s ∈ Finset.range ((n + 1) % 25 + 1), add8 V c (n + 1 - (n + 1) % 25 + s) g j = add8 V c (n + 1) g j := by
        rw [h0]
        simp only [Nat.zero_add, Finset.sum_range_one, Nat.sub_zero, Nat.add_zero]
      rw [pay4_apply, zero_add, hs, add8, dif_pos hn]
      rfl
    · have e : (outsAt1 V c (n + 1) hn).2.1
          = k1_pay2 (hbT V c ⟨n + 1, hn⟩) (iblk1 V c 5 ⟨n + 1, hn⟩) (iblk1 V c 6 ⟨n + 1, hn⟩)
              (outsAt1 V c n (Nat.lt_of_succ_lt hn)).2.1 := outs_8_B V c ⟨n + 1, hn⟩ h0
      rw [e]
      refine (pay2_apply (hbT V c ⟨n + 1, hn⟩) (iblk1 V c 5 ⟨n + 1, hn⟩) (iblk1 V c 6 ⟨n + 1, hn⟩) _ u g j).trans ?_
      rw [acc8 n (Nat.lt_of_succ_lt hn) u g j]
      have h1 : (n + 1) % 25 = n % 25 + 1 := by omega
      have h2 : n + 1 - (n % 25 + 1) = n - n % 25 := by omega
      have h3 : n - n % 25 + (n % 25 + 1) = n + 1 := by omega
      rw [h1, h2, Finset.sum_range_succ _ (n % 25 + 1), h3]
      refine congrArg (_ + ·) ?_
      rw [add8, dif_pos hn]
      rfl

/-- The second accumulator after point n likewise. -/
theorem acc9 : ∀ (n : ℕ) (hn : n < cfg1.N) (u : Fin 1) (g : Fin 10) (j : Fin 128),
    ((outsAt1 V c n hn).2.2 : Vec Ideal S1x10x128 .f32) (ix3 u g j)
      = ∑ s ∈ Finset.range (n % 25 + 1), add9 V c (n - n % 25 + s) g j
  | 0, hn, u, g, j => by
    have e : (outsAt1 V c 0 hn).2.2 = _ := outs_9_A V c ⟨0, hn⟩ (Nat.zero_mod _)
    rw [e]
    refine (pay3_apply (hT V c ⟨0, hn⟩) (hbT V c ⟨0, hn⟩) (iblk1 V c 5 ⟨0, hn⟩) (iblk1 V c 6 ⟨0, hn⟩) _ u g j).trans ?_
    have hs : ∑ s ∈ Finset.range (0 % 25 + 1), add9 V c (0 - 0 % 25 + s) g j = add9 V c 0 g j := by
      simp only [Nat.zero_mod, Nat.zero_add, Finset.sum_range_one, Nat.sub_zero, Nat.add_zero]
    rw [pay5_apply, zero_add, hs, add9, dif_pos hn]
    rfl
  | n + 1, hn, u, g, j => by
    by_cases h0 : (n + 1) % 25 = 0
    · have e : (outsAt1 V c (n + 1) hn).2.2 = _ := outs_9_A V c ⟨n + 1, hn⟩ h0
      rw [e]
      refine (pay3_apply (hT V c ⟨n + 1, hn⟩) (hbT V c ⟨n + 1, hn⟩) (iblk1 V c 5 ⟨n + 1, hn⟩) (iblk1 V c 6 ⟨n + 1, hn⟩) _ u g j).trans ?_
      have hs : ∑ s ∈ Finset.range ((n + 1) % 25 + 1), add9 V c (n + 1 - (n + 1) % 25 + s) g j = add9 V c (n + 1) g j := by
        rw [h0]
        simp only [Nat.zero_add, Finset.sum_range_one, Nat.sub_zero, Nat.add_zero]
      rw [pay5_apply, zero_add, hs, add9, dif_pos hn]
      rfl
    · have e : (outsAt1 V c (n + 1) hn).2.2
          = k1_pay3 (hT V c ⟨n + 1, hn⟩) (hbT V c ⟨n + 1, hn⟩) (iblk1 V c 5 ⟨n + 1, hn⟩) (iblk1 V c 6 ⟨n + 1, hn⟩)
              (outsAt1 V c n (Nat.lt_of_succ_lt hn)).2.2 := outs_9_B V c ⟨n + 1, hn⟩ h0
      rw [e]
      refine (pay3_apply (hT V c ⟨n + 1, hn⟩) (hbT V c ⟨n + 1, hn⟩) (iblk1 V c 5 ⟨n + 1, hn⟩) (iblk1 V c 6 ⟨n + 1, hn⟩) _ u g j).trans ?_
      rw [acc9 n (Nat.lt_of_succ_lt hn) u g j]
      have h1 : (n + 1) % 25 = n % 25 + 1 := by omega
      have h2 : n + 1 - (n % 25 + 1) = n - n % 25 := by omega
      have h3 : n - n % 25 + (n % 25 + 1) = n + 1 := by omega
      rw [h1, h2, Finset.sum_range_succ _ (n % 25 + 1), h3]
      refine congrArg (_ + ·) ?_
      rw [add9, dif_pos hn]
      rfl

end AtIdeal

end Cert.KernelIdeal.StepA1

end
-- ==== Proof.KStepA1Blk.lean ====
/-
  The tiles the reduction kernel reads, as entries of the arrays it is launched on.

  Grid point t (core t / 25, tile t % 25) reads rows 1000·t … 1000·t + 999 of the [50000, 128] input; the weight and
  bias arrays are read whole at every point.
-/
import proofs.«100017_j47974784696399_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.StepA1

open Cert.KernelIdeal Cert.KernelIdeal.Gen

variable {F : FTy → Type} [FloatOps F]
variable (V : (c : Dev nD) → (b : Ref sig .tc) → Buf (Elt F) ((c : Thread nD τ).loc b))

/-- The block index maps, decided once over the 50 grid points: the row-tiled windows move with the point, the
    accumulators with the core, the weights stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 3) = t.val / 25 ∧ win1_8.index t (1 : Fin 3) = 0 ∧ win1_8.index t (2 : Fin 3) = 0
    ∧ win1_9.index t (0 : Fin 3) = t.val / 25 ∧ win1_9.index t (1 : Fin 3) = 0 ∧ win1_9.index t (2 : Fin 3) = 0 :=
  (by decide +kernel : ∀ t : Fin grid1.N, _)

/-- The input tile at point t, row r, is row 1000·t + r of the input array. -/
theorem iblk_0 (c : Dev nD) (t : Fin cfg1.N) (r : Fin 1000) (k : Fin 128) (hlt : t.val * 1000 + r.val < 50000) :
    (iblk1 V c 0 t : Vec F S1000x128 .f32) (ix2 r k)
      = (V c (Pipeline.arrRef spec1 0) : S50000x128.Idx → Elt F .f32) (ix2 ⟨t.val * 1000 + r.val, hlt⟩ k) := by
  have hi := idx_facts1 t
  unfold iblk1
  rw [View.read_apply]
  show (V c (Pipeline.arrRef spec1 0) : S50000x128.Idx → Elt F .f32) (((cfg1.win 0).blk t).view.emb (ix2 r k)) = _
  refine congrArg (V c (Pipeline.arrRef spec1 0) : S50000x128.Idx → Elt F .f32) (funext fun a => Fin.ext ?_)
  match a with
  | ⟨0, _⟩ => show win1_0.index t 0 * 1000 + 1 * r.val = t.val * 1000 + r.val; rw [hi.1]; omega
  | ⟨1, _⟩ => show win1_0.index t 1 * 128 + 1 * k.val = k.val; rw [hi.2.1]; omega

/-- Window 1's block at any point is its whole array. -/
theorem iblk_1 (c : Dev nD) (t : Fin cfg1.N) (p : Fin 128) (q : Fin 128) :
    (iblk1 V c 1 t : Vec F S128x128 .f32) (ix2 p q) = (V c (Pipeline.arrRef spec1 1) : S128x128.Idx → Elt F .f32) (ix2 p q) := by
  have hi := idx_facts1 t
  unfold iblk1
  rw [View.read_apply]
  show (V c (Pipeline.arrRef spec1 1) : S128x128.Idx → Elt F .f32) (((cfg1.win 1).blk t).view.emb (ix2 p q)) = _
  refine congrArg (V c (Pipeline.arrRef spec1 1) : S128x128.Idx → Elt F .f32) (funext fun a => Fin.ext ?_)
  match a with
  | ⟨0, _⟩ => show win1_1.index t 0 * 128 + 1 * p.val = p.val; rw [hi.2.2.1]; omega
  | ⟨1, _⟩ => show win1_1.index t 1 * 128 + 1 * q.val = q.val; rw [hi.2.2.2.1]; omega

/-- Window 2's block at any point is its whole array. -/
theorem iblk_2 (c : Dev nD) (t : Fin cfg1.N) (p : Fin 1) (q : Fin 128) :
    (iblk1 V c 2 t : Vec F S1x128 .f32) (ix2 p q) = (V c (Pipeline.arrRef spec1 2) : S1x128.Idx → Elt F .f32) (ix2 p q) := by
  have hi := idx_facts1 t
  unfold iblk1
  rw [View.read_apply]
  show (V c (Pipeline.arrRef spec1 2) : S1x128.Idx → Elt F .f32) (((cfg1.win 2).blk t).view.emb (ix2 p q)) = _
  refine congrArg (V c (Pipeline.arrRef spec1 2) : S1x128.Idx → Elt F .f32) (funext fun a => Fin.ext ?_)
  match a with
  | ⟨0, _⟩ => show win1_2.index t 0 * 1 + 1 * p.val = p.val; rw [hi.2.2.2.2.1]; omega
  | ⟨1, _⟩ => show win1_2.index t 1 * 128 + 1 * q.val = q.val; rw [hi.2.2.2.2.2.1]; omega

/-- Window 3's block at any point is its whole array. -/
theorem iblk_3 (c : Dev nD) (t : Fin cfg1.N) (p : Fin 128) (q : Fin 128) :
    (iblk1 V c 3 t : Vec F S128x128 .f32) (ix2 p q) = (V c (Pipeline.arrRef spec1 3) : S128x128.Idx → Elt F .f32) (ix2 p q) := by
  have hi := idx_facts1 t
  unfold iblk1
  rw [View.read_apply]
  show (V c (Pipeline.arrRef spec1 3) : S128x128.Idx → Elt F .f32) (((cfg1.win 3).blk t).view.emb (ix2 p q)) = _
  refine congrArg (V c (Pipeline.arrRef spec1 3) : S128x128.Idx → Elt F .f32) (funext fun a => Fin.ext ?_)
  match a with
  | ⟨0, _⟩ => show win1_3.index t 0 * 128 + 1 * p.val = p.val; rw [hi.2.2.2.2.2.2.1]; omega
  | ⟨1, _⟩ => show win1_3.index t 1 * 128 + 1 * q.val = q.val; rw [hi.2.2.2.2.2.2.2.1]; omega

/-- Window 4's block at any point is its whole array. -/
theorem iblk_4 (c : Dev nD) (t : Fin cfg1.N) (p : Fin 1) (q : Fin 128) :
    (iblk1 V c 4 t : Vec F S1x128 .f32) (ix2 p q) = (V c (Pipeline.arrRef spec1 4) : S1x128.Idx → Elt F .f32) (ix2 p q) := by
  have hi := idx_facts1 t
  unfold iblk1
  rw [View.read_apply]
  show (V c (Pipeline.arrRef spec1 4) : S1x128.Idx → Elt F .f32) (((cfg1.win 4).blk t).view.emb (ix2 p q)) = _
  refine congrArg (V c (Pipeline.arrRef spec1 4) : S1x128.Idx → Elt F .f32) (funext fun a => Fin.ext ?_)
  match a with
  | ⟨0, _⟩ => show win1_4.index t 0 * 1 + 1 * p.val = p.val; rw [hi.2.2.2.2.2.2.2.2.1]; omega
  | ⟨1, _⟩ => show win1_4.index t 1 * 128 + 1 * q.val = q.val; rw [hi.2.2.2.2.2.2.2.2.2.1]; omega

/-- Window 5's block at any point is its whole array. -/
theorem iblk_5 (c : Dev nD) (t : Fin cfg1.N) (p : Fin 128) (q : Fin 10) :
    (iblk1 V c 5 t : Vec F S128x10 .f32) (ix2 p q) = (V c (Pipeline.arrRef spec1 5) : S128x10.Idx → Elt F .f32) (ix2 p q) := by
  have hi := idx_facts1 t
  unfold iblk1
  rw [View.read_apply]
  show (V c (Pipeline.arrRef spec1 5) : S128x10.Idx → Elt F .f32) (((cfg1.win 5).blk t).view.emb (ix2 p q)) = _
  refine congrArg (V c (Pipeline.arrRef spec1 5) : S128x10.Idx → Elt F .f32) (funext fun a => Fin.ext ?_)
  match a with
  | ⟨0, _⟩ => show win1_5.index t 0 * 128 + 1 * p.val = p.val; rw [hi.2.2.2.2.2.2.2.2.2.2.1]; omega
  | ⟨1, _⟩ => show win1_5.index t 1 * 10 + 1 * q.val = q.val; rw [hi.2.2.2.2.2.2.2.2.2.2.2.1]; omega

/-- Window 6's block at any point is its whole array. -/
theorem iblk_6 (c : Dev nD) (t : Fin cfg1.N) (p : Fin 1) (q : Fin 10) :
    (iblk1 V c 6 t : Vec F S1x10 .f32) (ix2 p q) = (V c (Pipeline.arrRef spec1 6) : S1x10.Idx → Elt F .f32) (ix2 p q) := by
  have hi := idx_facts1 t
  unfold iblk1
  rw [View.read_apply]
  show (V c (Pipeline.arrRef spec1 6) : S1x10.Idx → Elt F .f32) (((cfg1.win 6).blk t).view.emb (ix2 p q)) = _
  refine congrArg (V c (Pipeline.arrRef spec1 6) : S1x10.Idx → Elt F .f32) (funext fun a => Fin.ext ?_)
  match a with
  | ⟨0, _⟩ => show win1_6.index t 0 * 1 + 1 * p.val = p.val; rw [hi.2.2.2.2.2.2.2.2.2.2.2.2.1]; omega
  | ⟨1, _⟩ => show win1_6.index t 1 * 10 + 1 * q.val = q.val; rw [hi.2.2.2.2.2.2.2.2.2.2.2.2.2.1]; omega

end Cert.KernelIdeal.StepA1

end
-- ==== Proof.KStepARows.lean ====
/-
  The block's inner features and the gate depend on one row only.

  The dense layer, the inner features softplus (o·W1 + b1)·W2 + b2 and the row softmax at row i read row i of
  their operand and nothing else, so a tile of rows computes the same entries as the whole array does at those rows.
-/
import proofs.«100017_j47974784696399_2_alg».proof.Proof.Spec

noncomputable section

namespace Cert.KernelIdeal.StepA

open Idealize.ShloMosaic Cert.Spec
open scoped BigOperators

/-- a·w + b at row i of a equals a'·w + b at row i' of a' when the two rows agree. -/
theorem dense_row {n n' K M : ℕ} (a : Fin n → Fin K → EReal) (a' : Fin n' → Fin K → EReal) (w : Fin K → Fin M → EReal)
    (b : Fin M → EReal) (i : Fin n) (i' : Fin n') (h : ∀ k, a i k = a' i' k) (j : Fin M) :
    dense a w b i j = dense a' w b i' j := by
  unfold dense
  exact congrArg (· + b j) (Finset.sum_congr rfl fun k _ => by rw [h k])

/-- The row softmax at row i of z equals that at row i' of z' when the two rows agree. -/
theorem softmax_row {n n' M : ℕ} (z : Fin n → Fin M → EReal) (z' : Fin n' → Fin M → EReal) (i : Fin n) (i' : Fin n')
    (h : ∀ g, z i g = z' i' g) (g : Fin M) : softmax z i g = softmax z' i' g := by
  have e : z i = z' i' := funext h
  unfold softmax rowMax
  rw [e]

/-- The inner features of a tile: softplus (x·W1 + b1)·W2 + b2 over the tile's rows. -/
def hidT {n : ℕ} (x : Fin n → Fin 128 → EReal) (W1 : Fin 128 → Fin 128 → EReal) (b1 : Fin 128 → EReal)
    (W2 : Fin 128 → Fin 128 → EReal) (b2 : Fin 128 → EReal) : Fin n → Fin 128 → EReal :=
  dense (fun i j => softplus (dense x W1 b1 i j)) W2 b2

/-- The gate of a tile: the row softmax of h·linW + linb over the tile's rows. -/
def gateT {n : ℕ} (h : Fin n → Fin 128 → EReal) (linW : Fin 128 → Fin 10 → EReal) (linb : Fin 10 → EReal) :
    Fin n → Fin 10 → EReal := softmax (dense h linW linb)

/-- A tile's inner features at its row r are the whole array's at the row the tile holds there. -/
theorem hidT_eq_hid {n : ℕ} (x : Fin n → Fin 128 → EReal) (o : Fin 50000 → Fin 128 → EReal) (W1 : Fin 128 → Fin 128 → EReal)
    (b1 : Fin 128 → EReal) (W2 : Fin 128 → Fin 128 → EReal) (b2 : Fin 128 → EReal) (r : Fin n) (i : Fin 50000)
    (h : ∀ k, x r k = o i k) (j : Fin 128) : hidT x W1 b1 W2 b2 r j = hid o W1 b1 W2 b2 i j := by
  unfold hidT hid
  exact dense_row _ _ W2 b2 r i (fun k => congrArg softplus (dense_row x o W1 b1 r i h k)) j

/-- A tile's gate at its row r is the whole array's at the row the tile holds there. -/
theorem gateT_eq_gate {n : ℕ} (hx : Fin n → Fin 128 → EReal) (h : Fin 50000 → Fin 128 → EReal) (linW : Fin 128 → Fin 10 → EReal)
    (linb : Fin 10 → EReal) (r : Fin n) (i : Fin 50000) (e : ∀ k, hx r k = h i k) (g : Fin 10) :
    gateT hx linW linb r g = gate h linW linb i g := by
  unfold gateT gate
  exact softmax_row _ _ r i (fun g' => dense_row hx h linW linb r i e g') g

end Cert.KernelIdeal.StepA

end
-- ==== Proof.KStepA1Feat.lean ====
/-
  The reduction kernel's inner features and gate on one tile, read entry by entry at the exact (extended-real) values.

  The tile's inner features are  softplus (x·W1 + b1)·W2 + b2  over its 1000 rows: two products on the matrix unit into
  zero accumulators, each plus a one-row bias spread down the rows, with the guarded stable softplus between them (its
  guard compares a value with itself and never holds; z − 0 = z and 0 − y = −y). The tile's gate is the row softmax of
  hb·linW + linb. A change of number format is the identity here.
-/
import proofs.«100017_j47974784696399_2_alg».proof.Proof.Gen.KernelIdeal.Skeleton
import proofs.«100017_j47974784696399_2_alg».proof.Proof.LibPlainDot
import proofs.«100017_j47974784696399_2_alg».proof.Proof.LibDenseLayer
import proofs.«100017_j47974784696399_2_alg».proof.Proof.KGate
import proofs.«100017_j47974784696399_2_alg».proof.Proof.KStepARows

noncomputable section

open Idealize.ShloMosaic Idealize.ShloMosaic.ValueIdx
open scoped BigOperators

namespace Cert.KernelIdeal.StepA1

open Cert.KernelIdeal Cert.KernelIdeal.Gen Cert.KernelIdeal.StepA

/-- The guarded stable softplus as the body spells it, the zero word left as a word. -/
def spelled (z : EReal) : EReal :=
  Scalar.select (Ideal.cmp .one (z - Ideal.ofBits .f32 0x00000000#32) (z - Ideal.ofBits .f32 0x00000000#32))
    (z + Ideal.ofBits .f32 0x00000000#32)
    (max z (Ideal.ofBits .f32 0x00000000#32) + Ideal.log1p (Ideal.exp (Ideal.ofBits .f32 0x00000000#32
      - max (z - Ideal.ofBits .f32 0x00000000#32) (-(z - Ideal.ofBits .f32 0x00000000#32)))))

/-- It is softplus. -/
theorem spelled_eq (z : EReal) : spelled z = Cert.Spec.softplus z := by
  unfold spelled
  rw [Ideal.ofBits_zero_f32]
  exact Cert.KGate.softplus_guarded z

/-- A [1000, 128] by [128, 128] product into zero plus a one-row bias, at an entry. -/
theorem layer128_apply {φ₁ φ₂ : FTy} (x : FVec Ideal S1000x128 φ₁) (w : FVec Ideal S128x128 φ₂) (b : Vec Ideal S1x128 .f32)
    (r : Fin 1000) (q : Fin 128) :
    (addf (matmul dot_S1000x128_S128x128_S1000x128_1_0_0_1_n_n none x w (constant S1000x128 .f32 0x00000000#32))
      (broadcastTo S1000x128 b broadcasts_S1x128_S1000x128)) (ix2 r q)
      = (∑ k : Fin 128, x (ix2 r k) * w (ix2 k q)) + b (ix2 (0 : Fin 1) q) := by
  have h1 : matmul dot_S1000x128_S128x128_S1000x128_1_0_0_1_n_n none x w (constant S1000x128 .f32 0x00000000#32) (ix2 r q)
      = ∑ k : Fin 128, x (ix2 r k) * w (ix2 k q) :=
    PlainDot.matmul_zero_apply dot_S1000x128_S128x128_S1000x128_1_0_0_1_n_n rfl rfl
      (fun _ _ => rfl) (fun _ _ => rfl) (fun _ _ => rfl) (fun _ _ => rfl) none x w (ix2 r q)
  have h3 : broadcastTo S1000x128 b broadcasts_S1x128_S1000x128 (ix2 r q) = b (ix2 (0 : Fin 1) q) :=
    Cert.Lib.Dense.rowBias_apply b broadcasts_S1x128_S1000x128 r q
  show _ + _ = _
  rw [h1, h3]

/-- A [1000, 128] by [128, 10] product into zero plus a one-row bias, at an entry. -/
theorem layer10_apply {φ₁ φ₂ : FTy} (x : FVec Ideal S1000x128 φ₁) (w : FVec Ideal S128x10 φ₂) (b : Vec Ideal S1x10 .f32)
    (r : Fin 1000) (q : Fin 10) :
    (addf (matmul dot_S1000x128_S128x10_S1000x10_1_0_0_1_n_n none x w (constant S1000x10 .f32 0x00000000#32))
      (broadcastTo S1000x10 b broadcasts_S1x10_S1000x10)) (ix2 r q)
      = (∑ k : Fin 128, x (ix2 r k) * w (ix2 k q)) + b (ix2 (0 : Fin 1) q) := by
  have h1 : matmul dot_S1000x128_S128x10_S1000x10_1_0_0_1_n_n none x w (constant S1000x10 .f32 0x00000000#32) (ix2 r q)
      = ∑ k : Fin 128, x (ix2 r k) * w (ix2 k q) :=
    PlainDot.matmul_zero_apply dot_S1000x128_S128x10_S1000x10_1_0_0_1_n_n rfl rfl
      (fun _ _ => rfl) (fun _ _ => rfl) (fun _ _ => rfl) (fun _ _ => rfl) none x w (ix2 r q)
  have h3 : broadcastTo S1000x10 b broadcasts_S1x10_S1000x10 (ix2 r q) = b (ix2 (0 : Fin 1) q) :=
    Cert.Lib.Dense.rowBias_apply b broadcasts_S1x10_S1000x10 r q
  show _ + _ = _
  rw [h1, h3]

/-- The first layer's pre-activation on the tile, as the body forms it. -/
def preB (x0 : Vec Ideal S1000x128 .f32) (x1 : Vec Ideal S128x128 .f32) (x2 : Vec Ideal S1x128 .f32) : FVec Ideal S1000x128 .f32 :=
  addf (matmul dot_S1000x128_S128x128_S1000x128_1_0_0_1_n_n none (truncf .bf16 x0 bitsLt_bf16_f32)
    (truncf .bf16 x1 bitsLt_bf16_f32) (constant S1000x128 .f32 0x00000000#32)) (broadcastTo S1000x128 x2 broadcasts_S1x128_S1000x128)

/-- The tile's inner features at an entry. -/
theorem pay6_apply (x0 : Vec Ideal S1000x128 .f32) (x1 : Vec Ideal S128x128 .f32) (x2 : Vec Ideal S1x128 .f32)
    (x3 : Vec Ideal S128x128 .f32) (x4 : Vec Ideal S1x128 .f32) (r : Fin 1000) (j : Fin 128) :
    k1_pay6 x0 x1 x2 x3 x4 (ix2 r j)
      = hidT (fun i k => x0 (ix2 i k)) (fun k q => x1 (ix2 k q)) (fun q => x2 (ix2 (0 : Fin 1) q))
          (fun k q => x3 (ix2 k q)) (fun q => x4 (ix2 (0 : Fin 1) q)) r j := by
  have hpre : ∀ k : Fin 128, preB x0 x1 x2 (ix2 r k)
      = Cert.Spec.dense (fun i k => x0 (ix2 i k)) (fun k q => x1 (ix2 k q)) (fun q => x2 (ix2 (0 : Fin 1) q)) r k := by
    intro k
    unfold preB
    refine (layer128_apply (truncf .bf16 x0 bitsLt_bf16_f32) (truncf .bf16 x1 bitsLt_bf16_f32) x2 r k).trans ?_
    unfold Cert.Spec.dense
    rfl
  unfold k1_pay6
  simp only [shapeCast_self]
  refine (layer128_apply _ (truncf .bf16 x3 bitsLt_bf16_f32) x4 r j).trans ?_
  show _ = (∑ k : Fin 128, Cert.Spec.softplus (Cert.Spec.dense (fun i k => x0 (ix2 i k)) (fun k q => x1 (ix2 k q))
      (fun q => x2 (ix2 (0 : Fin 1) q)) r k) * x3 (ix2 k j)) + x4 (ix2 (0 : Fin 1) j)
  refine congrArg (· + x4 (ix2 (0 : Fin 1) j)) (Finset.sum_congr rfl fun k _ => congrArg (· * x3 (ix2 k j)) ?_)
  exact ((rfl : _ = spelled (preB x0 x1 x2 (ix2 r k))).trans (congrArg spelled (hpre k))).trans (spelled_eq _)

/-- The tile's logits, as the body forms them. -/
def logitsB (v36 : FVec Ideal S1000x128 .bf16) (v37 : Vec Ideal S128x10 .f32) (v40 : Vec Ideal S1x10 .f32) :
    FVec Ideal S1000x10 .f32 :=
  addf (matmul dot_S1000x128_S128x10_S1000x10_1_0_0_1_n_n none v36 (truncf .bf16 v37 bitsLt_bf16_f32)
    (constant S1000x10 .f32 0x00000000#32)) (broadcastTo S1000x10 v40 broadcasts_S1x10_S1000x10)

/-- The tile's gate at an entry. -/
theorem pay1_apply (v36 : FVec Ideal S1000x128 .bf16) (v37 : Vec Ideal S128x10 .f32) (v40 : Vec Ideal S1x10 .f32)
    (r : Fin 1000) (g : Fin 10) :
    k1_pay1 v36 v37 v40 (ix2 r g)
      = gateT (fun i k => v36 (ix2 i k)) (fun k q => v37 (ix2 k q)) (fun q => v40 (ix2 (0 : Fin 1) q)) r g := by
  have e : k1_pay1 v36 v37 v40 = Cert.KGate.gateB (logitsB v36 v37 v40) reduces_S1000x10_S1000 shapeCasts_S1000_S1000x1
      broadcasts_S1000x1_S1000x10 := by
    unfold k1_pay1
    simp only [shapeCast_self]
    rfl
  rw [e]
  refine (Cert.KGate.gate_apply (logitsB v36 v37 v40) reduces_S1000x10_S1000 shapeCasts_S1000_S1000x1
    broadcasts_S1000x1_S1000x10 r g).trans ?_
  unfold gateT
  have hz : (fun (i : Fin 1000) (g' : Fin 10) => logitsB v36 v37 v40 (ix2 i g'))
      = Cert.Spec.dense (fun i k => v36 (ix2 i k)) (fun k q => v37 (ix2 k q)) (fun q => v40 (ix2 (0 : Fin 1) q)) := by
    funext i q
    refine (layer10_apply v36 (truncf .bf16 v37 bitsLt_bf16_f32) v40 i q).trans ?_
    unfold Cert.Spec.dense
    rfl
  rw [hz]

end Cert.KernelIdeal.StepA1

end
-- ==== Proof.KStepA1Tile.lean ====
/-
  The reduction kernel's tiles against the whole arrays.

  With o the [50000, 128] array the kernel is launched on, h = softplus (o·W1 + b1)·W2 + b2 its inner features and
  s = softmax (h·linW + linb) its gate, the tile at grid point t holds rows 1000·t … 1000·t + 999: its inner features
  at row r are h at row 1000·t + r, its gate likewise, and its addends to the two accumulators at entry (g, j) are
  ∑ r, s (1000·t + r, g) · h (1000·t + r, j)  and  ∑ r, s (·, g)² · h (·, j)².
-/
import proofs.«100017_j47974784696399_2_alg».proof.Proof.KStepA1Acc
import proofs.«100017_j47974784696399_2_alg».proof.Proof.KStepA1Blk
import proofs.«100017_j47974784696399_2_alg».proof.Proof.KStepA1Feat

noncomputable section

open Idealize.ShloMosaic Idealize.ShloMosaic.TcCoe Idealize.SL.Sem Idealize.ShloMosaic.ValueIdx
open scoped BigOperators

namespace Cert.KernelIdeal.StepA1

open Cert.KernelIdeal Cert.KernelIdeal.Gen Cert.KernelIdeal.StepA

variable (V : (c : Dev nD) → (b : Ref sig .tc) → Buf (Elt Ideal) ((c : Thread nD τ).loc b)) (c : Dev nD)

/-- The arrays the kernel is launched on, as functions of row and column. -/
noncomputable def oA : Fin 50000 → Fin 128 → EReal := fun i k => (V c (Pipeline.arrRef spec1 0) : S50000x128.Idx → EReal) (ix2 i k)
noncomputable def W1A : Fin 128 → Fin 128 → EReal := fun k q => (V c (Pipeline.arrRef spec1 1) : S128x128.Idx → EReal) (ix2 k q)
noncomputable def b1A : Fin 128 → EReal := fun q => (V c (Pipeline.arrRef spec1 2) : S1x128.Idx → EReal) (ix2 (0 : Fin 1) q)
noncomputable def W2A : Fin 128 → Fin 128 → EReal := fun k q => (V c (Pipeline.arrRef spec1 3) : S128x128.Idx → EReal) (ix2 k q)
noncomputable def b2A : Fin 128 → EReal := fun q => (V c (Pipeline.arrRef spec1 4) : S1x128.Idx → EReal) (ix2 (0 : Fin 1) q)
noncomputable def linWA : Fin 128 → Fin 10 → EReal := fun k q => (V c (Pipeline.arrRef spec1 5) : S128x10.Idx → EReal) (ix2 k q)
noncomputable def linbA : Fin 10 → EReal := fun q => (V c (Pipeline.arrRef spec1 6) : S1x10.Idx → EReal) (ix2 (0 : Fin 1) q)

/-- The inner features and the gate of the whole array. -/
noncomputable def hA : Fin 50000 → Fin 128 → EReal := Cert.Spec.hid (oA V c) (W1A V c) (b1A V c) (W2A V c) (b2A V c)
noncomputable def sA : Fin 50000 → Fin 10 → EReal := Cert.Spec.gate (hA V c) (linWA V c) (linbA V c)

/-- Tile t's inner features at its row r are the array's at row 1000·t + r. -/
theorem hT_apply (t : Fin cfg1.N) (r : Fin 1000) (j : Fin 128) (hlt : t.val * 1000 + r.val < 50000) :
    hT V c t (ix2 r j) = hA V c ⟨t.val * 1000 + r.val, hlt⟩ j := by
  unfold hT hA
  refine (pay6_apply (iblk1 V c 0 t) (iblk1 V c 1 t) (iblk1 V c 2 t) (iblk1 V c 3 t) (iblk1 V c 4 t) r j).trans ?_
  have e1 : (fun k q => (iblk1 V c 1 t : Vec Ideal S128x128 .f32) (ix2 k q)) = W1A V c :=
    funext fun k => funext fun q => iblk_1 V c t k q
  have e2 : (fun q => (iblk1 V c 2 t : Vec Ideal S1x128 .f32) (ix2 (0 : Fin 1) q)) = b1A V c :=
    funext fun q => iblk_2 V c t 0 q
  have e3 : (fun k q => (iblk1 V c 3 t : Vec Ideal S128x128 .f32) (ix2 k q)) = W2A V c :=
    funext fun k => funext fun q => iblk_3 V c t k q
  have e4 : (fun q => (iblk1 V c 4 t : Vec Ideal S1x128 .f32) (ix2 (0 : Fin 1) q)) = b2A V c :=
    funext fun q => iblk_4 V c t 0 q
  rw [e1, e2, e3, e4]
  exact hidT_eq_hid _ (oA V c) (W1A V c) (b1A V c) (W2A V c) (b2A V c) r ⟨_, hlt⟩ (fun k => iblk_0 V c t r k hlt) j

/-- The narrowed copy of tile t's inner features has the same entries. -/
theorem hbT_eq (t : Fin cfg1.N) (i : S1000x128.Idx) : hbT V c t i = hT V c t i := by
  unfold hbT hT
  exact pay7_apply _ _ _ _ _ i

/-- Tile t's gate at its row r is the array's at row 1000·t + r. -/
theorem sT_apply (t : Fin cfg1.N) (r : Fin 1000) (g : Fin 10) (hlt : t.val * 1000 + r.val < 50000) :
    sT V c t (ix2 r g) = sA V c ⟨t.val * 1000 + r.val, hlt⟩ g := by
  unfold sT sA
  refine (pay1_apply (hbT V c t) (iblk1 V c 5 t) (iblk1 V c 6 t) r g).trans ?_
  have e5 : (fun k q => (iblk1 V c 5 t : Vec Ideal S128x10 .f32) (ix2 k q)) = linWA V c :=
    funext fun k => funext fun q => iblk_5 V c t k q
  have e6 : (fun q => (iblk1 V c 6 t : Vec Ideal S1x10 .f32) (ix2 (0 : Fin 1) q)) = linbA V c :=
    funext fun q => iblk_6 V c t 0 q
  rw [e5, e6]
  exact gateT_eq_gate _ (hA V c) (linWA V c) (linbA V c) r ⟨_, hlt⟩ (fun k => (hbT_eq V c t (ix2 r k)).trans (hT_apply V c t r k hlt)) g

/-- The summand of the first accumulator at row n of the array (0 past the array: never used). -/
noncomputable def F8 (g : Fin 10) (j : Fin 128) (n : ℕ) : EReal := if h : n < 50000 then sA V c ⟨n, h⟩ g * hA V c ⟨n, h⟩ j else 0
/-- The summand of the second accumulator at row n of the array. -/
noncomputable def F9 (g : Fin 10) (j : Fin 128) (n : ℕ) : EReal :=
  if h : n < 50000 then (sA V c ⟨n, h⟩ g * sA V c ⟨n, h⟩ g) * (hA V c ⟨n, h⟩ j * hA V c ⟨n, h⟩ j) else 0

/-- Point p's addend to the first accumulator is the sum of the summands over the rows of tile p. -/
theorem add8_eq (p : ℕ) (hp : p < cfg1.N) (g : Fin 10) (j : Fin 128) :
    add8 V c p g j = ∑ r : Fin 1000, F8 V c g j (p * 1000 + r.val) := by
  have hN : p < 50 := lt_of_lt_of_eq hp (show cfg1.N = 50 from N_1)
  rw [add8, dif_pos hp]
  refine Finset.sum_congr rfl fun r _ => ?_
  have hlt : p * 1000 + r.val < 50000 := by have := r.isLt; omega
  rw [F8, dif_pos hlt]
  exact congr (congrArg HMul.hMul (sT_apply V c ⟨p, hp⟩ r g hlt)) ((hbT_eq V c ⟨p, hp⟩ (ix2 r j)).trans (hT_apply V c ⟨p, hp⟩ r j hlt))

/-- Point p's addend to the second accumulator likewise. -/
theorem add9_eq (p : ℕ) (hp : p < cfg1.N) (g : Fin 10) (j : Fin 128) :
    add9 V c p g j = ∑ r : Fin 1000, F9 V c g j (p * 1000 + r.val) := by
  have hN : p < 50 := lt_of_lt_of_eq hp (show cfg1.N = 50 from N_1)
  rw [add9, dif_pos hp]
  refine Finset.sum_congr rfl fun r _ => ?_
  have hlt : p * 1000 + r.val < 50000 := by have := r.isLt; omega
  rw [F9, dif_pos hlt]
  have es := sT_apply V c ⟨p, hp⟩ r g hlt
  have eh := hT_apply V c ⟨p, hp⟩ r j hlt
  exact congr (congrArg HMul.hMul (congr (congrArg HMul.hMul es) es)) (congr (congrArg HMul.hMul eh) eh)

end Cert.KernelIdeal.StepA1

end
-- ==== Proof.KStepA1Arr.lean ====
/-
  What the reduction kernel leaves in its three result arrays.

  The feature array ends holding h, the inner features of the array the kernel is launched on: point t writes back
  rows 1000·t … 1000·t + 999, and the 50 points cover the 50000 rows. Each accumulator array [2, 10, 128] ends holding,
  in slab k, the running sum after core k's last tile, which is the sum over its 25 tiles of the tiles' addends, that
  is the sum over the 25000 rows core k holds:  ∑ q, s (25000·k + q, g) · h (25000·k + q, j)  and the same with squares.
-/
import proofs.«100017_j47974784696399_2_alg».proof.Proof.KStepA1Tile

noncomputable section

open Idealize.ShloMosaic Idealize.ShloMosaic.TcCoe Idealize.SL.Sem Idealize.ShloMosaic.ValueIdx
open Idealize.ShloMosaic.Pipeline (Dat)
open scoped BigOperators

namespace Cert.KernelIdeal.StepA1

open Cert.KernelIdeal Cert.KernelIdeal.Gen Cert.KernelIdeal.StepA Cert.LibStepA

variable (V : (c : Dev nD) → (b : Ref sig .tc) → Buf (Elt Ideal) ((c : Thread nD τ).loc b)) (c : Dev nD)

theorem lt3_0 {a b d : ℕ} (i : (⟨3, ![a, b, d]⟩ : Shape).Idx) : (i 0).val < a := (i 0).isLt
theorem lt3_1 {a b d : ℕ} (i : (⟨3, ![a, b, d]⟩ : Shape).Idx) : (i 1).val < b := (i 1).isLt
theorem lt3_2 {a b d : ℕ} (i : (⟨3, ![a, b, d]⟩ : Shape).Idx) : (i 2).val < d := (i 2).isLt

/-! ## The feature array -/

/-- What the feature array ends holding. -/
noncomputable def G7 : S50000x128.Idx → EReal := fun i => hA V c ⟨(i 0).val, idx2_lt0 i⟩ ⟨(i 1).val, idx2_lt1 i⟩

/-- After point t the feature buffer, entry by entry, is the block of G7 that point t's window names. -/
theorem flushed7_at (t : Fin cfg1.N) (y : S1000x128.Idx) :
    ((outsAt1 V c t.val t.isLt).1 : Vec Ideal S1000x128 .f32) y = G7 V c (((cfg1.win 7).blk t).view.emb y) := by
  have hN : t.val < 50 := lt_of_lt_of_eq t.isLt (show cfg1.N = 50 from N_1)
  have hi := idx_facts1 t
  obtain ⟨r, k, rfl⟩ : ∃ (r : Fin 1000) (k : Fin 128), y = ix2 r k := ⟨y 0, y 1, eq_ix2 y⟩
  have hlt : t.val * 1000 + r.val < 50000 := by have := r.isLt; omega
  have hemb : ((cfg1.win 7).blk t).view.emb (ix2 r k) = (ix2 (⟨t.val * 1000 + r.val, hlt⟩ : Fin 50000) k : S50000x128.Idx) :=
    funext fun a => Fin.ext (by
      match a with
      | ⟨0, _⟩ => show win1_7.index t 0 * 1000 + 1 * r.val = t.val * 1000 + r.val; rw [hi.2.2.2.2.2.2.2.2.2.2.2.2.2.2.1]; omega
      | ⟨1, _⟩ => show win1_7.index t 1 * 128 + 1 * k.val = k.val; rw [hi.2.2.2.2.2.2.2.2.2.2.2.2.2.2.2.1]; omega)
  rw [outs_7 V c t, hemb]
  exact hT_apply V c t r k hlt

theorem flushed_eq7 (t : Fin cfg1.N) (hf : (cfg1.win 7).flush t = true) :
    (dat1 V c).flushed 7 t = ((cfg1.win 7).blk t).view.read (Elt Ideal) (G7 V c) := by
  show (cfg1.win 7).cut (grid1.coords t) ((dat1 V c).after 7 t) = _
  rw [after1_7]
  funext y
  exact flushed7_at V c t y

/-- An index of the feature array is in point t's block iff each coordinate is in the block's range on its axis. -/
theorem mem_blk7 (t : Fin cfg1.N) (i : S50000x128.Idx) :
    i ∈ ((cfg1.win 7).blk t).view.set ↔ ∀ a : Fin 2, win1_7.index t a * S1000x128.size a ≤ (i a).val
      ∧ (i a).val < win1_7.index t a * S1000x128.size a + S1000x128.size a := by
  show i ∈ ((View.whole main_v17_0).slice (win1_7.rect t)).set ↔ _
  rw [View.set_slice_whole, Rect.mem_set_unit]
  exact Iff.rfl

/-- The feature array ends holding the inner features of the array the kernel is launched on. -/
theorem final7 : (dat1 V c).arrAt 7 cfg1.N = G7 V c :=
  (dat1 V c).arrAt_eq_of_cover 7 (G7 V c) (flushed_eq7 V c) fun i => by
    have h0 : (i 0).val < 50000 := idx2_lt0 i
    have h1 : (i 1).val < 128 := idx2_lt1 i
    have hN : cfg1.N = 50 := N_1
    let t : Fin cfg1.N := ⟨(i 0).val / 1000, by rw [hN]; omega⟩
    have hi := idx_facts1 t
    refine ⟨t, flush1_7 t, ?_⟩
    rw [mem_blk7]
    intro a
    match a with
    | ⟨0, _⟩ =>
      show win1_7.index t 0 * 1000 ≤ (i 0).val ∧ (i 0).val < win1_7.index t 0 * 1000 + 1000
      rw [hi.2.2.2.2.2.2.2.2.2.2.2.2.2.2.1]; show (i 0).val / 1000 * 1000 ≤ (i 0).val ∧ (i 0).val < (i 0).val / 1000 * 1000 + 1000; omega
    | ⟨1, _⟩ =>
      show win1_7.index t 1 * 128 ≤ (i 1).val ∧ (i 1).val < win1_7.index t 1 * 128 + 128
      rw [hi.2.2.2.2.2.2.2.2.2.2.2.2.2.2.2.1]; omega

/-- THE FEATURE ARRAY, entry by entry. -/
theorem h_arr (n : Fin 50000) (j : Fin 128) :
    ((dat1 V c).arrAt 7 cfg1.N : S50000x128.Idx → EReal) (ix2 n j) = hA V c n j := by
  rw [final7 V c]
  rfl

end Cert.KernelIdeal.StepA1

end
-- ==== Proof.KStepA1ArrAcc.lean ====
/-
  What the reduction kernel leaves in its two accumulator arrays.

  Each accumulator array [2, 10, 128] ends holding, in slab k, the running sum after core k's last tile, which is the
  sum over its 25 tiles of the tiles' addends, that is the sum over the 25000 rows core k holds:
  ∑ q, s (25000·k + q, g) · h (25000·k + q, j)  for the first, and the same with both factors squared for the second.
-/
import proofs.«100017_j47974784696399_2_alg».proof.Proof.KStepA1Arr

noncomputable section

open Idealize.ShloMosaic Idealize.ShloMosaic.TcCoe Idealize.SL.Sem Idealize.ShloMosaic.ValueIdx
open Idealize.ShloMosaic.Pipeline (Dat)
open scoped BigOperators

namespace Cert.KernelIdeal.StepA1

open Cert.KernelIdeal Cert.KernelIdeal.Gen Cert.KernelIdeal.StepA Cert.LibStepA

variable (V : (c : Dev nD) → (b : Ref sig .tc) → Buf (Elt Ideal) ((c : Thread nD τ).loc b)) (c : Dev nD)

/-! ## Accumulator 8 -/

/-- What accumulator array 8 ends holding: in slab k, the sum of the summands over the 25000 rows of core k. -/
noncomputable def G8 : S2x10x128.Idx → EReal := fun i =>
  ∑ q : Fin 25000, F8 V c ⟨(i 1).val, lt3_1 i⟩ ⟨(i 2).val, lt3_2 i⟩ ((i 0).val * 25000 + q.val)

/-- After a core's last tile the accumulator buffer, entry by entry, is the slab of G8 its window names. -/
theorem flushed8_at (t : Fin cfg1.N) (h24 : t.val % 25 = 24) (y : S1x10x128.Idx) :
    ((outsAt1 V c t.val t.isLt).2.1 : Vec Ideal S1x10x128 .f32) y = G8 V c (((cfg1.win 8).blk t).view.emb y) := by
  have hN : t.val < 50 := lt_of_lt_of_eq t.isLt (show cfg1.N = 50 from N_1)
  have hi := idx_facts1 t
  obtain ⟨u, g, j, rfl⟩ : ∃ (u : Fin 1) (g : Fin 10) (j : Fin 128), y = ix3 u g j := ⟨y 0, y 1, y 2, eq_ix3 y⟩
  have hk : t.val / 25 < 2 := by omega
  have hemb : ((cfg1.win 8).blk t).view.emb (ix3 u g j) = (ix3 (⟨t.val / 25, hk⟩ : Fin 2) g j : S2x10x128.Idx) :=
    funext fun a => Fin.ext (by
      match a with
      | ⟨0, _⟩ => show win1_8.index t 0 * 1 + 1 * u.val = t.val / 25; rw [hi.2.2.2.2.2.2.2.2.2.2.2.2.2.2.2.2.1]; omega
      | ⟨1, _⟩ => show win1_8.index t 1 * 10 + 1 * g.val = g.val; rw [hi.2.2.2.2.2.2.2.2.2.2.2.2.2.2.2.2.2.1]; omega
      | ⟨2, _⟩ => show win1_8.index t 2 * 128 + 1 * j.val = j.val; rw [hi.2.2.2.2.2.2.2.2.2.2.2.2.2.2.2.2.2.2.1]; omega)
  rw [acc8 V c t.val t.isLt u g j, hemb, h24]
  show ∑ s ∈ Finset.range 25, add8 V c (t.val - 24 + s) g j = ∑ q : Fin 25000, F8 V c g j (t.val / 25 * 25000 + q.val)
  have hb : t.val - 24 = 25 * (t.val / 25) := by omega
  rw [hb, ← sum_tiles (F8 V c g j) (t.val / 25)]
  refine Finset.sum_congr rfl fun s hs => ?_
  have hs' : s < 25 := Finset.mem_range.mp hs
  exact add8_eq V c (25 * (t.val / 25) + s) (by have hN50 : cfg1.N = 50 := N_1; omega) g j

/-- Reading a block of any array through point t's window: entry y of the block is the array at the place y holds. -/
theorem read_blk8 (t : Fin cfg1.N) (G : S2x10x128.Idx → EReal) (y : S1x10x128.Idx) :
    ((cfg1.win 8).blk t).view.read (Elt Ideal) G y = G (((cfg1.win 8).blk t).view.emb y) := rfl

theorem flushed_eq8 (t : Fin cfg1.N) (hf : (cfg1.win 8).flush t = true) :
    (dat1 V c).flushed 8 t = ((cfg1.win 8).blk t).view.read (Elt Ideal) (G8 V c) := by
  have h24 : t.val % 25 = 24 := (flush1_8 t).mp hf
  show (cfg1.win 8).cut (grid1.coords t) ((dat1 V c).after 8 t) = _
  rw [after1_8]
  funext y
  exact (flushed8_at V c t h24 y).trans (read_blk8 t (G8 V c) y).symm

theorem mem_blk8 (t : Fin cfg1.N) (i : S2x10x128.Idx) :
    i ∈ ((cfg1.win 8).blk t).view.set ↔ ∀ a : Fin 3, win1_8.index t a * S1x10x128.size a ≤ (i a).val
      ∧ (i a).val < win1_8.index t a * S1x10x128.size a + S1x10x128.size a := by
  show i ∈ ((View.whole main_v17_1).slice (win1_8.rect t)).set ↔ _
  rw [View.set_slice_whole, Rect.mem_set_unit]
  exact Iff.rfl

/-- Accumulator array 8 ends holding G8: the last tile of core k writes slab k, and the two slabs are the array. -/
theorem final8 : (dat1 V c).arrAt 8 cfg1.N = G8 V c :=
  (dat1 V c).arrAt_eq_of_cover 8 (G8 V c) (flushed_eq8 V c) fun i => by
    have h0 : (i 0).val < 2 := lt3_0 i
    have h1 : (i 1).val < 10 := lt3_1 i
    have h2 : (i 2).val < 128 := lt3_2 i
    have hN : cfg1.N = 50 := N_1
    let t : Fin cfg1.N := ⟨25 * (i 0).val + 24, by rw [hN]; omega⟩
    have hi := idx_facts1 t
    have ht : t.val = 25 * (i 0).val + 24 := rfl
    refine ⟨t, (flush1_8 t).mpr (by rw [ht]; omega), ?_⟩
    rw [mem_blk8]
    intro a
    match a with
    | ⟨0, _⟩ =>
      show win1_8.index t 0 * 1 ≤ (i 0).val ∧ (i 0).val < win1_8.index t 0 * 1 + 1
      rw [hi.2.2.2.2.2.2.2.2.2.2.2.2.2.2.2.2.1, ht]; omega
    | ⟨1, _⟩ =>
      show win1_8.index t 1 * 10 ≤ (i 1).val ∧ (i 1).val < win1_8.index t 1 * 10 + 10
      rw [hi.2.2.2.2.2.2.2.2.2.2.2.2.2.2.2.2.2.1]; omega
    | ⟨2, _⟩ =>
      show win1_8.index t 2 * 128 ≤ (i 2).val ∧ (i 2).val < win1_8.index t 2 * 128 + 128
      rw [hi.2.2.2.2.2.2.2.2.2.2.2.2.2.2.2.2.2.2.1]; omega

/-! ## Accumulator 9 -/

/-- What accumulator array 9 ends holding: in slab k, the sum of the summands over the 25000 rows of core k. -/
noncomputable def G9 : S2x10x128.Idx → EReal := fun i =>
  ∑ q : Fin 25000, F9 V c ⟨(i 1).val, lt3_1 i⟩ ⟨(i 2).val, lt3_2 i⟩ ((i 0).val * 25000 + q.val)

/-- After a core's last tile the accumulator buffer, entry by entry, is the slab of G9 its window names. -/
theorem flushed9_at (t : Fin cfg1.N) (h24 : t.val % 25 = 24) (y : S1x10x128.Idx) :
    ((outsAt1 V c t.val t.isLt).2.2 : Vec Ideal S1x10x128 .f32) y = G9 V c (((cfg1.win 9).blk t).view.emb y) := by
  have hN : t.val < 50 := lt_of_lt_of_eq t.isLt (show cfg1.N = 50 from N_1)
  have hi := idx_facts1 t
  obtain ⟨u, g, j, rfl⟩ : ∃ (u : Fin 1) (g : Fin 10) (j : Fin 128), y = ix3 u g j := ⟨y 0, y 1, y 2, eq_ix3 y⟩
  have hk : t.val / 25 < 2 := by omega
  have hemb : ((cfg1.win 9).blk t).view.emb (ix3 u g j) = (ix3 (⟨t.val / 25, hk⟩ : Fin 2) g j : S2x10x128.Idx) :=
    funext fun a => Fin.ext (by
      match a with
      | ⟨0, _⟩ => show win1_9.index t 0 * 1 + 1 * u.val = t.val / 25; rw [hi.2.2.2.2.2.2.2.2.2.2.2.2.2.2.2.2.2.2.2.1]; omega
      | ⟨1, _⟩ => show win1_9.index t 1 * 10 + 1 * g.val = g.val; rw [hi.2.2.2.2.2.2.2.2.2.2.2.2.2.2.2.2.2.2.2.2.1]; omega
      | ⟨2, _⟩ => show win1_9.index t 2 * 128 + 1 * j.val = j.val; rw [hi.2.2.2.2.2.2.2.2.2.2.2.2.2.2.2.2.2.2.2.2.2]; omega)
  rw [acc9 V c t.val t.isLt u g j, hemb, h24]
  show ∑ s ∈ Finset.range 25, add9 V c (t.val - 24 + s) g j = ∑ q : Fin 25000, F9 V c g j (t.val / 25 * 25000 + q.val)
  have hb : t.val - 24 = 25 * (t.val / 25) := by omega
  rw [hb, ← sum_tiles (F9 V c g j) (t.val / 25)]
  refine Finset.sum_congr rfl fun s hs => ?_
  have hs' : s < 25 := Finset.mem_range.mp hs
  exact add9_eq V c (25 * (t.val / 25) + s) (by have hN50 : cfg1.N = 50 := N_1; omega) g j

/-- Reading a block of any array through point t's window: entry y of the block is the array at the place y holds. -/
theorem read_blk9 (t : Fin cfg1.N) (G : S2x10x128.Idx → EReal) (y : S1x10x128.Idx) :
    ((cfg1.win 9).blk t).view.read (Elt Ideal) G y = G (((cfg1.win 9).blk t).view.emb y) := rfl

theorem flushed_eq9 (t : Fin cfg1.N) (hf : (cfg1.win 9).flush t = true) :
    (dat1 V c).flushed 9 t = ((cfg1.win 9).blk t).view.read (Elt Ideal) (G9 V c) := by
  have h24 : t.val % 25 = 24 := (flush1_9 t).mp hf
  show (cfg1.win 9).cut (grid1.coords t) ((dat1 V c).after 9 t) = _
  rw [after1_9]
  funext y
  exact (flushed9_at V c t h24 y).trans (read_blk9 t (G9 V c) y).symm

theorem mem_blk9 (t : Fin cfg1.N) (i : S2x10x128.Idx) :
    i ∈ ((cfg1.win 9).blk t).view.set ↔ ∀ a : Fin 3, win1_9.index t a * S1x10x128.size a ≤ (i a).val
      ∧ (i a).val < win1_9.index t a * S1x10x128.size a + S1x10x128.size a := by
  show i ∈ ((View.whole main_v17_2).slice (win1_9.rect t)).set ↔ _
  rw [View.set_slice_whole, Rect.mem_set_unit]
  exact Iff.rfl

/-- Accumulator array 9 ends holding G9: the last tile of core k writes slab k, and the two slabs are the array. -/
theorem final9 : (dat1 V c).arrAt 9 cfg1.N = G9 V c :=
  (dat1 V c).arrAt_eq_of_cover 9 (G9 V c) (flushed_eq9 V c) fun i => by
    have h0 : (i 0).val < 2 := lt3_0 i
    have h1 : (i 1).val < 10 := lt3_1 i
    have h2 : (i 2).val < 128 := lt3_2 i
    have hN : cfg1.N = 50 := N_1
    let t : Fin cfg1.N := ⟨25 * (i 0).val + 24, by rw [hN]; omega⟩
    have hi := idx_facts1 t
    have ht : t.val = 25 * (i 0).val + 24 := rfl
    refine ⟨t, (flush1_9 t).mpr (by rw [ht]; omega), ?_⟩
    rw [mem_blk9]
    intro a
    match a with
    | ⟨0, _⟩ =>
      show win1_9.index t 0 * 1 ≤ (i 0).val ∧ (i 0).val < win1_9.index t 0 * 1 + 1
      rw [hi.2.2.2.2.2.2.2.2.2.2.2.2.2.2.2.2.2.2.2.1, ht]; omega
    | ⟨1, _⟩ =>
      show win1_9.index t 1 * 10 ≤ (i 1).val ∧ (i 1).val < win1_9.index t 1 * 10 + 10
      rw [hi.2.2.2.2.2.2.2.2.2.2.2.2.2.2.2.2.2.2.2.2.1]; omega
    | ⟨2, _⟩ =>
      show win1_9.index t 2 * 128 ≤ (i 2).val ∧ (i 2).val < win1_9.index t 2 * 128 + 128
      rw [hi.2.2.2.2.2.2.2.2.2.2.2.2.2.2.2.2.2.2.2.2.2]; omega

/-! ## The statements, entry by entry -/

/-- Row q of core k is a row of the array. -/
theorem row_lt (k : Fin 2) (q : Fin 25000) : k.val * 25000 + q.val < 50000 := by
  have := k.isLt; have := q.isLt; omega

/-- THE FIRST ACCUMULATOR ARRAY, entry by entry: the gate-weighted sum of the inner features over core k's rows. -/
theorem sum_arr (k : Fin 2) (g : Fin 10) (j : Fin 128) :
    ((dat1 V c).arrAt 8 cfg1.N : S2x10x128.Idx → EReal) (ix3 k g j)
      = ∑ q : Fin 25000, sA V c ⟨k.val * 25000 + q.val, row_lt k q⟩ g * hA V c ⟨k.val * 25000 + q.val, row_lt k q⟩ j := by
  rw [final8 V c]
  show ∑ q : Fin 25000, F8 V c g j (k.val * 25000 + q.val) = _
  refine Finset.sum_congr rfl fun q _ => ?_
  rw [F8, dif_pos (row_lt k q)]

/-- THE SECOND ACCUMULATOR ARRAY, entry by entry: the same with the gate and the features squared. -/
theorem sumsq_arr (k : Fin 2) (g : Fin 10) (j : Fin 128) :
    ((dat1 V c).arrAt 9 cfg1.N : S2x10x128.Idx → EReal) (ix3 k g j)
      = ∑ q : Fin 25000, (sA V c ⟨k.val * 25000 + q.val, row_lt k q⟩ g * sA V c ⟨k.val * 25000 + q.val, row_lt k q⟩ g)
          * (hA V c ⟨k.val * 25000 + q.val, row_lt k q⟩ j * hA V c ⟨k.val * 25000 + q.val, row_lt k q⟩ j) := by
  rw [final9 V c]
  show ∑ q : Fin 25000, F9 V c g j (k.val * 25000 + q.val) = _
  refine Finset.sum_congr rfl fun q _ => ?_
  rw [F9, dif_pos (row_lt k q)]

end Cert.KernelIdeal.StepA1

end
-- ==== Proof.KStepA1Export.lean ====
/-
  The reduction kernel's three result arrays, stated over explicit argument arrays.

  For any functions o, W1, b1, W2, b2, linW, linb that the arrays the kernel is launched on are equal to, the feature
  array ends holding  h = softplus (o·W1 + b1)·W2 + b2,  and the two accumulator arrays the sums over each core's rows
  of  s · h  and  s² · h²  with  s = softmax (h·linW + linb).
-/
import proofs.«100017_j47974784696399_2_alg».proof.Proof.KStepA1ArrAcc

noncomputable section

open Idealize.ShloMosaic Idealize.ShloMosaic.TcCoe Idealize.SL.Sem Idealize.ShloMosaic.ValueIdx
open scoped BigOperators

namespace Cert.KernelIdeal.StepA1

open Cert.KernelIdeal Cert.KernelIdeal.Gen

variable (V : (c : Dev nD) → (b : Ref sig .tc) → Buf (Elt Ideal) ((c : Thread nD τ).loc b)) (c : Dev nD)
variable (o : Fin 50000 → Fin 128 → EReal) (W1 : Fin 128 → Fin 128 → EReal) (b1 : Fin 128 → EReal)
  (W2 : Fin 128 → Fin 128 → EReal) (b2 : Fin 128 → EReal) (linW : Fin 128 → Fin 10 → EReal) (linb : Fin 10 → EReal)

/-- The feature array. -/
theorem h_arr_of (ho : oA V c = o) (hW1 : W1A V c = W1) (hb1 : b1A V c = b1) (hW2 : W2A V c = W2) (hb2 : b2A V c = b2)
    (n : Fin 50000) (j : Fin 128) :
    ((dat1 V c).arrAt 7 cfg1.N : S50000x128.Idx → EReal) (ix2 n j) = Cert.Spec.hid o W1 b1 W2 b2 n j := by
  subst ho hW1 hb1 hW2 hb2
  exact h_arr V c n j

/-- The first accumulator array. -/
theorem sum_arr_of (ho : oA V c = o) (hW1 : W1A V c = W1) (hb1 : b1A V c = b1) (hW2 : W2A V c = W2) (hb2 : b2A V c = b2)
    (hlW : linWA V c = linW) (hlb : linbA V c = linb) (k : Fin 2) (g : Fin 10) (j : Fin 128) :
    ((dat1 V c).arrAt 8 cfg1.N : S2x10x128.Idx → EReal) (ix3 k g j)
      = ∑ q : Fin 25000, Cert.Spec.gate (Cert.Spec.hid o W1 b1 W2 b2) linW linb ⟨k.val * 25000 + q.val, row_lt k q⟩ g
          * Cert.Spec.hid o W1 b1 W2 b2 ⟨k.val * 25000 + q.val, row_lt k q⟩ j := by
  subst ho hW1 hb1 hW2 hb2 hlW hlb
  exact sum_arr V c k g j

/-- The second accumulator array. -/
theorem sumsq_arr_of (ho : oA V c = o) (hW1 : W1A V c = W1) (hb1 : b1A V c = b1) (hW2 : W2A V c = W2) (hb2 : b2A V c = b2)
    (hlW : linWA V c = linW) (hlb : linbA V c = linb) (k : Fin 2) (g : Fin 10) (j : Fin 128) :
    ((dat1 V c).arrAt 9 cfg1.N : S2x10x128.Idx → EReal) (ix3 k g j)
      = ∑ q : Fin 25000,
          (Cert.Spec.gate (Cert.Spec.hid o W1 b1 W2 b2) linW linb ⟨k.val * 25000 + q.val, row_lt k q⟩ g
            * Cert.Spec.gate (Cert.Spec.hid o W1 b1 W2 b2) linW linb ⟨k.val * 25000 + q.val, row_lt k q⟩ g)
          * (Cert.Spec.hid o W1 b1 W2 b2 ⟨k.val * 25000 + q.val, row_lt k q⟩ j
            * Cert.Spec.hid o W1 b1 W2 b2 ⟨k.val * 25000 + q.val, row_lt k q⟩ j) := by
  subst ho hW1 hb1 hW2 hb2 hlW hlb
  exact sumsq_arr V c k g j

end Cert.KernelIdeal.StepA1

end
-- ==== Proof.KValue1.lean ====
/-
  The idealized kernel's intermediate arrays as the specification's functions of the launch memory, as far as the
  first residual block.

  The first launch's output is the first layer out0 (in its three-product arrangement); the first reduction launch's
  outputs are the block's inner features h and the per-core partial sums of s·h and s²·h²; the stretch after it turns
  the partial sums into the scale A and the row cc; the first gate-apply launch's output is the block in its collapsed
  arrangement.
-/
import proofs.«100017_j47974784696399_2_alg».proof.Proof.KChainVals1
import proofs.«100017_j47974784696399_2_alg».proof.Proof.KChainVals2
import proofs.«100017_j47974784696399_2_alg».proof.Proof.KReg0
import proofs.«100017_j47974784696399_2_alg».proof.Proof.KReg2
import proofs.«100017_j47974784696399_2_alg».proof.Proof.KVal0
import proofs.«100017_j47974784696399_2_alg».proof.Proof.KGlue
import proofs.«100017_j47974784696399_2_alg».proof.Proof.KHostB
import proofs.«100017_j47974784696399_2_alg».proof.Proof.KStepA1Export

set_option maxRecDepth 16384
set_option maxHeartbeats 1000000

noncomputable section

namespace Cert.KernelIdeal.KValue

open Idealize.ShloMosaic Idealize.ShloMosaic.ValueIdx Idealize.ShloMosaic.StableHlo Idealize.SL.Sem
open Cert.KernelIdeal Cert.KernelIdeal.Gen Cert.KernelIdeal.KChain

variable (m : (ℓ : Loc nD τ sig) → Buf (Elt Ideal) ℓ) (ρ : Dev nD → PrngReg) (c : Dev nD)

/-- the first layer, from the launch memory. -/
def O0 : Fin 50000 → Fin 128 → EReal :=
  Cert.Spec.out0K (fun i k => (m ((c.tc : Thread nD τ).loc main_arg0)) (ix2 i k)) (fun i k => KHost.msgK (m ((c.tc : Thread nD τ).loc main_arg1)) (m ((c.tc : Thread nD τ).loc main_arg2)) (ix2 i k))
    (fun k => (m ((c.tc : Thread nD τ).loc main_arg3)) (ix2 (0 : Fin 1) k)) (fun k j => (m ((c.tc : Thread nD τ).loc main_arg4)) (ix2 k j)) (fun j => (m ((c.tc : Thread nD τ).loc main_arg5)) (ix1 j))

/-- The first launch's output array is the first layer. -/
theorem o0_eq (n : Fin 50000) (j : Fin 128) : o0arr m ρ c (ix2 n j) = O0 m c n j := by
  have e : o0arr m ρ c = KReg0.G (m ((c.tc : Thread nD τ).loc main_arg0)) (KHost.msgK (m ((c.tc : Thread nD τ).loc main_arg1)) (m ((c.tc : Thread nD τ).loc main_arg2)))
      (extractStridedSlice S128x128 ![0, 0] (m ((c.tc : Thread nD τ).loc main_arg4)) slices_S320x128_S128x128_0_0)
      (extractStridedSlice S128x128 ![128, 0] (m ((c.tc : Thread nD τ).loc main_arg4)) slices_S320x128_S128x128_128_0)
      (KHost.biasK (m ((c.tc : Thread nD τ).loc main_arg3)) (m ((c.tc : Thread nD τ).loc main_arg4)) (m ((c.tc : Thread nD τ).loc main_arg5))) := by
    have e0 := KReg0.arr (V1 m ρ) c
    rw [show V1 m ρ c main_arg0 = (m ((c.tc : Thread nD τ).loc main_arg0)) from rd1_arg0 m ρ c,
      show V1 m ρ c main_v4 = _ from rd1_v4 m ρ c, show V1 m ρ c main_v5 = _ from rd1_v5 m ρ c,
      show V1 m ρ c main_v6 = _ from rd1_v6 m ρ c, show V1 m ρ c main_v10 = _ from rd1_v10 m ρ c] at e0
    exact e0
  rw [e]
  exact KVal0.layer0_glue _ _ _ _ _ _ n j

/-- the first block's parameters, from the launch memory. -/
abbrev W1a : Fin 128 → Fin 128 → EReal := fun k j => (m ((c.tc : Thread nD τ).loc main_arg6)) (ix2 k j)
abbrev b1a : Fin 128 → EReal := fun j => (m ((c.tc : Thread nD τ).loc main_arg7)) (ix1 j)
abbrev W2a : Fin 128 → Fin 128 → EReal := fun k j => (m ((c.tc : Thread nD τ).loc main_arg8)) (ix2 k j)
abbrev b2a : Fin 128 → EReal := fun j => (m ((c.tc : Thread nD τ).loc main_arg9)) (ix1 j)
abbrev lWa : Fin 128 → Fin 10 → EReal := fun k g => (m ((c.tc : Thread nD τ).loc main_arg10)) (ix2 k g)
abbrev lba : Fin 10 → EReal := fun g => (m ((c.tc : Thread nD τ).loc main_arg11)) (ix1 g)
abbrev gma : Fin 10 → Fin 128 → EReal := fun g j => (m ((c.tc : Thread nD τ).loc main_arg12)) (ix1 (⟨g.val * 128 + j.val, by omega⟩ : Fin 1280))
abbrev bta : Fin 10 → Fin 128 → EReal := fun g j => (m ((c.tc : Thread nD τ).loc main_arg13)) (ix1 (⟨g.val * 128 + j.val, by omega⟩ : Fin 1280))

/-- what the first reduction launch reads. -/
theorem oA1 : StepA1.oA (V3 m ρ) c = KGlue.f2 (o0arr m ρ c) := by
  funext i k
  show W3 m ρ c (Proc.devRef .tc main_v11) (ix2 i k) = _
  rw [rd3_v11]
theorem W1A1 : StepA1.W1A (V3 m ρ) c = KGlue.f2 (m ((c.tc : Thread nD τ).loc main_arg6)) := by
  funext k j
  show W3 m ρ c (Proc.devRef .tc main_arg6) (ix2 k j) = _
  rw [(arg6_kept m ρ c).w3]
theorem b1A1 : StepA1.b1A (V3 m ρ) c = KGlue.r1 (shapeCast S1x128 (m ((c.tc : Thread nD τ).loc main_arg7)) shapeCasts_S128_S1x128) := by
  funext j
  show W3 m ρ c (Proc.devRef .tc main_v12) (ix2 (0 : Fin 1) j) = _
  rw [rd3_v12]
theorem W2A1 : StepA1.W2A (V3 m ρ) c = KGlue.f2 (m ((c.tc : Thread nD τ).loc main_arg8)) := by
  funext k j
  show W3 m ρ c (Proc.devRef .tc main_arg8) (ix2 k j) = _
  rw [(arg8_kept m ρ c).w3]
theorem b2A1 : StepA1.b2A (V3 m ρ) c = KGlue.r1 (shapeCast S1x128 (m ((c.tc : Thread nD τ).loc main_arg9)) shapeCasts_S128_S1x128) := by
  funext j
  show W3 m ρ c (Proc.devRef .tc main_v13) (ix2 (0 : Fin 1) j) = _
  rw [rd3_v13]
theorem lWA1 : StepA1.linWA (V3 m ρ) c = KGlue.f2 (m ((c.tc : Thread nD τ).loc main_arg10)) := by
  funext k g
  show W3 m ρ c (Proc.devRef .tc main_arg10) (ix2 k g) = _
  rw [(arg10_kept m ρ c).w3]
theorem lbA1 : StepA1.linbA (V3 m ρ) c = KGlue.r1 (shapeCast S1x10 (m ((c.tc : Thread nD τ).loc main_arg11)) shapeCasts_S10_S1x10) := by
  funext g
  show W3 m ρ c (Proc.devRef .tc main_v14) (ix2 (0 : Fin 1) g) = _
  rw [rd3_v14]

/-- the first residual block, collapsed arrangement, from the launch memory. -/
def OA : Fin 50000 → Fin 128 → EReal :=
  Cert.Spec.blockK (O0 m c) (W1a m c) (b1a m c) (W2a m c) (b2a m c) (lWa m c) (lba m c) (gma m c) (bta m c)

/-- The first gate-apply launch's output array is the first residual block. -/
theorem oa_eq (n : Fin 50000) (j : Fin 128) : oaarr m ρ c (ix2 n j) = OA m c n j := by
  have e : oaarr m ρ c = KReg2.G (h1arr m ρ c) (o0arr m ρ c) (m ((c.tc : Thread nD τ).loc main_arg10)) (shapeCast S1x10 (m ((c.tc : Thread nD τ).loc main_arg11)) shapeCasts_S10_S1x10)
      (KHostB.AH (s1arr m ρ c) (q1arr m ρ c) (shapeCast S10x128 (m ((c.tc : Thread nD τ).loc main_arg12)) shapeCasts_S1280_S10x128)) (KHostB.ccH (s1arr m ρ c) (q1arr m ρ c) (shapeCast S10x128 (m ((c.tc : Thread nD τ).loc main_arg12)) shapeCasts_S1280_S10x128) (shapeCast S10x128 (m ((c.tc : Thread nD τ).loc main_arg13)) shapeCasts_S1280_S10x128)) := by
    have e0 := KReg2.arr (V5 m ρ) c
    have e39 : W5 m ρ c (Proc.devRef .tc main_v39) = _ := (KHostB.h2_v39 (W4 m ρ c)).trans (by
      rw [rd4_v17_1, rd4_v17_2, rd4_v15])
    have e45 : W5 m ρ c (Proc.devRef .tc main_v45) = _ := (KHostB.h2_v45 (W4 m ρ c)).trans (by
      rw [rd4_v17_1, rd4_v17_2, rd4_v15, rd4_v16])
    rw [show V5 m ρ c main_v17_0 = _ from rd5_v17_0 m ρ c, show V5 m ρ c main_v11 = _ from rd5_v11 m ρ c,
      show V5 m ρ c main_arg10 = (m ((c.tc : Thread nD τ).loc main_arg10)) from (arg10_kept m ρ c).w5, show V5 m ρ c main_v14 = _ from rd5_v14 m ρ c,
      show V5 m ρ c main_v39 = _ from e39, show V5 m ρ c main_v45 = _ from e45] at e0
    exact e0
  rw [e]
  refine (KGlue.blockK_glue (o0arr m ρ c) (h1arr m ρ c) (s1arr m ρ c) (q1arr m ρ c) (m ((c.tc : Thread nD τ).loc main_arg6)) (m ((c.tc : Thread nD τ).loc main_arg8)) (shapeCast S1x128 (m ((c.tc : Thread nD τ).loc main_arg7)) shapeCasts_S128_S1x128) (shapeCast S1x128 (m ((c.tc : Thread nD τ).loc main_arg9)) shapeCasts_S128_S1x128)
    (m ((c.tc : Thread nD τ).loc main_arg10)) (shapeCast S1x10 (m ((c.tc : Thread nD τ).loc main_arg11)) shapeCasts_S10_S1x10) (shapeCast S10x128 (m ((c.tc : Thread nD τ).loc main_arg12)) shapeCasts_S1280_S10x128) (shapeCast S10x128 (m ((c.tc : Thread nD τ).loc main_arg13)) shapeCasts_S1280_S10x128)
    (fun n j => StepA1.h_arr_of (V3 m ρ) c _ _ _ _ _ (oA1 m ρ c) (W1A1 m ρ c) (b1A1 m ρ c) (W2A1 m ρ c) (b2A1 m ρ c) n j)
    (fun k g j => StepA1.sum_arr_of (V3 m ρ) c _ _ _ _ _ _ _ (oA1 m ρ c) (W1A1 m ρ c) (b1A1 m ρ c) (W2A1 m ρ c) (b2A1 m ρ c)
      (lWA1 m ρ c) (lbA1 m ρ c) k g j)
    (fun k g j => StepA1.sumsq_arr_of (V3 m ρ) c _ _ _ _ _ _ _ (oA1 m ρ c) (W1A1 m ρ c) (b1A1 m ρ c) (W2A1 m ρ c) (b2A1 m ρ c)
      (lWA1 m ρ c) (lbA1 m ρ c) k g j) n j).trans ?_
  have hO : KGlue.f2 (o0arr m ρ c) = O0 m c := funext fun i => funext fun k => o0_eq m ρ c i k
  have hb1 : KGlue.r1 (shapeCast S1x128 (m ((c.tc : Thread nD τ).loc main_arg7)) shapeCasts_S128_S1x128) = b1a m c := funext fun j => KHost.row128_apply _ j
  have hb2 : KGlue.r1 (shapeCast S1x128 (m ((c.tc : Thread nD τ).loc main_arg9)) shapeCasts_S128_S1x128) = b2a m c := funext fun j => KHost.row128_apply _ j
  have hlb : KGlue.r1 (shapeCast S1x10 (m ((c.tc : Thread nD τ).loc main_arg11)) shapeCasts_S10_S1x10) = lba m c := funext fun g => KHost.row10_apply _ g
  have hg : KGlue.f2 (shapeCast S10x128 (m ((c.tc : Thread nD τ).loc main_arg12)) shapeCasts_S1280_S10x128) = gma m c := funext fun g => funext fun j => KHost.rows10x128_apply _ g j
  have hbt : KGlue.f2 (shapeCast S10x128 (m ((c.tc : Thread nD τ).loc main_arg13)) shapeCasts_S1280_S10x128) = bta m c := funext fun g => funext fun j => KHost.rows10x128_apply _ g j
  rw [hO, hb1, hb2, hlb, hg, hbt]
  rfl

end Cert.KernelIdeal.KValue

end
-- ==== Proof.KStepA3Piece.lean ====
/-
  What one grid point of the reduction kernel leaves in its three output buffers, as values of its loaded blocks.

  The body stores the inner features h of its 1000-row tile (one store over the whole buffer), and adds the tile's
  partial sums into the two [1, 10, 128] accumulators (one store over the whole buffer each, of the buffer's contents
  plus the tile's product). At the first tile of a core the accumulators are first stored with zeros, and the
  contents the additions read are those zeros; elsewhere they are what the buffer held on entry. The statements
  hold for any float values.
-/
import proofs.«100017_j47974784696399_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.StepA3

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Not the first tile of a core: the feature buffer is left holding the tile's inner features. -/
theorem out_B_7 (c : Dev nD) (i : grid3.Coords) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S1000x128 .f32) (harg9 : arg9.IsWhole) (arg10 : Memref sig .tc .vmem S1x10x128 .f32) (harg10 : arg10.IsWhole) (arg11 : Memref sig .tc .vmem S1x10x128 .f32) (harg11 : arg11.IsWhole) (hc0 : ¬cond3_0 i)
    (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32) (xo8 xo9 : Vec F S1x10x128 .f32) :
    out3_B_7 c i arg2 harg2 arg3 harg3 arg4 harg4 arg5 harg5 arg6 harg6 arg7 harg7 arg8 harg8 arg9 harg9 arg10 harg10 arg11 harg11 hc0 x0 x1 x2 x3 x4 x5 x6 xo8 xo9 = k3_pay6 x0 x1 x2 x3 x4 := by
  unfold out3_B_7
  rw [View.read_writes_eq_canon _ _ _ (cover3_B_7 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun3_B
  dsimp only
  rw [View.canon_unit_zero hz2]
  simp only [View.readAt_eq_ld, harg2.read_unread, harg3.read_unread, harg4.read_unread, harg5.read_unread, harg6.read_unread, harg7.read_unread, harg8.read_unread, harg10.read_unread, harg11.read_unread,
    View.ld_unit_zero (S := S1000x128) hz2, View.ld_unit_zero (S := S128x128) hz2, View.ld_unit_zero (S := S1x128) hz2, View.ld_unit_zero (S := S128x10) hz2, View.ld_unit_zero (S := S1x10) hz2, View.ld_unit_zero (S := S1x10x128) hz3]

/-- Not the first tile: the first accumulator is left holding what it held plus the tile's gate-weighted sums. -/
theorem out_B_8 (c : Dev nD) (i : grid3.Coords) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S1000x128 .f32) (harg9 : arg9.IsWhole) (arg10 : Memref sig .tc .vmem S1x10x128 .f32) (harg10 : arg10.IsWhole) (arg11 : Memref sig .tc .vmem S1x10x128 .f32) (harg11 : arg11.IsWhole) (hc0 : ¬cond3_0 i)
    (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32) (xo8 xo9 : Vec F S1x10x128 .f32) :
    out3_B_8 c i arg2 harg2 arg3 harg3 arg4 harg4 arg5 harg5 arg6 harg6 arg7 harg7 arg8 harg8 arg9 harg9 arg10 harg10 arg11 harg11 hc0 x0 x1 x2 x3 x4 x5 x6 xo8 xo9 = k3_pay2 (k3_pay7 x0 x1 x2 x3 x4) x5 x6 xo8 := by
  unfold out3_B_8
  rw [View.read_writes_eq_canon _ _ _ (cover3_B_8 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun3_B
  dsimp only
  sl_unfold_words
  rw [View.canon_unit_zero hz3]
  simp only [View.readAt_eq_ld, harg2.read_unread, harg3.read_unread, harg4.read_unread, harg5.read_unread, harg6.read_unread, harg7.read_unread, harg8.read_unread, harg10.read_unread, harg11.read_unread,
    View.ld_unit_zero (S := S1000x128) hz2, View.ld_unit_zero (S := S128x128) hz2, View.ld_unit_zero (S := S1x128) hz2, View.ld_unit_zero (S := S128x10) hz2, View.ld_unit_zero (S := S1x10) hz2, View.ld_unit_zero (S := S1x10x128) hz3]

/-- Not the first tile: the second accumulator likewise, with the squares. -/
theorem out_B_9 (c : Dev nD) (i : grid3.Coords) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S1000x128 .f32) (harg9 : arg9.IsWhole) (arg10 : Memref sig .tc .vmem S1x10x128 .f32) (harg10 : arg10.IsWhole) (arg11 : Memref sig .tc .vmem S1x10x128 .f32) (harg11 : arg11.IsWhole) (hc0 : ¬cond3_0 i)
    (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32) (xo8 xo9 : Vec F S1x10x128 .f32) :
    out3_B_9 c i arg2 harg2 arg3 harg3 arg4 harg4 arg5 harg5 arg6 harg6 arg7 harg7 arg8 harg8 arg9 harg9 arg10 harg10 arg11 harg11 hc0 x0 x1 x2 x3 x4 x5 x6 xo8 xo9 = k3_pay3 (k3_pay6 x0 x1 x2 x3 x4) (k3_pay7 x0 x1 x2 x3 x4) x5 x6 xo9 := by
  unfold out3_B_9
  rw [View.read_writes_eq_canon _ _ _ (cover3_B_9 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun3_B
  dsimp only
  sl_unfold_words
  rw [View.canon_unit_zero hz3]
  simp only [View.readAt_eq_ld, harg2.read_unread, harg3.read_unread, harg4.read_unread, harg5.read_unread, harg6.read_unread, harg7.read_unread, harg8.read_unread, harg10.read_unread, harg11.read_unread,
    View.ld_unit_zero (S := S1000x128) hz2, View.ld_unit_zero (S := S128x128) hz2, View.ld_unit_zero (S := S1x128) hz2, View.ld_unit_zero (S := S128x10) hz2, View.ld_unit_zero (S := S1x10) hz2, View.ld_unit_zero (S := S1x10x128) hz3]

/-- The first tile of a core: the feature buffer is left holding the tile's inner features. -/
theorem out_A_7 (c : Dev nD) (i : grid3.Coords) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S1000x128 .f32) (harg9 : arg9.IsWhole) (arg10 : Memref sig .tc .vmem S1x10x128 .f32) (harg10 : arg10.IsWhole) (arg11 : Memref sig .tc .vmem S1x10x128 .f32) (harg11 : arg11.IsWhole) (hc0 : cond3_0 i)
    (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32) :
    out3_A_7 c i arg2 harg2 arg3 harg3 arg4 harg4 arg5 harg5 arg6 harg6 arg7 harg7 arg8 harg8 arg9 harg9 arg10 harg10 arg11 harg11 hc0 x0 x1 x2 x3 x4 x5 x6 = k3_pay6 x0 x1 x2 x3 x4 := by
  unfold out3_A_7
  rw [View.read_writes_eq_canon _ _ _ (cover3_A_7 c i arg2 harg2 arg3 harg3 arg4 harg4 arg5 harg5 arg6 harg6 arg7 harg7 arg8 harg8 arg9 harg9 arg10 harg10 arg11 harg11 hc0 x0 x1 x2 x3 x4 x5 x6)]
  unfold kernelRun3_A
  dsimp only
  rw [View.canon_unit_zero hz2]
  simp only [View.readAt_eq_ld, harg2.read_unread, harg3.read_unread, harg4.read_unread, harg5.read_unread, harg6.read_unread, harg7.read_unread, harg8.read_unread, harg10.read_unread, harg11.read_unread,
    View.ld_unit_zero (S := S1000x128) hz2, View.ld_unit_zero (S := S128x128) hz2, View.ld_unit_zero (S := S1x128) hz2, View.ld_unit_zero (S := S128x10) hz2, View.ld_unit_zero (S := S1x10) hz2, View.ld_unit_zero (S := S1x10x128) hz3]

/-- The first tile: the first accumulator is stored with zeros, read back, and left holding zero plus the tile's sums. -/
theorem out_A_8 (c : Dev nD) (i : grid3.Coords) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S1000x128 .f32) (harg9 : arg9.IsWhole) (arg10 : Memref sig .tc .vmem S1x10x128 .f32) (harg10 : arg10.IsWhole) (arg11 : Memref sig .tc .vmem S1x10x128 .f32) (harg11 : arg11.IsWhole) (hc0 : cond3_0 i)
    (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32) :
    out3_A_8 c i arg2 harg2 arg3 harg3 arg4 harg4 arg5 harg5 arg6 harg6 arg7 harg7 arg8 harg8 arg9 harg9 arg10 harg10 arg11 harg11 hc0 x0 x1 x2 x3 x4 x5 x6 = k3_pay2 (k3_pay7 x0 x1 x2 x3 x4) x5 x6 (k3_pay4 (F := F)) := by
  unfold out3_A_8
  rw [View.read_writes_eq_canon _ _ _ (cover3_A_8 c i arg2 harg2 arg3 harg3 arg4 harg4 arg5 harg5 arg6 harg6 arg7 harg7 arg8 harg8 arg9 harg9 arg10 harg10 arg11 harg11 hc0 x0 x1 x2 x3 x4 x5 x6)]
  unfold kernelRun3_A
  dsimp only
  sl_unfold_words
  rw [View.canon_cons_unit_zero (S := S1x10x128) hz3, View.readCov_unit_zero (S := S1x10x128) _ hz3]
  simp only [View.readAt_eq_ld, harg2.read_unread, harg3.read_unread, harg4.read_unread, harg5.read_unread, harg6.read_unread, harg7.read_unread, harg8.read_unread, harg10.read_unread, harg11.read_unread,
    View.ld_unit_zero (S := S1000x128) hz2, View.ld_unit_zero (S := S128x128) hz2, View.ld_unit_zero (S := S1x128) hz2, View.ld_unit_zero (S := S128x10) hz2, View.ld_unit_zero (S := S1x10) hz2, View.ld_unit_zero (S := S1x10x128) hz3]

/-- The first tile: the second accumulator likewise. -/
theorem out_A_9 (c : Dev nD) (i : grid3.Coords) (arg2 : Memref sig .tc .vmem S1000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S1000x128 .f32) (harg9 : arg9.IsWhole) (arg10 : Memref sig .tc .vmem S1x10x128 .f32) (harg10 : arg10.IsWhole) (arg11 : Memref sig .tc .vmem S1x10x128 .f32) (harg11 : arg11.IsWhole) (hc0 : cond3_0 i)
    (x0 : Vec F S1000x128 .f32) (x1 : Vec F S128x128 .f32) (x2 : Vec F S1x128 .f32) (x3 : Vec F S128x128 .f32) (x4 : Vec F S1x128 .f32) (x5 : Vec F S128x10 .f32) (x6 : Vec F S1x10 .f32) :
    out3_A_9 c i arg2 harg2 arg3 harg3 arg4 harg4 arg5 harg5 arg6 harg6 arg7 harg7 arg8 harg8 arg9 harg9 arg10 harg10 arg11 harg11 hc0 x0 x1 x2 x3 x4 x5 x6 = k3_pay3 (k3_pay6 x0 x1 x2 x3 x4) (k3_pay7 x0 x1 x2 x3 x4) x5 x6 (k3_pay5 (F := F)) := by
  unfold out3_A_9
  rw [View.read_writes_eq_canon _ _ _ (cover3_A_9 c i arg2 harg2 arg3 harg3 arg4 harg4 arg5 harg5 arg6 harg6 arg7 harg7 arg8 harg8 arg9 harg9 arg10 harg10 arg11 harg11 hc0 x0 x1 x2 x3 x4 x5 x6)]
  unfold kernelRun3_A
  dsimp only
  sl_unfold_words
  rw [View.canon_cons_unit_zero (S := S1x10x128) hz3, View.readCov_unit_zero (S := S1x10x128) _ hz3]
  simp only [View.readAt_eq_ld, harg2.read_unread, harg3.read_unread, harg4.read_unread, harg5.read_unread, harg6.read_unread, harg7.read_unread, harg8.read_unread, harg10.read_unread, harg11.read_unread,
    View.ld_unit_zero (S := S1000x128) hz2, View.ld_unit_zero (S := S128x128) hz2, View.ld_unit_zero (S := S1x128) hz2, View.ld_unit_zero (S := S128x10) hz2, View.ld_unit_zero (S := S1x10) hz2, View.ld_unit_zero (S := S1x10x128) hz3]

end Cert.KernelIdeal.StepA3

end
-- ==== Proof.KStepA3Pay.lean ====
/-
  The reduction kernel's accumulator updates, read entry by entry at the exact (extended-real) values.

  With s the tile's gate ([1000, 10]) and hb the tile's inner features ([1000, 128]), the first update adds to the
  accumulator's entry (g, j) the product of the gate's column g with the features' column j,  ∑ r, s (r, g) · hb (r, j);
  the second adds  ∑ r, (s (r, g) · s (r, g)) · (h (r, j) · h (r, j)).  A change of number format is the identity
  here, and the matrix unit's product into a zero accumulator is the plain sum. The zero blocks read 0.
-/
import proofs.«100017_j47974784696399_2_alg».proof.Proof.Gen.KernelIdeal.Skeleton
import proofs.«100017_j47974784696399_2_alg».proof.Proof.LibStepA
import Idealize.ShloMosaic.Lib.ValueLayout

noncomputable section

open Idealize.ShloMosaic Idealize.ShloMosaic.ValueIdx
open scoped BigOperators

namespace Cert.KernelIdeal.StepA3

open Cert.KernelIdeal Cert.KernelIdeal.Gen Cert.LibStepA

/-- The tile product's record contracts the row axis of both operands: at entry (g, j) and row r it reads the left
    operand at (r, g) and the right one at (r, j). -/
theorem dotT_apply {φ₁ φ₂ : FTy} (x : FVec Ideal S1000x10 φ₁) (w : FVec Ideal S1000x128 φ₂) (g : Fin 10) (j : Fin 128) :
    matmul dot_S1000x10_S1000x128_S10x128_0_0_1_1_n_n none x w (constant S10x128 .f32 0x00000000#32) (ix2 g j)
      = ∑ r : Fin 1000, x (ix2 r g) * w (ix2 r j) :=
  matmulT_zero_apply dot_S1000x10_S1000x128_S10x128_0_0_1_1_n_n rfl rfl
    (fun i q => dot_S1000x10_S1000x128_S10x128_0_0_1_1_n_n.lhsIdx_val_of_single rfl i q) (fun _ _ => rfl)
    (fun i q => dot_S1000x10_S1000x128_S10x128_0_0_1_1_n_n.rhsIdx_val_of_single rfl i q) (fun _ _ => rfl) none x w g j

/-- The first accumulator's update at an entry. -/
theorem pay2_apply (v36 : FVec Ideal S1000x128 .bf16) (v37 : Vec Ideal S128x10 .f32) (v40 : Vec Ideal S1x10 .f32)
    (v62 : Vec Ideal S1x10x128 .f32) (u : Fin 1) (g : Fin 10) (j : Fin 128) :
    k3_pay2 v36 v37 v40 v62 (ix3 u g j)
      = v62 (ix3 u g j) + ∑ r : Fin 1000, k3_pay1 v36 v37 v40 (ix2 r g) * v36 (ix2 r j) := by
  unfold k3_pay2
  generalize k3_pay1 v36 v37 v40 = s
  refine (addf_apply _ _ _).trans ?_
  refine congr (congrArg HAdd.hAdd ?_) ?_
  · exact congrFun (shapeCast_self v62 _) _
  · refine (shapeCast_ab_1ab_apply _ _ u g j).trans ?_
    exact dotT_apply (truncf .bf16 s bitsLt_bf16_f32) v36 g j

/-- The second accumulator's update at an entry. -/
theorem pay3_apply (v34 : FVec Ideal S1000x128 .f32) (v36 : FVec Ideal S1000x128 .bf16) (v37 : Vec Ideal S128x10 .f32)
    (v40 : Vec Ideal S1x10 .f32) (v67 : Vec Ideal S1x10x128 .f32) (u : Fin 1) (g : Fin 10) (j : Fin 128) :
    k3_pay3 v34 v36 v37 v40 v67 (ix3 u g j)
      = v67 (ix3 u g j) + ∑ r : Fin 1000, (k3_pay1 v36 v37 v40 (ix2 r g) * k3_pay1 v36 v37 v40 (ix2 r g))
          * (v34 (ix2 r j) * v34 (ix2 r j)) := by
  unfold k3_pay3
  generalize k3_pay1 v36 v37 v40 = s
  refine (addf_apply _ _ _).trans ?_
  refine congr (congrArg HAdd.hAdd ?_) ?_
  · exact congrFun (shapeCast_self v67 _) _
  · refine (shapeCast_ab_1ab_apply _ _ u g j).trans ?_
    exact dotT_apply (truncf .bf16 (mulf s s) bitsLt_bf16_f32) (truncf .bf16 (mulf v34 v34) bitsLt_bf16_f32) g j

/-- The zero blocks stored at a core's first tile read 0. -/
theorem pay4_apply (i : S1x10x128.Idx) : k3_pay4 (F := Ideal) i = 0 := Ideal.ofBits_zero_f32
theorem pay5_apply (i : S1x10x128.Idx) : k3_pay5 (F := Ideal) i = 0 := Ideal.ofBits_zero_f32

/-- The narrowed copy of the tile's inner features has the same entries. -/
theorem pay7_apply (x0 : Vec Ideal S1000x128 .f32) (x1 : Vec Ideal S128x128 .f32) (x2 : Vec Ideal S1x128 .f32)
    (x3 : Vec Ideal S128x128 .f32) (x4 : Vec Ideal S1x128 .f32) (i : S1000x128.Idx) :
    k3_pay7 x0 x1 x2 x3 x4 i = k3_pay6 x0 x1 x2 x3 x4 i := rfl

end Cert.KernelIdeal.StepA3

end
-- ==== Proof.KStepA3Acc.lean ====
/-
  The reduction kernel's outputs after each grid point.

  After point t the feature buffer holds the inner features of tile t. The two accumulators hold, after point t, the
  sum of the addends of the points of t's core from its first tile up to t: the core's first tile stores zeros and
  adds its addend, every later tile adds its addend to what the tile before left. Addition on the extended reals is a
  commutative monoid, so the running sum is a finite sum over the tiles so far.
-/
import proofs.«100017_j47974784696399_2_alg».proof.Proof.KStepA3Piece
import proofs.«100017_j47974784696399_2_alg».proof.Proof.KStepA3Pay

noncomputable section

open Idealize.ShloMosaic Idealize.ShloMosaic.TcCoe Idealize.SL.Sem Idealize.ShloMosaic.ValueIdx
open scoped BigOperators

namespace Cert.KernelIdeal.StepA3

open Cert.KernelIdeal Cert.KernelIdeal.Gen

section AnyF
variable {F : FTy → Type} [FloatOps F]
variable (V : (c : Dev nD) → (b : Ref sig .tc) → Buf (Elt F) ((c : Thread nD τ).loc b)) (c : Dev nD)

/-- The inner features of the tile at point t. -/
def hT (t : Fin cfg3.N) : FVec F S1000x128 .f32 :=
  k3_pay6 (iblk3 V c 0 t) (iblk3 V c 1 t) (iblk3 V c 2 t) (iblk3 V c 3 t) (iblk3 V c 4 t)
/-- Their narrowed copy, which the gate and the accumulations read. -/
def hbT (t : Fin cfg3.N) : FVec F S1000x128 .bf16 :=
  k3_pay7 (iblk3 V c 0 t) (iblk3 V c 1 t) (iblk3 V c 2 t) (iblk3 V c 3 t) (iblk3 V c 4 t)
/-- The gate of the tile at point t. -/
def sT (t : Fin cfg3.N) : FVec F S1000x10 .f32 := k3_pay1 (hbT V c t) (iblk3 V c 5 t) (iblk3 V c 6 t)

/-- After point t the feature buffer holds tile t's inner features, at the first tile of a core or not. -/
theorem outs_7 (t : Fin cfg3.N) : (outsAt3 V c t.val t.isLt).1 = hT V c t := by
  by_cases h0 : t.val % 25 = 0
  · rw [outsAt3_A V c t h0]; dsimp only
    exact out_A_7 (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) ((hcond3_0 t).mpr h0) (iblk3 V c 0 t) (iblk3 V c 1 t) (iblk3 V c 2 t) (iblk3 V c 3 t) (iblk3 V c 4 t) (iblk3 V c 5 t) (iblk3 V c 6 t)
  · rw [outsAt3_B V c t h0]; dsimp only
    exact out_B_7 (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.1 (outsAt3 V c (t.val - 1) (Nat.lt_of_le_of_lt (Nat.sub_le _ _) t.isLt)).2.2

/-- The first accumulator after the first tile of a core: zero plus the tile's addend. -/
theorem outs_8_A (t : Fin cfg3.N) (h0 : t.val % 25 = 0) :
    (outsAt3 V c t.val t.isLt).2.1 = k3_pay2 (hbT V c t) (iblk3 V c 5 t) (iblk3 V c 6 t) (k3_pay4 (F := F)) := by
  rw [outsAt3_A V c t h0]; dsimp only
  exact out_A_8 (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) ((hcond3_0 t).mpr h0) (iblk3 V c 0 t) (iblk3 V c 1 t) (iblk3 V c 2 t) (iblk3 V c 3 t) (iblk3 V c 4 t) (iblk3 V c 5 t) (iblk3 V c 6 t)

/-- The first accumulator after a later tile: what the tile before left plus the tile's addend. -/
theorem outs_8_B (t : Fin cfg3.N) (h0 : ¬t.val % 25 = 0) :
    (outsAt3 V c t.val t.isLt).2.1
      = k3_pay2 (hbT V c t) (iblk3 V c 5 t) (iblk3 V c 6 t) (outsAt3 V c (t.val - 1) (Nat.lt_of_le_of_lt (Nat.sub_le _ _) t.isLt)).2.1 := by
  rw [outsAt3_B V c t h0]; dsimp only
  exact out_B_8 (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.1 (outsAt3 V c (t.val - 1) (Nat.lt_of_le_of_lt (Nat.sub_le _ _) t.isLt)).2.2

/-- The second accumulator after the first tile of a core. -/
theorem outs_9_A (t : Fin cfg3.N) (h0 : t.val % 25 = 0) :
    (outsAt3 V c t.val t.isLt).2.2
      = k3_pay3 (hT V c t) (hbT V c t) (iblk3 V c 5 t) (iblk3 V c 6 t) (k3_pay5 (F := F)) := by
  rw [outsAt3_A V c t h0]; dsimp only
  exact out_A_9 (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) ((hcond3_0 t).mpr h0) (iblk3 V c 0 t) (iblk3 V c 1 t) (iblk3 V c 2 t) (iblk3 V c 3 t) (iblk3 V c 4 t) (iblk3 V c 5 t) (iblk3 V c 6 t)

/-- The second accumulator after a later tile. -/
theorem outs_9_B (t : Fin cfg3.N) (h0 : ¬t.val % 25 = 0) :
    (outsAt3 V c t.val t.isLt).2.2
      = k3_pay3 (hT V c t) (hbT V c t) (iblk3 V c 5 t) (iblk3 V c 6 t) (outsAt3 V c (t.val - 1) (Nat.lt_of_le_of_lt (Nat.sub_le _ _) t.isLt)).2.2 := by
  rw [outsAt3_B V c t h0]; dsimp only
  exact out_B_9 (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.1 (outsAt3 V c (t.val - 1) (Nat.lt_of_le_of_lt (Nat.sub_le _ _) t.isLt)).2.2

end AnyF

section AtIdeal
variable (V : (c : Dev nD) → (b : Ref sig .tc) → Buf (Elt Ideal) ((c : Thread nD τ).loc b)) (c : Dev nD)

/-- The addend of point n to entry (g, j) of the first accumulator: the gate's column g times the features' column j
    over the tile's rows (0 past the grid: never used). -/
def add8 (n : ℕ) (g : Fin 10) (j : Fin 128) : EReal :=
  if h : n < cfg3.N then ∑ r : Fin 1000, sT V c ⟨n, h⟩ (ix2 r g) * hbT V c ⟨n, h⟩ (ix2 r j) else 0

/-- The addend of point n to entry (g, j) of the second accumulator. -/
def add9 (n : ℕ) (g : Fin 10) (j : Fin 128) : EReal :=
  if h : n < cfg3.N then ∑ r : Fin 1000, (sT V c ⟨n, h⟩ (ix2 r g) * sT V c ⟨n, h⟩ (ix2 r g))
    * (hT V c ⟨n, h⟩ (ix2 r j) * hT V c ⟨n, h⟩ (ix2 r j)) else 0

/-- The first accumulator after point n: the addends of the points of n's core so far. -/
theorem acc8 : ∀ (n : ℕ) (hn : n < cfg3.N) (u : Fin 1) (g : Fin 10) (j : Fin 128),
    ((outsAt3 V c n hn).2.1 : Vec Ideal S1x10x128 .f32) (ix3 u g j)
      = ∑ s ∈ Finset.range (n % 25 + 1), add8 V c (n - n % 25 + s) g j
  | 0, hn, u, g, j => by
    have e : (outsAt3 V c 0 hn).2.1 = _ := outs_8_A V c ⟨0, hn⟩ (Nat.zero_mod _)
    rw [e]
    refine (pay2_apply (hbT V c ⟨0, hn⟩) (iblk3 V c 5 ⟨0, hn⟩) (iblk3 V c 6 ⟨0, hn⟩) _ u g j).trans ?_
    have hs : ∑ s ∈ Finset.range (0 % 25 + 1), add8 V c (0 - 0 % 25 + s) g j = add8 V c 0 g j := by
      simp only [Nat.zero_mod, Nat.zero_add, Finset.sum_range_one, Nat.sub_zero, Nat.add_zero]
    rw [pay4_apply, zero_add, hs, add8, dif_pos hn]
    rfl
  | n + 1, hn, u, g, j => by
    by_cases h0 : (n + 1) % 25 = 0
    · have e : (outsAt3 V c (n + 1) hn).2.1 = _ := outs_8_A V c ⟨n + 1, hn⟩ h0
      rw [e]
      refine (pay2_apply (hbT V c ⟨n + 1, hn⟩) (iblk3 V c 5 ⟨n + 1, hn⟩) (iblk3 V c 6 ⟨n + 1, hn⟩) _ u g j).trans ?_
      have hs : ∑ s ∈ Finset.range ((n + 1) % 25 + 1), add8 V c (n + 1 - (n + 1) % 25 + s) g j = add8 V c (n + 1) g j := by
        rw [h0]
        simp only [Nat.zero_add, Finset.sum_range_one, Nat.sub_zero, Nat.add_zero]
      rw [pay4_apply, zero_add, hs, add8, dif_pos hn]
      rfl
    · have e : (outsAt3 V c (n + 1) hn).2.1
          = k3_pay2 (hbT V c ⟨n + 1, hn⟩) (iblk3 V c 5 ⟨n + 1, hn⟩) (iblk3 V c 6 ⟨n + 1, hn⟩)
              (outsAt3 V c n (Nat.lt_of_succ_lt hn)).2.1 := outs_8_B V c ⟨n + 1, hn⟩ h0
      rw [e]
      refine (pay2_apply (hbT V c ⟨n + 1, hn⟩) (iblk3 V c 5 ⟨n + 1, hn⟩) (iblk3 V c 6 ⟨n + 1, hn⟩) _ u g j).trans ?_
      rw [acc8 n (Nat.lt_of_succ_lt hn) u g j]
      have h1 : (n + 1) % 25 = n % 25 + 1 := by omega
      have h2 : n + 1 - (n % 25 + 1) = n - n % 25 := by omega
      have h3 : n - n % 25 + (n % 25 + 1) = n + 1 := by omega
      rw [h1, h2, Finset.sum_range_succ _ (n % 25 + 1), h3]
      refine congrArg (_ + ·) ?_
      rw [add8, dif_pos hn]
      rfl

/-- The second accumulator after point n likewise. -/
theorem acc9 : ∀ (n : ℕ) (hn : n < cfg3.N) (u : Fin 1) (g : Fin 10) (j : Fin 128),
    ((outsAt3 V c n hn).2.2 : Vec Ideal S1x10x128 .f32) (ix3 u g j)
      = ∑ s ∈ Finset.range (n % 25 + 1), add9 V c (n - n % 25 + s) g j
  | 0, hn, u, g, j => by
    have e : (outsAt3 V c 0 hn).2.2 = _ := outs_9_A V c ⟨0, hn⟩ (Nat.zero_mod _)
    rw [e]
    refine (pay3_apply (hT V c ⟨0, hn⟩) (hbT V c ⟨0, hn⟩) (iblk3 V c 5 ⟨0, hn⟩) (iblk3 V c 6 ⟨0, hn⟩) _ u g j).trans ?_
    have hs : ∑ s ∈ Finset.range (0 % 25 + 1), add9 V c (0 - 0 % 25 + s) g j = add9 V c 0 g j := by
      simp only [Nat.zero_mod, Nat.zero_add, Finset.sum_range_one, Nat.sub_zero, Nat.add_zero]
    rw [pay5_apply, zero_add, hs, add9, dif_pos hn]
    rfl
  | n + 1, hn, u, g, j => by
    by_cases h0 : (n + 1) % 25 = 0
    · have e : (outsAt3 V c (n + 1) hn).2.2 = _ := outs_9_A V c ⟨n + 1, hn⟩ h0
      rw [e]
      refine (pay3_apply (hT V c ⟨n + 1, hn⟩) (hbT V c ⟨n + 1, hn⟩) (iblk3 V c 5 ⟨n + 1, hn⟩) (iblk3 V c 6 ⟨n + 1, hn⟩) _ u g j).trans ?_
      have hs : ∑ s ∈ Finset.range ((n + 1) % 25 + 1), add9 V c (n + 1 - (n + 1) % 25 + s) g j = add9 V c (n + 1) g j := by
        rw [h0]
        simp only [Nat.zero_add, Finset.sum_range_one, Nat.sub_zero, Nat.add_zero]
      rw [pay5_apply, zero_add, hs, add9, dif_pos hn]
      rfl
    · have e : (outsAt3 V c (n + 1) hn).2.2
          = k3_pay3 (hT V c ⟨n + 1, hn⟩) (hbT V c ⟨n + 1, hn⟩) (iblk3 V c 5 ⟨n + 1, hn⟩) (iblk3 V c 6 ⟨n + 1, hn⟩)
              (outsAt3 V c n (Nat.lt_of_succ_lt hn)).2.2 := outs_9_B V c ⟨n + 1, hn⟩ h0
      rw [e]
      refine (pay3_apply (hT V c ⟨n + 1, hn⟩) (hbT V c ⟨n + 1, hn⟩) (iblk3 V c 5 ⟨n + 1, hn⟩) (iblk3 V c 6 ⟨n + 1, hn⟩) _ u g j).trans ?_
      rw [acc9 n (Nat.lt_of_succ_lt hn) u g j]
      have h1 : (n + 1) % 25 = n % 25 + 1 := by omega
      have h2 : n + 1 - (n % 25 + 1) = n - n % 25 := by omega
      have h3 : n - n % 25 + (n % 25 + 1) = n + 1 := by omega
      rw [h1, h2, Finset.sum_range_succ _ (n % 25 + 1), h3]
      refine congrArg (_ + ·) ?_
      rw [add9, dif_pos hn]
      rfl

end AtIdeal

end Cert.KernelIdeal.StepA3

end
-- ==== Proof.KStepA3Blk.lean ====
/-
  The tiles the reduction kernel reads, as entries of the arrays it is launched on.

  Grid point t (core t / 25, tile t % 25) reads rows 1000·t … 1000·t + 999 of the [50000, 128] input; the weight and
  bias arrays are read whole at every point.
-/
import proofs.«100017_j47974784696399_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.StepA3

open Cert.KernelIdeal Cert.KernelIdeal.Gen

variable {F : FTy → Type} [FloatOps F]
variable (V : (c : Dev nD) → (b : Ref sig .tc) → Buf (Elt F) ((c : Thread nD τ).loc b))

/-- The block index maps, decided once over the 50 grid points: the row-tiled windows move with the point, the
    accumulators with the core, the weights stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 3) = t.val / 25 ∧ win3_8.index t (1 : Fin 3) = 0 ∧ win3_8.index t (2 : Fin 3) = 0
    ∧ win3_9.index t (0 : Fin 3) = t.val / 25 ∧ win3_9.index t (1 : Fin 3) = 0 ∧ win3_9.index t (2 : Fin 3) = 0 :=
  (by decide +kernel : ∀ t : Fin grid3.N, _)

/-- The input tile at point t, row r, is row 1000·t + r of the input array. -/
theorem iblk_0 (c : Dev nD) (t : Fin cfg3.N) (r : Fin 1000) (k : Fin 128) (hlt : t.val * 1000 + r.val < 50000) :
    (iblk3 V c 0 t : Vec F S1000x128 .f32) (ix2 r k)
      = (V c (Pipeline.arrRef spec3 0) : S50000x128.Idx → Elt F .f32) (ix2 ⟨t.val * 1000 + r.val, hlt⟩ k) := by
  have hi := idx_facts3 t
  unfold iblk3
  rw [View.read_apply]
  show (V c (Pipeline.arrRef spec3 0) : S50000x128.Idx → Elt F .f32) (((cfg3.win 0).blk t).view.emb (ix2 r k)) = _
  refine congrArg (V c (Pipeline.arrRef spec3 0) : S50000x128.Idx → Elt F .f32) (funext fun a => Fin.ext ?_)
  match a with
  | ⟨0, _⟩ => show win3_0.index t 0 * 1000 + 1 * r.val = t.val * 1000 + r.val; rw [hi.1]; omega
  | ⟨1, _⟩ => show win3_0.index t 1 * 128 + 1 * k.val = k.val; rw [hi.2.1]; omega

/-- Window 1's block at any point is its whole array. -/
theorem iblk_1 (c : Dev nD) (t : Fin cfg3.N) (p : Fin 128) (q : Fin 128) :
    (iblk3 V c 1 t : Vec F S128x128 .f32) (ix2 p q) = (V c (Pipeline.arrRef spec3 1) : S128x128.Idx → Elt F .f32) (ix2 p q) := by
  have hi := idx_facts3 t
  unfold iblk3
  rw [View.read_apply]
  show (V c (Pipeline.arrRef spec3 1) : S128x128.Idx → Elt F .f32) (((cfg3.win 1).blk t).view.emb (ix2 p q)) = _
  refine congrArg (V c (Pipeline.arrRef spec3 1) : S128x128.Idx → Elt F .f32) (funext fun a => Fin.ext ?_)
  match a with
  | ⟨0, _⟩ => show win3_1.index t 0 * 128 + 1 * p.val = p.val; rw [hi.2.2.1]; omega
  | ⟨1, _⟩ => show win3_1.index t 1 * 128 + 1 * q.val = q.val; rw [hi.2.2.2.1]; omega

/-- Window 2's block at any point is its whole array. -/
theorem iblk_2 (c : Dev nD) (t : Fin cfg3.N) (p : Fin 1) (q : Fin 128) :
    (iblk3 V c 2 t : Vec F S1x128 .f32) (ix2 p q) = (V c (Pipeline.arrRef spec3 2) : S1x128.Idx → Elt F .f32) (ix2 p q) := by
  have hi := idx_facts3 t
  unfold iblk3
  rw [View.read_apply]
  show (V c (Pipeline.arrRef spec3 2) : S1x128.Idx → Elt F .f32) (((cfg3.win 2).blk t).view.emb (ix2 p q)) = _
  refine congrArg (V c (Pipeline.arrRef spec3 2) : S1x128.Idx → Elt F .f32) (funext fun a => Fin.ext ?_)
  match a with
  | ⟨0, _⟩ => show win3_2.index t 0 * 1 + 1 * p.val = p.val; rw [hi.2.2.2.2.1]; omega
  | ⟨1, _⟩ => show win3_2.index t 1 * 128 + 1 * q.val = q.val; rw [hi.2.2.2.2.2.1]; omega

/-- Window 3's block at any point is its whole array. -/
theorem iblk_3 (c : Dev nD) (t : Fin cfg3.N) (p : Fin 128) (q : Fin 128) :
    (iblk3 V c 3 t : Vec F S128x128 .f32) (ix2 p q) = (V c (Pipeline.arrRef spec3 3) : S128x128.Idx → Elt F .f32) (ix2 p q) := by
  have hi := idx_facts3 t
  unfold iblk3
  rw [View.read_apply]
  show (V c (Pipeline.arrRef spec3 3) : S128x128.Idx → Elt F .f32) (((cfg3.win 3).blk t).view.emb (ix2 p q)) = _
  refine congrArg (V c (Pipeline.arrRef spec3 3) : S128x128.Idx → Elt F .f32) (funext fun a => Fin.ext ?_)
  match a with
  | ⟨0, _⟩ => show win3_3.index t 0 * 128 + 1 * p.val = p.val; rw [hi.2.2.2.2.2.2.1]; omega
  | ⟨1, _⟩ => show win3_3.index t 1 * 128 + 1 * q.val = q.val; rw [hi.2.2.2.2.2.2.2.1]; omega

/-- Window 4's block at any point is its whole array. -/
theorem iblk_4 (c : Dev nD) (t : Fin cfg3.N) (p : Fin 1) (q : Fin 128) :
    (iblk3 V c 4 t : Vec F S1x128 .f32) (ix2 p q) = (V c (Pipeline.arrRef spec3 4) : S1x128.Idx → Elt F .f32) (ix2 p q) := by
  have hi := idx_facts3 t
  unfold iblk3
  rw [View.read_apply]
  show (V c (Pipeline.arrRef spec3 4) : S1x128.Idx → Elt F .f32) (((cfg3.win 4).blk t).view.emb (ix2 p q)) = _
  refine congrArg (V c (Pipeline.arrRef spec3 4) : S1x128.Idx → Elt F .f32) (funext fun a => Fin.ext ?_)
  match a with
  | ⟨0, _⟩ => show win3_4.index t 0 * 1 + 1 * p.val = p.val; rw [hi.2.2.2.2.2.2.2.2.1]; omega
  | ⟨1, _⟩ => show win3_4.index t 1 * 128 + 1 * q.val = q.val; rw [hi.2.2.2.2.2.2.2.2.2.1]; omega

/-- Window 5's block at any point is its whole array. -/
theorem iblk_5 (c : Dev nD) (t : Fin cfg3.N) (p : Fin 128) (q : Fin 10) :
    (iblk3 V c 5 t : Vec F S128x10 .f32) (ix2 p q) = (V c (Pipeline.arrRef spec3 5) : S128x10.Idx → Elt F .f32) (ix2 p q) := by
  have hi := idx_facts3 t
  unfold iblk3
  rw [View.read_apply]
  show (V c (Pipeline.arrRef spec3 5) : S128x10.Idx → Elt F .f32) (((cfg3.win 5).blk t).view.emb (ix2 p q)) = _
  refine congrArg (V c (Pipeline.arrRef spec3 5) : S128x10.Idx → Elt F .f32) (funext fun a => Fin.ext ?_)
  match a with
  | ⟨0, _⟩ => show win3_5.index t 0 * 128 + 1 * p.val = p.val; rw [hi.2.2.2.2.2.2.2.2.2.2.1]; omega
  | ⟨1, _⟩ => show win3_5.index t 1 * 10 + 1 * q.val = q.val; rw [hi.2.2.2.2.2.2.2.2.2.2.2.1]; omega

/-- Window 6's block at any point is its whole array. -/
theorem iblk_6 (c : Dev nD) (t : Fin cfg3.N) (p : Fin 1) (q : Fin 10) :
    (iblk3 V c 6 t : Vec F S1x10 .f32) (ix2 p q) = (V c (Pipeline.arrRef spec3 6) : S1x10.Idx → Elt F .f32) (ix2 p q) := by
  have hi := idx_facts3 t
  unfold iblk3
  rw [View.read_apply]
  show (V c (Pipeline.arrRef spec3 6) : S1x10.Idx → Elt F .f32) (((cfg3.win 6).blk t).view.emb (ix2 p q)) = _
  refine congrArg (V c (Pipeline.arrRef spec3 6) : S1x10.Idx → Elt F .f32) (funext fun a => Fin.ext ?_)
  match a with
  | ⟨0, _⟩ => show win3_6.index t 0 * 1 + 1 * p.val = p.val; rw [hi.2.2.2.2.2.2.2.2.2.2.2.2.1]; omega
  | ⟨1, _⟩ => show win3_6.index t 1 * 10 + 1 * q.val = q.val; rw [hi.2.2.2.2.2.2.2.2.2.2.2.2.2.1]; omega

end Cert.KernelIdeal.StepA3

end
-- ==== Proof.KStepA3Feat.lean ====
/-
  The reduction kernel's inner features and gate on one tile, read entry by entry at the exact (extended-real) values.

  The tile's inner features are  softplus (x·W1 + b1)·W2 + b2  over its 1000 rows: two products on the matrix unit into
  zero accumulators, each plus a one-row bias spread down the rows, with the guarded stable softplus between them (its
  guard compares a value with itself and never holds; z − 0 = z and 0 − y = −y). The tile's gate is the row softmax of
  hb·linW + linb. A change of number format is the identity here.
-/
import proofs.«100017_j47974784696399_2_alg».proof.Proof.Gen.KernelIdeal.Skeleton
import proofs.«100017_j47974784696399_2_alg».proof.Proof.LibPlainDot
import proofs.«100017_j47974784696399_2_alg».proof.Proof.LibDenseLayer
import proofs.«100017_j47974784696399_2_alg».proof.Proof.KGate
import proofs.«100017_j47974784696399_2_alg».proof.Proof.KStepARows

noncomputable section

open Idealize.ShloMosaic Idealize.ShloMosaic.ValueIdx
open scoped BigOperators

namespace Cert.KernelIdeal.StepA3

open Cert.KernelIdeal Cert.KernelIdeal.Gen Cert.KernelIdeal.StepA

/-- The guarded stable softplus as the body spells it, the zero word left as a word. -/
def spelled (z : EReal) : EReal :=
  Scalar.select (Ideal.cmp .one (z - Ideal.ofBits .f32 0x00000000#32) (z - Ideal.ofBits .f32 0x00000000#32))
    (z + Ideal.ofBits .f32 0x00000000#32)
    (max z (Ideal.ofBits .f32 0x00000000#32) + Ideal.log1p (Ideal.exp (Ideal.ofBits .f32 0x00000000#32
      - max (z - Ideal.ofBits .f32 0x00000000#32) (-(z - Ideal.ofBits .f32 0x00000000#32)))))

/-- It is softplus. -/
theorem spelled_eq (z : EReal) : spelled z = Cert.Spec.softplus z := by
  unfold spelled
  rw [Ideal.ofBits_zero_f32]
  exact Cert.KGate.softplus_guarded z

/-- A [1000, 128] by [128, 128] product into zero plus a one-row bias, at an entry. -/
theorem layer128_apply {φ₁ φ₂ : FTy} (x : FVec Ideal S1000x128 φ₁) (w : FVec Ideal S128x128 φ₂) (b : Vec Ideal S1x128 .f32)
    (r : Fin 1000) (q : Fin 128) :
    (addf (matmul dot_S1000x128_S128x128_S1000x128_1_0_0_1_n_n none x w (constant S1000x128 .f32 0x00000000#32))
      (broadcastTo S1000x128 b broadcasts_S1x128_S1000x128)) (ix2 r q)
      = (∑ k : Fin 128, x (ix2 r k) * w (ix2 k q)) + b (ix2 (0 : Fin 1) q) := by
  have h1 : matmul dot_S1000x128_S128x128_S1000x128_1_0_0_1_n_n none x w (constant S1000x128 .f32 0x00000000#32) (ix2 r q)
      = ∑ k : Fin 128, x (ix2 r k) * w (ix2 k q) :=
    PlainDot.matmul_zero_apply dot_S1000x128_S128x128_S1000x128_1_0_0_1_n_n rfl rfl
      (fun _ _ => rfl) (fun _ _ => rfl) (fun _ _ => rfl) (fun _ _ => rfl) none x w (ix2 r q)
  have h3 : broadcastTo S1000x128 b broadcasts_S1x128_S1000x128 (ix2 r q) = b (ix2 (0 : Fin 1) q) :=
    Cert.Lib.Dense.rowBias_apply b broadcasts_S1x128_S1000x128 r q
  show _ + _ = _
  rw [h1, h3]

/-- A [1000, 128] by [128, 10] product into zero plus a one-row bias, at an entry. -/
theorem layer10_apply {φ₁ φ₂ : FTy} (x : FVec Ideal S1000x128 φ₁) (w : FVec Ideal S128x10 φ₂) (b : Vec Ideal S1x10 .f32)
    (r : Fin 1000) (q : Fin 10) :
    (addf (matmul dot_S1000x128_S128x10_S1000x10_1_0_0_1_n_n none x w (constant S1000x10 .f32 0x00000000#32))
      (broadcastTo S1000x10 b broadcasts_S1x10_S1000x10)) (ix2 r q)
      = (∑ k : Fin 128, x (ix2 r k) * w (ix2 k q)) + b (ix2 (0 : Fin 1) q) := by
  have h1 : matmul dot_S1000x128_S128x10_S1000x10_1_0_0_1_n_n none x w (constant S1000x10 .f32 0x00000000#32) (ix2 r q)
      = ∑ k : Fin 128, x (ix2 r k) * w (ix2 k q) :=
    PlainDot.matmul_zero_apply dot_S1000x128_S128x10_S1000x10_1_0_0_1_n_n rfl rfl
      (fun _ _ => rfl) (fun _ _ => rfl) (fun _ _ => rfl) (fun _ _ => rfl) none x w (ix2 r q)
  have h3 : broadcastTo S1000x10 b broadcasts_S1x10_S1000x10 (ix2 r q) = b (ix2 (0 : Fin 1) q) :=
    Cert.Lib.Dense.rowBias_apply b broadcasts_S1x10_S1000x10 r q
  show _ + _ = _
  rw [h1, h3]

/-- The first layer's pre-activation on the tile, as the body forms it. -/
def preB (x0 : Vec Ideal S1000x128 .f32) (x1 : Vec Ideal S128x128 .f32) (x2 : Vec Ideal S1x128 .f32) : FVec Ideal S1000x128 .f32 :=
  addf (matmul dot_S1000x128_S128x128_S1000x128_1_0_0_1_n_n none (truncf .bf16 x0 bitsLt_bf16_f32)
    (truncf .bf16 x1 bitsLt_bf16_f32) (constant S1000x128 .f32 0x00000000#32)) (broadcastTo S1000x128 x2 broadcasts_S1x128_S1000x128)

/-- The tile's inner features at an entry. -/
theorem pay6_apply (x0 : Vec Ideal S1000x128 .f32) (x1 : Vec Ideal S128x128 .f32) (x2 : Vec Ideal S1x128 .f32)
    (x3 : Vec Ideal S128x128 .f32) (x4 : Vec Ideal S1x128 .f32) (r : Fin 1000) (j : Fin 128) :
    k3_pay6 x0 x1 x2 x3 x4 (ix2 r j)
      = hidT (fun i k => x0 (ix2 i k)) (fun k q => x1 (ix2 k q)) (fun q => x2 (ix2 (0 : Fin 1) q))
          (fun k q => x3 (ix2 k q)) (fun q => x4 (ix2 (0 : Fin 1) q)) r j := by
  have hpre : ∀ k : Fin 128, preB x0 x1 x2 (ix2 r k)
      = Cert.Spec.dense (fun i k => x0 (ix2 i k)) (fun k q => x1 (ix2 k q)) (fun q => x2 (ix2 (0 : Fin 1) q)) r k := by
    intro k
    unfold preB
    refine (layer128_apply (truncf .bf16 x0 bitsLt_bf16_f32) (truncf .bf16 x1 bitsLt_bf16_f32) x2 r k).trans ?_
    unfold Cert.Spec.dense
    rfl
  unfold k3_pay6
  simp only [shapeCast_self]
  refine (layer128_apply _ (truncf .bf16 x3 bitsLt_bf16_f32) x4 r j).trans ?_
  show _ = (∑ k : Fin 128, Cert.Spec.softplus (Cert.Spec.dense (fun i k => x0 (ix2 i k)) (fun k q => x1 (ix2 k q))
      (fun q => x2 (ix2 (0 : Fin 1) q)) r k) * x3 (ix2 k j)) + x4 (ix2 (0 : Fin 1) j)
  refine congrArg (· + x4 (ix2 (0 : Fin 1) j)) (Finset.sum_congr rfl fun k _ => congrArg (· * x3 (ix2 k j)) ?_)
  exact ((rfl : _ = spelled (preB x0 x1 x2 (ix2 r k))).trans (congrArg spelled (hpre k))).trans (spelled_eq _)

/-- The tile's logits, as the body forms them. -/
def logitsB (v36 : FVec Ideal S1000x128 .bf16) (v37 : Vec Ideal S128x10 .f32) (v40 : Vec Ideal S1x10 .f32) :
    FVec Ideal S1000x10 .f32 :=
  addf (matmul dot_S1000x128_S128x10_S1000x10_1_0_0_1_n_n none v36 (truncf .bf16 v37 bitsLt_bf16_f32)
    (constant S1000x10 .f32 0x00000000#32)) (broadcastTo S1000x10 v40 broadcasts_S1x10_S1000x10)

/-- The tile's gate at an entry. -/
theorem pay1_apply (v36 : FVec Ideal S1000x128 .bf16) (v37 : Vec Ideal S128x10 .f32) (v40 : Vec Ideal S1x10 .f32)
    (r : Fin 1000) (g : Fin 10) :
    k3_pay1 v36 v37 v40 (ix2 r g)
      = gateT (fun i k => v36 (ix2 i k)) (fun k q => v37 (ix2 k q)) (fun q => v40 (ix2 (0 : Fin 1) q)) r g := by
  have e : k3_pay1 v36 v37 v40 = Cert.KGate.gateB (logitsB v36 v37 v40) reduces_S1000x10_S1000 shapeCasts_S1000_S1000x1
      broadcasts_S1000x1_S1000x10 := by
    unfold k3_pay1
    simp only [shapeCast_self]
    rfl
  rw [e]
  refine (Cert.KGate.gate_apply (logitsB v36 v37 v40) reduces_S1000x10_S1000 shapeCasts_S1000_S1000x1
    broadcasts_S1000x1_S1000x10 r g).trans ?_
  unfold gateT
  have hz : (fun (i : Fin 1000) (g' : Fin 10) => logitsB v36 v37 v40 (ix2 i g'))
      = Cert.Spec.dense (fun i k => v36 (ix2 i k)) (fun k q => v37 (ix2 k q)) (fun q => v40 (ix2 (0 : Fin 1) q)) := by
    funext i q
    refine (layer10_apply v36 (truncf .bf16 v37 bitsLt_bf16_f32) v40 i q).trans ?_
    unfold Cert.Spec.dense
    rfl
  rw [hz]

end Cert.KernelIdeal.StepA3

end
-- ==== Proof.KStepA3Tile.lean ====
/-
  The reduction kernel's tiles against the whole arrays.

  With o the [50000, 128] array the kernel is launched on, h = softplus (o·W1 + b1)·W2 + b2 its inner features and
  s = softmax (h·linW + linb) its gate, the tile at grid point t holds rows 1000·t … 1000·t + 999: its inner features
  at row r are h at row 1000·t + r, its gate likewise, and its addends to the two accumulators at entry (g, j) are
  ∑ r, s (1000·t + r, g) · h (1000·t + r, j)  and  ∑ r, s (·, g)² · h (·, j)².
-/
import proofs.«100017_j47974784696399_2_alg».proof.Proof.KStepA3Acc
import proofs.«100017_j47974784696399_2_alg».proof.Proof.KStepA3Blk
import proofs.«100017_j47974784696399_2_alg».proof.Proof.KStepA3Feat

noncomputable section

open Idealize.ShloMosaic Idealize.ShloMosaic.TcCoe Idealize.SL.Sem Idealize.ShloMosaic.ValueIdx
open scoped BigOperators

namespace Cert.KernelIdeal.StepA3

open Cert.KernelIdeal Cert.KernelIdeal.Gen Cert.KernelIdeal.StepA

variable (V : (c : Dev nD) → (b : Ref sig .tc) → Buf (Elt Ideal) ((c : Thread nD τ).loc b)) (c : Dev nD)

/-- The arrays the kernel is launched on, as functions of row and column. -/
noncomputable def oA : Fin 50000 → Fin 128 → EReal := fun i k => (V c (Pipeline.arrRef spec3 0) : S50000x128.Idx → EReal) (ix2 i k)
noncomputable def W1A : Fin 128 → Fin 128 → EReal := fun k q => (V c (Pipeline.arrRef spec3 1) : S128x128.Idx → EReal) (ix2 k q)
noncomputable def b1A : Fin 128 → EReal := fun q => (V c (Pipeline.arrRef spec3 2) : S1x128.Idx → EReal) (ix2 (0 : Fin 1) q)
noncomputable def W2A : Fin 128 → Fin 128 → EReal := fun k q => (V c (Pipeline.arrRef spec3 3) : S128x128.Idx → EReal) (ix2 k q)
noncomputable def b2A : Fin 128 → EReal := fun q => (V c (Pipeline.arrRef spec3 4) : S1x128.Idx → EReal) (ix2 (0 : Fin 1) q)
noncomputable def linWA : Fin 128 → Fin 10 → EReal := fun k q => (V c (Pipeline.arrRef spec3 5) : S128x10.Idx → EReal) (ix2 k q)
noncomputable def linbA : Fin 10 → EReal := fun q => (V c (Pipeline.arrRef spec3 6) : S1x10.Idx → EReal) (ix2 (0 : Fin 1) q)

/-- The inner features and the gate of the whole array. -/
noncomputable def hA : Fin 50000 → Fin 128 → EReal := Cert.Spec.hid (oA V c) (W1A V c) (b1A V c) (W2A V c) (b2A V c)
noncomputable def sA : Fin 50000 → Fin 10 → EReal := Cert.Spec.gate (hA V c) (linWA V c) (linbA V c)

/-- Tile t's inner features at its row r are the array's at row 1000·t + r. -/
theorem hT_apply (t : Fin cfg3.N) (r : Fin 1000) (j : Fin 128) (hlt : t.val * 1000 + r.val < 50000) :
    hT V c t (ix2 r j) = hA V c ⟨t.val * 1000 + r.val, hlt⟩ j := by
  unfold hT hA
  refine (pay6_apply (iblk3 V c 0 t) (iblk3 V c 1 t) (iblk3 V c 2 t) (iblk3 V c 3 t) (iblk3 V c 4 t) r j).trans ?_
  have e1 : (fun k q => (iblk3 V c 1 t : Vec Ideal S128x128 .f32) (ix2 k q)) = W1A V c :=
    funext fun k => funext fun q => iblk_1 V c t k q
  have e2 : (fun q => (iblk3 V c 2 t : Vec Ideal S1x128 .f32) (ix2 (0 : Fin 1) q)) = b1A V c :=
    funext fun q => iblk_2 V c t 0 q
  have e3 : (fun k q => (iblk3 V c 3 t : Vec Ideal S128x128 .f32) (ix2 k q)) = W2A V c :=
    funext fun k => funext fun q => iblk_3 V c t k q
  have e4 : (fun q => (iblk3 V c 4 t : Vec Ideal S1x128 .f32) (ix2 (0 : Fin 1) q)) = b2A V c :=
    funext fun q => iblk_4 V c t 0 q
  rw [e1, e2, e3, e4]
  exact hidT_eq_hid _ (oA V c) (W1A V c) (b1A V c) (W2A V c) (b2A V c) r ⟨_, hlt⟩ (fun k => iblk_0 V c t r k hlt) j

/-- The narrowed copy of tile t's inner features has the same entries. -/
theorem hbT_eq (t : Fin cfg3.N) (i : S1000x128.Idx) : hbT V c t i = hT V c t i := by
  unfold hbT hT
  exact pay7_apply _ _ _ _ _ i

/-- Tile t's gate at its row r is the array's at row 1000·t + r. -/
theorem sT_apply (t : Fin cfg3.N) (r : Fin 1000) (g : Fin 10) (hlt : t.val * 1000 + r.val < 50000) :
    sT V c t (ix2 r g) = sA V c ⟨t.val * 1000 + r.val, hlt⟩ g := by
  unfold sT sA
  refine (pay1_apply (hbT V c t) (iblk3 V c 5 t) (iblk3 V c 6 t) r g).trans ?_
  have e5 : (fun k q => (iblk3 V c 5 t : Vec Ideal S128x10 .f32) (ix2 k q)) = linWA V c :=
    funext fun k => funext fun q => iblk_5 V c t k q
  have e6 : (fun q => (iblk3 V c 6 t : Vec Ideal S1x10 .f32) (ix2 (0 : Fin 1) q)) = linbA V c :=
    funext fun q => iblk_6 V c t 0 q
  rw [e5, e6]
  exact gateT_eq_gate _ (hA V c) (linWA V c) (linbA V c) r ⟨_, hlt⟩ (fun k => (hbT_eq V c t (ix2 r k)).trans (hT_apply V c t r k hlt)) g

/-- The summand of the first accumulator at row n of the array (0 past the array: never used). -/
noncomputable def F8 (g : Fin 10) (j : Fin 128) (n : ℕ) : EReal := if h : n < 50000 then sA V c ⟨n, h⟩ g * hA V c ⟨n, h⟩ j else 0
/-- The summand of the second accumulator at row n of the array. -/
noncomputable def F9 (g : Fin 10) (j : Fin 128) (n : ℕ) : EReal :=
  if h : n < 50000 then (sA V c ⟨n, h⟩ g * sA V c ⟨n, h⟩ g) * (hA V c ⟨n, h⟩ j * hA V c ⟨n, h⟩ j) else 0

/-- Point p's addend to the first accumulator is the sum of the summands over the rows of tile p. -/
theorem add8_eq (p : ℕ) (hp : p < cfg3.N) (g : Fin 10) (j : Fin 128) :
    add8 V c p g j = ∑ r : Fin 1000, F8 V c g j (p * 1000 + r.val) := by
  have hN : p < 50 := lt_of_lt_of_eq hp (show cfg3.N = 50 from N_3)
  rw [add8, dif_pos hp]
  refine Finset.sum_congr rfl fun r _ => ?_
  have hlt : p * 1000 + r.val < 50000 := by have := r.isLt; omega
  rw [F8, dif_pos hlt]
  exact congr (congrArg HMul.hMul (sT_apply V c ⟨p, hp⟩ r g hlt)) ((hbT_eq V c ⟨p, hp⟩ (ix2 r j)).trans (hT_apply V c ⟨p, hp⟩ r j hlt))

/-- Point p's addend to the second accumulator likewise. -/
theorem add9_eq (p : ℕ) (hp : p < cfg3.N) (g : Fin 10) (j : Fin 128) :
    add9 V c p g j = ∑ r : Fin 1000, F9 V c g j (p * 1000 + r.val) := by
  have hN : p < 50 := lt_of_lt_of_eq hp (show cfg3.N = 50 from N_3)
  rw [add9, dif_pos hp]
  refine Finset.sum_congr rfl fun r _ => ?_
  have hlt : p * 1000 + r.val < 50000 := by have := r.isLt; omega
  rw [F9, dif_pos hlt]
  have es := sT_apply V c ⟨p, hp⟩ r g hlt
  have eh := hT_apply V c ⟨p, hp⟩ r j hlt
  exact congr (congrArg HMul.hMul (congr (congrArg HMul.hMul es) es)) (congr (congrArg HMul.hMul eh) eh)

end Cert.KernelIdeal.StepA3

end
-- ==== Proof.KStepA3Arr.lean ====
/-
  What the reduction kernel leaves in its three result arrays.

  The feature array ends holding h, the inner features of the array the kernel is launched on: point t writes back
  rows 1000·t … 1000·t + 999, and the 50 points cover the 50000 rows. Each accumulator array [2, 10, 128] ends holding,
  in slab k, the running sum after core k's last tile, which is the sum over its 25 tiles of the tiles' addends, that
  is the sum over the 25000 rows core k holds:  ∑ q, s (25000·k + q, g) · h (25000·k + q, j)  and the same with squares.
-/
import proofs.«100017_j47974784696399_2_alg».proof.Proof.KStepA3Tile

noncomputable section

open Idealize.ShloMosaic Idealize.ShloMosaic.TcCoe Idealize.SL.Sem Idealize.ShloMosaic.ValueIdx
open Idealize.ShloMosaic.Pipeline (Dat)
open scoped BigOperators

namespace Cert.KernelIdeal.StepA3

open Cert.KernelIdeal Cert.KernelIdeal.Gen Cert.KernelIdeal.StepA Cert.LibStepA

variable (V : (c : Dev nD) → (b : Ref sig .tc) → Buf (Elt Ideal) ((c : Thread nD τ).loc b)) (c : Dev nD)

theorem lt3_0 {a b d : ℕ} (i : (⟨3, ![a, b, d]⟩ : Shape).Idx) : (i 0).val < a := (i 0).isLt
theorem lt3_1 {a b d : ℕ} (i : (⟨3, ![a, b, d]⟩ : Shape).Idx) : (i 1).val < b := (i 1).isLt
theorem lt3_2 {a b d : ℕ} (i : (⟨3, ![a, b, d]⟩ : Shape).Idx) : (i 2).val < d := (i 2).isLt

/-! ## The feature array -/

/-- What the feature array ends holding. -/
noncomputable def G7 : S50000x128.Idx → EReal := fun i => hA V c ⟨(i 0).val, idx2_lt0 i⟩ ⟨(i 1).val, idx2_lt1 i⟩

/-- After point t the feature buffer, entry by entry, is the block of G7 that point t's window names. -/
theorem flushed7_at (t : Fin cfg3.N) (y : S1000x128.Idx) :
    ((outsAt3 V c t.val t.isLt).1 : Vec Ideal S1000x128 .f32) y = G7 V c (((cfg3.win 7).blk t).view.emb y) := by
  have hN : t.val < 50 := lt_of_lt_of_eq t.isLt (show cfg3.N = 50 from N_3)
  have hi := idx_facts3 t
  obtain ⟨r, k, rfl⟩ : ∃ (r : Fin 1000) (k : Fin 128), y = ix2 r k := ⟨y 0, y 1, eq_ix2 y⟩
  have hlt : t.val * 1000 + r.val < 50000 := by have := r.isLt; omega
  have hemb : ((cfg3.win 7).blk t).view.emb (ix2 r k) = (ix2 (⟨t.val * 1000 + r.val, hlt⟩ : Fin 50000) k : S50000x128.Idx) :=
    funext fun a => Fin.ext (by
      match a with
      | ⟨0, _⟩ => show win3_7.index t 0 * 1000 + 1 * r.val = t.val * 1000 + r.val; rw [hi.2.2.2.2.2.2.2.2.2.2.2.2.2.2.1]; omega
      | ⟨1, _⟩ => show win3_7.index t 1 * 128 + 1 * k.val = k.val; rw [hi.2.2.2.2.2.2.2.2.2.2.2.2.2.2.2.1]; omega)
  rw [outs_7 V c t, hemb]
  exact hT_apply V c t r k hlt

theorem flushed_eq7 (t : Fin cfg3.N) (hf : (cfg3.win 7).flush t = true) :
    (dat3 V c).flushed 7 t = ((cfg3.win 7).blk t).view.read (Elt Ideal) (G7 V c) := by
  show (cfg3.win 7).cut (grid3.coords t) ((dat3 V c).after 7 t) = _
  rw [after3_7]
  funext y
  exact flushed7_at V c t y

/-- An index of the feature array is in point t's block iff each coordinate is in the block's range on its axis. -/
theorem mem_blk7 (t : Fin cfg3.N) (i : S50000x128.Idx) :
    i ∈ ((cfg3.win 7).blk t).view.set ↔ ∀ a : Fin 2, win3_7.index t a * S1000x128.size a ≤ (i a).val
      ∧ (i a).val < win3_7.index t a * S1000x128.size a + S1000x128.size a := by
  show i ∈ ((View.whole main_v52_0).slice (win3_7.rect t)).set ↔ _
  rw [View.set_slice_whole, Rect.mem_set_unit]
  exact Iff.rfl

/-- The feature array ends holding the inner features of the array the kernel is launched on. -/
theorem final7 : (dat3 V c).arrAt 7 cfg3.N = G7 V c :=
  (dat3 V c).arrAt_eq_of_cover 7 (G7 V c) (flushed_eq7 V c) fun i => by
    have h0 : (i 0).val < 50000 := idx2_lt0 i
    have h1 : (i 1).val < 128 := idx2_lt1 i
    have hN : cfg3.N = 50 := N_3
    let t : Fin cfg3.N := ⟨(i 0).val / 1000, by rw [hN]; omega⟩
    have hi := idx_facts3 t
    refine ⟨t, flush3_7 t, ?_⟩
    rw [mem_blk7]
    intro a
    match a with
    | ⟨0, _⟩ =>
      show win3_7.index t 0 * 1000 ≤ (i 0).val ∧ (i 0).val < win3_7.index t 0 * 1000 + 1000
      rw [hi.2.2.2.2.2.2.2.2.2.2.2.2.2.2.1]; show (i 0).val / 1000 * 1000 ≤ (i 0).val ∧ (i 0).val < (i 0).val / 1000 * 1000 + 1000; omega
    | ⟨1, _⟩ =>
      show win3_7.index t 1 * 128 ≤ (i 1).val ∧ (i 1).val < win3_7.index t 1 * 128 + 128
      rw [hi.2.2.2.2.2.2.2.2.2.2.2.2.2.2.2.1]; omega

/-- THE FEATURE ARRAY, entry by entry. -/
theorem h_arr (n : Fin 50000) (j : Fin 128) :
    ((dat3 V c).arrAt 7 cfg3.N : S50000x128.Idx → EReal) (ix2 n j) = hA V c n j := by
  rw [final7 V c]
  rfl

end Cert.KernelIdeal.StepA3

end
-- ==== Proof.KStepA3ArrAcc.lean ====
/-
  What the reduction kernel leaves in its two accumulator arrays.

  Each accumulator array [2, 10, 128] ends holding, in slab k, the running sum after core k's last tile, which is the
  sum over its 25 tiles of the tiles' addends, that is the sum over the 25000 rows core k holds:
  ∑ q, s (25000·k + q, g) · h (25000·k + q, j)  for the first, and the same with both factors squared for the second.
-/
import proofs.«100017_j47974784696399_2_alg».proof.Proof.KStepA3Arr

noncomputable section

open Idealize.ShloMosaic Idealize.ShloMosaic.TcCoe Idealize.SL.Sem Idealize.ShloMosaic.ValueIdx
open Idealize.ShloMosaic.Pipeline (Dat)
open scoped BigOperators

namespace Cert.KernelIdeal.StepA3

open Cert.KernelIdeal Cert.KernelIdeal.Gen Cert.KernelIdeal.StepA Cert.LibStepA

variable (V : (c : Dev nD) → (b : Ref sig .tc) → Buf (Elt Ideal) ((c : Thread nD τ).loc b)) (c : Dev nD)

/-! ## Accumulator 8 -/

/-- What accumulator array 8 ends holding: in slab k, the sum of the summands over the 25000 rows of core k. -/
noncomputable def G8 : S2x10x128.Idx → EReal := fun i =>
  ∑ q : Fin 25000, F8 V c ⟨(i 1).val, lt3_1 i⟩ ⟨(i 2).val, lt3_2 i⟩ ((i 0).val * 25000 + q.val)

/-- After a core's last tile the accumulator buffer, entry by entry, is the slab of G8 its window names. -/
theorem flushed8_at (t : Fin cfg3.N) (h24 : t.val % 25 = 24) (y : S1x10x128.Idx) :
    ((outsAt3 V c t.val t.isLt).2.1 : Vec Ideal S1x10x128 .f32) y = G8 V c (((cfg3.win 8).blk t).view.emb y) := by
  have hN : t.val < 50 := lt_of_lt_of_eq t.isLt (show cfg3.N = 50 from N_3)
  have hi := idx_facts3 t
  obtain ⟨u, g, j, rfl⟩ : ∃ (u : Fin 1) (g : Fin 10) (j : Fin 128), y = ix3 u g j := ⟨y 0, y 1, y 2, eq_ix3 y⟩
  have hk : t.val / 25 < 2 := by omega
  have hemb : ((cfg3.win 8).blk t).view.emb (ix3 u g j) = (ix3 (⟨t.val / 25, hk⟩ : Fin 2) g j : S2x10x128.Idx) :=
    funext fun a => Fin.ext (by
      match a with
      | ⟨0, _⟩ => show win3_8.index t 0 * 1 + 1 * u.val = t.val / 25; rw [hi.2.2.2.2.2.2.2.2.2.2.2.2.2.2.2.2.1]; omega
      | ⟨1, _⟩ => show win3_8.index t 1 * 10 + 1 * g.val = g.val; rw [hi.2.2.2.2.2.2.2.2.2.2.2.2.2.2.2.2.2.1]; omega
      | ⟨2, _⟩ => show win3_8.index t 2 * 128 + 1 * j.val = j.val; rw [hi.2.2.2.2.2.2.2.2.2.2.2.2.2.2.2.2.2.2.1]; omega)
  rw [acc8 V c t.val t.isLt u g j, hemb, h24]
  show ∑ s ∈ Finset.range 25, add8 V c (t.val - 24 + s) g j = ∑ q : Fin 25000, F8 V c g j (t.val / 25 * 25000 + q.val)
  have hb : t.val - 24 = 25 * (t.val / 25) := by omega
  rw [hb, ← sum_tiles (F8 V c g j) (t.val / 25)]
  refine Finset.sum_congr rfl fun s hs => ?_
  have hs' : s < 25 := Finset.mem_range.mp hs
  exact add8_eq V c (25 * (t.val / 25) + s) (by have hN50 : cfg3.N = 50 := N_3; omega) g j

/-- Reading a block of any array through point t's window: entry y of the block is the array at the place y holds. -/
theorem read_blk8 (t : Fin cfg3.N) (G : S2x10x128.Idx → EReal) (y : S1x10x128.Idx) :
    ((cfg3.win 8).blk t).view.read (Elt Ideal) G y = G (((cfg3.win 8).blk t).view.emb y) := rfl

theorem flushed_eq8 (t : Fin cfg3.N) (hf : (cfg3.win 8).flush t = true) :
    (dat3 V c).flushed 8 t = ((cfg3.win 8).blk t).view.read (Elt Ideal) (G8 V c) := by
  have h24 : t.val % 25 = 24 := (flush3_8 t).mp hf
  show (cfg3.win 8).cut (grid3.coords t) ((dat3 V c).after 8 t) = _
  rw [after3_8]
  funext y
  exact (flushed8_at V c t h24 y).trans (read_blk8 t (G8 V c) y).symm

theorem mem_blk8 (t : Fin cfg3.N) (i : S2x10x128.Idx) :
    i ∈ ((cfg3.win 8).blk t).view.set ↔ ∀ a : Fin 3, win3_8.index t a * S1x10x128.size a ≤ (i a).val
      ∧ (i a).val < win3_8.index t a * S1x10x128.size a + S1x10x128.size a := by
  show i ∈ ((View.whole main_v52_1).slice (win3_8.rect t)).set ↔ _
  rw [View.set_slice_whole, Rect.mem_set_unit]
  exact Iff.rfl

/-- Accumulator array 8 ends holding G8: the last tile of core k writes slab k, and the two slabs are the array. -/
theorem final8 : (dat3 V c).arrAt 8 cfg3.N = G8 V c :=
  (dat3 V c).arrAt_eq_of_cover 8 (G8 V c) (flushed_eq8 V c) fun i => by
    have h0 : (i 0).val < 2 := lt3_0 i
    have h1 : (i 1).val < 10 := lt3_1 i
    have h2 : (i 2).val < 128 := lt3_2 i
    have hN : cfg3.N = 50 := N_3
    let t : Fin cfg3.N := ⟨25 * (i 0).val + 24, by rw [hN]; omega⟩
    have hi := idx_facts3 t
    have ht : t.val = 25 * (i 0).val + 24 := rfl
    refine ⟨t, (flush3_8 t).mpr (by rw [ht]; omega), ?_⟩
    rw [mem_blk8]
    intro a
    match a with
    | ⟨0, _⟩ =>
      show win3_8.index t 0 * 1 ≤ (i 0).val ∧ (i 0).val < win3_8.index t 0 * 1 + 1
      rw [hi.2.2.2.2.2.2.2.2.2.2.2.2.2.2.2.2.1, ht]; omega
    | ⟨1, _⟩ =>
      show win3_8.index t 1 * 10 ≤ (i 1).val ∧ (i 1).val < win3_8.index t 1 * 10 + 10
      rw [hi.2.2.2.2.2.2.2.2.2.2.2.2.2.2.2.2.2.1]; omega
    | ⟨2, _⟩ =>
      show win3_8.index t 2 * 128 ≤ (i 2).val ∧ (i 2).val < win3_8.index t 2 * 128 + 128
      rw [hi.2.2.2.2.2.2.2.2.2.2.2.2.2.2.2.2.2.2.1]; omega

/-! ## Accumulator 9 -/

/-- What accumulator array 9 ends holding: in slab k, the sum of the summands over the 25000 rows of core k. -/
noncomputable def G9 : S2x10x128.Idx → EReal := fun i =>
  ∑ q : Fin 25000, F9 V c ⟨(i 1).val, lt3_1 i⟩ ⟨(i 2).val, lt3_2 i⟩ ((i 0).val * 25000 + q.val)

/-- After a core's last tile the accumulator buffer, entry by entry, is the slab of G9 its window names. -/
theorem flushed9_at (t : Fin cfg3.N) (h24 : t.val % 25 = 24) (y : S1x10x128.Idx) :
    ((outsAt3 V c t.val t.isLt).2.2 : Vec Ideal S1x10x128 .f32) y = G9 V c (((cfg3.win 9).blk t).view.emb y) := by
  have hN : t.val < 50 := lt_of_lt_of_eq t.isLt (show cfg3.N = 50 from N_3)
  have hi := idx_facts3 t
  obtain ⟨u, g, j, rfl⟩ : ∃ (u : Fin 1) (g : Fin 10) (j : Fin 128), y = ix3 u g j := ⟨y 0, y 1, y 2, eq_ix3 y⟩
  have hk : t.val / 25 < 2 := by omega
  have hemb : ((cfg3.win 9).blk t).view.emb (ix3 u g j) = (ix3 (⟨t.val / 25, hk⟩ : Fin 2) g j : S2x10x128.Idx) :=
    funext fun a => Fin.ext (by
      match a with
      | ⟨0, _⟩ => show win3_9.index t 0 * 1 + 1 * u.val = t.val / 25; rw [hi.2.2.2.2.2.2.2.2.2.2.2.2.2.2.2.2.2.2.2.1]; omega
      | ⟨1, _⟩ => show win3_9.index t 1 * 10 + 1 * g.val = g.val; rw [hi.2.2.2.2.2.2.2.2.2.2.2.2.2.2.2.2.2.2.2.2.1]; omega
      | ⟨2, _⟩ => show win3_9.index t 2 * 128 + 1 * j.val = j.val; rw [hi.2.2.2.2.2.2.2.2.2.2.2.2.2.2.2.2.2.2.2.2.2]; omega)
  rw [acc9 V c t.val t.isLt u g j, hemb, h24]
  show ∑ s ∈ Finset.range 25, add9 V c (t.val - 24 + s) g j = ∑ q : Fin 25000, F9 V c g j (t.val / 25 * 25000 + q.val)
  have hb : t.val - 24 = 25 * (t.val / 25) := by omega
  rw [hb, ← sum_tiles (F9 V c g j) (t.val / 25)]
  refine Finset.sum_congr rfl fun s hs => ?_
  have hs' : s < 25 := Finset.mem_range.mp hs
  exact add9_eq V c (25 * (t.val / 25) + s) (by have hN50 : cfg3.N = 50 := N_3; omega) g j

/-- Reading a block of any array through point t's window: entry y of the block is the array at the place y holds. -/
theorem read_blk9 (t : Fin cfg3.N) (G : S2x10x128.Idx → EReal) (y : S1x10x128.Idx) :
    ((cfg3.win 9).blk t).view.read (Elt Ideal) G y = G (((cfg3.win 9).blk t).view.emb y) := rfl

theorem flushed_eq9 (t : Fin cfg3.N) (hf : (cfg3.win 9).flush t = true) :
    (dat3 V c).flushed 9 t = ((cfg3.win 9).blk t).view.read (Elt Ideal) (G9 V c) := by
  have h24 : t.val % 25 = 24 := (flush3_9 t).mp hf
  show (cfg3.win 9).cut (grid3.coords t) ((dat3 V c).after 9 t) = _
  rw [after3_9]
  funext y
  exact (flushed9_at V c t h24 y).trans (read_blk9 t (G9 V c) y).symm

theorem mem_blk9 (t : Fin cfg3.N) (i : S2x10x128.Idx) :
    i ∈ ((cfg3.win 9).blk t).view.set ↔ ∀ a : Fin 3, win3_9.index t a * S1x10x128.size a ≤ (i a).val
      ∧ (i a).val < win3_9.index t a * S1x10x128.size a + S1x10x128.size a := by
  show i ∈ ((View.whole main_v52_2).slice (win3_9.rect t)).set ↔ _
  rw [View.set_slice_whole, Rect.mem_set_unit]
  exact Iff.rfl

/-- Accumulator array 9 ends holding G9: the last tile of core k writes slab k, and the two slabs are the array. -/
theorem final9 : (dat3 V c).arrAt 9 cfg3.N = G9 V c :=
  (dat3 V c).arrAt_eq_of_cover 9 (G9 V c) (flushed_eq9 V c) fun i => by
    have h0 : (i 0).val < 2 := lt3_0 i
    have h1 : (i 1).val < 10 := lt3_1 i
    have h2 : (i 2).val < 128 := lt3_2 i
    have hN : cfg3.N = 50 := N_3
    let t : Fin cfg3.N := ⟨25 * (i 0).val + 24, by rw [hN]; omega⟩
    have hi := idx_facts3 t
    have ht : t.val = 25 * (i 0).val + 24 := rfl
    refine ⟨t, (flush3_9 t).mpr (by rw [ht]; omega), ?_⟩
    rw [mem_blk9]
    intro a
    match a with
    | ⟨0, _⟩ =>
      show win3_9.index t 0 * 1 ≤ (i 0).val ∧ (i 0).val < win3_9.index t 0 * 1 + 1
      rw [hi.2.2.2.2.2.2.2.2.2.2.2.2.2.2.2.2.2.2.2.1, ht]; omega
    | ⟨1, _⟩ =>
      show win3_9.index t 1 * 10 ≤ (i 1).val ∧ (i 1).val < win3_9.index t 1 * 10 + 10
      rw [hi.2.2.2.2.2.2.2.2.2.2.2.2.2.2.2.2.2.2.2.2.1]; omega
    | ⟨2, _⟩ =>
      show win3_9.index t 2 * 128 ≤ (i 2).val ∧ (i 2).val < win3_9.index t 2 * 128 + 128
      rw [hi.2.2.2.2.2.2.2.2.2.2.2.2.2.2.2.2.2.2.2.2.2]; omega

/-! ## The statements, entry by entry -/

/-- Row q of core k is a row of the array. -/
theorem row_lt (k : Fin 2) (q : Fin 25000) : k.val * 25000 + q.val < 50000 := by
  have := k.isLt; have := q.isLt; omega

/-- THE FIRST ACCUMULATOR ARRAY, entry by entry: the gate-weighted sum of the inner features over core k's rows. -/
theorem sum_arr (k : Fin 2) (g : Fin 10) (j : Fin 128) :
    ((dat3 V c).arrAt 8 cfg3.N : S2x10x128.Idx → EReal) (ix3 k g j)
      = ∑ q : Fin 25000, sA V c ⟨k.val * 25000 + q.val, row_lt k q⟩ g * hA V c ⟨k.val * 25000 + q.val, row_lt k q⟩ j := by
  rw [final8 V c]
  show ∑ q : Fin 25000, F8 V c g j (k.val * 25000 + q.val) = _
  refine Finset.sum_congr rfl fun q _ => ?_
  rw [F8, dif_pos (row_lt k q)]

/-- THE SECOND ACCUMULATOR ARRAY, entry by entry: the same with the gate and the features squared. -/
theorem sumsq_arr (k : Fin 2) (g : Fin 10) (j : Fin 128) :
    ((dat3 V c).arrAt 9 cfg3.N : S2x10x128.Idx → EReal) (ix3 k g j)
      = ∑ q : Fin 25000, (sA V c ⟨k.val * 25000 + q.val, row_lt k q⟩ g * sA V c ⟨k.val * 25000 + q.val, row_lt k q⟩ g)
          * (hA V c ⟨k.val * 25000 + q.val, row_lt k q⟩ j * hA V c ⟨k.val * 25000 + q.val, row_lt k q⟩ j) := by
  rw [final9 V c]
  show ∑ q : Fin 25000, F9 V c g j (k.val * 25000 + q.val) = _
  refine Finset.sum_congr rfl fun q _ => ?_
  rw [F9, dif_pos (row_lt k q)]

end Cert.KernelIdeal.StepA3

end
-- ==== Proof.KStepA3Export.lean ====
/-
  The reduction kernel's three result arrays, stated over explicit argument arrays.

  For any functions o, W1, b1, W2, b2, linW, linb that the arrays the kernel is launched on are equal to, the feature
  array ends holding  h = softplus (o·W1 + b1)·W2 + b2,  and the two accumulator arrays the sums over each core's rows
  of  s · h  and  s² · h²  with  s = softmax (h·linW + linb).
-/
import proofs.«100017_j47974784696399_2_alg».proof.Proof.KStepA3ArrAcc

noncomputable section

open Idealize.ShloMosaic Idealize.ShloMosaic.TcCoe Idealize.SL.Sem Idealize.ShloMosaic.ValueIdx
open scoped BigOperators

namespace Cert.KernelIdeal.StepA3

open Cert.KernelIdeal Cert.KernelIdeal.Gen

variable (V : (c : Dev nD) → (b : Ref sig .tc) → Buf (Elt Ideal) ((c : Thread nD τ).loc b)) (c : Dev nD)
variable (o : Fin 50000 → Fin 128 → EReal) (W1 : Fin 128 → Fin 128 → EReal) (b1 : Fin 128 → EReal)
  (W2 : Fin 128 → Fin 128 → EReal) (b2 : Fin 128 → EReal) (linW : Fin 128 → Fin 10 → EReal) (linb : Fin 10 → EReal)

/-- The feature array. -/
theorem h_arr_of (ho : oA V c = o) (hW1 : W1A V c = W1) (hb1 : b1A V c = b1) (hW2 : W2A V c = W2) (hb2 : b2A V c = b2)
    (n : Fin 50000) (j : Fin 128) :
    ((dat3 V c).arrAt 7 cfg3.N : S50000x128.Idx → EReal) (ix2 n j) = Cert.Spec.hid o W1 b1 W2 b2 n j := by
  subst ho hW1 hb1 hW2 hb2
  exact h_arr V c n j

/-- The first accumulator array. -/
theorem sum_arr_of (ho : oA V c = o) (hW1 : W1A V c = W1) (hb1 : b1A V c = b1) (hW2 : W2A V c = W2) (hb2 : b2A V c = b2)
    (hlW : linWA V c = linW) (hlb : linbA V c = linb) (k : Fin 2) (g : Fin 10) (j : Fin 128) :
    ((dat3 V c).arrAt 8 cfg3.N : S2x10x128.Idx → EReal) (ix3 k g j)
      = ∑ q : Fin 25000, Cert.Spec.gate (Cert.Spec.hid o W1 b1 W2 b2) linW linb ⟨k.val * 25000 + q.val, row_lt k q⟩ g
          * Cert.Spec.hid o W1 b1 W2 b2 ⟨k.val * 25000 + q.val, row_lt k q⟩ j := by
  subst ho hW1 hb1 hW2 hb2 hlW hlb
  exact sum_arr V c k g j

/-- The second accumulator array. -/
theorem sumsq_arr_of (ho : oA V c = o) (hW1 : W1A V c = W1) (hb1 : b1A V c = b1) (hW2 : W2A V c = W2) (hb2 : b2A V c = b2)
    (hlW : linWA V c = linW) (hlb : linbA V c = linb) (k : Fin 2) (g : Fin 10) (j : Fin 128) :
    ((dat3 V c).arrAt 9 cfg3.N : S2x10x128.Idx → EReal) (ix3 k g j)
      = ∑ q : Fin 25000,
          (Cert.Spec.gate (Cert.Spec.hid o W1 b1 W2 b2) linW linb ⟨k.val * 25000 + q.val, row_lt k q⟩ g
            * Cert.Spec.gate (Cert.Spec.hid o W1 b1 W2 b2) linW linb ⟨k.val * 25000 + q.val, row_lt k q⟩ g)
          * (Cert.Spec.hid o W1 b1 W2 b2 ⟨k.val * 25000 + q.val, row_lt k q⟩ j
            * Cert.Spec.hid o W1 b1 W2 b2 ⟨k.val * 25000 + q.val, row_lt k q⟩ j) := by
  subst ho hW1 hb1 hW2 hb2 hlW hlb
  exact sumsq_arr V c k g j

end Cert.KernelIdeal.StepA3

end
-- ==== Proof.KValue2.lean ====
/-
  The idealized kernel's result as the specification's function of the launch memory.

  The second reduction launch reads the first block's output; the stretch after it gives the second block's scale
  and row; the last launch's output is the second block, collapsed arrangement, plus the first layer.
-/
import proofs.«100017_j47974784696399_2_alg».proof.Proof.KValue1
import proofs.«100017_j47974784696399_2_alg».proof.Proof.KReg4
import proofs.«100017_j47974784696399_2_alg».proof.Proof.KStepA3Export

set_option maxRecDepth 16384
set_option maxHeartbeats 1000000

noncomputable section

namespace Cert.KernelIdeal.KValue

open Idealize.ShloMosaic Idealize.ShloMosaic.ValueIdx Idealize.ShloMosaic.StableHlo Idealize.SL.Sem
open Cert.KernelIdeal Cert.KernelIdeal.Gen Cert.KernelIdeal.KChain

variable (m : (ℓ : Loc nD τ sig) → Buf (Elt Ideal) ℓ) (ρ : Dev nD → PrngReg) (c : Dev nD)

/-- the second block's parameters, from the launch memory. -/
abbrev W1b : Fin 128 → Fin 128 → EReal := fun k j => (m ((c.tc : Thread nD τ).loc main_arg14)) (ix2 k j)
abbrev b1b : Fin 128 → EReal := fun j => (m ((c.tc : Thread nD τ).loc main_arg15)) (ix1 j)
abbrev W2b : Fin 128 → Fin 128 → EReal := fun k j => (m ((c.tc : Thread nD τ).loc main_arg16)) (ix2 k j)
abbrev b2b : Fin 128 → EReal := fun j => (m ((c.tc : Thread nD τ).loc main_arg17)) (ix1 j)
abbrev lWb : Fin 128 → Fin 10 → EReal := fun k g => (m ((c.tc : Thread nD τ).loc main_arg18)) (ix2 k g)
abbrev lbb : Fin 10 → EReal := fun g => (m ((c.tc : Thread nD τ).loc main_arg19)) (ix1 g)
abbrev gmb : Fin 10 → Fin 128 → EReal := fun g j => (m ((c.tc : Thread nD τ).loc main_arg20)) (ix1 (⟨g.val * 128 + j.val, by omega⟩ : Fin 1280))
abbrev btb : Fin 10 → Fin 128 → EReal := fun g j => (m ((c.tc : Thread nD τ).loc main_arg21)) (ix1 (⟨g.val * 128 + j.val, by omega⟩ : Fin 1280))

/-- what the second reduction launch reads. -/
theorem oA3 : StepA3.oA (V7 m ρ) c = KGlue.f2 (oaarr m ρ c) := by
  funext i k
  show W7 m ρ c (Proc.devRef .tc main_v46) (ix2 i k) = _
  rw [rd7_v46]
theorem W1A3 : StepA3.W1A (V7 m ρ) c = KGlue.f2 (m ((c.tc : Thread nD τ).loc main_arg14)) := by
  funext k j
  show W7 m ρ c (Proc.devRef .tc main_arg14) (ix2 k j) = _
  rw [(arg14_kept m ρ c).w7]
theorem b1A3 : StepA3.b1A (V7 m ρ) c = KGlue.r1 (shapeCast S1x128 (m ((c.tc : Thread nD τ).loc main_arg15)) shapeCasts_S128_S1x128) := by
  funext j
  show W7 m ρ c (Proc.devRef .tc main_v47) (ix2 (0 : Fin 1) j) = _
  rw [rd7_v47]
theorem W2A3 : StepA3.W2A (V7 m ρ) c = KGlue.f2 (m ((c.tc : Thread nD τ).loc main_arg16)) := by
  funext k j
  show W7 m ρ c (Proc.devRef .tc main_arg16) (ix2 k j) = _
  rw [(arg16_kept m ρ c).w7]
theorem b2A3 : StepA3.b2A (V7 m ρ) c = KGlue.r1 (shapeCast S1x128 (m ((c.tc : Thread nD τ).loc main_arg17)) shapeCasts_S128_S1x128) := by
  funext j
  show W7 m ρ c (Proc.devRef .tc main_v48) (ix2 (0 : Fin 1) j) = _
  rw [rd7_v48]
theorem lWA3 : StepA3.linWA (V7 m ρ) c = KGlue.f2 (m ((c.tc : Thread nD τ).loc main_arg18)) := by
  funext k g
  show W7 m ρ c (Proc.devRef .tc main_arg18) (ix2 k g) = _
  rw [(arg18_kept m ρ c).w7]
theorem lbA3 : StepA3.linbA (V7 m ρ) c = KGlue.r1 (shapeCast S1x10 (m ((c.tc : Thread nD τ).loc main_arg19)) shapeCasts_S10_S1x10) := by
  funext g
  show W7 m ρ c (Proc.devRef .tc main_v49) (ix2 (0 : Fin 1) g) = _
  rw [rd7_v49]

/-- The last launch's output array is the second residual block of the first one's output, plus the first layer. -/
theorem out_k (n : Fin 50000) (j : Fin 128) :
    W10 m ρ c (Proc.devRef .tc main_v81) (ix2 n j)
      = Cert.Spec.blockK (OA m c) (W1b m c) (b1b m c) (W2b m c) (b2b m c) (lWb m c) (lbb m c) (gmb m c) (btb m c) n j
        + O0 m c n j := by
  have e : W10 m ρ c (Proc.devRef .tc main_v81) = KReg4.G (h3arr m ρ c) (oaarr m ρ c) (m ((c.tc : Thread nD τ).loc main_arg18)) (shapeCast S1x10 (m ((c.tc : Thread nD τ).loc main_arg19)) shapeCasts_S10_S1x10)
      (KHostB.AH (s3arr m ρ c) (q3arr m ρ c) (shapeCast S10x128 (m ((c.tc : Thread nD τ).loc main_arg20)) shapeCasts_S1280_S10x128)) (KHostB.ccH (s3arr m ρ c) (q3arr m ρ c) (shapeCast S10x128 (m ((c.tc : Thread nD τ).loc main_arg20)) shapeCasts_S1280_S10x128) (shapeCast S10x128 (m ((c.tc : Thread nD τ).loc main_arg21)) shapeCasts_S1280_S10x128))
      (o0arr m ρ c) := by
    have e0 := KReg4.arr (V9 m ρ) c
    have e74 : W9 m ρ c (Proc.devRef .tc main_v74) = _ := (KHostB.h4_v74 (W8 m ρ c)).trans (by
      rw [rd8_v52_1, rd8_v52_2, rd8_v50])
    have e80 : W9 m ρ c (Proc.devRef .tc main_v80) = _ := (KHostB.h4_v80 (W8 m ρ c)).trans (by
      rw [rd8_v52_1, rd8_v52_2, rd8_v50, rd8_v51])
    rw [show V9 m ρ c main_v52_0 = _ from rd9_v52_0 m ρ c, show V9 m ρ c main_v46 = _ from rd9_v46 m ρ c,
      show V9 m ρ c main_arg18 = (m ((c.tc : Thread nD τ).loc main_arg18)) from (arg18_kept m ρ c).w9, show V9 m ρ c main_v49 = _ from rd9_v49 m ρ c,
      show V9 m ρ c main_v74 = _ from e74, show V9 m ρ c main_v80 = _ from e80,
      show V9 m ρ c main_v11 = _ from rd9_v11 m ρ c] at e0
    exact (W10_arr m ρ c 7).trans e0
  rw [e]
  refine (KGlue.blockK_glue4 (oaarr m ρ c) (h3arr m ρ c) (s3arr m ρ c) (q3arr m ρ c) (m ((c.tc : Thread nD τ).loc main_arg14)) (m ((c.tc : Thread nD τ).loc main_arg16)) (shapeCast S1x128 (m ((c.tc : Thread nD τ).loc main_arg15)) shapeCasts_S128_S1x128) (shapeCast S1x128 (m ((c.tc : Thread nD τ).loc main_arg17)) shapeCasts_S128_S1x128)
    (m ((c.tc : Thread nD τ).loc main_arg18)) (shapeCast S1x10 (m ((c.tc : Thread nD τ).loc main_arg19)) shapeCasts_S10_S1x10) (shapeCast S10x128 (m ((c.tc : Thread nD τ).loc main_arg20)) shapeCasts_S1280_S10x128) (shapeCast S10x128 (m ((c.tc : Thread nD τ).loc main_arg21)) shapeCasts_S1280_S10x128) (o0arr m ρ c)
    (fun n j => StepA3.h_arr_of (V7 m ρ) c _ _ _ _ _ (oA3 m ρ c) (W1A3 m ρ c) (b1A3 m ρ c) (W2A3 m ρ c) (b2A3 m ρ c) n j)
    (fun k g j => StepA3.sum_arr_of (V7 m ρ) c _ _ _ _ _ _ _ (oA3 m ρ c) (W1A3 m ρ c) (b1A3 m ρ c) (W2A3 m ρ c) (b2A3 m ρ c)
      (lWA3 m ρ c) (lbA3 m ρ c) k g j)
    (fun k g j => StepA3.sumsq_arr_of (V7 m ρ) c _ _ _ _ _ _ _ (oA3 m ρ c) (W1A3 m ρ c) (b1A3 m ρ c) (W2A3 m ρ c) (b2A3 m ρ c)
      (lWA3 m ρ c) (lbA3 m ρ c) k g j) n j).trans ?_
  have hO : KGlue.f2 (oaarr m ρ c) = OA m c := funext fun i => funext fun k => oa_eq m ρ c i k
  have hb1 : KGlue.r1 (shapeCast S1x128 (m ((c.tc : Thread nD τ).loc main_arg15)) shapeCasts_S128_S1x128) = b1b m c := funext fun j => KHost.row128_apply _ j
  have hb2 : KGlue.r1 (shapeCast S1x128 (m ((c.tc : Thread nD τ).loc main_arg17)) shapeCasts_S128_S1x128) = b2b m c := funext fun j => KHost.row128_apply _ j
  have hlb : KGlue.r1 (shapeCast S1x10 (m ((c.tc : Thread nD τ).loc main_arg19)) shapeCasts_S10_S1x10) = lbb m c := funext fun g => KHost.row10_apply _ g
  have hg : KGlue.f2 (shapeCast S10x128 (m ((c.tc : Thread nD τ).loc main_arg20)) shapeCasts_S1280_S10x128) = gmb m c := funext fun g => funext fun j => KHost.rows10x128_apply _ g j
  have hbt : KGlue.f2 (shapeCast S10x128 (m ((c.tc : Thread nD τ).loc main_arg21)) shapeCasts_S1280_S10x128) = btb m c := funext fun g => funext fun j => KHost.rows10x128_apply _ g j
  rw [hO, hb1, hb2, hlb, hg, hbt, o0_eq m ρ c n j]

end Cert.KernelIdeal.KValue

end
-- ==== Proof.RefRead1.lean ====
/-
  The reference's small pieces read at an index, over the extended reals.

  A broadcast reads its operand at the coordinates it keeps; the zero constant is 0; the program's softplus is
  max x 0 + log1p (exp (−|x|)): the comparison of x − 0 with itself for inequality is false, so the selection takes
  its second branch, and x − 0 = x.
-/
import proofs.«100017_j47974784696399_2_alg».proof.Proof.RefRunDefs
import proofs.«100017_j47974784696399_2_alg».proof.Proof.Spec
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open scoped BigOperators

theorem zerosNH_apply (i : S50000x128.Idx) : zerosNH (F := Ideal) i = 0 := by
  unfold zerosNH
  rw [broadcastInDim_apply _ _ _ i ix0 (fun a => a.elim0), constant_apply, Ideal.ofBits_zero_f32]

theorem rowsH_apply (b : FVec Ideal S128 .f32) (i : Fin 50000) (j : Fin 128) : rowsH b (ix2 i j) = b (ix1 j) := by
  unfold rowsH
  rw [broadcastInDim_apply _ _ _ (ix2 i j) (ix2 0 j) (fun a => by match a with | ⟨0, _⟩ => rfl | ⟨1, _⟩ => rfl),
    broadcastInDim_apply _ _ _ (ix2 0 j) (ix1 j) (fun a => by match a with | ⟨0, _⟩ => rfl)]

theorem rowsG_apply (b : FVec Ideal S10 .f32) (i : Fin 50000) (j : Fin 10) : rowsG b (ix2 i j) = b (ix1 j) := by
  unfold rowsG
  rw [broadcastInDim_apply _ _ _ (ix2 i j) (ix2 0 j) (fun a => by match a with | ⟨0, _⟩ => rfl | ⟨1, _⟩ => rfl),
    broadcastInDim_apply _ _ _ (ix2 0 j) (ix1 j) (fun a => by match a with | ⟨0, _⟩ => rfl)]

theorem rowsGH_apply (v : FVec Ideal S1280 .f32) (i : Fin 50000) (j : Fin 1280) : rowsGH v (ix2 i j) = v (ix1 j) := by
  unfold rowsGH
  rw [broadcastInDim_apply _ _ _ (ix2 i j) (ix2 0 j) (fun a => by match a with | ⟨0, _⟩ => rfl | ⟨1, _⟩ => rfl),
    broadcastInDim_apply _ _ _ (ix2 0 j) (ix1 j) (fun a => by match a with | ⟨0, _⟩ => rfl)]

theorem colsG_apply (v : FVec Ideal S50000 .f32) (i : Fin 50000) (j : Fin 10) : colsG v (ix2 i j) = v (ix1 i) := by
  unfold colsG
  rw [broadcastInDim_apply _ _ _ (ix2 i j) (ix2 i 0) (fun a => by match a with | ⟨0, _⟩ => rfl | ⟨1, _⟩ => rfl),
    broadcastInDim_apply _ _ _ (ix2 i 0) (ix1 i) (fun a => by match a with | ⟨0, _⟩ => rfl)]

theorem softplusV_apply (x : FVec Ideal S50000x128 .f32) (i : S50000x128.Idx) :
    softplusV x i = Spec.softplus (x i) := by
  unfold softplusV Spec.softplus
  rw [select_apply, cmpf_apply, subf_apply, zerosNH_apply, sub_zero]
  have hc : FloatOps.cmpf (F := Ideal) (φ := .f32) .une (x i) (x i) = 0#1 := by
    show Ideal.cmp .une (x i) (x i) = 0#1
    simp [Ideal.cmp]
  rw [hc, select_zero, addf_apply, maximumf_apply, zerosNH_apply]
  show max (x i) 0 + Ideal.log1p (Ideal.exp (-(max (x i - zerosNH i) (-(x i - zerosNH i))))) = _
  rw [zerosNH_apply, sub_zero]

end Cert.ReferenceIdeal.RefRead

end
-- ==== Proof.RefRead2.lean ====
/-
  The products and the first layer read at an index, over the extended reals.

  A host dot_general of an [N, K] array with a [K, M] array is, at (i, j), the sum over k of the products; the bias is
  read at j.  The first layer's left operand is the three arrays joined along the columns: a column below 128 reads the
  node features, one below 256 the per-node edge sums, the rest the global row (which is the same for every node).
-/
import proofs.«100017_j47974784696399_2_alg».proof.Proof.RefRead1
import proofs.«100017_j47974784696399_2_alg».proof.Proof.LibPlainDot

noncomputable section

namespace Cert.ReferenceIdeal.RefRead

open Cert.ReferenceIdeal Cert.ReferenceIdeal.Gen Cert.ReferenceIdeal.RefRun Idealize.ShloMosaic Idealize.ShloMosaic.ValueIdx
open scoped BigOperators

theorem dot128_apply (o : FVec Ideal S50000x128 .f32) (W : FVec Ideal S128x128 .f32) (i : Fin 50000) (j : Fin 128) :
    Host.dotGeneral dot_S50000x128_S128x128_S50000x128_1_0_0_1_n_n none o W (ix2 i j)
      = ∑ k : Fin 128, o (ix2 i k) * W (ix2 k j) := by
  simp only [Host.dotGeneral]
  exact PlainDot.dotGeneral_apply _ rfl rfl (fun _ _ => rfl) (fun _ _ => rfl) (fun _ _ => rfl) (fun _ _ => rfl) _ _ o W (ix2 i j)

theorem dot10_apply (o : FVec Ideal S50000x128 .f32) (W : FVec Ideal S128x10 .f32) (i : Fin 50000) (j : Fin 10) :
    Host.dotGeneral dot_S50000x128_S128x10_S50000x10_1_0_0_1_n_n none o W (ix2 i j)
      = ∑ k : Fin 128, o (ix2 i k) * W (ix2 k j) := by
  simp only [Host.dotGeneral]
  exact PlainDot.dotGeneral_apply _ rfl rfl (fun _ _ => rfl) (fun _ _ => rfl) (fun _ _ => rfl) (fun _ _ => rfl) _ _ o W (ix2 i j)

theorem dot320_apply (o : FVec Ideal S50000x320 .f32) (W : FVec Ideal S320x128 .f32) (i : Fin 50000) (j : Fin 128) :
    Host.dotGeneral dot_S50000x320_S320x128_S50000x128_1_0_0_1_n_n none o W (ix2 i j)
      = ∑ k : Fin 320, o (ix2 i k) * W (ix2 k j) := by
  simp only [Host.dotGeneral]
  exact PlainDot.dotGeneral_apply _ rfl rfl (fun _ _ => rfl) (fun _ _ => rfl) (fun _ _ => rfl) (fun _ _ => rfl) _ _ o W (ix2 i j)

/-- o · W + b at (i, j). -/
theorem denseV_apply (o : FVec Ideal S50000x128 .f32) (W : FVec Ideal S128x128 .f32) (b : FVec Ideal S128 .f32)
    (i : Fin 50000) (j : Fin 128) :
    denseV o W b (ix2 i j) = Spec.dense (fun i k => o (ix2 i k)) (fun k j => W (ix2 k j)) (fun j => b (ix1 j)) i j := by
  unfold denseV Spec.dense
  rw [addf_apply, rowsH_apply, dot128_apply]

/-- the gate's logits at (i, g). -/
theorem logitsV_apply (h : FVec Ideal S50000x128 .f32) (W : FVec Ideal S128x10 .f32) (b : FVec Ideal S10 .f32)
    (i : Fin 50000) (g : Fin 10) :
    logitsV h W b (ix2 i g) = Spec.dense (fun i k => h (ix2 i k)) (fun k j => W (ix2 k j)) (fun j => b (ix1 j)) i g := by
  unfold logitsV Spec.dense
  rw [addf_apply, rowsG_apply, dot10_apply]

/-- the global row repeated: every node reads row 0. -/
theorem globRows_apply (a3 : FVec Ideal S1x64 .f32) (i : Fin 50000) (j : Fin 64) : globRows a3 (ix2 i j) = a3 (ix2 0 j) := by
  unfold globRows
  rw [shapeCast_apply _ _ (ix2 i j) (ix3 0 i j) (by rw [Shape.rowMajor_val_three, Shape.rowMajor_val_two]; simp),
    broadcastInDim_apply _ _ _ (ix3 0 i j) (ix2 0 j) (fun a => by match a with | ⟨0, _⟩ => rfl | ⟨1, _⟩ => rfl)]

/-- [x | msg | g] at (i, k). -/
theorem combV_apply (a0 m : FVec Ideal S50000x128 .f32) (a3 : FVec Ideal S1x64 .f32) (i : Fin 50000) (k : Fin 320) :
    combV a0 m (globRows a3) (ix2 i k)
      = Spec.comb (fun i j => a0 (ix2 i j)) (fun i j => m (ix2 i j)) (fun j => a3 (ix2 0 j)) i k := by
  unfold combV Spec.comb
  by_cases h : k.val < 128
  · rw [dif_pos h]
    exact concatenate_apply_piece 1 _ _ (ix2 i k) 0 (by show (0 : ℕ) < 3; omega) S50000x128 a0 rfl rfl 0 rfl (ix2 i ⟨k.val, h⟩)
      (fun b hb => by match b with | ⟨0, _⟩ => rfl | ⟨1, _⟩ => exact absurd rfl hb) (by show 0 + k.val = k.val; omega)
  · rw [dif_neg h]
    by_cases h' : k.val < 256
    · rw [dif_pos h']
      exact concatenate_apply_piece 1 _ _ (ix2 i k) 1 (by show (1 : ℕ) < 3; omega) S50000x128 m rfl rfl 128 rfl (ix2 i ⟨k.val - 128, by omega⟩)
        (fun b hb => by match b with | ⟨0, _⟩ => rfl | ⟨1, _⟩ => exact absurd rfl hb) (by show 128 + (k.val - 128) = k.val; omega)
    · rw [dif_neg h']
      refine (concatenate_apply_piece 1 _ _ (ix2 i k) 2 (by show (2 : ℕ) < 3; omega) S50000x64 (globRows a3) rfl rfl 256 rfl
        (ix2 i ⟨k.val - 256, by have := k.isLt; omega⟩)
        (fun b hb => by match b with | ⟨0, _⟩ => rfl | ⟨1, _⟩ => exact absurd rfl hb)
        (by show 256 + (k.val - 256) = k.val; omega)).trans ?_
      exact globRows_apply a3 i _

/-- the first layer at (i, j). -/
theorem layer0_apply (a0 : FVec Ideal S50000x128 .f32) (a1 : IVec S2x800000 32) (a2 : FVec Ideal S800000x128 .f32)
    (a3 : FVec Ideal S1x64 .f32) (a4 : FVec Ideal S320x128 .f32) (a5 : FVec Ideal S128 .f32) (i : Fin 50000) (j : Fin 128) :
    layer0 a0 a1 a2 a3 a4 a5 (ix2 i j)
      = Spec.out0 (fun i j => a0 (ix2 i j)) (fun i j => msg a1 a2 (ix2 i j)) (fun k => a3 (ix2 0 k))
          (fun k j => a4 (ix2 k j)) (fun j => a5 (ix1 j)) i j := by
  unfold layer0 Spec.out0 Spec.dense
  rw [softplusV_apply, addf_apply, rowsH_apply, dot320_apply]
  simp only [combV_apply]

end Cert.ReferenceIdeal.RefRead

end
-- ==== Proof.RefRead3.lean ====
/-
  The gate and the gated copies read at an index, over the extended reals.

  A host sum from 0 along one axis is the finite sum over that axis's coordinate; the row maximum from −∞ is the
  supremum over the row; the row softmax is exp (z − max z) over the sum of those; the gated copies, laid out as
  [N, G·H] by row-major position, read s n g · h n c at column g·128 + c.
-/
import proofs.«100017_j47974784696399_2_alg».proof.Proof.RefRead2
import Idealize.ShloMosaic.Lib.IdealHost

noncomputable section

namespace Cert.ReferenceIdeal.RefRead

open Cert.ReferenceIdeal Cert.ReferenceIdeal.Gen Cert.ReferenceIdeal.RefRun Idealize.ShloMosaic Idealize.ShloMosaic.ValueIdx
open scoped BigOperators

/-- an array [n0, n1] as a function of its two coordinates. -/
abbrev f2 {n0 n1 : Nat} (X : (⟨2, ![n0, n1]⟩ : Shape).Idx → EReal) : Fin n0 → Fin n1 → EReal := fun i j => X (ix2 i j)
/-- an array [n] as a function of its coordinate. -/
abbrev f1 {n : Nat} (X : (⟨1, ![n]⟩ : Shape).Idx → EReal) : Fin n → EReal := fun j => X (ix1 j)
/-- column g·128 + c of a row of G·H entries. -/
abbrev gh (g : Fin 10) (c : Fin 128) : Fin 1280 := ⟨g.val * 128 + c.val, by have := g.isLt; have := c.isLt; omega⟩
/-- an array [G·H] as a function of group and channel. -/
abbrev fGH (X : (⟨1, ![1280]⟩ : Shape).Idx → EReal) : Fin 10 → Fin 128 → EReal := fun g c => X (ix1 (gh g c))

/-- a row sum of an [N, G] array, from 0. -/
theorem rowSum10_apply (x : FVec Ideal S50000x10 .f32) (n : Fin 50000) :
    Host.reduceAdd x (constant S_ .f32 0x00000000#32) reducesTo_S50000x10_S50000_d1 h_S_ (ix1 n) = ∑ g : Fin 10, x (ix2 n g) := by
  have hR : S50000x10.Reduces [1] S50000 := by decide
  rw [hostReduceAdd_apply, Ideal.hostReduceAdd_single _ hR, constant_apply, Ideal.ofBits_zero_f32, zero_add]
  refine Finset.sum_congr rfl fun g _ => congrArg x ?_
  funext c; apply Fin.ext; fin_cases c <;> rfl

/-- a column sum of an [N, G·H] array, from 0. -/
theorem colSumV_apply (O : FVec Ideal S50000x1280 .f32) (j : Fin 1280) : colSumV O (ix1 j) = ∑ n : Fin 50000, O (ix2 n j) := by
  have hR : S50000x1280.Reduces [0] S1280 := by decide
  unfold colSumV
  rw [hostReduceAdd_apply, Ideal.hostReduceAdd_single _ hR, constant_apply, Ideal.ofBits_zero_f32, zero_add]
  refine Finset.sum_congr rfl fun n _ => congrArg O ?_
  funext c; apply Fin.ext; fin_cases c <;> rfl

/-- the row maximum from −∞ is the supremum over the row. -/
theorem rowMaxV_apply (z : FVec Ideal S50000x10 .f32) (n : Fin 50000) : rowMaxV z (ix1 n) = Spec.rowMax (f2 z) n := by
  have hR : S50000x10.Reduces [1] S50000 := by decide
  have hbot : Ideal.ofBits .f32 0xFF800000#32 = (⊥ : EReal) := by simp [Ideal.ofBits, Ideal.ieee]
  unfold rowMaxV Spec.rowMax
  rw [maximumf_apply, broadcastInDim_scalar_apply, constant_apply,
    Host.reduce_eq_fold_single FloatOps.maximumf z _ reducesTo_S50000x10_S50000_d1 hR h_S_, constant_apply, hbot, max_bot_left]
  have hf : (z ∘ hR.lift (ix1 n)) = fun g : Fin 10 => z (ix2 n g) :=
    funext fun g => congrArg z (by funext c; apply Fin.ext; fin_cases c <;> rfl)
  rw [hf]
  rfl

theorem expsV_apply (z : FVec Ideal S50000x10 .f32) (n : Fin 50000) (g : Fin 10) :
    expsV z (ix2 n g) = Ideal.exp (z (ix2 n g) - Spec.rowMax (f2 z) n) := by
  unfold expsV
  show Ideal.exp (subf z (colsG (rowMaxV z)) (ix2 n g)) = _
  rw [subf_apply, colsG_apply, rowMaxV_apply]

/-- the row softmax. -/
theorem softmaxV_apply (z : FVec Ideal S50000x10 .f32) (n : Fin 50000) (g : Fin 10) :
    softmaxV z (ix2 n g) = Spec.softmax (f2 z) n g := by
  unfold softmaxV Spec.softmax
  rw [hostDivf_apply, colsG_apply, rowSum10_apply, expsV_apply]
  simp only [expsV_apply]

/-- the gated copies at column g·128 + c. -/
theorem gatedV_apply (s : FVec Ideal S50000x10 .f32) (h : FVec Ideal S50000x128 .f32) (n : Fin 50000) (g : Fin 10) (c : Fin 128) :
    gatedV s h (ix2 n (gh g c)) = s (ix2 n g) * h (ix2 n c) := by
  unfold gatedV
  rw [shapeCast_apply _ _ (ix2 n (gh g c)) (ix3 n g c) (by
      rw [Shape.rowMajor_val_three, Shape.rowMajor_val_two]
      show (n.val * 10 + g.val) * 128 + c.val = n.val * 1280 + (g.val * 128 + c.val)
      ring),
    mulf_apply,
    broadcastInDim_apply _ _ _ (ix3 n g c) (ix3 n g 0) (fun a => by match a with | ⟨0, _⟩ => rfl | ⟨1, _⟩ => rfl | ⟨2, _⟩ => rfl),
    broadcastInDim_apply _ _ _ (ix3 n g 0) (ix2 n g) (fun a => by match a with | ⟨0, _⟩ => rfl | ⟨1, _⟩ => rfl),
    broadcastInDim_apply _ _ _ (ix3 n g c) (ix3 n 0 c) (fun a => by match a with | ⟨0, _⟩ => rfl | ⟨1, _⟩ => rfl | ⟨2, _⟩ => rfl),
    broadcastInDim_apply _ _ _ (ix3 n 0 c) (ix2 n c) (fun a => by match a with | ⟨0, _⟩ => rfl | ⟨1, _⟩ => rfl)]

end Cert.ReferenceIdeal.RefRead

end
-- ==== Proof.RefRead4.lean ====
/-
  The statistics and the normalization read at an index, over the extended reals.

  The column mean is the column sum over 50000.  The variance routine divides the sum of centred squares by
  50000 − 0 where that is positive, which it is: the routine's own mean is the column mean again, the correction 0 is
  the integer 0 converted, and 50000 − 0 = 50000 > 0.  The normalized copies are read entry by entry, and their sum
  over the groups reads the [N, G·H] array as [N, G, H] by row-major position.
-/
import proofs.«100017_j47974784696399_2_alg».proof.Proof.RefRead3
import proofs.«100017_j47974784696399_2_alg».proof.Proof.SpecReal

noncomputable section

namespace Cert.ReferenceIdeal.RefRead

open Cert.ReferenceIdeal Cert.ReferenceIdeal.Gen Cert.ReferenceIdeal.RefRun Idealize.ShloMosaic Idealize.ShloMosaic.ValueIdx
open scoped BigOperators

/-- the constant 50000 is the specification's. -/
theorem const_cN : Ideal.ofBits .f32 0x47435000#32 = Spec.cN := rfl

theorem meanV_apply (O : FVec Ideal S50000x1280 .f32) (j : Fin 1280) :
    meanV O (ix1 j) = Ideal.div (∑ n : Fin 50000, O (ix2 n j)) Spec.cN := by
  unfold meanV
  rw [hostDivf_apply, colSumV_apply, broadcastInDim_scalar_apply, constant_apply, const_cN]

/-- the routine's divisor 50000 − 0 is 50000. -/
theorem varCntV_apply : varCntV (F := Ideal) ix0 = Spec.cN := by
  unfold varCntV
  rw [subf_apply, constant_apply, sitofp_apply, const_cN]
  have h0 : FloatOps.sitofp (F := Ideal) .f32 (constantI S_ 32 0#32 ix0) = 0 := by
    show ((((0#32 : BitVec 32).toInt : ℝ)) : EReal) = 0
    simp
  rw [h0, sub_zero]

theorem cN_pos : (0 : EReal) < Spec.cN := by
  rw [Spec.cN_eq]
  exact EReal.coe_pos.mpr (by norm_num)

/-- the variance routine's value at column j: the sum of centred squares over 50000. -/
theorem varV_apply (O : FVec Ideal S50000x1280 .f32) (j : Fin 1280) :
    varV O (ix1 j)
      = Ideal.div (∑ n : Fin 50000, (O (ix2 n j) - meanV O (ix1 j)) * (O (ix2 n j) - meanV O (ix1 j))) Spec.cN := by
  unfold varV
  rw [select_apply, broadcastInDim_scalar_apply, cmpf_apply, varCntV_apply, constant_apply, Ideal.ofBits_zero_f32]
  have hc : FloatOps.cmpf (F := Ideal) (φ := .f32) .ogt Spec.cN 0 = 1#1 := by
    show Ideal.cmp .ogt Spec.cN 0 = 1#1
    simp [Ideal.cmp, cN_pos]
  rw [hc, select_one, hostDivf_apply, colSumV_apply, broadcastInDim_scalar_apply, varCntV_apply]
  refine congrArg (fun s => Ideal.div s Spec.cN) (Finset.sum_congr rfl fun n _ => ?_)
  have hd : varDevV O (ix2 n j) = O (ix2 n j) - meanV O (ix1 j) := by
    unfold varDevV varMeanV meanV
    rw [subf_apply, broadcastInDim_apply _ _ _ (ix2 n j) (ix2 0 j) (fun a => by match a with | ⟨0, _⟩ => rfl | ⟨1, _⟩ => rfl),
      hostDivf_apply, hostDivf_apply, broadcastInDim_scalar_apply, broadcastInDim_scalar_apply,
      broadcastInDim_apply _ _ _ (ix2 0 j) (ix1 j) (fun a => by match a with | ⟨0, _⟩ => rfl)]
  rw [mulf_apply, hd]

theorem cenV_apply (O : FVec Ideal S50000x1280 .f32) (mu : FVec Ideal S1280 .f32) (n : Fin 50000) (j : Fin 1280) :
    cenV O mu (ix2 n j) = O (ix2 n j) - mu (ix1 j) := by
  unfold cenV
  rw [subf_apply, rowsGH_apply]

theorem vepsV_apply (v : FVec Ideal S1280 .f32) (j : Fin 1280) : vepsV v (ix1 j) = v (ix1 j) + Spec.cEps := by
  unfold vepsV
  rw [addf_apply, broadcastInDim_scalar_apply, constant_apply]
  rfl

theorem normV_apply (cen : FVec Ideal S50000x1280 .f32) (veps gamma beta : FVec Ideal S1280 .f32) (n : Fin 50000) (j : Fin 1280) :
    normV cen veps gamma beta (ix2 n j)
      = cen (ix2 n j) * Ideal.rsqrt (veps (ix1 j)) * gamma (ix1 j) + beta (ix1 j) := by
  unfold normV
  rw [addf_apply, mulf_apply, mulf_apply, rowsGH_apply, rowsGH_apply, rowsGH_apply]
  rfl

/-- the sum over the groups at (n, c): the columns g·128 + c. -/
theorem groupSumV_apply (x : FVec Ideal S50000x1280 .f32) (n : Fin 50000) (c : Fin 128) :
    groupSumV x (ix2 n c) = ∑ g : Fin 10, x (ix2 n (gh g c)) := by
  have hR : S50000x10x128.Reduces [1] S50000x128 := by decide
  unfold groupSumV
  rw [hostReduceAdd_apply, Ideal.hostReduceAdd_single _ hR, constant_apply, Ideal.ofBits_zero_f32, zero_add]
  refine Finset.sum_congr rfl fun g _ => ?_
  have hl : hR.lift (ix2 n c) g = ix3 n (⟨g.val, g.isLt⟩ : Fin 10) c := by
    funext a; apply Fin.ext; fin_cases a <;> rfl
  rw [hl]
  exact shapeCast_apply _ _ (ix3 n (⟨g.val, g.isLt⟩ : Fin 10) c) (ix2 n (gh ⟨g.val, g.isLt⟩ c)) (by
    rw [Shape.rowMajor_val_three, Shape.rowMajor_val_two]
    show n.val * 1280 + (g.val * 128 + c.val) = (n.val * 10 + g.val) * 128 + c.val
    ring)

/-- a block's last steps at (n, c). -/
theorem blkTailV_apply (o h : FVec Ideal S50000x128 .f32) (cen : FVec Ideal S50000x1280 .f32) (veps gamma beta : FVec Ideal S1280 .f32)
    (n : Fin 50000) (c : Fin 128) :
    blkTailV o h cen veps gamma beta (ix2 n c)
      = o (ix2 n c) + (h (ix2 n c) + Spec.cLam * ∑ g : Fin 10,
          (cen (ix2 n (gh g c)) * Ideal.rsqrt (veps (ix1 (gh g c))) * gamma (ix1 (gh g c)) + beta (ix1 (gh g c)))) := by
  unfold blkTailV
  rw [addf_apply, addf_apply, mulf_apply, broadcastInDim_scalar_apply, constant_apply, groupSumV_apply]
  simp only [normV_apply]
  rfl

end Cert.ReferenceIdeal.RefRead

end
-- ==== Proof.RefRead5.lean ====
/-
  One residual block and the whole result read entry by entry, over the extended reals.

  With every array read as a function of its coordinates, a block's inner features are the specification's `hid`,
  its gate the specification's `gate`, its gated copies `O`, their column means and variances `mu` and `var`, and the
  block's result `block` (the direct arrangement).  The program's result is block b of block a of the first layer,
  plus the first layer.
-/
import proofs.«100017_j47974784696399_2_alg».proof.Proof.RefRead4

noncomputable section

namespace Cert.ReferenceIdeal.RefRead

open Cert.ReferenceIdeal Cert.ReferenceIdeal.Gen Cert.ReferenceIdeal.RefRun Idealize.ShloMosaic Idealize.ShloMosaic.ValueIdx
open scoped BigOperators

/-- the inner features as a function. -/
theorem hidV_fn (o : FVec Ideal S50000x128 .f32) (W1 : FVec Ideal S128x128 .f32) (b1 : FVec Ideal S128 .f32)
    (W2 : FVec Ideal S128x128 .f32) (b2 : FVec Ideal S128 .f32) :
    f2 (hidV o W1 b1 W2 b2) = Spec.hid (f2 o) (f2 W1) (f1 b1) (f2 W2) (f1 b2) := by
  funext i j
  show hidV o W1 b1 W2 b2 (ix2 i j) = _
  unfold hidV Spec.hid
  rw [denseV_apply]
  simp only [softplusV_apply, denseV_apply]

/-- the gate as a function. -/
theorem gate_fn (h : FVec Ideal S50000x128 .f32) (linW : FVec Ideal S128x10 .f32) (linb : FVec Ideal S10 .f32) :
    f2 (softmaxV (logitsV h linW linb)) = Spec.gate (f2 h) (f2 linW) (f1 linb) := by
  have hz : f2 (logitsV h linW linb) = Spec.dense (f2 h) (f2 linW) (f1 linb) := by
    funext i g; exact logitsV_apply h linW linb i g
  funext n g
  show softmaxV (logitsV h linW linb) (ix2 n g) = _
  rw [softmaxV_apply, hz]
  rfl

section Block
variable (o : FVec Ideal S50000x128 .f32) (W1 : FVec Ideal S128x128 .f32) (b1 : FVec Ideal S128 .f32)
    (W2 : FVec Ideal S128x128 .f32) (b2 : FVec Ideal S128 .f32) (linW : FVec Ideal S128x10 .f32) (linb : FVec Ideal S10 .f32)

/-- the specification's inner features of this block. -/
abbrev sHid : Fin 50000 → Fin 128 → EReal := Spec.hid (f2 o) (f2 W1) (f1 b1) (f2 W2) (f1 b2)
/-- the specification's gate of this block. -/
abbrev sGate : Fin 50000 → Fin 10 → EReal := Spec.gate (sHid o W1 b1 W2 b2) (f2 linW) (f1 linb)

theorem blkGatedV_apply (n : Fin 50000) (g : Fin 10) (c : Fin 128) :
    blkGatedV o W1 b1 W2 b2 linW linb (ix2 n (gh g c))
      = Spec.O (sHid o W1 b1 W2 b2) (sGate o W1 b1 W2 b2 linW linb) n g c := by
  have hh := hidV_fn o W1 b1 W2 b2
  have hg := gate_fn (hidV o W1 b1 W2 b2) linW linb
  rw [hh] at hg
  unfold blkGatedV Spec.O
  rw [gatedV_apply]
  show f2 (softmaxV (logitsV (hidV o W1 b1 W2 b2) linW linb)) n g * f2 (hidV o W1 b1 W2 b2) n c = _
  rw [hg, hh]

theorem blkMean_apply (g : Fin 10) (c : Fin 128) :
    meanV (blkGatedV o W1 b1 W2 b2 linW linb) (ix1 (gh g c))
      = Spec.mu (sHid o W1 b1 W2 b2) (sGate o W1 b1 W2 b2 linW linb) g c := by
  rw [meanV_apply]
  unfold Spec.mu
  exact congrArg (fun s => Ideal.div s Spec.cN)
    (Finset.sum_congr rfl fun n _ => blkGatedV_apply o W1 b1 W2 b2 linW linb n g c)

theorem blkVar_apply (g : Fin 10) (c : Fin 128) :
    varV (blkGatedV o W1 b1 W2 b2 linW linb) (ix1 (gh g c))
      = Spec.var (sHid o W1 b1 W2 b2) (sGate o W1 b1 W2 b2 linW linb) g c := by
  rw [varV_apply, blkMean_apply]
  unfold Spec.var
  refine congrArg (fun s => Ideal.div s Spec.cN) (Finset.sum_congr rfl fun n _ => ?_)
  rw [blkGatedV_apply]

/-- one residual block as a function: the specification's direct arrangement. -/
theorem blk_fn (gamma beta : FVec Ideal S1280 .f32) :
    f2 (blk o W1 b1 W2 b2 linW linb gamma beta)
      = Spec.block (f2 o) (f2 W1) (f1 b1) (f2 W2) (f1 b2) (f2 linW) (f1 linb) (fGH gamma) (fGH beta) := by
  have hh := hidV_fn o W1 b1 W2 b2
  funext n c
  show blk o W1 b1 W2 b2 linW linb gamma beta (ix2 n c) = _
  unfold blk Spec.block Spec.dgn
  rw [blkTailV_apply]
  have e1 : hidV o W1 b1 W2 b2 (ix2 n c) = Spec.hid (f2 o) (f2 W1) (f1 b1) (f2 W2) (f1 b2) n c := congrFun (congrFun hh n) c
  refine congrArg₂ (· + ·) rfl (congrArg₂ (· + ·) e1 (congrArg (Spec.cLam * ·) (Finset.sum_congr rfl fun g _ => ?_)))
  unfold Spec.normed
  rw [cenV_apply, vepsV_apply, blkMean_apply, blkVar_apply, blkGatedV_apply]

end Block

/-- the program's result as a function of node and channel. -/
theorem out_fn (a0 : FVec Ideal S50000x128 .f32) (a1 : IVec S2x800000 32) (a2 : FVec Ideal S800000x128 .f32)
    (a3 : FVec Ideal S1x64 .f32) (a4 : FVec Ideal S320x128 .f32) (a5 : FVec Ideal S128 .f32)
    (a6 : FVec Ideal S128x128 .f32) (a7 : FVec Ideal S128 .f32) (a8 : FVec Ideal S128x128 .f32) (a9 : FVec Ideal S128 .f32)
    (a10 : FVec Ideal S128x10 .f32) (a11 : FVec Ideal S10 .f32) (a12 a13 : FVec Ideal S1280 .f32)
    (a14 : FVec Ideal S128x128 .f32) (a15 : FVec Ideal S128 .f32) (a16 : FVec Ideal S128x128 .f32) (a17 : FVec Ideal S128 .f32)
    (a18 : FVec Ideal S128x10 .f32) (a19 : FVec Ideal S10 .f32) (a20 a21 : FVec Ideal S1280 .f32) (n : Fin 50000) (c : Fin 128) :
    out a0 a1 a2 a3 a4 a5 a6 a7 a8 a9 a10 a11 a12 a13 a14 a15 a16 a17 a18 a19 a20 a21 (ix2 n c)
      = Spec.block
          (Spec.block (Spec.out0 (f2 a0) (f2 (msg a1 a2)) (fun k => a3 (ix2 0 k)) (f2 a4) (f1 a5))
            (f2 a6) (f1 a7) (f2 a8) (f1 a9) (f2 a10) (f1 a11) (fGH a12) (fGH a13))
          (f2 a14) (f1 a15) (f2 a16) (f1 a17) (f2 a18) (f1 a19) (fGH a20) (fGH a21) n c
        + Spec.out0 (f2 a0) (f2 (msg a1 a2)) (fun k => a3 (ix2 0 k)) (f2 a4) (f1 a5) n c := by
  have h0 : f2 (layer0 a0 a1 a2 a3 a4 a5)
      = Spec.out0 (f2 a0) (f2 (msg a1 a2)) (fun k => a3 (ix2 0 k)) (f2 a4) (f1 a5) := by
    funext i j; exact layer0_apply a0 a1 a2 a3 a4 a5 i j
  have ha := blk_fn (layer0 a0 a1 a2 a3 a4 a5) a6 a7 a8 a9 a10 a11 a12 a13
  rw [h0] at ha
  have hb := blk_fn (blk (layer0 a0 a1 a2 a3 a4 a5) a6 a7 a8 a9 a10 a11 a12 a13) a14 a15 a16 a17 a18 a19 a20 a21
  rw [ha] at hb
  unfold out
  rw [addf_apply]
  show f2 (blk (blk (layer0 a0 a1 a2 a3 a4 a5) a6 a7 a8 a9 a10 a11 a12 a13) a14 a15 a16 a17 a18 a19 a20 a21) n c
      + f2 (layer0 a0 a1 a2 a3 a4 a5) n c = _
  rw [hb, h0]

/-- the same, with the arrays' readings spelled out. -/
theorem out_eq (a0 : FVec Ideal S50000x128 .f32) (a1 : IVec S2x800000 32) (a2 : FVec Ideal S800000x128 .f32)
    (a3 : FVec Ideal S1x64 .f32) (a4 : FVec Ideal S320x128 .f32) (a5 : FVec Ideal S128 .f32)
    (a6 : FVec Ideal S128x128 .f32) (a7 : FVec Ideal S128 .f32) (a8 : FVec Ideal S128x128 .f32) (a9 : FVec Ideal S128 .f32)
    (a10 : FVec Ideal S128x10 .f32) (a11 : FVec Ideal S10 .f32) (a12 a13 : FVec Ideal S1280 .f32)
    (a14 : FVec Ideal S128x128 .f32) (a15 : FVec Ideal S128 .f32) (a16 : FVec Ideal S128x128 .f32) (a17 : FVec Ideal S128 .f32)
    (a18 : FVec Ideal S128x10 .f32) (a19 : FVec Ideal S10 .f32) (a20 a21 : FVec Ideal S1280 .f32) (n : Fin 50000) (c : Fin 128) :
    out a0 a1 a2 a3 a4 a5 a6 a7 a8 a9 a10 a11 a12 a13 a14 a15 a16 a17 a18 a19 a20 a21 (ix2 n c)
      = (let x : Fin 50000 → Fin 128 → EReal := fun i j => a0 (ix2 i j)
         let m : Fin 50000 → Fin 128 → EReal := fun i j => msg a1 a2 (ix2 i j)
         let o0 := Spec.out0 x m (fun k => a3 (ix2 0 k)) (fun k j => a4 (ix2 k j)) (fun j => a5 (ix1 j))
         let oa := Spec.block o0 (fun k j => a6 (ix2 k j)) (fun j => a7 (ix1 j)) (fun k j => a8 (ix2 k j)) (fun j => a9 (ix1 j))
           (fun k j => a10 (ix2 k j)) (fun j => a11 (ix1 j)) (fun g c => a12 (ix1 (gh g c))) (fun g c => a13 (ix1 (gh g c)))
         let ob := Spec.block oa (fun k j => a14 (ix2 k j)) (fun j => a15 (ix1 j)) (fun k j => a16 (ix2 k j)) (fun j => a17 (ix1 j))
           (fun k j => a18 (ix2 k j)) (fun j => a19 (ix1 j)) (fun g c => a20 (ix1 (gh g c))) (fun g c => a21 (ix1 (gh g c)))
         ob n c + o0 n c) :=
  out_fn a0 a1 a2 a3 a4 a5 a6 a7 a8 a9 a10 a11 a12 a13 a14 a15 a16 a17 a18 a19 a20 a21 n c

end Cert.ReferenceIdeal.RefRead

end
-- ==== Proof.SpecGate.lean ====
import Idealize.ShloMosaic.PureOps.Ideal
import proofs.«100017_j47974784696399_2_alg».proof.Proof.LibExtRealLayer
import proofs.«100017_j47974784696399_2_alg».proof.Proof.Spec
import proofs.«100017_j47974784696399_2_alg».proof.Proof.SpecReal

/-!
  The row softmax of real entries is real.

  A non-empty row of reals has a real maximum (it is one of the entries); every exponential of a difference is a
  positive real, so the denominator is a positive real and the quotient is a real number.
-/

noncomputable section

namespace Cert.Spec

open Idealize.ShloMosaic
open Cert.ExtRealLayer
open scoped BigOperators

/-- the row softmax of a non-empty row of reals. -/
theorem isReal_softmax {n M : ℕ} [NeZero M] (z : Fin n → Fin M → EReal) (hz : ∀ i g, IsReal (z i g))
    (i : Fin n) (g : Fin M) : IsReal (softmax z i g) := by
  obtain ⟨g0, -, hg0⟩ := Finset.exists_mem_eq_sup Finset.univ Finset.univ_nonempty (z i)
  have hm : IsReal (rowMax z i) := by rw [rowMax, hg0]; exact hz i g0
  obtain ⟨m, hm⟩ := hm
  choose zr hzr using hz
  have hterm : ∀ g', Ideal.exp (z i g' - rowMax z i) = ((Real.exp (zr i g' - m) : ℝ) : EReal) := by
    intro g'
    rw [hzr, hm, ← EReal.coe_sub, Ideal.exp_coe]
  have hden : (∑ g', Ideal.exp (z i g' - rowMax z i)) = ((∑ g', Real.exp (zr i g' - m) : ℝ) : EReal) := by
    rw [coe_sum]
    exact Finset.sum_congr rfl fun g' _ => hterm g'
  have hpos : 0 < ∑ g', Real.exp (zr i g' - m) :=
    Finset.sum_pos (fun g' _ => Real.exp_pos _) Finset.univ_nonempty
  rw [softmax, hden, hterm, Ideal.div_coe hpos.ne', ← EReal.coe_mul]
  exact isReal_coe _

/-- the block's inner features of real data are real. -/
theorem isReal_hid (o : Fin 50000 → Fin 128 → EReal) (W1 : Fin 128 → Fin 128 → EReal) (b1 : Fin 128 → EReal)
    (W2 : Fin 128 → Fin 128 → EReal) (b2 : Fin 128 → EReal)
    (ho : ∀ n c, IsReal (o n c)) (hW1 : ∀ k j, IsReal (W1 k j)) (hb1 : ∀ j, IsReal (b1 j))
    (hW2 : ∀ k j, IsReal (W2 k j)) (hb2 : ∀ j, IsReal (b2 j)) (n : Fin 50000) (c : Fin 128) :
    IsReal (hid o W1 b1 W2 b2 n c) :=
  isReal_dense _ _ _ (fun i j => isReal_softplus (isReal_dense o W1 b1 ho hW1 hb1 i j)) hW2 hb2 n c

/-- the gate of real features is real. -/
theorem isReal_gate (h : Fin 50000 → Fin 128 → EReal) (linW : Fin 128 → Fin 10 → EReal) (linb : Fin 10 → EReal)
    (hh : ∀ n c, IsReal (h n c)) (hW : ∀ k g, IsReal (linW k g)) (hb : ∀ g, IsReal (linb g))
    (n : Fin 50000) (g : Fin 10) : IsReal (gate h linW linb n g) :=
  isReal_softmax _ (fun i g' => isReal_dense h linW linb hh hW hb i g') n g

end Cert.Spec

end
-- ==== Proof.SpecVar.lean ====
import Idealize.ShloMosaic.PureOps.Ideal
import proofs.«100017_j47974784696399_2_alg».proof.Proof.LibExtRealLayer
import proofs.«100017_j47974784696399_2_alg».proof.Proof.Spec
import proofs.«100017_j47974784696399_2_alg».proof.Proof.SpecReal

/-!
  Mean and variance of a real column: the centred sum of squares over the count is the mean square minus the
  squared mean,  Σ (oₙ − S/N)² / N = (Σ oₙ²)/N − (S/N)²,  a sum of squares over a positive count and so
  non-negative.  Hence on real data the two statements of the variance, `var` (centred squares) and `varK`
  (`max (Q/N − μ², 0)`), are the same real number.
-/

noncomputable section

namespace Cert.Spec

open Idealize.ShloMosaic
open Cert.ExtRealLayer
open scoped BigOperators

/-- the mean of a real column of 50000 entries. -/
def mR (o : Fin 50000 → ℝ) : ℝ := (∑ n, o n) / 50000

/-- its variance, centred squares. -/
def vR (o : Fin 50000 → ℝ) : ℝ := (∑ n, (o n - mR o) * (o n - mR o)) / 50000

/-- the variance is the mean square minus the squared mean. -/
theorem vR_eq (o : Fin 50000 → ℝ) : vR o = (∑ n, o n * o n) / 50000 - mR o * mR o := by
  have hcard : (∑ _n : Fin 50000, (1 : ℝ)) = 50000 := by simp
  have hexp : ∀ m : ℝ, (∑ n, (o n - m) * (o n - m))
      = (∑ n, o n * o n) - 2 * m * (∑ n, o n) + 50000 * (m * m) := by
    intro m
    have h1 : ∀ n, (o n - m) * (o n - m) = o n * o n - (2 * m) * o n + (m * m) * 1 := fun n => by ring
    simp only [h1]
    rw [Finset.sum_add_distrib, Finset.sum_sub_distrib, ← Finset.mul_sum, ← Finset.mul_sum, hcard]
    ring
  rw [vR, hexp, mR]
  field_simp
  ring

theorem vR_nonneg (o : Fin 50000 → ℝ) : 0 ≤ vR o :=
  div_nonneg (Finset.sum_nonneg fun _ _ => mul_self_nonneg _) (by norm_num)

section Coe
variable (h : Fin 50000 → Fin 128 → EReal) (s : Fin 50000 → Fin 10 → EReal)
  (hr : Fin 50000 → Fin 128 → ℝ) (sr : Fin 50000 → Fin 10 → ℝ)

theorem O_coe (hh : ∀ n c, h n c = (hr n c : EReal)) (hs : ∀ n g, s n g = (sr n g : EReal))
    (n : Fin 50000) (g : Fin 10) (c : Fin 128) : O h s n g c = ((sr n g * hr n c : ℝ) : EReal) := by
  rw [O, hs, hh, EReal.coe_mul]

theorem mu_coe (hh : ∀ n c, h n c = (hr n c : EReal)) (hs : ∀ n g, s n g = (sr n g : EReal))
    (g : Fin 10) (c : Fin 128) : mu h s g c = ((mR fun n => sr n g * hr n c : ℝ) : EReal) := by
  have hS : (∑ n, O h s n g c) = ((∑ n, sr n g * hr n c : ℝ) : EReal) := by
    rw [coe_sum]
    exact Finset.sum_congr rfl fun n _ => O_coe h s hr sr hh hs n g c
  rw [mu, hS, div_cN_coe]
  rfl

theorem muK_eq_mu (g : Fin 10) (c : Fin 128) : muK h s g c = mu h s g c := rfl

theorem var_coe (hh : ∀ n c, h n c = (hr n c : EReal)) (hs : ∀ n g, s n g = (sr n g : EReal))
    (g : Fin 10) (c : Fin 128) : var h s g c = ((vR fun n => sr n g * hr n c : ℝ) : EReal) := by
  have hS : (∑ n, (O h s n g c - mu h s g c) * (O h s n g c - mu h s g c))
      = ((∑ n, (sr n g * hr n c - mR (fun n => sr n g * hr n c))
          * (sr n g * hr n c - mR (fun n => sr n g * hr n c)) : ℝ) : EReal) := by
    rw [coe_sum]
    refine Finset.sum_congr rfl fun n _ => ?_
    rw [O_coe h s hr sr hh hs, mu_coe h s hr sr hh hs, ← EReal.coe_sub, ← EReal.coe_mul]
  rw [var, hS, div_cN_coe]
  rfl

theorem preclamp_coe (hh : ∀ n c, h n c = (hr n c : EReal)) (hs : ∀ n g, s n g = (sr n g : EReal))
    (g : Fin 10) (c : Fin 128) :
    Ideal.div (Qsum h s g c) cN - muK h s g c * muK h s g c = ((vR fun n => sr n g * hr n c : ℝ) : EReal) := by
  have hQ : Qsum h s g c = ((∑ n, (sr n g * hr n c) * (sr n g * hr n c) : ℝ) : EReal) := by
    rw [Qsum, coe_sum]
    refine Finset.sum_congr rfl fun n _ => ?_
    rw [hs, hh, ← EReal.coe_mul, ← EReal.coe_mul, ← EReal.coe_mul]
    congr 1
    ring
  have hv : vR (fun n => sr n g * hr n c) = (∑ n, (sr n g * hr n c) * (sr n g * hr n c)) / 50000
      - mR (fun n => sr n g * hr n c) * mR (fun n => sr n g * hr n c) := vR_eq _
  rw [hQ, muK_eq_mu, mu_coe h s hr sr hh hs, div_cN_coe, ← EReal.coe_mul, ← EReal.coe_sub, ← hv]

theorem varK_coe (hh : ∀ n c, h n c = (hr n c : EReal)) (hs : ∀ n g, s n g = (sr n g : EReal))
    (g : Fin 10) (c : Fin 128) : varK h s g c = ((vR fun n => sr n g * hr n c : ℝ) : EReal) := by
  have hnn : (0 : ℝ) ≤ vR (fun n => sr n g * hr n c) := vR_nonneg _
  rw [varK, preclamp_coe h s hr sr hh hs, ← EReal.coe_zero, ← coe_max, max_eq_left hnn]

end Coe

/-- on real data the collapsed variance is the direct one. -/
theorem varK_eq_var (h : Fin 50000 → Fin 128 → EReal) (s : Fin 50000 → Fin 10 → EReal)
    (hh : ∀ n c, IsReal (h n c)) (hs : ∀ n g, IsReal (s n g)) (g : Fin 10) (c : Fin 128) :
    varK h s g c = var h s g c := by
  choose hr hhr using hh
  choose sr hsr using hs
  rw [varK_coe h s hr sr hhr hsr, var_coe h s hr sr hhr hsr]

/-- on real data the variance is a non-negative real. -/
theorem var_nonneg_real (h : Fin 50000 → Fin 128 → EReal) (s : Fin 50000 → Fin 10 → EReal)
    (hh : ∀ n c, IsReal (h n c)) (hs : ∀ n g, IsReal (s n g)) (g : Fin 10) (c : Fin 128) :
    ∃ v : ℝ, 0 ≤ v ∧ var h s g c = (v : EReal) := by
  choose hr hhr using hh
  choose sr hsr using hs
  exact ⟨_, vR_nonneg _, var_coe h s hr sr hhr hsr g c⟩

/-- on real data the mean is real. -/
theorem isReal_mu (h : Fin 50000 → Fin 128 → EReal) (s : Fin 50000 → Fin 10 → EReal)
    (hh : ∀ n c, IsReal (h n c)) (hs : ∀ n g, IsReal (s n g)) (g : Fin 10) (c : Fin 128) :
    IsReal (mu h s g c) := by
  choose hr hhr using hh
  choose sr hsr using hs
  exact ⟨_, mu_coe h s hr sr hhr hsr g c⟩

/-- on real data the variance is the mean square minus the squared mean (the collapsed form before the clamp). -/
theorem var_eq_Q (h : Fin 50000 → Fin 128 → EReal) (s : Fin 50000 → Fin 10 → EReal)
    (hh : ∀ n c, IsReal (h n c)) (hs : ∀ n g, IsReal (s n g)) (g : Fin 10) (c : Fin 128) :
    var h s g c = Ideal.div (Qsum h s g c) cN - muK h s g c * muK h s g c := by
  choose hr hhr using hh
  choose sr hsr using hs
  rw [var_coe h s hr sr hhr hsr, preclamp_coe h s hr sr hhr hsr]

/-- on real data the reciprocal standard deviation is real, in both statements. -/
theorem isReal_rsqrt_var (h : Fin 50000 → Fin 128 → EReal) (s : Fin 50000 → Fin 10 → EReal)
    (hh : ∀ n c, IsReal (h n c)) (hs : ∀ n g, IsReal (s n g)) (g : Fin 10) (c : Fin 128) :
    IsReal (Ideal.rsqrt (var h s g c + cEps)) := by
  obtain ⟨v, hv0, hv⟩ := var_nonneg_real h s hh hs g c
  obtain ⟨e, he0, he⟩ := cEps_pos
  rw [hv, he, ← EReal.coe_add, rsqrt_coe_pos (by linarith)]
  exact isReal_coe _

theorem inv_eq (h : Fin 50000 → Fin 128 → EReal) (s : Fin 50000 → Fin 10 → EReal)
    (hh : ∀ n c, IsReal (h n c)) (hs : ∀ n g, IsReal (s n g)) (g : Fin 10) (c : Fin 128) :
    inv h s g c = Ideal.rsqrt (var h s g c + cEps) := by
  rw [inv, varK_eq_var h s hh hs]

theorem isReal_inv (h : Fin 50000 → Fin 128 → EReal) (s : Fin 50000 → Fin 10 → EReal)
    (hh : ∀ n c, IsReal (h n c)) (hs : ∀ n g, IsReal (s n g)) (g : Fin 10) (c : Fin 128) :
    IsReal (inv h s g c) := by
  rw [inv_eq h s hh hs]
  exact isReal_rsqrt_var h s hh hs g c

end Cert.Spec

end
-- ==== Proof.SpecDgn.lean ====
import Idealize.ShloMosaic.PureOps.Ideal
import proofs.«100017_j47974784696399_2_alg».proof.Proof.LibExtRealLayer
import proofs.«100017_j47974784696399_2_alg».proof.Proof.Spec
import proofs.«100017_j47974784696399_2_alg».proof.Proof.SpecReal
import proofs.«100017_j47974784696399_2_alg».proof.Proof.SpecVar

/-!
  The normalization, direct and collapsed.

  With every entry real, the sum over the groups of the normalized copies,
  Σ g, ((s g · h − μ g) · i g · γ g + β g), is  h · Σ g, s g · (i g · γ g) − (Σ g, μ g · i g · γ g − Σ g, β g):
  distributivity in the real numbers.  The reciprocal standard deviation `i` is the same in both statements
  because the two variances are the same real number.
-/

noncomputable section

namespace Cert.Spec

open Idealize.ShloMosaic
open Cert.ExtRealLayer
open scoped BigOperators

/-- distributing the gated, normalized copies over the groups, for real entries. -/
theorem collapse_real {ι : Type} [Fintype ι] (h l : EReal) (s m i γ β : ι → EReal)
    (Hh : IsReal h) (Hl : IsReal l) (Hs : ∀ g, IsReal (s g)) (Hm : ∀ g, IsReal (m g)) (Hi : ∀ g, IsReal (i g))
    (Hγ : ∀ g, IsReal (γ g)) (Hβ : ∀ g, IsReal (β g)) :
    h + l * (h * (∑ g, s g * (i g * γ g)) - ((∑ g, m g * i g * γ g) - ∑ g, β g))
      = h + l * ∑ g, ((s g * h - m g) * i g * γ g + β g) := by
  obtain ⟨h', rfl⟩ := Hh
  obtain ⟨l', rfl⟩ := Hl
  choose sr hs using Hs
  choose mr hm using Hm
  choose ir hi using Hi
  choose γr hγ using Hγ
  choose βr hβ using Hβ
  have e1 : (∑ g, s g * (i g * γ g)) = ((∑ g, sr g * (ir g * γr g) : ℝ) : EReal) := by
    rw [coe_sum]
    refine Finset.sum_congr rfl fun g _ => ?_
    rw [hs, hi, hγ, EReal.coe_mul, EReal.coe_mul]
  have e2 : (∑ g, m g * i g * γ g) = ((∑ g, mr g * ir g * γr g : ℝ) : EReal) := by
    rw [coe_sum]
    refine Finset.sum_congr rfl fun g _ => ?_
    rw [hm, hi, hγ, EReal.coe_mul, EReal.coe_mul]
  have e3 : (∑ g, β g) = ((∑ g, βr g : ℝ) : EReal) := by
    rw [coe_sum]
    exact Finset.sum_congr rfl fun g _ => hβ g
  have e4 : (∑ g, ((s g * (h' : EReal) - m g) * i g * γ g + β g))
      = ((∑ g, ((sr g * h' - mr g) * ir g * γr g + βr g) : ℝ) : EReal) := by
    rw [coe_sum]
    refine Finset.sum_congr rfl fun g _ => ?_
    rw [hs, hm, hi, hγ, hβ, EReal.coe_add, EReal.coe_mul, EReal.coe_mul, EReal.coe_sub, EReal.coe_mul]
  have hD : (∑ g, ((sr g * h' - mr g) * ir g * γr g + βr g))
      = h' * (∑ g, sr g * (ir g * γr g)) - ((∑ g, mr g * ir g * γr g) - ∑ g, βr g) := by
    rw [Finset.mul_sum, ← Finset.sum_sub_distrib, ← Finset.sum_sub_distrib]
    exact Finset.sum_congr rfl fun g _ => by ring
  rw [e1, e2, e3, e4, hD]
  simp only [← EReal.coe_sub, ← EReal.coe_mul, ← EReal.coe_add]

section
variable (h : Fin 50000 → Fin 128 → EReal) (s : Fin 50000 → Fin 10 → EReal) (gamma beta : Fin 10 → Fin 128 → EReal)

/-- the two arrangements of the normalization agree on real data. -/
theorem dgnK_eq (hh : ∀ n c, IsReal (h n c)) (hs : ∀ n g, IsReal (s n g)) (hg : ∀ g c, IsReal (gamma g c))
    (hb : ∀ g c, IsReal (beta g c)) (n : Fin 50000) (c : Fin 128) :
    dgnK h s gamma beta n c = dgn h s gamma beta n c := by
  have hI : ∀ g, Ideal.rsqrt (var h s g c + cEps) = inv h s g c := fun g => (inv_eq h s hh hs g c).symm
  unfold dgnK dgn normed cc A O
  simp only [hI, muK_eq_mu]
  exact collapse_real (h n c) cLam (fun g => s n g) (fun g => mu h s g c) (fun g => inv h s g c)
    (fun g => gamma g c) (fun g => beta g c) (hh n c) isReal_cLam (fun g => hs n g)
    (fun g => isReal_mu h s hh hs g c) (fun g => isReal_inv h s hh hs g c) (fun g => hg g c) (fun g => hb g c)

/-- the normalization of real data is real. -/
theorem isReal_dgn (hh : ∀ n c, IsReal (h n c)) (hs : ∀ n g, IsReal (s n g)) (hg : ∀ g c, IsReal (gamma g c))
    (hb : ∀ g c, IsReal (beta g c)) (n : Fin 50000) (c : Fin 128) : IsReal (dgn h s gamma beta n c) := by
  unfold dgn normed
  refine (hh n c).add (isReal_cLam.mul (IsReal.fsum _ fun g => ?_))
  have hO : IsReal (O h s n g c) := (hs n g).mul (hh n c)
  exact (((isReal_sub hO (isReal_mu h s hh hs g c)).mul (isReal_rsqrt_var h s hh hs g c)).mul (hg g c)).add (hb g c)

theorem isReal_dgnK (hh : ∀ n c, IsReal (h n c)) (hs : ∀ n g, IsReal (s n g)) (hg : ∀ g c, IsReal (gamma g c))
    (hb : ∀ g c, IsReal (beta g c)) (n : Fin 50000) (c : Fin 128) : IsReal (dgnK h s gamma beta n c) := by
  rw [dgnK_eq h s gamma beta hh hs hg hb]
  exact isReal_dgn h s gamma beta hh hs hg hb n c

end

end Cert.Spec

end
-- ==== Proof.SpecBlock.lean ====
import Idealize.ShloMosaic.PureOps.Ideal
import proofs.«100017_j47974784696399_2_alg».proof.Proof.LibExtRealLayer
import proofs.«100017_j47974784696399_2_alg».proof.Proof.Spec
import proofs.«100017_j47974784696399_2_alg».proof.Proof.SpecReal
import proofs.«100017_j47974784696399_2_alg».proof.Proof.SpecGate
import proofs.«100017_j47974784696399_2_alg».proof.Proof.SpecLayer0
import proofs.«100017_j47974784696399_2_alg».proof.Proof.SpecVar
import proofs.«100017_j47974784696399_2_alg».proof.Proof.SpecDgn

/-!
  A residual block in its two arrangements, and the whole network: first layer, two blocks, plus the first layer.

  On real data each block's collapsed arrangement equals the direct one and its output is real again, so the
  equality chains through both blocks; the first layer's two arrangements agree unconditionally.
-/

noncomputable section

namespace Cert.Spec

open Idealize.ShloMosaic
open Cert.ExtRealLayer
open scoped BigOperators

/-- the two arrangements of a residual block agree on real data. -/
theorem blockK_eq (o : Fin 50000 → Fin 128 → EReal) (W1 : Fin 128 → Fin 128 → EReal) (b1 : Fin 128 → EReal)
    (W2 : Fin 128 → Fin 128 → EReal) (b2 : Fin 128 → EReal) (linW : Fin 128 → Fin 10 → EReal) (linb : Fin 10 → EReal)
    (gamma beta : Fin 10 → Fin 128 → EReal)
    (ho : ∀ n c, IsReal (o n c)) (hW1 : ∀ k j, IsReal (W1 k j)) (hb1 : ∀ j, IsReal (b1 j))
    (hW2 : ∀ k j, IsReal (W2 k j)) (hb2 : ∀ j, IsReal (b2 j)) (hlinW : ∀ k g, IsReal (linW k g))
    (hlinb : ∀ g, IsReal (linb g)) (hg : ∀ g c, IsReal (gamma g c)) (hb : ∀ g c, IsReal (beta g c))
    (n : Fin 50000) (c : Fin 128) :
    blockK o W1 b1 W2 b2 linW linb gamma beta n c = block o W1 b1 W2 b2 linW linb gamma beta n c := by
  have hh := isReal_hid o W1 b1 W2 b2 ho hW1 hb1 hW2 hb2
  have hs := isReal_gate (hid o W1 b1 W2 b2) linW linb hh hlinW hlinb
  unfold blockK block
  rw [dgnK_eq _ _ gamma beta hh hs hg hb]

/-- a residual block of real data is real. -/
theorem isReal_block (o : Fin 50000 → Fin 128 → EReal) (W1 : Fin 128 → Fin 128 → EReal) (b1 : Fin 128 → EReal)
    (W2 : Fin 128 → Fin 128 → EReal) (b2 : Fin 128 → EReal) (linW : Fin 128 → Fin 10 → EReal) (linb : Fin 10 → EReal)
    (gamma beta : Fin 10 → Fin 128 → EReal)
    (ho : ∀ n c, IsReal (o n c)) (hW1 : ∀ k j, IsReal (W1 k j)) (hb1 : ∀ j, IsReal (b1 j))
    (hW2 : ∀ k j, IsReal (W2 k j)) (hb2 : ∀ j, IsReal (b2 j)) (hlinW : ∀ k g, IsReal (linW k g))
    (hlinb : ∀ g, IsReal (linb g)) (hg : ∀ g c, IsReal (gamma g c)) (hb : ∀ g c, IsReal (beta g c))
    (n : Fin 50000) (c : Fin 128) :
    IsReal (block o W1 b1 W2 b2 linW linb gamma beta n c) := by
  have hh := isReal_hid o W1 b1 W2 b2 ho hW1 hb1 hW2 hb2
  have hs := isReal_gate (hid o W1 b1 W2 b2) linW linb hh hlinW hlinb
  exact (ho n c).add (isReal_dgn _ _ gamma beta hh hs hg hb n c)

/-- the collapsed block as a function equals the direct one on real data. -/
theorem blockK_eq_fun (o : Fin 50000 → Fin 128 → EReal) (W1 : Fin 128 → Fin 128 → EReal) (b1 : Fin 128 → EReal)
    (W2 : Fin 128 → Fin 128 → EReal) (b2 : Fin 128 → EReal) (linW : Fin 128 → Fin 10 → EReal) (linb : Fin 10 → EReal)
    (gamma beta : Fin 10 → Fin 128 → EReal)
    (ho : ∀ n c, IsReal (o n c)) (hW1 : ∀ k j, IsReal (W1 k j)) (hb1 : ∀ j, IsReal (b1 j))
    (hW2 : ∀ k j, IsReal (W2 k j)) (hb2 : ∀ j, IsReal (b2 j)) (hlinW : ∀ k g, IsReal (linW k g))
    (hlinb : ∀ g, IsReal (linb g)) (hg : ∀ g c, IsReal (gamma g c)) (hb : ∀ g c, IsReal (beta g c)) :
    blockK o W1 b1 W2 b2 linW linb gamma beta = block o W1 b1 W2 b2 linW linb gamma beta :=
  funext fun n => funext fun c =>
    blockK_eq o W1 b1 W2 b2 linW linb gamma beta ho hW1 hb1 hW2 hb2 hlinW hlinb hg hb n c

/-- the whole network: the collapsed arrangement equals the direct one on real data. -/
theorem final_eq (x msg : Fin 50000 → Fin 128 → EReal) (gf : Fin 64 → EReal) (Wc : Fin 320 → Fin 128 → EReal)
    (bc : Fin 128 → EReal)
    (W1a : Fin 128 → Fin 128 → EReal) (b1a : Fin 128 → EReal) (W2a : Fin 128 → Fin 128 → EReal) (b2a : Fin 128 → EReal)
    (linWa : Fin 128 → Fin 10 → EReal) (linba : Fin 10 → EReal) (gammaa betaa : Fin 10 → Fin 128 → EReal)
    (W1b : Fin 128 → Fin 128 → EReal) (b1b : Fin 128 → EReal) (W2b : Fin 128 → Fin 128 → EReal) (b2b : Fin 128 → EReal)
    (linWb : Fin 128 → Fin 10 → EReal) (linbb : Fin 10 → EReal) (gammab betab : Fin 10 → Fin 128 → EReal)
    (hx : ∀ n c, IsReal (x n c)) (hmsg : ∀ n c, IsReal (msg n c)) (hgf : ∀ k, IsReal (gf k))
    (hWc : ∀ k j, IsReal (Wc k j)) (hbc : ∀ j, IsReal (bc j))
    (hW1a : ∀ k j, IsReal (W1a k j)) (hb1a : ∀ j, IsReal (b1a j)) (hW2a : ∀ k j, IsReal (W2a k j))
    (hb2a : ∀ j, IsReal (b2a j)) (hlinWa : ∀ k g, IsReal (linWa k g)) (hlinba : ∀ g, IsReal (linba g))
    (hga : ∀ g c, IsReal (gammaa g c)) (hba : ∀ g c, IsReal (betaa g c))
    (hW1b : ∀ k j, IsReal (W1b k j)) (hb1b : ∀ j, IsReal (b1b j)) (hW2b : ∀ k j, IsReal (W2b k j))
    (hb2b : ∀ j, IsReal (b2b j)) (hlinWb : ∀ k g, IsReal (linWb k g)) (hlinbb : ∀ g, IsReal (linbb g))
    (hgb : ∀ g c, IsReal (gammab g c)) (hbb : ∀ g c, IsReal (betab g c))
    (n : Fin 50000) (c : Fin 128) :
    blockK (blockK (out0K x msg gf Wc bc) W1a b1a W2a b2a linWa linba gammaa betaa)
        W1b b1b W2b b2b linWb linbb gammab betab n c + out0K x msg gf Wc bc n c
      = block (block (out0 x msg gf Wc bc) W1a b1a W2a b2a linWa linba gammaa betaa)
        W1b b1b W2b b2b linWb linbb gammab betab n c + out0 x msg gf Wc bc n c := by
  have h0 := isReal_out0 x msg gf Wc bc hx hmsg hgf hWc hbc
  have ha := isReal_block (out0 x msg gf Wc bc) W1a b1a W2a b2a linWa linba gammaa betaa
    h0 hW1a hb1a hW2a hb2a hlinWa hlinba hga hba
  rw [out0K_eq,
    blockK_eq_fun (out0 x msg gf Wc bc) W1a b1a W2a b2a linWa linba gammaa betaa
      h0 hW1a hb1a hW2a hb2a hlinWa hlinba hga hba,
    blockK_eq_fun _ W1b b1b W2b b2b linWb linbb gammab betab ha hW1b hb1b hW2b hb2b hlinWb hlinbb hgb hbb]

end Cert.Spec

end
-- ==== Proof.Finite.lean ====
import Idealize.ShloMosaic.Lib.ReduceAll
import Idealize.ShloMosaic.Lib.ValueIdx
import Idealize.ShloMosaic.Lib.Affine
import proofs.«100017_j47974784696399_2_alg».proof.Proof.LibExtRealLayer
import proofs.«100017_j47974784696399_2_alg».proof.Proof.Gen.Pre_finite_inputs
import proofs.«100017_j47974784696399_2_alg».proof.Defs

/-!
  From the precondition to real entries.

  The precondition says, of each float argument array, that every entry's absolute value is below +∞ (a conjunction
  over the arrays of a conjunction over each array's entries).  An extended real whose absolute value max x (−x) is
  below +∞ is neither infinity: for x = −∞ the absolute value is +∞ itself.  So every entry of every float argument
  is a real number.
-/

noncomputable section

namespace Cert.Finite

open Idealize.ShloMosaic Idealize.ShloMosaic.ValueIdx Idealize.SL.Sem
open Cert.ExtRealLayer

/-- the word of +∞ denotes the greatest extended real. -/
theorem ofBits_inf : Ideal.ofBits .f32 0x7F800000#32 = (⊤ : EReal) := by simp [Ideal.ofBits, Ideal.ieee]

/-- an extended real whose absolute value is below +∞ is a real number. -/
theorem real_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

instance : Subsingleton (Cert.Pre_finite_inputs.S_).Idx := ⟨fun a b => funext fun d => d.elim0⟩

/-- one array: if the conjunction over its entries of |x| < +∞ holds then every entry is real. -/
theorem all_real {s : Shape} {axes : List (Fin s.rank)} (x : FVec Ideal s .f32)
    (hb : (Cert.Pre_finite_inputs.S_).BroadcastsInDim s (![] : Fin 0 → Fin s.rank))
    (hr : s.ReducesTo axes Cert.Pre_finite_inputs.S_) (hu : 0 < (Cert.Pre_finite_inputs.S_).numel)
    (init : IVec Cert.Pre_finite_inputs.S_ 1) (j : (Cert.Pre_finite_inputs.S_).Idx)
    (e : Host.reduce IntOp.andi (cmpf .olt (Host.absf x) (broadcastInDim s ![] hb
      (constant (F := Ideal) Cert.Pre_finite_inputs.S_ .f32 0x7F800000#32))) init hr hu j = 1#1)
    (i : s.Idx) : IsReal (x i) := by
  have h1 := Host.reduce_andi_all _ init hr hu j e i
  change Ideal.cmp .olt (max (x i) (-(x i))) (Ideal.ofBits .f32 0x7F800000#32) = 1#1 at h1
  rw [ofBits_inf] at h1
  exact real_of_abs_lt_top (x i) h1

/-- a conjunction of two one-bit words at an index. -/
theorem andi_split {s : Shape} (a b : IVec s 1) (i : s.Idx) (h : andi a b i = 1#1) : a i = 1#1 ∧ b i = 1#1 :=
  IntOp.andi_eq_one.mp h

/-- the precondition's function of the argument arrays is all ones only if every float array has real entries. -/
theorem fn_real (a0 : FVec Ideal Cert.Pre_finite_inputs.S50000x128 .f32) (a1 : IVec Cert.Pre_finite_inputs.S2x800000 32) (a2 : FVec Ideal Cert.Pre_finite_inputs.S800000x128 .f32) (a3 : FVec Ideal Cert.Pre_finite_inputs.S1x64 .f32) (a4 : FVec Ideal Cert.Pre_finite_inputs.S320x128 .f32) (a5 : FVec Ideal Cert.Pre_finite_inputs.S128 .f32) (a6 : FVec Ideal Cert.Pre_finite_inputs.S128x128 .f32) (a7 : FVec Ideal Cert.Pre_finite_inputs.S128 .f32) (a8 : FVec Ideal Cert.Pre_finite_inputs.S128x128 .f32) (a9 : FVec Ideal Cert.Pre_finite_inputs.S128 .f32) (a10 : FVec Ideal Cert.Pre_finite_inputs.S128x10 .f32) (a11 : FVec Ideal Cert.Pre_finite_inputs.S10 .f32) (a12 : FVec Ideal Cert.Pre_finite_inputs.S1280 .f32) (a13 : FVec Ideal Cert.Pre_finite_inputs.S1280 .f32) (a14 : FVec Ideal Cert.Pre_finite_inputs.S128x128 .f32) (a15 : FVec Ideal Cert.Pre_finite_inputs.S128 .f32) (a16 : FVec Ideal Cert.Pre_finite_inputs.S128x128 .f32) (a17 : FVec Ideal Cert.Pre_finite_inputs.S128 .f32) (a18 : FVec Ideal Cert.Pre_finite_inputs.S128x10 .f32) (a19 : FVec Ideal Cert.Pre_finite_inputs.S10 .f32) (a20 : FVec Ideal Cert.Pre_finite_inputs.S1280 .f32) (a21 : FVec Ideal Cert.Pre_finite_inputs.S1280 .f32)
    (h : Cert.Pre_finite_inputs.fn (F := Ideal) a0 a1 a2 a3 a4 a5 a6 a7 a8 a9 a10 a11 a12 a13 a14 a15 a16 a17 a18 a19 a20 a21 = fun _ => 1#1) :
    (∀ i, IsReal (a0 i)) ∧
      (∀ i, IsReal (a2 i)) ∧
      (∀ i, IsReal (a3 i)) ∧
      (∀ i, IsReal (a4 i)) ∧
      (∀ i, IsReal (a5 i)) ∧
      (∀ i, IsReal (a6 i)) ∧
      (∀ i, IsReal (a7 i)) ∧
      (∀ i, IsReal (a8 i)) ∧
      (∀ i, IsReal (a9 i)) ∧
      (∀ i, IsReal (a10 i)) ∧
      (∀ i, IsReal (a11 i)) ∧
      (∀ i, IsReal (a12 i)) ∧
      (∀ i, IsReal (a13 i)) ∧
      (∀ i, IsReal (a14 i)) ∧
      (∀ i, IsReal (a15 i)) ∧
      (∀ i, IsReal (a16 i)) ∧
      (∀ i, IsReal (a17 i)) ∧
      (∀ i, IsReal (a18 i)) ∧
      (∀ i, IsReal (a19 i)) ∧
      (∀ i, IsReal (a20 i)) ∧
      (∀ i, IsReal (a21 i)) := by
  have h0 := congrFun h ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5,
    Cert.Pre_finite_inputs.fn_part6] at h0
  obtain ⟨h0, e21⟩ := andi_split _ _ _ h0
  obtain ⟨h0, e20⟩ := andi_split _ _ _ h0
  obtain ⟨h0, e19⟩ := andi_split _ _ _ h0
  obtain ⟨h0, e18⟩ := andi_split _ _ _ h0
  obtain ⟨h0, e17⟩ := andi_split _ _ _ h0
  obtain ⟨h0, e16⟩ := andi_split _ _ _ h0
  obtain ⟨h0, e15⟩ := andi_split _ _ _ h0
  obtain ⟨h0, e14⟩ := andi_split _ _ _ h0
  obtain ⟨h0, e13⟩ := andi_split _ _ _ h0
  obtain ⟨h0, e12⟩ := andi_split _ _ _ h0
  obtain ⟨h0, e11⟩ := andi_split _ _ _ h0
  obtain ⟨h0, e10⟩ := andi_split _ _ _ h0
  obtain ⟨h0, e9⟩ := andi_split _ _ _ h0
  obtain ⟨h0, e8⟩ := andi_split _ _ _ h0
  obtain ⟨h0, e7⟩ := andi_split _ _ _ h0
  obtain ⟨h0, e6⟩ := andi_split _ _ _ h0
  obtain ⟨h0, e5⟩ := andi_split _ _ _ h0
  obtain ⟨h0, e4⟩ := andi_split _ _ _ h0
  obtain ⟨h0, e3⟩ := andi_split _ _ _ h0
  obtain ⟨e0, e2⟩ := andi_split _ _ _ h0
  exact ⟨fun i => all_real a0 _ _ _ _ ix0 e0 i,
    fun i => all_real a2 _ _ _ _ ix0 e2 i,
    fun i => all_real a3 _ _ _ _ ix0 e3 i,
    fun i => all_real a4 _ _ _ _ ix0 e4 i,
    fun i => all_real a5 _ _ _ _ ix0 e5 i,
    fun i => all_real a6 _ _ _ _ ix0 e6 i,
    fun i => all_real a7 _ _ _ _ ix0 e7 i,
    fun i => all_real a8 _ _ _ _ ix0 e8 i,
    fun i => all_real a9 _ _ _ _ ix0 e9 i,
    fun i => all_real a10 _ _ _ _ ix0 e10 i,
    fun i => all_real a11 _ _ _ _ ix0 e11 i,
    fun i => all_real a12 _ _ _ _ ix0 e12 i,
    fun i => all_real a13 _ _ _ _ ix0 e13 i,
    fun i => all_real a14 _ _ _ _ ix0 e14 i,
    fun i => all_real a15 _ _ _ _ ix0 e15 i,
    fun i => all_real a16 _ _ _ _ ix0 e16 i,
    fun i => all_real a17 _ _ _ _ ix0 e17 i,
    fun i => all_real a18 _ _ _ _ ix0 e18 i,
    fun i => all_real a19 _ _ _ _ ix0 e19 i,
    fun i => all_real a20 _ _ _ _ ix0 e20 i,
    fun i => all_real a21 _ _ _ _ ix0 e21 i⟩

/-- the same, of the kernel side's argument buffers on a device. -/
theorem fn_real_mem (m : (ℓ : Loc Cert.KernelIdeal.nD Cert.KernelIdeal.τ Cert.KernelIdeal.sig) → Buf (Elt Ideal) ℓ) (h : Cert.Pre_KernelIdeal m) (c : Dev Cert.KernelIdeal.nD) :
    (∀ i, IsReal (((m ((c.tc : Thread Cert.KernelIdeal.nD Cert.KernelIdeal.τ).loc Cert.KernelIdeal.main_arg0)) : FVec Ideal Cert.Pre_finite_inputs.S50000x128 .f32) i)) ∧
      (∀ i, IsReal (((m ((c.tc : Thread Cert.KernelIdeal.nD Cert.KernelIdeal.τ).loc Cert.KernelIdeal.main_arg2)) : FVec Ideal Cert.Pre_finite_inputs.S800000x128 .f32) i)) ∧
      (∀ i, IsReal (((m ((c.tc : Thread Cert.KernelIdeal.nD Cert.KernelIdeal.τ).loc Cert.KernelIdeal.main_arg3)) : FVec Ideal Cert.Pre_finite_inputs.S1x64 .f32) i)) ∧
      (∀ i, IsReal (((m ((c.tc : Thread Cert.KernelIdeal.nD Cert.KernelIdeal.τ).loc Cert.KernelIdeal.main_arg4)) : FVec Ideal Cert.Pre_finite_inputs.S320x128 .f32) i)) ∧
      (∀ i, IsReal (((m ((c.tc : Thread Cert.KernelIdeal.nD Cert.KernelIdeal.τ).loc Cert.KernelIdeal.main_arg5)) : FVec Ideal Cert.Pre_finite_inputs.S128 .f32) i)) ∧
      (∀ i, IsReal (((m ((c.tc : Thread Cert.KernelIdeal.nD Cert.KernelIdeal.τ).loc Cert.KernelIdeal.main_arg6)) : FVec Ideal Cert.Pre_finite_inputs.S128x128 .f32) i)) ∧
      (∀ i, IsReal (((m ((c.tc : Thread Cert.KernelIdeal.nD Cert.KernelIdeal.τ).loc Cert.KernelIdeal.main_arg7)) : FVec Ideal Cert.Pre_finite_inputs.S128 .f32) i)) ∧
      (∀ i, IsReal (((m ((c.tc : Thread Cert.KernelIdeal.nD Cert.KernelIdeal.τ).loc Cert.KernelIdeal.main_arg8)) : FVec Ideal Cert.Pre_finite_inputs.S128x128 .f32) i)) ∧
      (∀ i, IsReal (((m ((c.tc : Thread Cert.KernelIdeal.nD Cert.KernelIdeal.τ).loc Cert.KernelIdeal.main_arg9)) : FVec Ideal Cert.Pre_finite_inputs.S128 .f32) i)) ∧
      (∀ i, IsReal (((m ((c.tc : Thread Cert.KernelIdeal.nD Cert.KernelIdeal.τ).loc Cert.KernelIdeal.main_arg10)) : FVec Ideal Cert.Pre_finite_inputs.S128x10 .f32) i)) ∧
      (∀ i, IsReal (((m ((c.tc : Thread Cert.KernelIdeal.nD Cert.KernelIdeal.τ).loc Cert.KernelIdeal.main_arg11)) : FVec Ideal Cert.Pre_finite_inputs.S10 .f32) i)) ∧
      (∀ i, IsReal (((m ((c.tc : Thread Cert.KernelIdeal.nD Cert.KernelIdeal.τ).loc Cert.KernelIdeal.main_arg12)) : FVec Ideal Cert.Pre_finite_inputs.S1280 .f32) i)) ∧
      (∀ i, IsReal (((m ((c.tc : Thread Cert.KernelIdeal.nD Cert.KernelIdeal.τ).loc Cert.KernelIdeal.main_arg13)) : FVec Ideal Cert.Pre_finite_inputs.S1280 .f32) i)) ∧
      (∀ i, IsReal (((m ((c.tc : Thread Cert.KernelIdeal.nD Cert.KernelIdeal.τ).loc Cert.KernelIdeal.main_arg14)) : FVec Ideal Cert.Pre_finite_inputs.S128x128 .f32) i)) ∧
      (∀ i, IsReal (((m ((c.tc : Thread Cert.KernelIdeal.nD Cert.KernelIdeal.τ).loc Cert.KernelIdeal.main_arg15)) : FVec Ideal Cert.Pre_finite_inputs.S128 .f32) i)) ∧
      (∀ i, IsReal (((m ((c.tc : Thread Cert.KernelIdeal.nD Cert.KernelIdeal.τ).loc Cert.KernelIdeal.main_arg16)) : FVec Ideal Cert.Pre_finite_inputs.S128x128 .f32) i)) ∧
      (∀ i, IsReal (((m ((c.tc : Thread Cert.KernelIdeal.nD Cert.KernelIdeal.τ).loc Cert.KernelIdeal.main_arg17)) : FVec Ideal Cert.Pre_finite_inputs.S128 .f32) i)) ∧
      (∀ i, IsReal (((m ((c.tc : Thread Cert.KernelIdeal.nD Cert.KernelIdeal.τ).loc Cert.KernelIdeal.main_arg18)) : FVec Ideal Cert.Pre_finite_inputs.S128x10 .f32) i)) ∧
      (∀ i, IsReal (((m ((c.tc : Thread Cert.KernelIdeal.nD Cert.KernelIdeal.τ).loc Cert.KernelIdeal.main_arg19)) : FVec Ideal Cert.Pre_finite_inputs.S10 .f32) i)) ∧
      (∀ i, IsReal (((m ((c.tc : Thread Cert.KernelIdeal.nD Cert.KernelIdeal.τ).loc Cert.KernelIdeal.main_arg20)) : FVec Ideal Cert.Pre_finite_inputs.S1280 .f32) i)) ∧
      (∀ i, IsReal (((m ((c.tc : Thread Cert.KernelIdeal.nD Cert.KernelIdeal.τ).loc Cert.KernelIdeal.main_arg21)) : FVec Ideal Cert.Pre_finite_inputs.S1280 .f32) i)) :=
  fn_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (h c)

theorem real_arg0 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S50000x128).Idx) :
    IsReal (((m ((c.tc : Thread Cert.KernelIdeal.nD Cert.KernelIdeal.τ).loc Cert.KernelIdeal.main_arg0)) : FVec Ideal Cert.Pre_finite_inputs.S50000x128 .f32) i) :=
  (fn_real_mem m h c).1 i

theorem real_arg2 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S800000x128).Idx) :
    IsReal (((m ((c.tc : Thread Cert.KernelIdeal.nD Cert.KernelIdeal.τ).loc Cert.KernelIdeal.main_arg2)) : FVec Ideal Cert.Pre_finite_inputs.S800000x128 .f32) i) :=
  (fn_real_mem m h c).2.1 i

theorem real_arg3 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S1x64).Idx) :
    IsReal (((m ((c.tc : Thread Cert.KernelIdeal.nD Cert.KernelIdeal.τ).loc Cert.KernelIdeal.main_arg3)) : FVec Ideal Cert.Pre_finite_inputs.S1x64 .f32) i) :=
  (fn_real_mem m h c).2.2.1 i

theorem real_arg4 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S320x128).Idx) :
    IsReal (((m ((c.tc : Thread Cert.KernelIdeal.nD Cert.KernelIdeal.τ).loc Cert.KernelIdeal.main_arg4)) : FVec Ideal Cert.Pre_finite_inputs.S320x128 .f32) i) :=
  (fn_real_mem m h c).2.2.2.1 i

theorem real_arg5 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S128).Idx) :
    IsReal (((m ((c.tc : Thread Cert.KernelIdeal.nD Cert.KernelIdeal.τ).loc Cert.KernelIdeal.main_arg5)) : FVec Ideal Cert.Pre_finite_inputs.S128 .f32) i) :=
  (fn_real_mem m h c).2.2.2.2.1 i

theorem real_arg6 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S128x128).Idx) :
    IsReal (((m ((c.tc : Thread Cert.KernelIdeal.nD Cert.KernelIdeal.τ).loc Cert.KernelIdeal.main_arg6)) : FVec Ideal Cert.Pre_finite_inputs.S128x128 .f32) i) :=
  (fn_real_mem m h c).2.2.2.2.2.1 i

theorem real_arg7 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S128).Idx) :
    IsReal (((m ((c.tc : Thread Cert.KernelIdeal.nD Cert.KernelIdeal.τ).loc Cert.KernelIdeal.main_arg7)) : FVec Ideal Cert.Pre_finite_inputs.S128 .f32) i) :=
  (fn_real_mem m h c).2.2.2.2.2.2.1 i

theorem real_arg8 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S128x128).Idx) :
    IsReal (((m ((c.tc : Thread Cert.KernelIdeal.nD Cert.KernelIdeal.τ).loc Cert.KernelIdeal.main_arg8)) : FVec Ideal Cert.Pre_finite_inputs.S128x128 .f32) i) :=
  (fn_real_mem m h c).2.2.2.2.2.2.2.1 i

theorem real_arg9 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S128).Idx) :
    IsReal (((m ((c.tc : Thread Cert.KernelIdeal.nD Cert.KernelIdeal.τ).loc Cert.KernelIdeal.main_arg9)) : FVec Ideal Cert.Pre_finite_inputs.S128 .f32) i) :=
  (fn_real_mem m h c).2.2.2.2.2.2.2.2.1 i

theorem real_arg10 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S128x10).Idx) :
    IsReal (((m ((c.tc : Thread Cert.KernelIdeal.nD Cert.KernelIdeal.τ).loc Cert.KernelIdeal.main_arg10)) : FVec Ideal Cert.Pre_finite_inputs.S128x10 .f32) i) :=
  (fn_real_mem m h c).2.2.2.2.2.2.2.2.2.1 i

theorem real_arg11 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S10).Idx) :
    IsReal (((m ((c.tc : Thread Cert.KernelIdeal.nD Cert.KernelIdeal.τ).loc Cert.KernelIdeal.main_arg11)) : FVec Ideal Cert.Pre_finite_inputs.S10 .f32) i) :=
  (fn_real_mem m h c).2.2.2.2.2.2.2.2.2.2.1 i

theorem real_arg12 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S1280).Idx) :
    IsReal (((m ((c.tc : Thread Cert.KernelIdeal.nD Cert.KernelIdeal.τ).loc Cert.KernelIdeal.main_arg12)) : FVec Ideal Cert.Pre_finite_inputs.S1280 .f32) i) :=
  (fn_real_mem m h c).2.2.2.2.2.2.2.2.2.2.2.1 i

theorem real_arg13 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S1280).Idx) :
    IsReal (((m ((c.tc : Thread Cert.KernelIdeal.nD Cert.KernelIdeal.τ).loc Cert.KernelIdeal.main_arg13)) : FVec Ideal Cert.Pre_finite_inputs.S1280 .f32) i) :=
  (fn_real_mem m h c).2.2.2.2.2.2.2.2.2.2.2.2.1 i

theorem real_arg14 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S128x128).Idx) :
    IsReal (((m ((c.tc : Thread Cert.KernelIdeal.nD Cert.KernelIdeal.τ).loc Cert.KernelIdeal.main_arg14)) : FVec Ideal Cert.Pre_finite_inputs.S128x128 .f32) i) :=
  (fn_real_mem m h c).2.2.2.2.2.2.2.2.2.2.2.2.2.1 i

theorem real_arg15 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S128).Idx) :
    IsReal (((m ((c.tc : Thread Cert.KernelIdeal.nD Cert.KernelIdeal.τ).loc Cert.KernelIdeal.main_arg15)) : FVec Ideal Cert.Pre_finite_inputs.S128 .f32) i) :=
  (fn_real_mem m h c).2.2.2.2.2.2.2.2.2.2.2.2.2.2.1 i

theorem real_arg16 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S128x128).Idx) :
    IsReal (((m ((c.tc : Thread Cert.KernelIdeal.nD Cert.KernelIdeal.τ).loc Cert.KernelIdeal.main_arg16)) : FVec Ideal Cert.Pre_finite_inputs.S128x128 .f32) i) :=
  (fn_real_mem m h c).2.2.2.2.2.2.2.2.2.2.2.2.2.2.2.1 i

theorem real_arg17 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S128).Idx) :
    IsReal (((m ((c.tc : Thread Cert.KernelIdeal.nD Cert.KernelIdeal.τ).loc Cert.KernelIdeal.main_arg17)) : FVec Ideal Cert.Pre_finite_inputs.S128 .f32) i) :=
  (fn_real_mem m h c).2.2.2.2.2.2.2.2.2.2.2.2.2.2.2.2.1 i

theorem real_arg18 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S128x10).Idx) :
    IsReal (((m ((c.tc : Thread Cert.KernelIdeal.nD Cert.KernelIdeal.τ).loc Cert.KernelIdeal.main_arg18)) : FVec Ideal Cert.Pre_finite_inputs.S128x10 .f32) i) :=
  (fn_real_mem m h c).2.2.2.2.2.2.2.2.2.2.2.2.2.2.2.2.2.1 i

theorem real_arg19 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S10).Idx) :
    IsReal (((m ((c.tc : Thread Cert.KernelIdeal.nD Cert.KernelIdeal.τ).loc Cert.KernelIdeal.main_arg19)) : FVec Ideal Cert.Pre_finite_inputs.S10 .f32) i) :=
  (fn_real_mem m h c).2.2.2.2.2.2.2.2.2.2.2.2.2.2.2.2.2.2.1 i

theorem real_arg20 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S1280).Idx) :
    IsReal (((m ((c.tc : Thread Cert.KernelIdeal.nD Cert.KernelIdeal.τ).loc Cert.KernelIdeal.main_arg20)) : FVec Ideal Cert.Pre_finite_inputs.S1280 .f32) i) :=
  (fn_real_mem m h c).2.2.2.2.2.2.2.2.2.2.2.2.2.2.2.2.2.2.2.1 i

theorem real_arg21 (m : (ℓ : Loc Cert.KernelIdeal.nD Cert.KernelIdeal.τ Cert.KernelIdeal.sig) → Buf (Elt Ideal) ℓ) (h : Cert.Pre_KernelIdeal m) (c : Dev Cert.KernelIdeal.nD)
    (i : (Cert.Pre_finite_inputs.S1280).Idx) :
    IsReal (((m ((c.tc : Thread Cert.KernelIdeal.nD Cert.KernelIdeal.τ).loc Cert.KernelIdeal.main_arg21)) : FVec Ideal Cert.Pre_finite_inputs.S1280 .f32) i) :=
  (fn_real_mem m h c).2.2.2.2.2.2.2.2.2.2.2.2.2.2.2.2.2.2.2.2 i

end Cert.Finite

end
-- ==== Proof.LibHitSet.lean ====
/-
  The scatter-add of the ideal instance, read at one element: the operand's element plus the sum of the updates that
  land on it.  The set of those updates is named once here so that the two programs' sums range over one set.
-/
import Idealize.ShloMosaic.PureOps.Ideal

noncomputable section

open scoped BigOperators

namespace Cert.Hits

open Idealize.ShloMosaic

/-- The updates that land on operand element i: those whose start word, read signed, plus window coordinate is i. -/
def hitSet {s si su : Shape} (d : ScatterDims s si su) {w : Nat} (idx : IVec si w) (i : s.Idx) : Finset su.Idx :=
  Finset.univ.filter (fun j => d.resultIdx? j idx = some i)

theorem mem_hitSet {s si su : Shape} (d : ScatterDims s si su) {w : Nat} (idx : IVec si w) (i : s.Idx) (j : su.Idx) :
    j ∈ hitSet d idx i ↔ d.resultIdx? j idx = some i := by
  unfold hitSet
  rw [Finset.mem_filter]
  exact ⟨fun h => h.2, fun h => ⟨Finset.mem_univ _, h⟩⟩

/-- The host's float scatter-add at element i. -/
theorem scatterAdd_at {s si su : Shape} (d : ScatterDims s si su) {w : Nat} (z : FVec Ideal s .f32) (idx : IVec si w)
    (u : FVec Ideal su .f32) (i : s.Idx) :
    Host.scatterAdd (F := Ideal) d z idx u i = z i + ∑ j ∈ hitSet d idx i, u j := rfl

end Cert.Hits

end
-- ==== Proof.MsgReal.lean ====
import Idealize.ShloMosaic.PureOps.Ideal
import proofs.«100017_j47974784696399_2_alg».proof.Proof.LibExtRealLayer
import proofs.«100017_j47974784696399_2_alg».proof.Proof.LibHitSet

/-!
  The aggregated messages are real.

  The host's accumulating scatter at one element is the operand's element plus the sum of the updates that land on
  it; a finite sum of real numbers added to a real number is real, whatever the index array is.  The operand here is
  the all-zero array.
-/

noncomputable section

namespace Cert.MsgReal

open Idealize.ShloMosaic
open Cert.ExtRealLayer
open scoped BigOperators

/-- a scatter-add of real updates into a real operand is real at every element, for every index array. -/
theorem isReal_scatterAdd {s si su : Shape} (d : ScatterDims s si su) {w : Nat} (z : FVec Ideal s .f32)
    (idx : IVec si w) (u : FVec Ideal su .f32) (hz : ∀ i, IsReal (z i)) (hu : ∀ j, IsReal (u j)) (i : s.Idx) :
    IsReal (Host.scatterAdd (F := Ideal) d z idx u i) := by
  rw [Cert.Hits.scatterAdd_at]
  exact (hz i).add (IsReal.sum _ _ fun j _ => hu j)

/-- every element of the all-zero array spread from the zero scalar is real. -/
theorem isReal_zeros {s0 s : Shape} (dims : Fin s0.rank → Fin s.rank) (hb : s0.BroadcastsInDim s dims) (i : s.Idx) :
    IsReal (broadcastInDim s dims hb (constant (F := Ideal) s0 .f32 0x00000000#32) i) := by
  show IsReal (Ideal.ofBits .f32 0x00000000#32)
  rw [ofBits_zero]
  exact isReal_zero

/-- the aggregated messages: a scatter-add of real updates into the all-zero array. -/
theorem isReal_msg {s0 s si su : Shape} (d : ScatterDims s si su) {w : Nat} (dims : Fin s0.rank → Fin s.rank)
    (hb : s0.BroadcastsInDim s dims) (idx : IVec si w) (u : FVec Ideal su .f32) (hu : ∀ j, IsReal (u j)) (i : s.Idx) :
    IsReal (Host.scatterAdd (F := Ideal) d (broadcastInDim s dims hb (constant (F := Ideal) s0 .f32 0x00000000#32))
      idx u i) :=
  isReal_scatterAdd d _ idx u (isReal_zeros dims hb) hu i

end Cert.MsgReal

end
-- ==== Proof.KValue.lean ====
/-
  The idealized kernel's result is the reference's result function of its own arguments.

  The last launch's output array is, entry by entry, the collapsed arrangement of block b over block a over the first
  layer, plus the first layer.  For finite arguments the collapsed arrangement equals the direct one, and the direct
  one is what the reference's result function reads at that entry; the aggregated messages are the same scatter-add in
  both.  Finiteness of the aggregated messages: a scatter-add of finite updates into zeros.
-/
import proofs.«100017_j47974784696399_2_alg».proof.Proof.KValue2
import proofs.«100017_j47974784696399_2_alg».proof.Proof.KVal0
import proofs.«100017_j47974784696399_2_alg».proof.Proof.RefRead5
import proofs.«100017_j47974784696399_2_alg».proof.Proof.SpecBlock
import proofs.«100017_j47974784696399_2_alg».proof.Proof.Finite
import proofs.«100017_j47974784696399_2_alg».proof.Proof.MsgReal

noncomputable section

namespace Cert.KernelIdeal.KValue

open Idealize.ShloMosaic Idealize.ShloMosaic.ValueIdx Idealize.ShloMosaic.StableHlo Idealize.SL.Sem
open Cert.KernelIdeal Cert.KernelIdeal.Gen

/-- the kernel's result buffer holds the reference's result function of the kernel's launch arguments. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W10 m ρ c (Proc.devRef .tc Cert.KernelIdeal.main_v81)
      = Cert.ReferenceIdeal.RefRun.out (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17))
          (m ((c.tc : Thread Cert.KernelIdeal.nD Cert.KernelIdeal.τ).loc Cert.KernelIdeal.main_arg18))
          (m ((c.tc : Thread Cert.KernelIdeal.nD Cert.KernelIdeal.τ).loc Cert.KernelIdeal.main_arg19))
          (m ((c.tc : Thread Cert.KernelIdeal.nD Cert.KernelIdeal.τ).loc Cert.KernelIdeal.main_arg20))
          (m ((c.tc : Thread Cert.KernelIdeal.nD Cert.KernelIdeal.τ).loc Cert.KernelIdeal.main_arg21)) := by
  funext i
  obtain ⟨n, j, rfl⟩ : ∃ (n : Fin 50000) (j : Fin 128), i = ix2 n j := ⟨i 0, i 1, eq_ix2 i⟩
  rw [out_k m ρ c n j, Cert.ReferenceIdeal.RefRead.out_fn]
  unfold OA O0
  rw [KVal0.msgK_eq_ref]
  exact Cert.Spec.final_eq _ _ _ _ _ _ _ _ _ _ _ _ _ _ _ _ _ _ _ _ _
    (fun a b => Cert.Finite.real_arg0 m hpre c (ix2 a b))
    (fun a b => Cert.MsgReal.isReal_msg _ _ _ _ _ (Cert.Finite.real_arg2 m hpre c) (ix2 a b))
    (fun k => Cert.Finite.real_arg3 m hpre c (ix2 (0 : Fin 1) k))
    (fun k b => Cert.Finite.real_arg4 m hpre c (ix2 k b))
    (fun b => Cert.Finite.real_arg5 m hpre c (ix1 b))
    (fun k b => Cert.Finite.real_arg6 m hpre c (ix2 k b))
    (fun b => Cert.Finite.real_arg7 m hpre c (ix1 b))
    (fun k b => Cert.Finite.real_arg8 m hpre c (ix2 k b))
    (fun b => Cert.Finite.real_arg9 m hpre c (ix1 b))
    (fun k g => Cert.Finite.real_arg10 m hpre c (ix2 k g))
    (fun g => Cert.Finite.real_arg11 m hpre c (ix1 g))
    (fun g b => Cert.Finite.real_arg12 m hpre c (ix1 (Cert.ReferenceIdeal.RefRead.gh g b)))
    (fun g b => Cert.Finite.real_arg13 m hpre c (ix1 (Cert.ReferenceIdeal.RefRead.gh g b)))
    (fun k b => Cert.Finite.real_arg14 m hpre c (ix2 k b))
    (fun b => Cert.Finite.real_arg15 m hpre c (ix1 b))
    (fun k b => Cert.Finite.real_arg16 m hpre c (ix2 k b))
    (fun b => Cert.Finite.real_arg17 m hpre c (ix1 b))
    (fun k g => Cert.Finite.real_arg18 m hpre c (ix2 k g))
    (fun g => Cert.Finite.real_arg19 m hpre c (ix1 g))
    (fun g b => Cert.Finite.real_arg20 m hpre c (ix1 (Cert.ReferenceIdeal.RefRead.gh g b)))
    (fun g b => Cert.Finite.real_arg21 m hpre c (ix1 (Cert.ReferenceIdeal.RefRead.gh g b)))
    n j

end Cert.KernelIdeal.KValue

end
-- ==== Proof.RefOps.lean ====
/-
  The reference program's 224 host operations, in order, as consecutive lists.

  Each line is the printed program's operation; where the program calls an outlined function the callee's printed
  operations stand at the call site over that call's buffer record.  Beside each list: the buffers it writes, in
  order, and the fact that every operation only touches device buffers.
-/
import proofs.«100017_j47974784696399_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 27 of 224 (in @main's window 0). -/
def opsL0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.nullary main_cst (constant S_ .f32 0x00000000#32),
    StableHlo.unary main_cst main_v2 (broadcastInDim S50000x128 ![] bcast_S_S50000x128 : (⟨S_, .f32⟩ : BufTy).Contents (Elt F) → (⟨S50000x128, .f32⟩ : BufTy).Contents (Elt F)),
    StableHlo.unary main_v1 main_v3 (broadcastInDim S800000x1 ![0] bcast_S800000_S800000x1_0 : (⟨S800000, .i32⟩ : BufTy).Contents (Elt F) → (⟨S800000x1, .i32⟩ : BufTy).Contents (Elt F)),
    StableHlo.ternary main_v2 main_v3 main_arg2 main_v4 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v5 (broadcastInDim S1x50000x64 ![0, 2] bcast_S1x64_S1x50000x64_0_2 : (⟨S1x64, .f32⟩ : BufTy).Contents (Elt F) → (⟨S1x50000x64, .f32⟩ : BufTy).Contents (Elt F)),
    StableHlo.reshape main_v5 main_v6 rfl shapeCasts_S1x50000x64_S50000x64,
    StableHlo.nary ![main_arg0, main_v4, main_v6] main_v7 (fun u => concatenate S50000x320 1 [⟨S50000x128, u 0⟩, ⟨S50000x128, u 1⟩, ⟨S50000x64, u 2⟩] concatenates_S50000x128_S50000x128_S50000x64_S50000x320_d1),
    StableHlo.binary main_v7 main_arg4 main_v8 ((fun l r => Host.dotGeneral dot_S50000x320_S320x128_S50000x128_1_0_0_1_n_n none l r) : (⟨S50000x320, .f32⟩ : BufTy).Contents (Elt F) → (⟨S320x128, .f32⟩ : BufTy).Contents (Elt F) → (⟨S50000x128, .f32⟩ : BufTy).Contents (Elt F)),
    StableHlo.unary main_arg5 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S50000x128 ![0, 1] bcast_S1x128_S50000x128_0_1 : (⟨S1x128, .f32⟩ : BufTy).Contents (Elt F) → (⟨S50000x128, .f32⟩ : BufTy).Contents (Elt F)),
    StableHlo.binary main_v8 main_v10 main_v11 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v11 : StableHlo.TRef sig ⟨S50000x128, .f32⟩) main_call0.v0 main_call0.v1 maximumf,
    StableHlo.TRef.unary main_call0.cst main_call0.v2 (broadcastInDim S50000x128 ![] bcast_S_S50000x128),
    StableHlo.TRef.binary (.of main_v11 : StableHlo.TRef sig ⟨S50000x128, .f32⟩) main_call0.v2 main_call0.v3 subf,
    StableHlo.TRef.binary main_call0.v3 main_call0.v3 main_call0.v4 (cmpf .une),
    StableHlo.TRef.unary main_call0.cst main_call0.v5 (broadcastInDim S50000x128 ![] bcast_S_S50000x128),
    StableHlo.TRef.binary (.of main_v11 : StableHlo.TRef sig ⟨S50000x128, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select ]
/-- The buffers these operations write, in order. -/
abbrev opsL0_W : List (Ref sig .tc) :=
  [main_v0, main_v1, main_cst, main_v2, main_v3, main_v4, main_v5, main_v6, main_v7, main_v8, main_v9, main_v10, main_v11, main_call0_cst, main_call0_v0, main_call0_v1, main_call0_v2, main_call0_v3, main_call0_v4, main_call0_v5, main_call0_v6, main_call0_v7, main_call0_v8, main_call0_v9, main_call0_v10, main_call0_v11, main_v12]
theorem opsL0_sub : (opsL0 : List (HloOp τ sig (Elt F))).Forall fun op => op.bufs ⊆ tcRefs τ sig :=
  ⟨unary_bufs_sub .., reshape_bufs_sub .., nullary_bufs_sub .., unary_bufs_sub .., unary_bufs_sub .., ternary_bufs_sub .., unary_bufs_sub .., reshape_bufs_sub .., nary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩

/-- Operations 28 … 49 of 224 (in @main's window 0). -/
def opsHa : List (HloOp τ sig (Elt F)) :=
  [ StableHlo.binary main_v12 main_arg6 main_v13 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S50000x128 ![0, 1] bcast_S1x128_S50000x128_0_1 : (⟨S1x128, .f32⟩ : BufTy).Contents (Elt F) → (⟨S50000x128, .f32⟩ : BufTy).Contents (Elt F)),
    StableHlo.binary main_v13 main_v15 main_v16 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v16 : StableHlo.TRef sig ⟨S50000x128, .f32⟩) main_call1.v0 main_call1.v1 maximumf,
    StableHlo.TRef.unary main_call1.cst main_call1.v2 (broadcastInDim S50000x128 ![] bcast_S_S50000x128),
    StableHlo.TRef.binary (.of main_v16 : StableHlo.TRef sig ⟨S50000x128, .f32⟩) main_call1.v2 main_call1.v3 subf,
    StableHlo.TRef.binary main_call1.v3 main_call1.v3 main_call1.v4 (cmpf .une),
    StableHlo.TRef.unary main_call1.cst main_call1.v5 (broadcastInDim S50000x128 ![] bcast_S_S50000x128),
    StableHlo.TRef.binary (.of main_v16 : StableHlo.TRef sig ⟨S50000x128, .f32⟩) main_call1.v5 main_call1.v6 addf,
    StableHlo.TRef.unary main_call1.v3 main_call1.v7 Host.absf,
    StableHlo.TRef.unary main_call1.v7 main_call1.v8 Host.negf,
    StableHlo.TRef.unary main_call1.v8 main_call1.v9 Host.exp,
    StableHlo.TRef.unary main_call1.v9 main_call1.v10 Host.log1p,
    StableHlo.TRef.binary main_call1.v1 main_call1.v10 main_call1.v11 addf,
    StableHlo.TRef.ternary main_call1.v4 main_call1.v6 main_call1.v11 main_call1.v12 select,
    StableHlo.binary main_v17 main_arg8 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v20 main_v21 (addf : (⟨S50000x128, .f32⟩ : BufTy).Contents (Elt F) → (⟨S50000x128, .f32⟩ : BufTy).Contents (Elt F) → (⟨S50000x128, .f32⟩ : BufTy).Contents (Elt F)) ]
/-- The buffers these operations write, in order. -/
abbrev opsHa_W : List (Ref sig .tc) :=
  [main_v13, main_v14, main_v15, main_v16, main_call1_cst, main_call1_v0, main_call1_v1, main_call1_v2, main_call1_v3, main_call1_v4, main_call1_v5, main_call1_v6, main_call1_v7, main_call1_v8, main_call1_v9, main_call1_v10, main_call1_v11, main_v17, main_v18, main_v19, main_v20, main_v21]
theorem opsHa_sub : (opsHa : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., unary_bufs_sub .., unary_bufs_sub .., binary_bufs_sub ..⟩

/-- Operations 50 … 73 of 224 (in @main's window 0). -/
def opsGa : List (HloOp τ sig (Elt F)) :=
  [ StableHlo.binary main_v21 main_arg10 main_v22 ((fun l r => Host.dotGeneral dot_S50000x128_S128x10_S50000x10_1_0_0_1_n_n none l r) : (⟨S50000x128, .f32⟩ : BufTy).Contents (Elt F) → (⟨S128x10, .f32⟩ : BufTy).Contents (Elt F) → (⟨S50000x10, .f32⟩ : BufTy).Contents (Elt F)),
    StableHlo.unary main_arg11 main_v23 (broadcastInDim S1x10 ![1] bcast_S10_S1x10_1 : (⟨S10, .f32⟩ : BufTy).Contents (Elt F) → (⟨S1x10, .f32⟩ : BufTy).Contents (Elt F)),
    StableHlo.unary main_v23 main_v24 (broadcastInDim S50000x10 ![0, 1] bcast_S1x10_S50000x10_0_1 : (⟨S1x10, .f32⟩ : BufTy).Contents (Elt F) → (⟨S50000x10, .f32⟩ : BufTy).Contents (Elt F)),
    StableHlo.binary main_v22 main_v24 main_v25 (addf : (⟨S50000x10, .f32⟩ : BufTy).Contents (Elt F) → (⟨S50000x10, .f32⟩ : BufTy).Contents (Elt F) → (⟨S50000x10, .f32⟩ : BufTy).Contents (Elt F)),
    StableHlo.nullary main_cst_0 (constant S_ .f32 0xFF800000#32),
    StableHlo.binary main_v25 main_cst_0 main_v26 ((fun x v => Host.reduce FloatOps.maximumf x v reducesTo_S50000x10_S50000_d1 h_S_) : (⟨S50000x10, .f32⟩ : BufTy).Contents (Elt F) → (⟨S_, .f32⟩ : BufTy).Contents (Elt F) → (⟨S50000, .f32⟩ : BufTy).Contents (Elt F)),
    StableHlo.nullary main_cst_1 (constant S_ .f32 0xFF800000#32),
    StableHlo.unary main_cst_1 main_v27 (broadcastInDim S50000 ![] bcast_S_S50000 : (⟨S_, .f32⟩ : BufTy).Contents (Elt F) → (⟨S50000, .f32⟩ : BufTy).Contents (Elt F)),
    StableHlo.binary main_v27 main_v26 main_v28 (maximumf : (⟨S50000, .f32⟩ : BufTy).Contents (Elt F) → (⟨S50000, .f32⟩ : BufTy).Contents (Elt F) → (⟨S50000, .f32⟩ : BufTy).Contents (Elt F)),
    StableHlo.unary main_v28 main_v29 (broadcastInDim S50000x1 ![0] bcast_S50000_S50000x1_0 : (⟨S50000, .f32⟩ : BufTy).Contents (Elt F) → (⟨S50000x1, .f32⟩ : BufTy).Contents (Elt F)),
    StableHlo.unary main_v29 main_v30 (broadcastInDim S50000x10 ![0, 1] bcast_S50000x1_S50000x10_0_1 : (⟨S50000x1, .f32⟩ : BufTy).Contents (Elt F) → (⟨S50000x10, .f32⟩ : BufTy).Contents (Elt F)),
    StableHlo.binary main_v25 main_v30 main_v31 (subf : (⟨S50000x10, .f32⟩ : BufTy).Contents (Elt F) → (⟨S50000x10, .f32⟩ : BufTy).Contents (Elt F) → (⟨S50000x10, .f32⟩ : BufTy).Contents (Elt F)),
    StableHlo.unary main_v31 main_v32 (Host.exp : (⟨S50000x10, .f32⟩ : BufTy).Contents (Elt F) → (⟨S50000x10, .f32⟩ : BufTy).Contents (Elt F)),
    StableHlo.nullary main_cst_2 (constant S_ .f32 0x00000000#32),
    StableHlo.binary main_v32 main_cst_2 main_v33 ((fun x v => Host.reduceAdd x v reducesTo_S50000x10_S50000_d1 h_S_) : (⟨S50000x10, .f32⟩ : BufTy).Contents (Elt F) → (⟨S_, .f32⟩ : BufTy).Contents (Elt F) → (⟨S50000, .f32⟩ : BufTy).Contents (Elt F)),
    StableHlo.unary main_v33 main_v34 (broadcastInDim S50000x1 ![0] bcast_S50000_S50000x1_0 : (⟨S50000, .f32⟩ : BufTy).Contents (Elt F) → (⟨S50000x1, .f32⟩ : BufTy).Contents (Elt F)),
    StableHlo.unary main_v34 main_v35 (broadcastInDim S50000x10 ![0, 1] bcast_S50000x1_S50000x10_0_1 : (⟨S50000x1, .f32⟩ : BufTy).Contents (Elt F) → (⟨S50000x10, .f32⟩ : BufTy).Contents (Elt F)),
    StableHlo.binary main_v32 main_v35 main_v36 (Host.divf : (⟨S50000x10, .f32⟩ : BufTy).Contents (Elt F) → (⟨S50000x10, .f32⟩ : BufTy).Contents (Elt F) → (⟨S50000x10, .f32⟩ : BufTy).Contents (Elt F)),
    StableHlo.unary main_v36 main_v37 (broadcastInDim S50000x10x1 ![0, 1] bcast_S50000x10_S50000x10x1_0_1 : (⟨S50000x10, .f32⟩ : BufTy).Contents (Elt F) → (⟨S50000x10x1, .f32⟩ : BufTy).Contents (Elt F)),
    StableHlo.unary main_v21 main_v38 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v37 main_v39 (broadcastInDim S50000x10x128 ![0, 1, 2] bcast_S50000x10x1_S50000x10x128_0_1_2 : (⟨S50000x10x1, .f32⟩ : BufTy).Contents (Elt F) → (⟨S50000x10x128, .f32⟩ : BufTy).Contents (Elt F)),
    StableHlo.unary main_v38 main_v40 (broadcastInDim S50000x10x128 ![0, 1, 2] bcast_S50000x1x128_S50000x10x128_0_1_2 : (⟨S50000x1x128, .f32⟩ : BufTy).Contents (Elt F) → (⟨S50000x10x128, .f32⟩ : BufTy).Contents (Elt F)),
    StableHlo.binary main_v39 main_v40 main_v41 (mulf : (⟨S50000x10x128, .f32⟩ : BufTy).Contents (Elt F) → (⟨S50000x10x128, .f32⟩ : BufTy).Contents (Elt F) → (⟨S50000x10x128, .f32⟩ : BufTy).Contents (Elt F)),
    StableHlo.reshape main_v41 main_v42 rfl shapeCasts_S50000x10x128_S50000x1280 ]
/-- The buffers these operations write, in order. -/
abbrev opsGa_W : List (Ref sig .tc) :=
  [main_v22, main_v23, main_v24, main_v25, main_cst_0, main_v26, main_cst_1, main_v27, main_v28, main_v29, main_v30, main_v31, main_v32, main_cst_2, main_v33, main_v34, main_v35, main_v36, main_v37, main_v38, main_v39, main_v40, main_v41, main_v42]
theorem opsGa_sub : (opsGa : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub .., unary_bufs_sub .., binary_bufs_sub .., reshape_bufs_sub ..⟩

/-- Operations 74 … 101 of 224 (in @main's window 0). -/
def opsMa : List (HloOp τ sig (Elt F)) :=
  [ StableHlo.nullary main_cst_3 (constant S_ .f32 0x00000000#32),
    StableHlo.binary main_v42 main_cst_3 main_v43 ((fun x v => Host.reduceAdd x v reducesTo_S50000x1280_S1280_d0 h_S_) : (⟨S50000x1280, .f32⟩ : BufTy).Contents (Elt F) → (⟨S_, .f32⟩ : BufTy).Contents (Elt F) → (⟨S1280, .f32⟩ : BufTy).Contents (Elt F)),
    StableHlo.nullary main_cst_4 (constant S_ .f32 0x47435000#32),
    StableHlo.unary main_cst_4 main_v44 (broadcastInDim S1280 ![] bcast_S_S1280 : (⟨S_, .f32⟩ : BufTy).Contents (Elt F) → (⟨S1280, .f32⟩ : BufTy).Contents (Elt F)),
    StableHlo.binary main_v43 main_v44 main_v45 (Host.divf : (⟨S1280, .f32⟩ : BufTy).Contents (Elt F) → (⟨S1280, .f32⟩ : BufTy).Contents (Elt F) → (⟨S1280, .f32⟩ : BufTy).Contents (Elt F)),
    StableHlo.nullary main_c (constantI S_ 32 0#32),
    StableHlo.TRef.nullary main_call2.cst (constant S_ .f32 0x00000000#32),
    StableHlo.TRef.binary (.of main_v42 : StableHlo.TRef sig ⟨S50000x1280, .f32⟩) main_call2.cst main_call2.v0 (fun x v => Host.reduceAdd x v reducesTo_S50000x1280_S1280_d0 h_S_),
    StableHlo.TRef.unary main_call2.v0 main_call2.v1 (broadcastInDim S1x1280 ![1] bcast_S1280_S1x1280_1),
    StableHlo.TRef.nullary main_call2.cst_0 (constant S_ .f32 0x47435000#32),
    StableHlo.TRef.unary main_call2.cst_0 main_call2.v2 (broadcastInDim S1x1280 ![] bcast_S_S1x1280),
    StableHlo.TRef.binary main_call2.v1 main_call2.v2 main_call2.v3 Host.divf,
    StableHlo.TRef.unary main_call2.v3 main_call2.v4 (broadcastInDim S50000x1280 ![0, 1] bcast_S1x1280_S50000x1280_0_1),
    StableHlo.TRef.binary (.of main_v42 : StableHlo.TRef sig ⟨S50000x1280, .f32⟩) main_call2.v4 main_call2.v5 subf,
    StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x1280_S1280_d0 h_S_),
    StableHlo.TRef.unary main_call2.v8 main_call2.v10 (broadcastInDim S1280 ![] bcast_S_S1280),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1280 ![] bcast_S_S1280),
    StableHlo.TRef.ternary main_call2.v12 main_call2.v11 main_call2.call0.v1 main_call2.call0.v2 (fun p a b => select (broadcastInDim S1280 ![] bcast_S_S1280 p) a b) ]
/-- The buffers these operations write, in order. -/
abbrev opsMa_W : List (Ref sig .tc) :=
  [main_cst_3, main_v43, main_cst_4, main_v44, main_v45, main_c, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v46]
theorem opsMa_sub : (opsMa : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Operations 102 … 107 of 224 (in @main's window 0). -/
def opsNa1 : List (HloOp τ sig (Elt F)) :=
  [ StableHlo.unary main_v45 main_v47 (broadcastInDim S1x1280 ![1] bcast_S1280_S1x1280_1 : (⟨S1280, .f32⟩ : BufTy).Contents (Elt F) → (⟨S1x1280, .f32⟩ : BufTy).Contents (Elt F)),
    StableHlo.unary main_v47 main_v48 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v42 main_v48 main_v49 (subf : (⟨S50000x1280, .f32⟩ : BufTy).Contents (Elt F) → (⟨S50000x1280, .f32⟩ : BufTy).Contents (Elt F) → (⟨S50000x1280, .f32⟩ : BufTy).Contents (Elt F)),
    StableHlo.nullary main_cst_5 (constant S_ .f32 0x3727C5AC#32),
    StableHlo.unary main_cst_5 main_v50 (broadcastInDim S1280 ![] bcast_S_S1280 : (⟨S_, .f32⟩ : BufTy).Contents (Elt F) → (⟨S1280, .f32⟩ : BufTy).Contents (Elt F)),
    StableHlo.binary main_v46 main_v50 main_v51 (addf : (⟨S1280, .f32⟩ : BufTy).Contents (Elt F) → (⟨S1280, .f32⟩ : BufTy).Contents (Elt F) → (⟨S1280, .f32⟩ : BufTy).Contents (Elt F)) ]
/-- The buffers these operations write, in order. -/
abbrev opsNa1_W : List (Ref sig .tc) :=
  [main_v47, main_v48, main_v49, main_cst_5, main_v50, main_v51]
theorem opsNa1_sub : (opsNa1 : List (HloOp τ sig (Elt F))).Forall fun op => op.bufs ⊆ tcRefs τ sig :=
  ⟨unary_bufs_sub .., unary_bufs_sub .., binary_bufs_sub .., nullary_bufs_sub .., unary_bufs_sub .., binary_bufs_sub ..⟩

/-- Operations 108 … 125 of 224 (in @main's window 1). -/
def opsNa2 : List (HloOp τ sig (Elt F)) :=
  [ StableHlo.unary main_v51 main_v52 (Host.rsqrt : (⟨S1280, .f32⟩ : BufTy).Contents (Elt F) → (⟨S1280, .f32⟩ : BufTy).Contents (Elt F)),
    StableHlo.unary main_v52 main_v53 (broadcastInDim S1x1280 ![1] bcast_S1280_S1x1280_1 : (⟨S1280, .f32⟩ : BufTy).Contents (Elt F) → (⟨S1x1280, .f32⟩ : BufTy).Contents (Elt F)),
    StableHlo.unary main_v53 main_v54 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v49 main_v54 main_v55 (mulf : (⟨S50000x1280, .f32⟩ : BufTy).Contents (Elt F) → (⟨S50000x1280, .f32⟩ : BufTy).Contents (Elt F) → (⟨S50000x1280, .f32⟩ : BufTy).Contents (Elt F)),
    StableHlo.unary main_arg12 main_v56 (broadcastInDim S1x1280 ![1] bcast_S1280_S1x1280_1 : (⟨S1280, .f32⟩ : BufTy).Contents (Elt F) → (⟨S1x1280, .f32⟩ : BufTy).Contents (Elt F)),
    StableHlo.unary main_v56 main_v57 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v55 main_v57 main_v58 (mulf : (⟨S50000x1280, .f32⟩ : BufTy).Contents (Elt F) → (⟨S50000x1280, .f32⟩ : BufTy).Contents (Elt F) → (⟨S50000x1280, .f32⟩ : BufTy).Contents (Elt F)),
    StableHlo.unary main_arg13 main_v59 (broadcastInDim S1x1280 ![1] bcast_S1280_S1x1280_1 : (⟨S1280, .f32⟩ : BufTy).Contents (Elt F) → (⟨S1x1280, .f32⟩ : BufTy).Contents (Elt F)),
    StableHlo.unary main_v59 main_v60 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v58 main_v60 main_v61 (addf : (⟨S50000x1280, .f32⟩ : BufTy).Contents (Elt F) → (⟨S50000x1280, .f32⟩ : BufTy).Contents (Elt F) → (⟨S50000x1280, .f32⟩ : BufTy).Contents (Elt F)),
    StableHlo.reshape main_v61 main_v62 rfl shapeCasts_S50000x1280_S50000x10x128,
    StableHlo.nullary main_cst_6 (constant S_ .f32 0x00000000#32),
    StableHlo.binary main_v62 main_cst_6 main_v63 ((fun x v => Host.reduceAdd x v reducesTo_S50000x10x128_S50000x128_d1 h_S_) : (⟨S50000x10x128, .f32⟩ : BufTy).Contents (Elt F) → (⟨S_, .f32⟩ : BufTy).Contents (Elt F) → (⟨S50000x128, .f32⟩ : BufTy).Contents (Elt F)),
    StableHlo.nullary main_cst_7 (constant S_ .f32 0x3C23D70A#32),
    StableHlo.unary main_cst_7 main_v64 (broadcastInDim S50000x128 ![] bcast_S_S50000x128 : (⟨S_, .f32⟩ : BufTy).Contents (Elt F) → (⟨S50000x128, .f32⟩ : BufTy).Contents (Elt F)),
    StableHlo.binary main_v64 main_v63 main_v65 (mulf : (⟨S50000x128, .f32⟩ : BufTy).Contents (Elt F) → (⟨S50000x128, .f32⟩ : BufTy).Contents (Elt F) → (⟨S50000x128, .f32⟩ : BufTy).Contents (Elt F)),
    StableHlo.binary main_v21 main_v65 main_v66 (addf : (⟨S50000x128, .f32⟩ : BufTy).Contents (Elt F) → (⟨S50000x128, .f32⟩ : BufTy).Contents (Elt F) → (⟨S50000x128, .f32⟩ : BufTy).Contents (Elt F)),
    StableHlo.binary main_v12 main_v66 main_v67 (addf : (⟨S50000x128, .f32⟩ : BufTy).Contents (Elt F) → (⟨S50000x128, .f32⟩ : BufTy).Contents (Elt F) → (⟨S50000x128, .f32⟩ : BufTy).Contents (Elt F)) ]
/-- The buffers these operations write, in order. -/
abbrev opsNa2_W : List (Ref sig .tc) :=
  [main_v52, main_v53, main_v54, main_v55, main_v56, main_v57, main_v58, main_v59, main_v60, main_v61, main_v62, main_cst_6, main_v63, main_cst_7, main_v64, main_v65, main_v66, main_v67]
theorem opsNa2_sub : (opsNa2 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub .., reshape_bufs_sub .., nullary_bufs_sub .., binary_bufs_sub .., nullary_bufs_sub .., unary_bufs_sub .., binary_bufs_sub .., binary_bufs_sub .., binary_bufs_sub ..⟩

/-- Operations 126 … 147 of 224 (in @main's window 1). -/
def opsHb : List (HloOp τ sig (Elt F)) :=
  [ StableHlo.binary main_v67 main_arg14 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v70 main_v71 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v71 : StableHlo.TRef sig ⟨S50000x128, .f32⟩) main_call3.v0 main_call3.v1 maximumf,
    StableHlo.TRef.unary main_call3.cst main_call3.v2 (broadcastInDim S50000x128 ![] bcast_S_S50000x128),
    StableHlo.TRef.binary (.of main_v71 : StableHlo.TRef sig ⟨S50000x128, .f32⟩) main_call3.v2 main_call3.v3 subf,
    StableHlo.TRef.binary main_call3.v3 main_call3.v3 main_call3.v4 (cmpf .une),
    StableHlo.TRef.unary main_call3.cst main_call3.v5 (broadcastInDim S50000x128 ![] bcast_S_S50000x128),
    StableHlo.TRef.binary (.of main_v71 : StableHlo.TRef sig ⟨S50000x128, .f32⟩) main_call3.v5 main_call3.v6 addf,
    StableHlo.TRef.unary main_call3.v3 main_call3.v7 Host.absf,
    StableHlo.TRef.unary main_call3.v7 main_call3.v8 Host.negf,
    StableHlo.TRef.unary main_call3.v8 main_call3.v9 Host.exp,
    StableHlo.TRef.unary main_call3.v9 main_call3.v10 Host.log1p,
    StableHlo.TRef.binary main_call3.v1 main_call3.v10 main_call3.v11 addf,
    StableHlo.TRef.ternary main_call3.v4 main_call3.v6 main_call3.v11 main_call3.v12 select,
    StableHlo.binary main_v72 main_arg16 main_v73 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg17 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v75 main_v76 (addf : (⟨S50000x128, .f32⟩ : BufTy).Contents (Elt F) → (⟨S50000x128, .f32⟩ : BufTy).Contents (Elt F) → (⟨S50000x128, .f32⟩ : BufTy).Contents (Elt F)) ]
/-- The buffers these operations write, in order. -/
abbrev opsHb_W : List (Ref sig .tc) :=
  [main_v68, main_v69, main_v70, main_v71, main_call3_cst, main_call3_v0, main_call3_v1, main_call3_v2, main_call3_v3, main_call3_v4, main_call3_v5, main_call3_v6, main_call3_v7, main_call3_v8, main_call3_v9, main_call3_v10, main_call3_v11, main_v72, main_v73, main_v74, main_v75, main_v76]
theorem opsHb_sub : (opsHb : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., unary_bufs_sub .., unary_bufs_sub .., binary_bufs_sub ..⟩

/-- Operations 148 … 171 of 224 (in @main's window 1). -/
def opsGb : List (HloOp τ sig (Elt F)) :=
  [ StableHlo.binary main_v76 main_arg18 main_v77 ((fun l r => Host.dotGeneral dot_S50000x128_S128x10_S50000x10_1_0_0_1_n_n none l r) : (⟨S50000x128, .f32⟩ : BufTy).Contents (Elt F) → (⟨S128x10, .f32⟩ : BufTy).Contents (Elt F) → (⟨S50000x10, .f32⟩ : BufTy).Contents (Elt F)),
    StableHlo.unary main_arg19 main_v78 (broadcastInDim S1x10 ![1] bcast_S10_S1x10_1 : (⟨S10, .f32⟩ : BufTy).Contents (Elt F) → (⟨S1x10, .f32⟩ : BufTy).Contents (Elt F)),
    StableHlo.unary main_v78 main_v79 (broadcastInDim S50000x10 ![0, 1] bcast_S1x10_S50000x10_0_1 : (⟨S1x10, .f32⟩ : BufTy).Contents (Elt F) → (⟨S50000x10, .f32⟩ : BufTy).Contents (Elt F)),
    StableHlo.binary main_v77 main_v79 main_v80 (addf : (⟨S50000x10, .f32⟩ : BufTy).Contents (Elt F) → (⟨S50000x10, .f32⟩ : BufTy).Contents (Elt F) → (⟨S50000x10, .f32⟩ : BufTy).Contents (Elt F)),
    StableHlo.nullary main_cst_8 (constant S_ .f32 0xFF800000#32),
    StableHlo.binary main_v80 main_cst_8 main_v81 ((fun x v => Host.reduce FloatOps.maximumf x v reducesTo_S50000x10_S50000_d1 h_S_) : (⟨S50000x10, .f32⟩ : BufTy).Contents (Elt F) → (⟨S_, .f32⟩ : BufTy).Contents (Elt F) → (⟨S50000, .f32⟩ : BufTy).Contents (Elt F)),
    StableHlo.nullary main_cst_9 (constant S_ .f32 0xFF800000#32),
    StableHlo.unary main_cst_9 main_v82 (broadcastInDim S50000 ![] bcast_S_S50000 : (⟨S_, .f32⟩ : BufTy).Contents (Elt F) → (⟨S50000, .f32⟩ : BufTy).Contents (Elt F)),
    StableHlo.binary main_v82 main_v81 main_v83 (maximumf : (⟨S50000, .f32⟩ : BufTy).Contents (Elt F) → (⟨S50000, .f32⟩ : BufTy).Contents (Elt F) → (⟨S50000, .f32⟩ : BufTy).Contents (Elt F)),
    StableHlo.unary main_v83 main_v84 (broadcastInDim S50000x1 ![0] bcast_S50000_S50000x1_0 : (⟨S50000, .f32⟩ : BufTy).Contents (Elt F) → (⟨S50000x1, .f32⟩ : BufTy).Contents (Elt F)),
    StableHlo.unary main_v84 main_v85 (broadcastInDim S50000x10 ![0, 1] bcast_S50000x1_S50000x10_0_1 : (⟨S50000x1, .f32⟩ : BufTy).Contents (Elt F) → (⟨S50000x10, .f32⟩ : BufTy).Contents (Elt F)),
    StableHlo.binary main_v80 main_v85 main_v86 (subf : (⟨S50000x10, .f32⟩ : BufTy).Contents (Elt F) → (⟨S50000x10, .f32⟩ : BufTy).Contents (Elt F) → (⟨S50000x10, .f32⟩ : BufTy).Contents (Elt F)),
    StableHlo.unary main_v86 main_v87 (Host.exp : (⟨S50000x10, .f32⟩ : BufTy).Contents (Elt F) → (⟨S50000x10, .f32⟩ : BufTy).Contents (Elt F)),
    StableHlo.nullary main_cst_10 (constant S_ .f32 0x00000000#32),
    StableHlo.binary main_v87 main_cst_10 main_v88 ((fun x v => Host.reduceAdd x v reducesTo_S50000x10_S50000_d1 h_S_) : (⟨S50000x10, .f32⟩ : BufTy).Contents (Elt F) → (⟨S_, .f32⟩ : BufTy).Contents (Elt F) → (⟨S50000, .f32⟩ : BufTy).Contents (Elt F)),
    StableHlo.unary main_v88 main_v89 (broadcastInDim S50000x1 ![0] bcast_S50000_S50000x1_0 : (⟨S50000, .f32⟩ : BufTy).Contents (Elt F) → (⟨S50000x1, .f32⟩ : BufTy).Contents (Elt F)),
    StableHlo.unary main_v89 main_v90 (broadcastInDim S50000x10 ![0, 1] bcast_S50000x1_S50000x10_0_1 : (⟨S50000x1, .f32⟩ : BufTy).Contents (Elt F) → (⟨S50000x10, .f32⟩ : BufTy).Contents (Elt F)),
    StableHlo.binary main_v87 main_v90 main_v91 (Host.divf : (⟨S50000x10, .f32⟩ : BufTy).Contents (Elt F) → (⟨S50000x10, .f32⟩ : BufTy).Contents (Elt F) → (⟨S50000x10, .f32⟩ : BufTy).Contents (Elt F)),
    StableHlo.unary main_v91 main_v92 (broadcastInDim S50000x10x1 ![0, 1] bcast_S50000x10_S50000x10x1_0_1 : (⟨S50000x10, .f32⟩ : BufTy).Contents (Elt F) → (⟨S50000x10x1, .f32⟩ : BufTy).Contents (Elt F)),
    StableHlo.unary main_v76 main_v93 (broadcastInDim S50000x1x128 ![0, 2] bcast_S50000x128_S50000x1x128_0_2 : (⟨S50000x128, .f32⟩ : BufTy).Contents (Elt F) → (⟨S50000x1x128, .f32⟩ : BufTy).Contents (Elt F)),
    StableHlo.unary main_v92 main_v94 (broadcastInDim S50000x10x128 ![0, 1, 2] bcast_S50000x10x1_S50000x10x128_0_1_2 : (⟨S50000x10x1, .f32⟩ : BufTy).Contents (Elt F) → (⟨S50000x10x128, .f32⟩ : BufTy).Contents (Elt F)),
    StableHlo.unary main_v93 main_v95 (broadcastInDim S50000x10x128 ![0, 1, 2] bcast_S50000x1x128_S50000x10x128_0_1_2 : (⟨S50000x1x128, .f32⟩ : BufTy).Contents (Elt F) → (⟨S50000x10x128, .f32⟩ : BufTy).Contents (Elt F)),
    StableHlo.binary main_v94 main_v95 main_v96 (mulf : (⟨S50000x10x128, .f32⟩ : BufTy).Contents (Elt F) → (⟨S50000x10x128, .f32⟩ : BufTy).Contents (Elt F) → (⟨S50000x10x128, .f32⟩ : BufTy).Contents (Elt F)),
    StableHlo.reshape main_v96 main_v97 rfl shapeCasts_S50000x10x128_S50000x1280 ]
/-- The buffers these operations write, in order. -/
abbrev opsGb_W : List (Ref sig .tc) :=
  [main_v77, main_v78, main_v79, main_v80, main_cst_8, main_v81, main_cst_9, main_v82, main_v83, main_v84, main_v85, main_v86, main_v87, main_cst_10, main_v88, main_v89, main_v90, main_v91, main_v92, main_v93, main_v94, main_v95, main_v96, main_v97]
theorem opsGb_sub : (opsGb : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub .., unary_bufs_sub .., binary_bufs_sub .., reshape_bufs_sub ..⟩

/-- Operations 172 … 199 of 224 (in @main's window 1). -/
def opsMb : List (HloOp τ sig (Elt F)) :=
  [ StableHlo.nullary main_cst_11 (constant S_ .f32 0x00000000#32),
    StableHlo.binary main_v97 main_cst_11 main_v98 ((fun x v => Host.reduceAdd x v reducesTo_S50000x1280_S1280_d0 h_S_) : (⟨S50000x1280, .f32⟩ : BufTy).Contents (Elt F) → (⟨S_, .f32⟩ : BufTy).Contents (Elt F) → (⟨S1280, .f32⟩ : BufTy).Contents (Elt F)),
    StableHlo.nullary main_cst_12 (constant S_ .f32 0x47435000#32),
    StableHlo.unary main_cst_12 main_v99 (broadcastInDim S1280 ![] bcast_S_S1280 : (⟨S_, .f32⟩ : BufTy).Contents (Elt F) → (⟨S1280, .f32⟩ : BufTy).Contents (Elt F)),
    StableHlo.binary main_v98 main_v99 main_v100 (Host.divf : (⟨S1280, .f32⟩ : BufTy).Contents (Elt F) → (⟨S1280, .f32⟩ : BufTy).Contents (Elt F) → (⟨S1280, .f32⟩ : BufTy).Contents (Elt F)),
    StableHlo.nullary main_c_13 (constantI S_ 32 0#32),
    StableHlo.TRef.nullary main_call4.cst (constant S_ .f32 0x00000000#32),
    StableHlo.TRef.binary (.of main_v97 : StableHlo.TRef sig ⟨S50000x1280, .f32⟩) main_call4.cst main_call4.v0 (fun x v => Host.reduceAdd x v reducesTo_S50000x1280_S1280_d0 h_S_),
    StableHlo.TRef.unary main_call4.v0 main_call4.v1 (broadcastInDim S1x1280 ![1] bcast_S1280_S1x1280_1),
    StableHlo.TRef.nullary main_call4.cst_0 (constant S_ .f32 0x47435000#32),
    StableHlo.TRef.unary main_call4.cst_0 main_call4.v2 (broadcastInDim S1x1280 ![] bcast_S_S1x1280),
    StableHlo.TRef.binary main_call4.v1 main_call4.v2 main_call4.v3 Host.divf,
    StableHlo.TRef.unary main_call4.v3 main_call4.v4 (broadcastInDim S50000x1280 ![0, 1] bcast_S1x1280_S50000x1280_0_1),
    StableHlo.TRef.binary (.of main_v97 : StableHlo.TRef sig ⟨S50000x1280, .f32⟩) main_call4.v4 main_call4.v5 subf,
    StableHlo.TRef.binary main_call4.v5 main_call4.v5 main_call4.v6 mulf,
    StableHlo.TRef.unary (.of main_c_13 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x1280_S1280_d0 h_S_),
    StableHlo.TRef.unary main_call4.v8 main_call4.v10 (broadcastInDim S1280 ![] bcast_S_S1280),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1280 ![] bcast_S_S1280),
    StableHlo.TRef.ternary main_call4.v12 main_call4.v11 main_call4.call0.v1 main_call4.call0.v2 (fun p a b => select (broadcastInDim S1280 ![] bcast_S_S1280 p) a b) ]
/-- The buffers these operations write, in order. -/
abbrev opsMb_W : List (Ref sig .tc) :=
  [main_cst_11, main_v98, main_cst_12, main_v99, main_v100, main_c_13, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v101]
theorem opsMb_sub : (opsMb : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Operations 200 … 201 of 224 (in @main's window 1). -/
def opsNb1 : List (HloOp τ sig (Elt F)) :=
  [ StableHlo.unary main_v100 main_v102 (broadcastInDim S1x1280 ![1] bcast_S1280_S1x1280_1 : (⟨S1280, .f32⟩ : BufTy).Contents (Elt F) → (⟨S1x1280, .f32⟩ : BufTy).Contents (Elt F)),
    StableHlo.unary main_v102 main_v103 (broadcastInDim S50000x1280 ![0, 1] bcast_S1x1280_S50000x1280_0_1 : (⟨S1x1280, .f32⟩ : BufTy).Contents (Elt F) → (⟨S50000x1280, .f32⟩ : BufTy).Contents (Elt F)) ]
/-- The buffers these operations write, in order. -/
abbrev opsNb1_W : List (Ref sig .tc) :=
  [main_v102, main_v103]
theorem opsNb1_sub : (opsNb1 : List (HloOp τ sig (Elt F))).Forall fun op => op.bufs ⊆ tcRefs τ sig :=
  ⟨unary_bufs_sub .., unary_bufs_sub ..⟩

/-- Operations 202 … 224 of 224 (in @main's window 2). -/
def opsNb2 : List (HloOp τ sig (Elt F)) :=
  [ StableHlo.binary main_v97 main_v103 main_v104 (subf : (⟨S50000x1280, .f32⟩ : BufTy).Contents (Elt F) → (⟨S50000x1280, .f32⟩ : BufTy).Contents (Elt F) → (⟨S50000x1280, .f32⟩ : BufTy).Contents (Elt F)),
    StableHlo.nullary main_cst_14 (constant S_ .f32 0x3727C5AC#32),
    StableHlo.unary main_cst_14 main_v105 (broadcastInDim S1280 ![] bcast_S_S1280 : (⟨S_, .f32⟩ : BufTy).Contents (Elt F) → (⟨S1280, .f32⟩ : BufTy).Contents (Elt F)),
    StableHlo.binary main_v101 main_v105 main_v106 (addf : (⟨S1280, .f32⟩ : BufTy).Contents (Elt F) → (⟨S1280, .f32⟩ : BufTy).Contents (Elt F) → (⟨S1280, .f32⟩ : BufTy).Contents (Elt F)),
    StableHlo.unary main_v106 main_v107 (Host.rsqrt : (⟨S1280, .f32⟩ : BufTy).Contents (Elt F) → (⟨S1280, .f32⟩ : BufTy).Contents (Elt F)),
    StableHlo.unary main_v107 main_v108 (broadcastInDim S1x1280 ![1] bcast_S1280_S1x1280_1 : (⟨S1280, .f32⟩ : BufTy).Contents (Elt F) → (⟨S1x1280, .f32⟩ : BufTy).Contents (Elt F)),
    StableHlo.unary main_v108 main_v109 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v104 main_v109 main_v110 (mulf : (⟨S50000x1280, .f32⟩ : BufTy).Contents (Elt F) → (⟨S50000x1280, .f32⟩ : BufTy).Contents (Elt F) → (⟨S50000x1280, .f32⟩ : BufTy).Contents (Elt F)),
    StableHlo.unary main_arg20 main_v111 (broadcastInDim S1x1280 ![1] bcast_S1280_S1x1280_1 : (⟨S1280, .f32⟩ : BufTy).Contents (Elt F) → (⟨S1x1280, .f32⟩ : BufTy).Contents (Elt F)),
    StableHlo.unary main_v111 main_v112 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v110 main_v112 main_v113 (mulf : (⟨S50000x1280, .f32⟩ : BufTy).Contents (Elt F) → (⟨S50000x1280, .f32⟩ : BufTy).Contents (Elt F) → (⟨S50000x1280, .f32⟩ : BufTy).Contents (Elt F)),
    StableHlo.unary main_arg21 main_v114 (broadcastInDim S1x1280 ![1] bcast_S1280_S1x1280_1 : (⟨S1280, .f32⟩ : BufTy).Contents (Elt F) → (⟨S1x1280, .f32⟩ : BufTy).Contents (Elt F)),
    StableHlo.unary main_v114 main_v115 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v113 main_v115 main_v116 (addf : (⟨S50000x1280, .f32⟩ : BufTy).Contents (Elt F) → (⟨S50000x1280, .f32⟩ : BufTy).Contents (Elt F) → (⟨S50000x1280, .f32⟩ : BufTy).Contents (Elt F)),
    StableHlo.reshape main_v116 main_v117 rfl shapeCasts_S50000x1280_S50000x10x128,
    StableHlo.nullary main_cst_15 (constant S_ .f32 0x00000000#32),
    StableHlo.binary main_v117 main_cst_15 main_v118 ((fun x v => Host.reduceAdd x v reducesTo_S50000x10x128_S50000x128_d1 h_S_) : (⟨S50000x10x128, .f32⟩ : BufTy).Contents (Elt F) → (⟨S_, .f32⟩ : BufTy).Contents (Elt F) → (⟨S50000x128, .f32⟩ : BufTy).Contents (Elt F)),
    StableHlo.nullary main_cst_16 (constant S_ .f32 0x3C23D70A#32),
    StableHlo.unary main_cst_16 main_v119 (broadcastInDim S50000x128 ![] bcast_S_S50000x128 : (⟨S_, .f32⟩ : BufTy).Contents (Elt F) → (⟨S50000x128, .f32⟩ : BufTy).Contents (Elt F)),
    StableHlo.binary main_v119 main_v118 main_v120 (mulf : (⟨S50000x128, .f32⟩ : BufTy).Contents (Elt F) → (⟨S50000x128, .f32⟩ : BufTy).Contents (Elt F) → (⟨S50000x128, .f32⟩ : BufTy).Contents (Elt F)),
    StableHlo.binary main_v76 main_v120 main_v121 (addf : (⟨S50000x128, .f32⟩ : BufTy).Contents (Elt F) → (⟨S50000x128, .f32⟩ : BufTy).Contents (Elt F) → (⟨S50000x128, .f32⟩ : BufTy).Contents (Elt F)),
    StableHlo.binary main_v67 main_v121 main_v122 (addf : (⟨S50000x128, .f32⟩ : BufTy).Contents (Elt F) → (⟨S50000x128, .f32⟩ : BufTy).Contents (Elt F) → (⟨S50000x128, .f32⟩ : BufTy).Contents (Elt F)),
    StableHlo.binary main_v122 main_v12 main_v123 (addf : (⟨S50000x128, .f32⟩ : BufTy).Contents (Elt F) → (⟨S50000x128, .f32⟩ : BufTy).Contents (Elt F) → (⟨S50000x128, .f32⟩ : BufTy).Contents (Elt F)) ]
/-- The buffers these operations write, in order. -/
abbrev opsNb2_W : List (Ref sig .tc) :=
  [main_v104, main_cst_14, main_v105, main_v106, main_v107, main_v108, main_v109, main_v110, main_v111, main_v112, main_v113, main_v114, main_v115, main_v116, main_v117, main_cst_15, main_v118, main_cst_16, main_v119, main_v120, main_v121, main_v122, main_v123]
theorem opsNb2_sub : (opsNb2 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., reshape_bufs_sub .., nullary_bufs_sub .., binary_bufs_sub .., nullary_bufs_sub .., unary_bufs_sub .., binary_bufs_sub .., binary_bufs_sub .., binary_bufs_sub .., binary_bufs_sub ..⟩

end Cert.ReferenceIdeal.RefRun

end
-- ==== Proof.RefOpsFacts.lean ====
/-
  What a list of the reference's operations leaves alone.

  Each operation writes one buffer; a list writes the buffers listed beside it, so a buffer outside that list holds
  after the operations what it held before.  And no operation of a list leaves a buffer undetermined.
-/
import proofs.«100017_j47974784696399_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem opsL0_writes : (opsL0 : List (HloOp τ sig (Elt F))).Forall fun op =>
    op.writes ⊆ (opsL0_W.map (Proc.devRef (τ := τ) .tc)).toFinset := by
  unfold opsL0
  simp only [List.Forall, nullary_writes, unary_writes, binary_writes, ternary_writes, reshape_writes, nary_writes,
    Finset.singleton_subset_iff, List.mem_toFinset]
  split_ands <;> exact List.mem_map_of_mem (by decide)

/-- A buffer the list does not write keeps its contents through it. -/
theorem opsL0_keep (V : Valuation τ sig (Elt F)) (r : Ref sig .tc) (h : r ∉ opsL0_W) :
    after opsL0 V (no_index (Proc.devRef .tc r)) = V (Proc.devRef .tc r) :=
  after_of_writes_sub opsL0 V opsL0_writes h

theorem opsL0_fresh : ∀ op ∈ (opsL0 : List (HloOp τ sig (Elt F))), op.fresh = ∅ := by
  intro _ h
  unfold opsL0 at h
  repeat (cases h with | head => rfl | tail _ h => ?_)
  exact nomatch h

theorem opsHa_writes : (opsHa : List (HloOp τ sig (Elt F))).Forall fun op =>
    op.writes ⊆ (opsHa_W.map (Proc.devRef (τ := τ) .tc)).toFinset := by
  unfold opsHa
  simp only [List.Forall, nullary_writes, unary_writes, binary_writes, ternary_writes, reshape_writes, nary_writes,
    Finset.singleton_subset_iff, List.mem_toFinset]
  split_ands <;> exact List.mem_map_of_mem (by decide)

/-- A buffer the list does not write keeps its contents through it. -/
theorem opsHa_keep (V : Valuation τ sig (Elt F)) (r : Ref sig .tc) (h : r ∉ opsHa_W) :
    after opsHa V (no_index (Proc.devRef .tc r)) = V (Proc.devRef .tc r) :=
  after_of_writes_sub opsHa V opsHa_writes h

theorem opsHa_fresh : ∀ op ∈ (opsHa : List (HloOp τ sig (Elt F))), op.fresh = ∅ := by
  intro _ h
  unfold opsHa at h
  repeat (cases h with | head => rfl | tail _ h => ?_)
  exact nomatch h

theorem opsGa_writes : (opsGa : List (HloOp τ sig (Elt F))).Forall fun op =>
    op.writes ⊆ (opsGa_W.map (Proc.devRef (τ := τ) .tc)).toFinset := by
  unfold opsGa
  simp only [List.Forall, nullary_writes, unary_writes, binary_writes, ternary_writes, reshape_writes, nary_writes,
    Finset.singleton_subset_iff, List.mem_toFinset]
  split_ands <;> exact List.mem_map_of_mem (by decide)

/-- A buffer the list does not write keeps its contents through it. -/
theorem opsGa_keep (V : Valuation τ sig (Elt F)) (r : Ref sig .tc) (h : r ∉ opsGa_W) :
    after opsGa V (no_index (Proc.devRef .tc r)) = V (Proc.devRef .tc r) :=
  after_of_writes_sub opsGa V opsGa_writes h

theorem opsGa_fresh : ∀ op ∈ (opsGa : List (HloOp τ sig (Elt F))), op.fresh = ∅ := by
  intro _ h
  unfold opsGa at h
  repeat (cases h with | head => rfl | tail _ h => ?_)
  exact nomatch h

theorem opsMa_writes : (opsMa : List (HloOp τ sig (Elt F))).Forall fun op =>
    op.writes ⊆ (opsMa_W.map (Proc.devRef (τ := τ) .tc)).toFinset := by
  unfold opsMa
  simp only [List.Forall, nullary_writes, unary_writes, binary_writes, ternary_writes, reshape_writes, nary_writes,
    Finset.singleton_subset_iff, List.mem_toFinset]
  split_ands <;> exact List.mem_map_of_mem (by decide)

/-- A buffer the list does not write keeps its contents through it. -/
theorem opsMa_keep (V : Valuation τ sig (Elt F)) (r : Ref sig .tc) (h : r ∉ opsMa_W) :
    after opsMa V (no_index (Proc.devRef .tc r)) = V (Proc.devRef .tc r) :=
  after_of_writes_sub opsMa V opsMa_writes h

theorem opsMa_fresh : ∀ op ∈ (opsMa : List (HloOp τ sig (Elt F))), op.fresh = ∅ := by
  intro _ h
  unfold opsMa at h
  repeat (cases h with | head => rfl | tail _ h => ?_)
  exact nomatch h

theorem opsNa1_writes : (opsNa1 : List (HloOp τ sig (Elt F))).Forall fun op =>
    op.writes ⊆ (opsNa1_W.map (Proc.devRef (τ := τ) .tc)).toFinset := by
  unfold opsNa1
  simp only [List.Forall, nullary_writes, unary_writes, binary_writes, ternary_writes, reshape_writes, nary_writes,
    Finset.singleton_subset_iff, List.mem_toFinset]
  split_ands <;> exact List.mem_map_of_mem (by decide)

/-- A buffer the list does not write keeps its contents through it. -/
theorem opsNa1_keep (V : Valuation τ sig (Elt F)) (r : Ref sig .tc) (h : r ∉ opsNa1_W) :
    after opsNa1 V (no_index (Proc.devRef .tc r)) = V (Proc.devRef .tc r) :=
  after_of_writes_sub opsNa1 V opsNa1_writes h

theorem opsNa1_fresh : ∀ op ∈ (opsNa1 : List (HloOp τ sig (Elt F))), op.fresh = ∅ := by
  intro _ h
  unfold opsNa1 at h
  repeat (cases h with | head => rfl | tail _ h => ?_)
  exact nomatch h

theorem opsNa2_writes : (opsNa2 : List (HloOp τ sig (Elt F))).Forall fun op =>
    op.writes ⊆ (opsNa2_W.map (Proc.devRef (τ := τ) .tc)).toFinset := by
  unfold opsNa2
  simp only [List.Forall, nullary_writes, unary_writes, binary_writes, ternary_writes, reshape_writes, nary_writes,
    Finset.singleton_subset_iff, List.mem_toFinset]
  split_ands <;> exact List.mem_map_of_mem (by decide)

/-- A buffer the list does not write keeps its contents through it. -/
theorem opsNa2_keep (V : Valuation τ sig (Elt F)) (r : Ref sig .tc) (h : r ∉ opsNa2_W) :
    after opsNa2 V (no_index (Proc.devRef .tc r)) = V (Proc.devRef .tc r) :=
  after_of_writes_sub opsNa2 V opsNa2_writes h

theorem opsNa2_fresh : ∀ op ∈ (opsNa2 : List (HloOp τ sig (Elt F))), op.fresh = ∅ := by
  intro _ h
  unfold opsNa2 at h
  repeat (cases h with | head => rfl | tail _ h => ?_)
  exact nomatch h

theorem opsHb_writes : (opsHb : List (HloOp τ sig (Elt F))).Forall fun op =>
    op.writes ⊆ (opsHb_W.map (Proc.devRef (τ := τ) .tc)).toFinset := by
  unfold opsHb
  simp only [List.Forall, nullary_writes, unary_writes, binary_writes, ternary_writes, reshape_writes, nary_writes,
    Finset.singleton_subset_iff, List.mem_toFinset]
  split_ands <;> exact List.mem_map_of_mem (by decide)

/-- A buffer the list does not write keeps its contents through it. -/
theorem opsHb_keep (V : Valuation τ sig (Elt F)) (r : Ref sig .tc) (h : r ∉ opsHb_W) :
    after opsHb V (no_index (Proc.devRef .tc r)) = V (Proc.devRef .tc r) :=
  after_of_writes_sub opsHb V opsHb_writes h

theorem opsHb_fresh : ∀ op ∈ (opsHb : List (HloOp τ sig (Elt F))), op.fresh = ∅ := by
  intro _ h
  unfold opsHb at h
  repeat (cases h with | head => rfl | tail _ h => ?_)
  exact nomatch h

theorem opsGb_writes : (opsGb : List (HloOp τ sig (Elt F))).Forall fun op =>
    op.writes ⊆ (opsGb_W.map (Proc.devRef (τ := τ) .tc)).toFinset := by
  unfold opsGb
  simp only [List.Forall, nullary_writes, unary_writes, binary_writes, ternary_writes, reshape_writes, nary_writes,
    Finset.singleton_subset_iff, List.mem_toFinset]
  split_ands <;> exact List.mem_map_of_mem (by decide)

/-- A buffer the list does not write keeps its contents through it. -/
theorem opsGb_keep (V : Valuation τ sig (Elt F)) (r : Ref sig .tc) (h : r ∉ opsGb_W) :
    after opsGb V (no_index (Proc.devRef .tc r)) = V (Proc.devRef .tc r) :=
  after_of_writes_sub opsGb V opsGb_writes h

theorem opsGb_fresh : ∀ op ∈ (opsGb : List (HloOp τ sig (Elt F))), op.fresh = ∅ := by
  intro _ h
  unfold opsGb at h
  repeat (cases h with | head => rfl | tail _ h => ?_)
  exact nomatch h

theorem opsMb_writes : (opsMb : List (HloOp τ sig (Elt F))).Forall fun op =>
    op.writes ⊆ (opsMb_W.map (Proc.devRef (τ := τ) .tc)).toFinset := by
  unfold opsMb
  simp only [List.Forall, nullary_writes, unary_writes, binary_writes, ternary_writes, reshape_writes, nary_writes,
    Finset.singleton_subset_iff, List.mem_toFinset]
  split_ands <;> exact List.mem_map_of_mem (by decide)

/-- A buffer the list does not write keeps its contents through it. -/
theorem opsMb_keep (V : Valuation τ sig (Elt F)) (r : Ref sig .tc) (h : r ∉ opsMb_W) :
    after opsMb V (no_index (Proc.devRef .tc r)) = V (Proc.devRef .tc r) :=
  after_of_writes_sub opsMb V opsMb_writes h

theorem opsMb_fresh : ∀ op ∈ (opsMb : List (HloOp τ sig (Elt F))), op.fresh = ∅ := by
  intro _ h
  unfold opsMb at h
  repeat (cases h with | head => rfl | tail _ h => ?_)
  exact nomatch h

theorem opsNb1_writes : (opsNb1 : List (HloOp τ sig (Elt F))).Forall fun op =>
    op.writes ⊆ (opsNb1_W.map (Proc.devRef (τ := τ) .tc)).toFinset := by
  unfold opsNb1
  simp only [List.Forall, nullary_writes, unary_writes, binary_writes, ternary_writes, reshape_writes, nary_writes,
    Finset.singleton_subset_iff, List.mem_toFinset]
  split_ands <;> exact List.mem_map_of_mem (by decide)

/-- A buffer the list does not write keeps its contents through it. -/
theorem opsNb1_keep (V : Valuation τ sig (Elt F)) (r : Ref sig .tc) (h : r ∉ opsNb1_W) :
    after opsNb1 V (no_index (Proc.devRef .tc r)) = V (Proc.devRef .tc r) :=
  after_of_writes_sub opsNb1 V opsNb1_writes h

theorem opsNb1_fresh : ∀ op ∈ (opsNb1 : List (HloOp τ sig (Elt F))), op.fresh = ∅ := by
  intro _ h
  unfold opsNb1 at h
  repeat (cases h with | head => rfl | tail _ h => ?_)
  exact nomatch h

theorem opsNb2_writes : (opsNb2 : List (HloOp τ sig (Elt F))).Forall fun op =>
    op.writes ⊆ (opsNb2_W.map (Proc.devRef (τ := τ) .tc)).toFinset := by
  unfold opsNb2
  simp only [List.Forall, nullary_writes, unary_writes, binary_writes, ternary_writes, reshape_writes, nary_writes,
    Finset.singleton_subset_iff, List.mem_toFinset]
  split_ands <;> exact List.mem_map_of_mem (by decide)

/-- A buffer the list does not write keeps its contents through it. -/
theorem opsNb2_keep (V : Valuation τ sig (Elt F)) (r : Ref sig .tc) (h : r ∉ opsNb2_W) :
    after opsNb2 V (no_index (Proc.devRef .tc r)) = V (Proc.devRef .tc r) :=
  after_of_writes_sub opsNb2 V opsNb2_writes h

theorem opsNb2_fresh : ∀ op ∈ (opsNb2 : List (HloOp τ sig (Elt F))), op.fresh = ∅ := by
  intro _ h
  unfold opsNb2 at h
  repeat (cases h with | head => rfl | tail _ h => ?_)
  exact nomatch h

end Cert.ReferenceIdeal.RefRun

end
-- ==== Proof.RefRunEq.lean ====
/-
  The reference program is a straight line of host operations.

  @main runs its three windows in order; each window is a straight line of host operations once the outlined
  functions' bodies stand at their call sites, and a straight line run after a straight line is the concatenated line
  run as one.  The lists of the operations are in RefOps; here they are joined and identified with the program, and the
  side facts the run theorem asks of the whole line are assembled from the lists' own.
-/
import proofs.«100017_j47974784696399_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- the operations of @main's first window. -/
abbrev ops0 : List (HloOp τ sig (Elt F)) := opsL0 ++ (opsHa ++ (opsGa ++ (opsMa ++ opsNa1)))
/-- the operations of @main's second window. -/
abbrev ops1 : List (HloOp τ sig (Elt F)) := opsNa2 ++ (opsHb ++ (opsGb ++ (opsMb ++ opsNb1)))
/-- all of @main's operations, in order. -/
abbrev ops : List (HloOp τ sig (Elt F)) := ops0 ++ (ops1 ++ opsNb2)

set_option maxRecDepth 16384 in
set_option maxHeartbeats 4000000 in
theorem main_part0_eq (c : Dev nD) : main_part0 (F := F) c = seq ops0 := rfl

set_option maxRecDepth 16384 in
set_option maxHeartbeats 4000000 in
theorem main_part1_eq (c : Dev nD) : main_part1 (F := F) c = seq ops1 := rfl

set_option maxRecDepth 16384 in
set_option maxHeartbeats 4000000 in
theorem main_part2_eq (c : Dev nD) : main_part2 (F := F) c = seq opsNb2 := rfl

/-- @main is the whole line. -/
theorem main_eq (c : Dev nD) : main (F := F) c = seq ops := by
  simp only [ops, seq_append (l₁ := ops0), seq_append (l₁ := ops1), ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- every operation of the line touches device buffers only. -/
theorem ops_sub : (ops : List (HloOp τ sig (Elt F))).Forall fun op => op.bufs ⊆ tcRefs τ sig :=
  List.forall_iff_forall_mem.mpr fun op h => by
    simp only [ops, ops0, ops1, List.mem_append] at h
    rcases h with (h | h | h | h | h) | (h | h | h | h | h) | h
    exacts [List.forall_iff_forall_mem.mp opsL0_sub op h, List.forall_iff_forall_mem.mp opsHa_sub op h,
      List.forall_iff_forall_mem.mp opsGa_sub op h, List.forall_iff_forall_mem.mp opsMa_sub op h,
      List.forall_iff_forall_mem.mp opsNa1_sub op h, List.forall_iff_forall_mem.mp opsNa2_sub op h,
      List.forall_iff_forall_mem.mp opsHb_sub op h, List.forall_iff_forall_mem.mp opsGb_sub op h,
      List.forall_iff_forall_mem.mp opsMb_sub op h, List.forall_iff_forall_mem.mp opsNb1_sub op h,
      List.forall_iff_forall_mem.mp opsNb2_sub op h]

end Cert.ReferenceIdeal.RefRun

end
-- ==== Proof.RefRunKeep.lean ====
/-
  The whole line's side facts.

  No operation of the line leaves a buffer undetermined, and a buffer that none of the eleven lists writes — every
  argument of the program — holds at the end what it held at the start.
-/
import proofs.«100017_j47974784696399_2_alg».proof.Proof.RefOpsFacts
import proofs.«100017_j47974784696399_2_alg».proof.Proof.RefRunEq
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- no operation of the whole line leaves a buffer undetermined. -/
theorem ops_fresh : ∀ op ∈ (ops : List (HloOp τ sig (Elt F))), op.fresh = ∅ := by
  intro op h
  simp only [ops, ops0, ops1, List.mem_append] at h
  rcases h with (h | h | h | h | h) | (h | h | h | h | h) | h
  exacts [opsL0_fresh op h, opsHa_fresh op h, opsGa_fresh op h, opsMa_fresh op h, opsNa1_fresh op h, opsNa2_fresh op h,
    opsHb_fresh op h, opsGb_fresh op h, opsMb_fresh op h, opsNb1_fresh op h, opsNb2_fresh op h]

/-- a buffer none of the lists writes. -/
abbrev Untouched (r : Ref sig .tc) : Prop :=
  r ∉ opsL0_W ∧ r ∉ opsHa_W ∧ r ∉ opsGa_W ∧ r ∉ opsMa_W ∧ r ∉ opsNa1_W ∧ r ∉ opsNa2_W ∧ r ∉ opsHb_W ∧ r ∉ opsGb_W
    ∧ r ∉ opsMb_W ∧ r ∉ opsNb1_W ∧ r ∉ opsNb2_W

/-- a buffer no operation of the whole line writes (the arguments) holds at the end what it held at the start. -/
theorem after_ops_keep (V : Valuation τ sig (Elt F)) (r : Ref sig .tc) (h : Untouched r) :
    after ops V (Proc.devRef .tc r) = V (Proc.devRef .tc r) := by
  obtain ⟨h1, h2, h3, h4, h5, h6, h7, h8, h9, h10, h11⟩ := h
  simp only [ops, ops0, ops1, after_append]
  rw [opsNb2_keep _ r h11, opsNb1_keep _ r h10, opsMb_keep _ r h9, opsGb_keep _ r h8, opsHb_keep _ r h7, opsNa2_keep _ r h6,
    opsNa1_keep _ r h5, opsMa_keep _ r h4, opsGa_keep _ r h3, opsHa_keep _ r h2, opsL0_keep _ r h1]

end Cert.ReferenceIdeal.RefRun

end
-- ==== Proof.LibAfterResultsCat.lean ====
/-
  Evaluating a straight-line host program's operations past a concatenation.

  What a buffer holds after a list of host operations is a fold; the library evaluates it in one rewriting pass, operation by operation.
  A concatenation takes its operands as a LIST of (shape, vector) pairs, and the pass does not rewrite under such pairs: whatever is
  looked up inside them stays a fold over all the earlier operations. Stated as ordinary functions of two or three vectors, a
  concatenation's operands are rewritten like any other's. The equations are definitional; the pass applies them on the way down,
  before it visits the operands.
-/
import Idealize.ShloMosaic.Lib.StableHlo.Run

noncomputable section

namespace Idealize.ShloMosaic.StableHlo

open Idealize.ShloMosaic

/-- A concatenation of two vectors as a function of the two. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- A concatenation of three vectors as a function of the three. -/
def cat3 {α : Type} (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

theorem concatenate_triple {α : Type} (t : Shape) (a : Fin t.rank) (s₁ s₂ s₃ : Shape) (h : Shape.Concatenates [s₁, s₂, s₃] t a)
    (x : s₁.Idx → α) (y : s₂.Idx → α) (z : s₃.Idx → α) :
    concatenate t a [⟨s₁, x⟩, ⟨s₂, y⟩, ⟨s₃, z⟩] h = cat3 t a s₁ s₂ s₃ h x y z := rfl

/-- The one-pass evaluation of an operation list's results, concatenations' operands included. -/
macro "after_results_cat" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', ↓concatenate_pair, ↓concatenate_triple]))

/-- The operations of a function the program calls carry their values through casts along the equality of a buffer's type with
    the value's type; the two types are the same once the buffer is a literal, and the casts then go. To be run after
    `after_results_cat`, and on one call's operations at a time, over whatever the buffers held before: each cast
    removed is a rewrite inside the whole term, so the smaller the term around it the better. -/
macro "after_results_strip" : tactic =>
  `(tactic| (simp only [TRef.toBuf, TRef.ofBuf, cast_eq]))

end Idealize.ShloMosaic.StableHlo

end
-- ==== Proof.RefRunVal1.lean ====
/-
  The first layer's and block a's first two stages, read off their operations.

  Over any contents V of the buffers: after the first 27 operations the first layer's buffer holds `layer0` of the six
  arrays it reads; after the next 22, block a's inner features; after the next 24, the gated copies.  Each is the fold
  of the list evaluated at that buffer, operation by operation; the outlined softplus writes through buffers whose
  type equals the value's type by computation, so its transports are identities.
-/
import proofs.«100017_j47974784696399_2_alg».proof.Proof.RefOps
import proofs.«100017_j47974784696399_2_alg».proof.Proof.RefRunDefs
import proofs.«100017_j47974784696399_2_alg».proof.Proof.LibAfterResultsCat

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem opsL0_v12 (V : Valuation τ sig (Elt F)) :
    after opsL0 V (no_index (Proc.devRef .tc main_v12))
      = layer0 (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  unfold opsL0
  after_results_cat
  try dsimp only [Matrix.cons_val]
  try after_results_cat
  rfl

set_option maxRecDepth 8192 in
set_option maxHeartbeats 2000000 in
theorem opsHa_v21 (V : Valuation τ sig (Elt F)) :
    after opsHa V (no_index (Proc.devRef .tc main_v21))
      = hidV (V (Proc.devRef .tc main_v12)) (V (Proc.devRef .tc main_arg6)) (V (Proc.devRef .tc main_arg7))
          (V (Proc.devRef .tc main_arg8)) (V (Proc.devRef .tc main_arg9)) := by
  unfold opsHa
  after_results_simp
  rfl

set_option maxRecDepth 8192 in
set_option maxHeartbeats 2000000 in
theorem opsGa_v42 (V : Valuation τ sig (Elt F)) :
    after opsGa V (no_index (Proc.devRef .tc main_v42))
      = gatedV (softmaxV (logitsV (V (Proc.devRef .tc main_v21)) (V (Proc.devRef .tc main_arg10)) (V (Proc.devRef .tc main_arg11))))
          (V (Proc.devRef .tc main_v21)) := by
  unfold opsGa
  after_results_simp
  rfl

end Cert.ReferenceIdeal.RefRun

end
-- ==== Proof.RefRunVal2.lean ====
/-
  Block a's statistics and normalization, read off their operations.

  Over any contents V: the column means and the variance routine's value of the gated copies (28 operations, the
  routine's 22 standing at its call), the centred copies and variance plus ε (6), and the block's result (18).
-/
import proofs.«100017_j47974784696399_2_alg».proof.Proof.RefOps
import proofs.«100017_j47974784696399_2_alg».proof.Proof.RefRunDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem opsMa_v45 (V : Valuation τ sig (Elt F)) :
    after opsMa V (no_index (Proc.devRef .tc main_v45)) = meanV (V (Proc.devRef .tc main_v42)) := by
  unfold opsMa
  after_results_simp
  rfl

set_option maxRecDepth 8192 in
set_option maxHeartbeats 2000000 in
theorem opsMa_v46 (V : Valuation τ sig (Elt F)) :
    after opsMa V (no_index (Proc.devRef .tc main_v46)) = varV (V (Proc.devRef .tc main_v42)) := by
  unfold opsMa
  after_results_simp
  rfl

theorem opsNa1_v49 (V : Valuation τ sig (Elt F)) :
    after opsNa1 V (no_index (Proc.devRef .tc main_v49))
      = cenV (V (Proc.devRef .tc main_v42)) (V (Proc.devRef .tc main_v45)) := by
  unfold opsNa1
  after_results_simp
  rfl

theorem opsNa1_v51 (V : Valuation τ sig (Elt F)) :
    after opsNa1 V (no_index (Proc.devRef .tc main_v51)) = vepsV (V (Proc.devRef .tc main_v46)) := by
  unfold opsNa1
  after_results_simp
  rfl

set_option maxRecDepth 8192 in
set_option maxHeartbeats 2000000 in
theorem opsNa2_v67 (V : Valuation τ sig (Elt F)) :
    after opsNa2 V (no_index (Proc.devRef .tc main_v67))
      = blkTailV (V (Proc.devRef .tc main_v12)) (V (Proc.devRef .tc main_v21)) (V (Proc.devRef .tc main_v49))
          (V (Proc.devRef .tc main_v51)) (V (Proc.devRef .tc main_arg12)) (V (Proc.devRef .tc main_arg13)) := by
  unfold opsNa2
  after_results_simp
  rfl

end Cert.ReferenceIdeal.RefRun

end
-- ==== Proof.RefRunVal3.lean ====
/-
  Block b's first two stages, read off their operations: the inner features (22 operations) and the gated copies (24),
  over any contents V.
-/
import proofs.«100017_j47974784696399_2_alg».proof.Proof.RefOps
import proofs.«100017_j47974784696399_2_alg».proof.Proof.RefRunDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem opsHb_v76 (V : Valuation τ sig (Elt F)) :
    after opsHb V (no_index (Proc.devRef .tc main_v76))
      = hidV (V (Proc.devRef .tc main_v67)) (V (Proc.devRef .tc main_arg14)) (V (Proc.devRef .tc main_arg15))
          (V (Proc.devRef .tc main_arg16)) (V (Proc.devRef .tc main_arg17)) := by
  unfold opsHb
  after_results_simp
  rfl

set_option maxRecDepth 8192 in
set_option maxHeartbeats 2000000 in
theorem opsGb_v97 (V : Valuation τ sig (Elt F)) :
    after opsGb V (no_index (Proc.devRef .tc main_v97))
      = gatedV (softmaxV (logitsV (V (Proc.devRef .tc main_v76)) (V (Proc.devRef .tc main_arg18)) (V (Proc.devRef .tc main_arg19))))
          (V (Proc.devRef .tc main_v76)) := by
  unfold opsGb
  after_results_simp
  rfl

end Cert.ReferenceIdeal.RefRun

end
-- ==== Proof.RefRunVal4.lean ====
/-
  Block b's statistics, normalization and the final sum, read off their operations.

  Over any contents V: the column means and the variance routine's value of block b's gated copies (28 operations), the
  means repeated over the rows (2), and the program's result: block b's last steps plus the first layer (23).
-/
import proofs.«100017_j47974784696399_2_alg».proof.Proof.RefOps
import proofs.«100017_j47974784696399_2_alg».proof.Proof.RefRunDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem opsMb_v100 (V : Valuation τ sig (Elt F)) :
    after opsMb V (no_index (Proc.devRef .tc main_v100)) = meanV (V (Proc.devRef .tc main_v97)) := by
  unfold opsMb
  after_results_simp
  rfl

set_option maxRecDepth 8192 in
set_option maxHeartbeats 2000000 in
theorem opsMb_v101 (V : Valuation τ sig (Elt F)) :
    after opsMb V (no_index (Proc.devRef .tc main_v101)) = varV (V (Proc.devRef .tc main_v97)) := by
  unfold opsMb
  after_results_simp
  rfl

theorem opsNb1_v103 (V : Valuation τ sig (Elt F)) :
    after opsNb1 V (no_index (Proc.devRef .tc main_v103)) = rowsGH (V (Proc.devRef .tc main_v100)) := by
  unfold opsNb1
  after_results_simp
  rfl

set_option maxRecDepth 8192 in
set_option maxHeartbeats 2000000 in
theorem opsNb2_v123 (V : Valuation τ sig (Elt F)) :
    after opsNb2 V (no_index (Proc.devRef .tc main_v123))
      = addf (blkTailV (V (Proc.devRef .tc main_v67)) (V (Proc.devRef .tc main_v76))
            (subf (V (Proc.devRef .tc main_v97)) (V (Proc.devRef .tc main_v103))) (vepsV (V (Proc.devRef .tc main_v101)))
            (V (Proc.devRef .tc main_arg20)) (V (Proc.devRef .tc main_arg21)))
          (V (Proc.devRef .tc main_v12)) := by
  unfold opsNb2
  after_results_simp
  rfl

end Cert.ReferenceIdeal.RefRun

end
-- ==== Proof.RefRun.lean ====
/-
  The reference's run.

  The eleven lists are evaluated in order: what each leaves in the buffers later stages read is the stage's function of
  what the earlier lists left there, and a buffer a list does not write passes through it.  Composed, the result
  buffer holds `out` of the 22 argument arrays; no list writes an argument.  The run theorem of a straight line of
  host operations then gives the statement about every execution of @main.
-/
import proofs.«100017_j47974784696399_2_alg».proof.Proof.RefRunKeep
import proofs.«100017_j47974784696399_2_alg».proof.Proof.RefRunVal1
import proofs.«100017_j47974784696399_2_alg».proof.Proof.RefRunVal2
import proofs.«100017_j47974784696399_2_alg».proof.Proof.RefRunVal3
import proofs.«100017_j47974784696399_2_alg».proof.Proof.RefRunVal4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- after the whole line the result buffer holds `out` of what the argument buffers held at the start. -/
theorem after_ops_out (V : Valuation τ sig (Elt F)) :
    after ops V (Proc.devRef .tc main_v123)
      = out (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14))
          (V (Proc.devRef .tc main_arg15)) (V (Proc.devRef .tc main_arg16)) (V (Proc.devRef .tc main_arg17))
          (V (Proc.devRef .tc main_arg18)) (V (Proc.devRef .tc main_arg19)) (V (Proc.devRef .tc main_arg20))
          (V (Proc.devRef .tc main_arg21)) := by
  simp only [ops, ops0, ops1, after_append]
  simp (disch := decide) only [opsNb2_v123, opsNb1_v103, opsMb_v100, opsMb_v101, opsGb_v97, opsHb_v76, opsNa2_v67, opsNa1_v49,
    opsNa1_v51, opsMa_v45, opsMa_v46, opsGa_v42, opsHa_v21, opsL0_v12, opsNb2_keep, opsNb1_keep, opsMb_keep, opsGb_keep,
    opsHb_keep, opsNa2_keep, opsNa1_keep, opsMa_keep, opsGa_keep, opsHa_keep, opsL0_keep]
  rfl

/-- On the device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v123)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
            (m ((c.tc : Thread nD τ).loc main_arg16)) (m ((c.tc : Thread nD τ).loc main_arg17))
            (m ((c.tc : Thread nD τ).loc main_arg18)) (m ((c.tc : Thread nD τ).loc main_arg19))
            (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v123).trans (after_ops_out _),
      (h c main_arg0).trans (after_ops_keep _ main_arg0 (by decide)), (h c main_arg1).trans (after_ops_keep _ main_arg1 (by decide)),
      (h c main_arg2).trans (after_ops_keep _ main_arg2 (by decide)), (h c main_arg3).trans (after_ops_keep _ main_arg3 (by decide)),
      (h c main_arg4).trans (after_ops_keep _ main_arg4 (by decide)), (h c main_arg5).trans (after_ops_keep _ main_arg5 (by decide)),
      (h c main_arg6).trans (after_ops_keep _ main_arg6 (by decide)), (h c main_arg7).trans (after_ops_keep _ main_arg7 (by decide)),
      (h c main_arg8).trans (after_ops_keep _ main_arg8 (by decide)), (h c main_arg9).trans (after_ops_keep _ main_arg9 (by decide)),
      (h c main_arg10).trans (after_ops_keep _ main_arg10 (by decide)), (h c main_arg11).trans (after_ops_keep _ main_arg11 (by decide)),
      (h c main_arg12).trans (after_ops_keep _ main_arg12 (by decide)), (h c main_arg13).trans (after_ops_keep _ main_arg13 (by decide)),
      (h c main_arg14).trans (after_ops_keep _ main_arg14 (by decide)), (h c main_arg15).trans (after_ops_keep _ main_arg15 (by decide)),
      (h c main_arg16).trans (after_ops_keep _ main_arg16 (by decide)), (h c main_arg17).trans (after_ops_keep _ main_arg17 (by decide)),
      (h c main_arg18).trans (after_ops_keep _ main_arg18 (by decide)), (h c main_arg19).trans (after_ops_keep _ main_arg19 (by decide)),
      (h c main_arg20).trans (after_ops_keep _ main_arg20 (by decide)), (h c main_arg21).trans (after_ops_keep _ main_arg21 (by decide))⟩)
    (run_seq scopedRefs_eq scopedSems_eq defs main (fun _ => ops) main_eq (fun _ => ops_sub) m ρ (fun _ => ops_fresh))

end Cert.ReferenceIdeal.RefRun

end
-- ==== Proof.lean ====
/-
  The kernel and the reference compute the same array.

  Both programs are one graph layer out0 = softplus ([x | msg | g] · Wc + bc), msg the per-node sum of edge features,
  followed by two residual blocks o ↦ o + DGN (softplus (o · W1 + b1) · W2 + b2) and a final + out0, where DGN gates
  G copies of every row by a row softmax, normalizes every (group, channel) column over the 50000 rows by its mean and
  biased variance, scales by γ, shifts by β, and adds λ times the sum over the groups to the row.  The reference
  materialises the [N, G·H] copies; the kernel never does: it streams the column sums Σ s·h and Σ s²·h² in one launch
  per block, forms mean, clamped variance and inverse root on the host, and applies h · Σ_g s_g A_g − cc in a second
  launch.  Over the extended reals, for finite inputs, the two arrangements agree entry by entry.

  The reference's run ends with its result buffer at a named function `out` of the 22 argument arrays (every operation
  of the straight-line program composed); the kernel's run ends with its result buffer at the same function of its own
  arguments; the claim's two memories agree on the arguments.  The frames are the generated ones, and the
  reference's is its run with the result forgotten.
-/
import proofs.«100017_j47974784696399_2_alg».proof.Defs
import proofs.«100017_j47974784696399_2_alg».proof.Proof.Gen.Kernel
import proofs.«100017_j47974784696399_2_alg».proof.Proof.Gen.Kernel.Skeleton
import proofs.«100017_j47974784696399_2_alg».proof.Proof.Gen.Kernel.Launch
import proofs.«100017_j47974784696399_2_alg».proof.Proof.Gen.Kernel.Points
import proofs.«100017_j47974784696399_2_alg».proof.Proof.Gen.Kernel.Frame
import proofs.«100017_j47974784696399_2_alg».proof.Proof.Gen.KernelIdeal
import proofs.«100017_j47974784696399_2_alg».proof.Proof.Gen.KernelIdeal.Skeleton
import proofs.«100017_j47974784696399_2_alg».proof.Proof.Gen.KernelIdeal.Launch
import proofs.«100017_j47974784696399_2_alg».proof.Proof.Gen.KernelIdeal.Points
import proofs.«100017_j47974784696399_2_alg».proof.Proof.Gen.KernelIdeal.Frame
import proofs.«100017_j47974784696399_2_alg».proof.Proof.Gen.ReferenceIdeal
import proofs.«100017_j47974784696399_2_alg».proof.Proof.Gen.Pre_finite_inputs
import proofs.«100017_j47974784696399_2_alg».proof.Proof.KRun
import proofs.«100017_j47974784696399_2_alg».proof.Proof.KValue
import proofs.«100017_j47974784696399_2_alg».proof.Proof.RefRun
import Idealize.ShloMosaic.Adequacy
import Idealize.ShloMosaic.Init

noncomputable section

namespace Cert.Proof

open Idealize.ShloMosaic Idealize.ShloMosaic.TcCoe Idealize.SL.Sem

/-- the result both programs end with, on device c: the reference's result function of the kernel's argument arrays. -/
def resultOf (m : (ℓ : Loc Cert.KernelIdeal.nD Cert.KernelIdeal.τ Cert.KernelIdeal.sig) → Buf (Elt Ideal) ℓ)
    (c : Dev Cert.KernelIdeal.nD) : Buf (Elt Ideal) ((c.tc : Thread Cert.KernelIdeal.nD Cert.KernelIdeal.τ).loc Cert.KernelIdeal.main_v81) :=
  Cert.ReferenceIdeal.RefRun.out (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))

theorem frame_k : Cert.frame_Kernel := fun m ρ _ => Cert.Kernel.Gen.frame m ρ

theorem frame_ki : Cert.frame_KernelIdeal := fun m ρ _ => Cert.KernelIdeal.Gen.frame m ρ

/-- the reference's frame: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- from memories agreeing on the arguments both programs end with `resultOf` of the kernel's arguments. -/
theorem algebraic : Cert.algebraic_KernelIdeal_ReferenceIdeal := by
  intro m ρ m' ρ' hpre hagree
  refine ⟨resultOf m, ?_, ?_⟩
  · exact (θ_run Cert.KernelIdeal.defs _ _).mono
      (fun r h c => ⟨(h c).1.trans (Cert.KernelIdeal.KValue.kernel_value m ρ hpre c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9, e10, e11, e12, e13, e14, e15, e16, e17, e18, e19, e20, e21⟩ := hagree c
    rw [e0, e1, e2, e3, e4, e5, e6, e7, e8, e9, e10, e11, e12, e13, e14, e15, e16, e17, e18, e19, e20, e21]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
